-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)) →
    ∃ (v0 : (c : Dev Cert.KernelIdeal.nD) → Buf (Elt Ideal) ((c.tc : Thread Cert.KernelIdeal.nD Cert.KernelIdeal.τ).loc Cert.KernelIdeal.main_v83)) (v1 : (c : Dev Cert.KernelIdeal.nD) → Buf (Elt Ideal) ((c.tc : Thread Cert.KernelIdeal.nD Cert.KernelIdeal.τ).loc Cert.KernelIdeal.main_v79)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v83) = v0 c
          ∧ r.2.mem ((c.tc : Thread Cert.KernelIdeal.nD Cert.KernelIdeal.τ).loc Cert.KernelIdeal.main_v79) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v141) = v0 c
          ∧ r.2.mem ((c.tc : Thread Cert.ReferenceIdeal.nD Cert.ReferenceIdeal.τ).loc Cert.ReferenceIdeal.main_v151) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S50000x128 : Shape := ⟨2, ![50000, 128]⟩
abbrev S819200 : Shape := ⟨1, ![819200]⟩
abbrev S32x128 : Shape := ⟨2, ![32, 128]⟩
abbrev S32 : Shape := ⟨1, ![32]⟩
abbrev S32x32 : Shape := ⟨2, ![32, 32]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S50000x128 : S_.BroadcastsInDim S50000x128 (![] : Fin 0 → Fin S50000x128.rank)
  reducesTo_S50000x128_S_d0_1 : S50000x128.ReducesTo [0, 1] S_
  bcast_S_S32x128 : S_.BroadcastsInDim S32x128 (![] : Fin 0 → Fin S32x128.rank)
  reducesTo_S32x128_S_d0_1 : S32x128.ReducesTo [0, 1] S_
  bcast_S_S32 : S_.BroadcastsInDim S32 (![] : Fin 0 → Fin S32.rank)
  reducesTo_S32_S_d0 : S32.ReducesTo [0] S_
  bcast_S_S32x32 : S_.BroadcastsInDim S32x32 (![] : Fin 0 → Fin S32x32.rank)
  reducesTo_S32x32_S_d0_1 : S32x32.ReducesTo [0, 1] S_

variable [Facts]

def fn_part5 {F : FTy → Type} [FloatOps F] (main_v83 : IVec S_ 1) (main_v84 : FVec F S32 .f32) (main_cst_32 : FVec F S_ .f32) : IVec S_ 1 :=
  let main_v85 : FVec F S32 .f32 := broadcastInDim S32 ![] bcast_S_S32 main_cst_32
  let main_v86 : IVec S32 1 := cmpf .olt main_v84 main_v85
  let main_c_33 : IVec S_ 1 := constantI S_ 1 1#1
  let main_v87 : IVec S_ 1 := (fun x v => Host.reduce IntOp.andi x v reducesTo_S32_S_d0 h_S_) main_v86 main_c_33
  let main_v88 : IVec S_ 1 := andi main_v83 main_v87
  main_v88

def fn_part4 {F : FTy → Type} [FloatOps F] (main_arg16 : FVec F S32x32 .f32) (main_arg17 : FVec F S32 .f32) (main_arg18 : FVec F S32x32 .f32) (main_arg19 : FVec F S32 .f32) (main_v63 : IVec S_ 1) (main_v67 : IVec S_ 1) : IVec S_ 1 :=
  let main_v68 : IVec S_ 1 := andi main_v63 main_v67
  let main_v69 : FVec F S32x32 .f32 := Host.absf main_arg16
  let main_cst_26 : FVec F S_ .f32 := constant S_ .f32 0x7F800000#32
  let main_v70 : FVec F S32x32 .f32 := broadcastInDim S32x32 ![] bcast_S_S32x32 main_cst_26
  let main_v71 : IVec S32x32 1 := cmpf .olt main_v69 main_v70
  let main_c_27 : IVec S_ 1 := constantI S_ 1 1#1
  let main_v72 : IVec S_ 1 := (fun x v => Host.reduce IntOp.andi x v reducesTo_S32x32_S_d0_1 h_S_) main_v71 main_c_27
  let main_v73 : IVec S_ 1 := andi main_v68 main_v72
  let main_v74 : FVec F S32 .f32 := Host.absf main_arg17
  let main_cst_28 : FVec F S_ .f32 := constant S_ .f32 0x7F800000#32
  let main_v75 : FVec F S32 .f32 := broadcastInDim S32 ![] bcast_S_S32 main_cst_28
  let main_v76 : IVec S32 1 := cmpf .olt main_v74 main_v75
  let main_c_29 : IVec S_ 1 := constantI S_ 1 1#1
  let main_v77 : IVec S_ 1 := (fun x v => Host.reduce IntOp.andi x v reducesTo_S32_S_d0 h_S_) main_v76 main_c_29
  let main_v78 : IVec S_ 1 := andi main_v73 main_v77
  let main_v79 : FVec F S32x32 .f32 := Host.absf main_arg18
  let main_cst_30 : FVec F S_ .f32 := constant S_ .f32 0x7F800000#32
  let main_v80 : FVec F S32x32 .f32 := broadcastInDim S32x32 ![] bcast_S_S32x32 main_cst_30
  let main_v81 : IVec S32x32 1 := cmpf .olt main_v79 main_v80
  let main_c_31 : IVec S_ 1 := constantI S_ 1 1#1
  let main_v82 : IVec S_ 1 := (fun x v => Host.reduce IntOp.andi x v reducesTo_S32x32_S_d0_1 h_S_) main_v81 main_c_31
  let main_v83 : IVec S_ 1 := andi main_v78 main_v82
  let main_v84 : FVec F S32 .f32 := Host.absf main_arg19
  let main_cst_32 : FVec F S_ .f32 := constant S_ .f32 0x7F800000#32
  fn_part5 (F := F) main_v83 main_v84 main_cst_32

def fn_part3 {F : FTy → Type} [FloatOps F] (main_arg13 : FVec F S32x32 .f32) (main_arg14 : FVec F S32 .f32) (main_arg15 : FVec F S32x32 .f32) (main_arg16 : FVec F S32x32 .f32) (main_arg17 : FVec F S32 .f32) (main_arg18 : FVec F S32x32 .f32) (main_arg19 : FVec F S32 .f32) (main_v48 : IVec S_ 1) (main_v49 : FVec F S32x32 .f32) (main_v50 : FVec F S32x32 .f32) : IVec S_ 1 :=
  let main_v51 : IVec S32x32 1 := cmpf .olt main_v49 main_v50
  let main_c_19 : IVec S_ 1 := constantI S_ 1 1#1
  let main_v52 : IVec S_ 1 := (fun x v => Host.reduce IntOp.andi x v reducesTo_S32x32_S_d0_1 h_S_) main_v51 main_c_19
  let main_v53 : IVec S_ 1 := andi main_v48 main_v52
  let main_v54 : FVec F S32x32 .f32 := Host.absf main_arg13
  let main_cst_20 : FVec F S_ .f32 := constant S_ .f32 0x7F800000#32
  let main_v55 : FVec F S32x32 .f32 := broadcastInDim S32x32 ![] bcast_S_S32x32 main_cst_20
  let main_v56 : IVec S32x32 1 := cmpf .olt main_v54 main_v55
  let main_c_21 : IVec S_ 1 := constantI S_ 1 1#1
  let main_v57 : IVec S_ 1 := (fun x v => Host.reduce IntOp.andi x v reducesTo_S32x32_S_d0_1 h_S_) main_v56 main_c_21
  let main_v58 : IVec S_ 1 := andi main_v53 main_v57
  let main_v59 : FVec F S32 .f32 := Host.absf main_arg14
  let main_cst_22 : FVec F S_ .f32 := constant S_ .f32 0x7F800000#32
  let main_v60 : FVec F S32 .f32 := broadcastInDim S32 ![] bcast_S_S32 main_cst_22
  let main_v61 : IVec S32 1 := cmpf .olt main_v59 main_v60
  let main_c_23 : IVec S_ 1 := constantI S_ 1 1#1
  let main_v62 : IVec S_ 1 := (fun x v => Host.reduce IntOp.andi x v reducesTo_S32_S_d0 h_S_) main_v61 main_c_23
  let main_v63 : IVec S_ 1 := andi main_v58 main_v62
  let main_v64 : FVec F S32x32 .f32 := Host.absf main_arg15
  let main_cst_24 : FVec F S_ .f32 := constant S_ .f32 0x7F800000#32
  let main_v65 : FVec F S32x32 .f32 := broadcastInDim S32x32 ![] bcast_S_S32x32 main_cst_24
  let main_v66 : IVec S32x32 1 := cmpf .olt main_v64 main_v65
  let main_c_25 : IVec S_ 1 := constantI S_ 1 1#1
  let main_v67 : IVec S_ 1 := (fun x v => Host.reduce IntOp.andi x v reducesTo_S32x32_S_d0_1 h_S_) main_v66 main_c_25
  fn_part4 (F := F) main_arg16 main_arg17 main_arg18 main_arg19 main_v63 main_v67

def fn_part2 {F : FTy → Type} [FloatOps F] (main_arg9 : FVec F S32x128 .f32) (main_arg10 : FVec F S32x32 .f32) (main_arg11 : FVec F S32 .f32) (main_arg12 : FVec F S32x32 .f32) (main_arg13 : FVec F S32x32 .f32) (main_arg14 : FVec F S32 .f32) (main_arg15 : FVec F S32x32 .f32) (main_arg16 : FVec F S32x32 .f32) (main_arg17 : FVec F S32 .f32) (main_arg18 : FVec F S32x32 .f32) (main_arg19 : FVec F S32 .f32) (main_v33 : IVec S_ 1) : IVec S_ 1 :=
  let main_v34 : FVec F S32x128 .f32 := Host.absf main_arg9
  let main_cst_12 : FVec F S_ .f32 := constant S_ .f32 0x7F800000#32
  let main_v35 : FVec F S32x128 .f32 := broadcastInDim S32x128 ![] bcast_S_S32x128 main_cst_12
  let main_v36 : IVec S32x128 1 := cmpf .olt main_v34 main_v35
  let main_c_13 : IVec S_ 1 := constantI S_ 1 1#1
  let main_v37 : IVec S_ 1 := (fun x v => Host.reduce IntOp.andi x v reducesTo_S32x128_S_d0_1 h_S_) main_v36 main_c_13
  let main_v38 : IVec S_ 1 := andi main_v33 main_v37
  let main_v39 : FVec F S32x32 .f32 := Host.absf main_arg10
  let main_cst_14 : FVec F S_ .f32 := constant S_ .f32 0x7F800000#32
  let main_v40 : FVec F S32x32 .f32 := broadcastInDim S32x32 ![] bcast_S_S32x32 main_cst_14
  let main_v41 : IVec S32x32 1 := cmpf .olt main_v39 main_v40
  let main_c_15 : IVec S_ 1 := constantI S_ 1 1#1
  let main_v42 : IVec S_ 1 := (fun x v => Host.reduce IntOp.andi x v reducesTo_S32x32_S_d0_1 h_S_) main_v41 main_c_15
  let main_v43 : IVec S_ 1 := andi main_v38 main_v42
  let main_v44 : FVec F S32 .f32 := Host.absf main_arg11
  let main_cst_16 : FVec F S_ .f32 := constant S_ .f32 0x7F800000#32
  let main_v45 : FVec F S32 .f32 := broadcastInDim S32 ![] bcast_S_S32 main_cst_16
  let main_v46 : IVec S32 1 := cmpf .olt main_v44 main_v45
  let main_c_17 : IVec S_ 1 := constantI S_ 1 1#1
  let main_v47 : IVec S_ 1 := (fun x v => Host.reduce IntOp.andi x v reducesTo_S32_S_d0 h_S_) main_v46 main_c_17
  let main_v48 : IVec S_ 1 := andi main_v43 main_v47
  let main_v49 : FVec F S32x32 .f32 := Host.absf main_arg12
  let main_cst_18 : FVec F S_ .f32 := constant S_ .f32 0x7F800000#32
  let main_v50 : FVec F S32x32 .f32 := broadcastInDim S32x32 ![] bcast_S_S32x32 main_cst_18
  fn_part3 (F := F) main_arg13 main_arg14 main_arg15 main_arg16 main_arg17 main_arg18 main_arg19 main_v48 main_v49 main_v50

def fn_part1 {F : FTy → Type} [FloatOps F] (main_arg6 : FVec F S32x128 .f32) (main_arg7 : FVec F S32x128 .f32) (main_arg8 : FVec F S32 .f32) (main_arg9 : FVec F S32x128 .f32) (main_arg10 : FVec F S32x32 .f32) (main_arg11 : FVec F S32 .f32) (main_arg12 : FVec F S32x32 .f32) (main_arg13 : FVec F S32x32 .f32) (main_arg14 : FVec F S32 .f32) (main_arg15 : FVec F S32x32 .f32) (main_arg16 : FVec F S32x32 .f32) (main_arg17 : FVec F S32 .f32) (main_arg18 : FVec F S32x32 .f32) (main_arg19 : FVec F S32 .f32) (main_v13 : IVec S_ 1) (main_v16 : IVec S32 1) : IVec S_ 1 :=
  let main_c_5 : IVec S_ 1 := constantI S_ 1 1#1
  let main_v17 : IVec S_ 1 := (fun x v => Host.reduce IntOp.andi x v reducesTo_S32_S_d0 h_S_) main_v16 main_c_5
  let main_v18 : IVec S_ 1 := andi main_v13 main_v17
  let main_v19 : FVec F S32x128 .f32 := Host.absf main_arg6
  let main_cst_6 : FVec F S_ .f32 := constant S_ .f32 0x7F800000#32
  let main_v20 : FVec F S32x128 .f32 := broadcastInDim S32x128 ![] bcast_S_S32x128 main_cst_6
  let main_v21 : IVec S32x128 1 := cmpf .olt main_v19 main_v20
  let main_c_7 : IVec S_ 1 := constantI S_ 1 1#1
  let main_v22 : IVec S_ 1 := (fun x v => Host.reduce IntOp.andi x v reducesTo_S32x128_S_d0_1 h_S_) main_v21 main_c_7
  let main_v23 : IVec S_ 1 := andi main_v18 main_v22
  let main_v24 : FVec F S32x128 .f32 := Host.absf main_arg7
  let main_cst_8 : FVec F S_ .f32 := constant S_ .f32 0x7F800000#32
  let main_v25 : FVec F S32x128 .f32 := broadcastInDim S32x128 ![] bcast_S_S32x128 main_cst_8
  let main_v26 : IVec S32x128 1 := cmpf .olt main_v24 main_v25
  let main_c_9 : IVec S_ 1 := constantI S_ 1 1#1
  let main_v27 : IVec S_ 1 := (fun x v => Host.reduce IntOp.andi x v reducesTo_S32x128_S_d0_1 h_S_) main_v26 main_c_9
  let main_v28 : IVec S_ 1 := andi main_v23 main_v27
  let main_v29 : FVec F S32 .f32 := Host.absf main_arg8
  let main_cst_10 : FVec F S_ .f32 := constant S_ .f32 0x7F800000#32
  let main_v30 : FVec F S32 .f32 := broadcastInDim S32 ![] bcast_S_S32 main_cst_10
  let main_v31 : IVec S32 1 := cmpf .olt main_v29 main_v30
  let main_c_11 : IVec S_ 1 := constantI S_ 1 1#1
  let main_v32 : IVec S_ 1 := (fun x v => Host.reduce IntOp.andi x v reducesTo_S32_S_d0 h_S_) main_v31 main_c_11
  let main_v33 : IVec S_ 1 := andi main_v28 main_v32
  fn_part2 (F := F) main_arg9 main_arg10 main_arg11 main_arg12 main_arg13 main_arg14 main_arg15 main_arg16 main_arg17 main_arg18 main_arg19 main_v33

def fn {F : FTy → Type} [FloatOps F] (main_arg0 : FVec F S100000x128 .f32) (main_arg1 : FVec F S50000x128 .f32) (main_arg2 : IVec S819200 32) (main_arg3 : IVec S819200 32) (main_arg4 : FVec F S32x128 .f32) (main_arg5 : FVec F S32 .f32) (main_arg6 : FVec F S32x128 .f32) (main_arg7 : FVec F S32x128 .f32) (main_arg8 : FVec F S32 .f32) (main_arg9 : FVec F S32x128 .f32) (main_arg10 : FVec F S32x32 .f32) (main_arg11 : FVec F S32 .f32) (main_arg12 : FVec F S32x32 .f32) (main_arg13 : FVec F S32x32 .f32) (main_arg14 : FVec F S32 .f32) (main_arg15 : FVec F S32x32 .f32) (main_arg16 : FVec F S32x32 .f32) (main_arg17 : FVec F S32 .f32) (main_arg18 : FVec F S32x32 .f32) (main_arg19 : FVec F S32 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S50000x128 .f32 := Host.absf main_arg1
  let main_cst_0 : FVec F S_ .f32 := constant S_ .f32 0x7F800000#32
  let main_v5 : FVec F S50000x128 .f32 := broadcastInDim S50000x128 ![] bcast_S_S50000x128 main_cst_0
  let main_v6 : IVec S50000x128 1 := cmpf .olt main_v4 main_v5
  let main_c_1 : IVec S_ 1 := constantI S_ 1 1#1
  let main_v7 : IVec S_ 1 := (fun x v => Host.reduce IntOp.andi x v reducesTo_S50000x128_S_d0_1 h_S_) main_v6 main_c_1
  let main_v8 : IVec S_ 1 := andi main_v3 main_v7
  let main_v9 : FVec F S32x128 .f32 := Host.absf main_arg4
  let main_cst_2 : FVec F S_ .f32 := constant S_ .f32 0x7F800000#32
  let main_v10 : FVec F S32x128 .f32 := broadcastInDim S32x128 ![] bcast_S_S32x128 main_cst_2
  let main_v11 : IVec S32x128 1 := cmpf .olt main_v9 main_v10
  let main_c_3 : IVec S_ 1 := constantI S_ 1 1#1
  let main_v12 : IVec S_ 1 := (fun x v => Host.reduce IntOp.andi x v reducesTo_S32x128_S_d0_1 h_S_) main_v11 main_c_3
  let main_v13 : IVec S_ 1 := andi main_v8 main_v12
  let main_v14 : FVec F S32 .f32 := Host.absf main_arg5
  let main_cst_4 : FVec F S_ .f32 := constant S_ .f32 0x7F800000#32
  let main_v15 : FVec F S32 .f32 := broadcastInDim S32 ![] bcast_S_S32 main_cst_4
  let main_v16 : IVec S32 1 := cmpf .olt main_v14 main_v15
  fn_part1 (F := F) main_arg6 main_arg7 main_arg8 main_arg9 main_arg10 main_arg11 main_arg12 main_arg13 main_arg14 main_arg15 main_arg16 main_arg17 main_arg18 main_arg19 main_v13 main_v16
-- ==== Kernel.lean ====
abbrev S100000x128 : Shape := ⟨2, ![100000, 128]⟩
abbrev S50000x128 : Shape := ⟨2, ![50000, 128]⟩
abbrev S819200 : Shape := ⟨1, ![819200]⟩
abbrev S32x128 : Shape := ⟨2, ![32, 128]⟩
abbrev S32 : Shape := ⟨1, ![32]⟩
abbrev S32x32 : Shape := ⟨2, ![32, 32]⟩
abbrev S128x32 : Shape := ⟨2, ![128, 32]⟩
abbrev S_ : Shape := ⟨0, ![]⟩
abbrev S50000 : Shape := ⟨1, ![50000]⟩
abbrev S819200x1 : Shape := ⟨2, ![819200, 1]⟩
abbrev S100000 : Shape := ⟨1, ![100000]⟩
abbrev S100000x32 : Shape := ⟨2, ![100000, 32]⟩
abbrev S5000x128 : Shape := ⟨2, ![5000, 128]⟩
abbrev S5000x32 : Shape := ⟨2, ![5000, 32]⟩
abbrev S50000x32 : Shape := ⟨2, ![50000, 32]⟩
abbrev S819200x32 : Shape := ⟨2, ![819200, 32]⟩
abbrev S50000x1 : Shape := ⟨2, ![50000, 1]⟩
abbrev S1x32 : Shape := ⟨2, ![1, 32]⟩
abbrev S5000x1 : Shape := ⟨2, ![5000, 1]⟩
abbrev S5000 : Shape := ⟨1, ![5000]⟩
abbrev S100000x1 : Shape := ⟨2, ![100000, 1]⟩

abbrev nBuf : Space → Nat
  | .hbm => 124
  | .vmem => 64
  | .smem => 0
  | _ => 0

abbrev bufTy : (tb : Table) → Fin (tcTables nBuf tb) → BufTy
  | .hbm, ⟨0, _⟩ => ⟨S100000x128, .f32⟩
  | .hbm, ⟨1, _⟩ => ⟨S50000x128, .f32⟩
  | .hbm, ⟨2, _⟩ => ⟨S819200, .i32⟩
  | .hbm, ⟨3, _⟩ => ⟨S819200, .i32⟩
  | .hbm, ⟨4, _⟩ => ⟨S32x128, .f32⟩
  | .hbm, ⟨5, _⟩ => ⟨S32, .f32⟩
  | .hbm, ⟨6, _⟩ => ⟨S32x128, .f32⟩
  | .hbm, ⟨7, _⟩ => ⟨S32x128, .f32⟩
  | .hbm, ⟨8, _⟩ => ⟨S32, .f32⟩
  | .hbm, ⟨9, _⟩ => ⟨S32x128, .f32⟩
  | .hbm, ⟨10, _⟩ => ⟨S32x32, .f32⟩
  | .hbm, ⟨11, _⟩ => ⟨S32, .f32⟩
  | .hbm, ⟨12, _⟩ => ⟨S32x32, .f32⟩
  | .hbm, ⟨13, _⟩ => ⟨S32x32, .f32⟩
  | .hbm, ⟨14, _⟩ => ⟨S32, .f32⟩
  | .hbm, ⟨15, _⟩ => ⟨S32x32, .f32⟩
  | .hbm, ⟨16, _⟩ => ⟨S32x32, .f32⟩
  | .hbm, ⟨17, _⟩ => ⟨S32, .f32⟩
  | .hbm, ⟨18, _⟩ => ⟨S32x32, .f32⟩
  | .hbm, ⟨19, _⟩ => ⟨S32, .f32⟩
  | .hbm, ⟨20, _⟩ => ⟨S128x32, .f32⟩
  | .hbm, ⟨21, _⟩ => ⟨S128x32, .f32⟩
  | .hbm, ⟨22, _⟩ => ⟨S128x32, .f32⟩
  | .hbm, ⟨23, _⟩ => ⟨S128x32, .f32⟩
  | .hbm, ⟨24, _⟩ => ⟨S32x32, .f32⟩
  | .hbm, ⟨25, _⟩ => ⟨S32x32, .f32⟩
  | .hbm, ⟨26, _⟩ => ⟨S32x32, .f32⟩
  | .hbm, ⟨27, _⟩ => ⟨S32x32, .f32⟩
  | .hbm, ⟨28, _⟩ => ⟨S32x32, .f32⟩
  | .hbm, ⟨29, _⟩ => ⟨S32x32, .f32⟩
  | .hbm, ⟨30, _⟩ => ⟨S_, .f32⟩
  | .hbm, ⟨31, _⟩ => ⟨S819200, .f32⟩
  | .hbm, ⟨32, _⟩ => ⟨S_, .f32⟩
  | .hbm, ⟨33, _⟩ => ⟨S50000, .f32⟩
  | .hbm, ⟨34, _⟩ => ⟨S819200x1, .i32⟩
  | .hbm, ⟨35, _⟩ => ⟨S50000, .f32⟩
  | .hbm, ⟨36, _⟩ => ⟨S_, .f32⟩
  | .hbm, ⟨37, _⟩ => ⟨S819200, .f32⟩
  | .hbm, ⟨38, _⟩ => ⟨S_, .f32⟩
  | .hbm, ⟨39, _⟩ => ⟨S100000, .f32⟩
  | .hbm, ⟨40, _⟩ => ⟨S819200x1, .i32⟩
  | .hbm, ⟨41, _⟩ => ⟨S100000, .f32⟩
  | .hbm, ⟨42, _⟩ => ⟨S_, .f32⟩
  | .hbm, ⟨43, _⟩ => ⟨S50000, .f32⟩
  | .hbm, ⟨44, _⟩ => ⟨S50000, .f32⟩
  | .hbm, ⟨45, _⟩ => ⟨S_, .f32⟩
  | .hbm, ⟨46, _⟩ => ⟨S50000, .f32⟩
  | .hbm, ⟨47, _⟩ => ⟨S50000, .f32⟩
  | .hbm, ⟨48, _⟩ => ⟨S_, .f32⟩
  | .hbm, ⟨49, _⟩ => ⟨S100000, .f32⟩
  | .hbm, ⟨50, _⟩ => ⟨S100000, .f32⟩
  | .hbm, ⟨51, _⟩ => ⟨S_, .f32⟩
  | .hbm, ⟨52, _⟩ => ⟨S100000, .f32⟩
  | .hbm, ⟨53, _⟩ => ⟨S100000, .f32⟩
  | .hbm, ⟨54, _⟩ => ⟨S100000x32, .f32⟩
  | .hbm, ⟨55, _⟩ => ⟨S50000x32, .f32⟩
  | .hbm, ⟨56, _⟩ => ⟨S_, .i32⟩
  | .hbm, ⟨57, _⟩ => ⟨S819200, .i32⟩
  | .hbm, ⟨58, _⟩ => ⟨S819200, .i1⟩
  | .hbm, ⟨59, _⟩ => ⟨S_, .i32⟩
  | .hbm, ⟨60, _⟩ => ⟨S819200, .i32⟩
  | .hbm, ⟨61, _⟩ => ⟨S819200, .i32⟩
  | .hbm, ⟨62, _⟩ => ⟨S819200, .i32⟩
  | .hbm, ⟨63, _⟩ => ⟨S819200x1, .i32⟩
  | .hbm, ⟨64, _⟩ => ⟨S819200x32, .f32⟩
  | .hbm, ⟨65, _⟩ => ⟨S_, .f32⟩
  | .hbm, ⟨66, _⟩ => ⟨S50000x32, .f32⟩
  | .hbm, ⟨67, _⟩ => ⟨S819200x1, .i32⟩
  | .hbm, ⟨68, _⟩ => ⟨S50000x32, .f32⟩
  | .hbm, ⟨69, _⟩ => ⟨S_, .i32⟩
  | .hbm, ⟨70, _⟩ => ⟨S819200, .i32⟩
  | .hbm, ⟨71, _⟩ => ⟨S819200, .i1⟩
  | .hbm, ⟨72, _⟩ => ⟨S_, .i32⟩
  | .hbm, ⟨73, _⟩ => ⟨S819200, .i32⟩
  | .hbm, ⟨74, _⟩ => ⟨S819200, .i32⟩
  | .hbm, ⟨75, _⟩ => ⟨S819200, .i32⟩
  | .hbm, ⟨76, _⟩ => ⟨S819200x1, .i32⟩
  | .hbm, ⟨77, _⟩ => ⟨S819200x32, .f32⟩
  | .hbm, ⟨78, _⟩ => ⟨S_, .f32⟩
  | .hbm, ⟨79, _⟩ => ⟨S100000x32, .f32⟩
  | .hbm, ⟨80, _⟩ => ⟨S819200x1, .i32⟩
  | .hbm, ⟨81, _⟩ => ⟨S100000x32, .f32⟩
  | .hbm, ⟨82, _⟩ => ⟨S50000x1, .f32⟩
  | .hbm, ⟨83, _⟩ => ⟨S1x32, .f32⟩
  | .hbm, ⟨84, _⟩ => ⟨S50000x32, .f32⟩
  | .hbm, ⟨85, _⟩ => ⟨S100000x1, .f32⟩
  | .hbm, ⟨86, _⟩ => ⟨S1x32, .f32⟩
  | .hbm, ⟨87, _⟩ => ⟨S100000x32, .f32⟩
  | .hbm, ⟨88, _⟩ => ⟨S100000x32, .f32⟩
  | .hbm, ⟨89, _⟩ => ⟨S50000x32, .f32⟩
  | .hbm, ⟨90, _⟩ => ⟨S_, .i32⟩
  | .hbm, ⟨91, _⟩ => ⟨S819200, .i32⟩
  | .hbm, ⟨92, _⟩ => ⟨S819200, .i1⟩
  | .hbm, ⟨93, _⟩ => ⟨S_, .i32⟩
  | .hbm, ⟨94, _⟩ => ⟨S819200, .i32⟩
  | .hbm, ⟨95, _⟩ => ⟨S819200, .i32⟩
  | .hbm, ⟨96, _⟩ => ⟨S819200, .i32⟩
  | .hbm, ⟨97, _⟩ => ⟨S819200x1, .i32⟩
  | .hbm, ⟨98, _⟩ => ⟨S819200x32, .f32⟩
  | .hbm, ⟨99, _⟩ => ⟨S_, .f32⟩
  | .hbm, ⟨100, _⟩ => ⟨S50000x32, .f32⟩
  | .hbm, ⟨101, _⟩ => ⟨S819200x1, .i32⟩
  | .hbm, ⟨102, _⟩ => ⟨S50000x32, .f32⟩
  | .hbm, ⟨103, _⟩ => ⟨S_, .i32⟩
  | .hbm, ⟨104, _⟩ => ⟨S819200, .i32⟩
  | .hbm, ⟨105, _⟩ => ⟨S819200, .i1⟩
  | .hbm, ⟨106, _⟩ => ⟨S_, .i32⟩
  | .hbm, ⟨107, _⟩ => ⟨S819200, .i32⟩
  | .hbm, ⟨108, _⟩ => ⟨S819200, .i32⟩
  | .hbm, ⟨109, _⟩ => ⟨S819200, .i32⟩
  | .hbm, ⟨110, _⟩ => ⟨S819200x1, .i32⟩
  | .hbm, ⟨111, _⟩ => ⟨S819200x32, .f32⟩
  | .hbm, ⟨112, _⟩ => ⟨S_, .f32⟩
  | .hbm, ⟨113, _⟩ => ⟨S100000x32, .f32⟩
  | .hbm, ⟨114, _⟩ => ⟨S819200x1, .i32⟩
  | .hbm, ⟨115, _⟩ => ⟨S100000x32, .f32⟩
  | .hbm, ⟨116, _⟩ => ⟨S50000x1, .f32⟩
  | .hbm, ⟨117, _⟩ => ⟨S1x32, .f32⟩
  | .hbm, ⟨118, _⟩ => ⟨S1x32, .f32⟩
  | .hbm, ⟨119, _⟩ => ⟨S50000x32, .f32⟩
  | .hbm, ⟨120, _⟩ => ⟨S100000x1, .f32⟩
  | .hbm, ⟨121, _⟩ => ⟨S1x32, .f32⟩
  | .hbm, ⟨122, _⟩ => ⟨S1x32, .f32⟩
  | .hbm, ⟨123, _⟩ => ⟨S100000x32, .f32⟩
  | .local _ .vmem, ⟨0, _⟩ => ⟨S5000x128, .f32⟩
  | .local _ .vmem, ⟨1, _⟩ => ⟨S5000x128, .f32⟩
  | .local _ .vmem, ⟨2, _⟩ => ⟨S128x32, .f32⟩
  | .local _ .vmem, ⟨3, _⟩ => ⟨S5000x32, .f32⟩
  | .local _ .vmem, ⟨4, _⟩ => ⟨S5000x32, .f32⟩
  | .local _ .vmem, ⟨5, _⟩ => ⟨S5000x128, .f32⟩
  | .local _ .vmem, ⟨6, _⟩ => ⟨S5000x128, .f32⟩
  | .local _ .vmem, ⟨7, _⟩ => ⟨S128x32, .f32⟩
  | .local _ .vmem, ⟨8, _⟩ => ⟨S5000x32, .f32⟩
  | .local _ .vmem, ⟨9, _⟩ => ⟨S5000x32, .f32⟩
  | .local _ .vmem, ⟨10, _⟩ => ⟨S5000x32, .f32⟩
  | .local _ .vmem, ⟨11, _⟩ => ⟨S5000x32, .f32⟩
  | .local _ .vmem, ⟨12, _⟩ => ⟨S5000x1, .f32⟩
  | .local _ .vmem, ⟨13, _⟩ => ⟨S5000x1, .f32⟩
  | .local _ .vmem, ⟨14, _⟩ => ⟨S5000x128, .f32⟩
  | .local _ .vmem, ⟨15, _⟩ => ⟨S5000x128, .f32⟩
  | .local _ .vmem, ⟨16, _⟩ => ⟨S128x32, .f32⟩
  | .local _ .vmem, ⟨17, _⟩ => ⟨S1x32, .f32⟩
  | .local _ .vmem, ⟨18, _⟩ => ⟨S5000x32, .f32⟩
  | .local _ .vmem, ⟨19, _⟩ => ⟨S5000x32, .f32⟩
  | .local _ .vmem, ⟨20, _⟩ => ⟨S5000x32, .f32⟩
  | .local _ .vmem, ⟨21, _⟩ => ⟨S5000x32, .f32⟩
  | .local _ .vmem, ⟨22, _⟩ => ⟨S5000x1, .f32⟩
  | .local _ .vmem, ⟨23, _⟩ => ⟨S5000x1, .f32⟩
  | .local _ .vmem, ⟨24, _⟩ => ⟨S5000x128, .f32⟩
  | .local _ .vmem, ⟨25, _⟩ => ⟨S5000x128, .f32⟩
  | .local _ .vmem, ⟨26, _⟩ => ⟨S128x32, .f32⟩
  | .local _ .vmem, ⟨27, _⟩ => ⟨S1x32, .f32⟩
  | .local _ .vmem, ⟨28, _⟩ => ⟨S5000x32, .f32⟩
  | .local _ .vmem, ⟨29, _⟩ => ⟨S5000x32, .f32⟩
  | .local _ .vmem, ⟨30, _⟩ => ⟨S5000x32, .f32⟩
  | .local _ .vmem, ⟨31, _⟩ => ⟨S5000x32, .f32⟩
  | .local _ .vmem, ⟨32, _⟩ => ⟨S32x32, .f32⟩
  | .local _ .vmem, ⟨33, _⟩ => ⟨S5000x32, .f32⟩
  | .local _ .vmem, ⟨34, _⟩ => ⟨S5000x32, .f32⟩
  | .local _ .vmem, ⟨35, _⟩ => ⟨S5000x32, .f32⟩
  | .local _ .vmem, ⟨36, _⟩ => ⟨S5000x32, .f32⟩
  | .local _ .vmem, ⟨37, _⟩ => ⟨S32x32, .f32⟩
  | .local _ .vmem, ⟨38, _⟩ => ⟨S5000x32, .f32⟩
  | .local _ .vmem, ⟨39, _⟩ => ⟨S5000x32, .f32⟩
  | .local _ .vmem, ⟨40, _⟩ => ⟨S5000x32, .f32⟩
  | .local _ .vmem, ⟨41, _⟩ => ⟨S5000x32, .f32⟩
  | .local _ .vmem, ⟨42, _⟩ => ⟨S5000x1, .f32⟩
  | .local _ .vmem, ⟨43, _⟩ => ⟨S5000x1, .f32⟩
  | .local _ .vmem, ⟨44, _⟩ => ⟨S5000x32, .f32⟩
  | .local _ .vmem, ⟨45, _⟩ => ⟨S5000x32, .f32⟩
  | .local _ .vmem, ⟨46, _⟩ => ⟨S32x32, .f32⟩
  | .local _ .vmem, ⟨47, _⟩ => ⟨S1x32, .f32⟩
  | .local _ .vmem, ⟨48, _⟩ => ⟨S32x32, .f32⟩
  | .local _ .vmem, ⟨49, _⟩ => ⟨S1x32, .f32⟩
  | .local _ .vmem, ⟨50, _⟩ => ⟨S5000x32, .f32⟩
  | .local _ .vmem, ⟨51, _⟩ => ⟨S5000x32, .f32⟩
  | .local _ .vmem, ⟨52, _⟩ => ⟨S5000x32, .f32⟩
  | .local _ .vmem, ⟨53, _⟩ => ⟨S5000x32, .f32⟩
  | .local _ .vmem, ⟨54, _⟩ => ⟨S5000x1, .f32⟩
  | .local _ .vmem, ⟨55, _⟩ => ⟨S5000x1, .f32⟩
  | .local _ .vmem, ⟨56, _⟩ => ⟨S5000x32, .f32⟩
  | .local _ .vmem, ⟨57, _⟩ => ⟨S5000x32, .f32⟩
  | .local _ .vmem, ⟨58, _⟩ => ⟨S32x32, .f32⟩
  | .local _ .vmem, ⟨59, _⟩ => ⟨S1x32, .f32⟩
  | .local _ .vmem, ⟨60, _⟩ => ⟨S32x32, .f32⟩
  | .local _ .vmem, ⟨61, _⟩ => ⟨S1x32, .f32⟩
  | .local _ .vmem, ⟨62, _⟩ => ⟨S5000x32, .f32⟩
  | .local _ .vmem, ⟨63, _⟩ => ⟨S5000x32, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | _, _ => false

abbrev semScoped : Fin 0 → Bool
  | ⟨_, h⟩ => absurd h (Nat.not_lt_zero _)

abbrev dmaSemScoped : Fin 64 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | _ => false

abbrev sig : RefSig :=
  ofTc nBuf bufTy 0 64 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_v0 : Ref sig .tc := ⟨.hbm, 20, rfl⟩
abbrev main_v1 : Ref sig .tc := ⟨.hbm, 21, rfl⟩
abbrev main_v2 : Ref sig .tc := ⟨.hbm, 22, rfl⟩
abbrev main_v3 : Ref sig .tc := ⟨.hbm, 23, rfl⟩
abbrev main_v4 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_cst : Ref sig .tc := ⟨.hbm, 30, rfl⟩
abbrev main_v10 : Ref sig .tc := ⟨.hbm, 31, rfl⟩
abbrev main_cst_0 : Ref sig .tc := ⟨.hbm, 32, rfl⟩
abbrev main_v11 : Ref sig .tc := ⟨.hbm, 33, rfl⟩
abbrev main_v12 : Ref sig .tc := ⟨.hbm, 34, rfl⟩
abbrev main_v13 : Ref sig .tc := ⟨.hbm, 35, rfl⟩
abbrev main_cst_1 : Ref sig .tc := ⟨.hbm, 36, rfl⟩
abbrev main_v14 : Ref sig .tc := ⟨.hbm, 37, rfl⟩
abbrev main_cst_2 : Ref sig .tc := ⟨.hbm, 38, rfl⟩
abbrev main_v15 : Ref sig .tc := ⟨.hbm, 39, rfl⟩
abbrev main_v16 : Ref sig .tc := ⟨.hbm, 40, rfl⟩
abbrev main_v17 : Ref sig .tc := ⟨.hbm, 41, rfl⟩
abbrev main_cst_3 : Ref sig .tc := ⟨.hbm, 42, rfl⟩
abbrev main_v18 : Ref sig .tc := ⟨.hbm, 43, rfl⟩
abbrev main_v19 : Ref sig .tc := ⟨.hbm, 44, rfl⟩
abbrev main_cst_4 : Ref sig .tc := ⟨.hbm, 45, rfl⟩
abbrev main_v20 : Ref sig .tc := ⟨.hbm, 46, rfl⟩
abbrev main_v21 : Ref sig .tc := ⟨.hbm, 47, rfl⟩
abbrev main_cst_5 : Ref sig .tc := ⟨.hbm, 48, rfl⟩
abbrev main_v22 : Ref sig .tc := ⟨.hbm, 49, rfl⟩
abbrev main_v23 : Ref sig .tc := ⟨.hbm, 50, rfl⟩
abbrev main_cst_6 : Ref sig .tc := ⟨.hbm, 51, rfl⟩
abbrev main_v24 : Ref sig .tc := ⟨.hbm, 52, rfl⟩
abbrev main_v25 : Ref sig .tc := ⟨.hbm, 53, rfl⟩
abbrev main_v26 : Ref sig .tc := ⟨.hbm, 54, rfl⟩
abbrev main_v27 : Ref sig .tc := ⟨.hbm, 55, rfl⟩
abbrev main_c : Ref sig .tc := ⟨.hbm, 56, rfl⟩
abbrev main_v28 : Ref sig .tc := ⟨.hbm, 57, rfl⟩
abbrev main_v29 : Ref sig .tc := ⟨.hbm, 58, rfl⟩
abbrev main_c_7 : Ref sig .tc := ⟨.hbm, 59, rfl⟩
abbrev main_v30 : Ref sig .tc := ⟨.hbm, 60, rfl⟩
abbrev main_v31 : Ref sig .tc := ⟨.hbm, 61, rfl⟩
abbrev main_v32 : Ref sig .tc := ⟨.hbm, 62, rfl⟩
abbrev main_v33 : Ref sig .tc := ⟨.hbm, 63, rfl⟩
abbrev main_v34 : Ref sig .tc := ⟨.hbm, 64, rfl⟩
abbrev main_cst_8 : Ref sig .tc := ⟨.hbm, 65, rfl⟩
abbrev main_v35 : Ref sig .tc := ⟨.hbm, 66, rfl⟩
abbrev main_v36 : Ref sig .tc := ⟨.hbm, 67, rfl⟩
abbrev main_v37 : Ref sig .tc := ⟨.hbm, 68, rfl⟩
abbrev main_c_9 : Ref sig .tc := ⟨.hbm, 69, rfl⟩
abbrev main_v38 : Ref sig .tc := ⟨.hbm, 70, rfl⟩
abbrev main_v39 : Ref sig .tc := ⟨.hbm, 71, rfl⟩
abbrev main_c_10 : Ref sig .tc := ⟨.hbm, 72, rfl⟩
abbrev main_v40 : Ref sig .tc := ⟨.hbm, 73, rfl⟩
abbrev main_v41 : Ref sig .tc := ⟨.hbm, 74, rfl⟩
abbrev main_v42 : Ref sig .tc := ⟨.hbm, 75, rfl⟩
abbrev main_v43 : Ref sig .tc := ⟨.hbm, 76, rfl⟩
abbrev main_v44 : Ref sig .tc := ⟨.hbm, 77, rfl⟩
abbrev main_cst_11 : Ref sig .tc := ⟨.hbm, 78, rfl⟩
abbrev main_v45 : Ref sig .tc := ⟨.hbm, 79, rfl⟩
abbrev main_v46 : Ref sig .tc := ⟨.hbm, 80, rfl⟩
abbrev main_v47 : Ref sig .tc := ⟨.hbm, 81, rfl⟩
abbrev main_v48 : Ref sig .tc := ⟨.hbm, 82, rfl⟩
abbrev main_v49 : Ref sig .tc := ⟨.hbm, 83, rfl⟩
abbrev main_v50 : Ref sig .tc := ⟨.hbm, 84, rfl⟩
abbrev main_v51 : Ref sig .tc := ⟨.hbm, 85, rfl⟩
abbrev main_v52 : Ref sig .tc := ⟨.hbm, 86, rfl⟩
abbrev main_v53 : Ref sig .tc := ⟨.hbm, 87, rfl⟩
abbrev main_v54 : Ref sig .tc := ⟨.hbm, 88, rfl⟩
abbrev main_v55 : Ref sig .tc := ⟨.hbm, 89, rfl⟩
abbrev main_c_12 : Ref sig .tc := ⟨.hbm, 90, rfl⟩
abbrev main_v56 : Ref sig .tc := ⟨.hbm, 91, rfl⟩
abbrev main_v57 : Ref sig .tc := ⟨.hbm, 92, rfl⟩
abbrev main_c_13 : Ref sig .tc := ⟨.hbm, 93, rfl⟩
abbrev main_v58 : Ref sig .tc := ⟨.hbm, 94, rfl⟩
abbrev main_v59 : Ref sig .tc := ⟨.hbm, 95, rfl⟩
abbrev main_v60 : Ref sig .tc := ⟨.hbm, 96, rfl⟩
abbrev main_v61 : Ref sig .tc := ⟨.hbm, 97, rfl⟩
abbrev main_v62 : Ref sig .tc := ⟨.hbm, 98, rfl⟩
abbrev main_cst_14 : Ref sig .tc := ⟨.hbm, 99, rfl⟩
abbrev main_v63 : Ref sig .tc := ⟨.hbm, 100, rfl⟩
abbrev main_v64 : Ref sig .tc := ⟨.hbm, 101, rfl⟩
abbrev main_v65 : Ref sig .tc := ⟨.hbm, 102, rfl⟩
abbrev main_c_15 : Ref sig .tc := ⟨.hbm, 103, rfl⟩
abbrev main_v66 : Ref sig .tc := ⟨.hbm, 104, rfl⟩
abbrev main_v67 : Ref sig .tc := ⟨.hbm, 105, rfl⟩
abbrev main_c_16 : Ref sig .tc := ⟨.hbm, 106, rfl⟩
abbrev main_v68 : Ref sig .tc := ⟨.hbm, 107, rfl⟩
abbrev main_v69 : Ref sig .tc := ⟨.hbm, 108, rfl⟩
abbrev main_v70 : Ref sig .tc := ⟨.hbm, 109, rfl⟩
abbrev main_v71 : Ref sig .tc := ⟨.hbm, 110, rfl⟩
abbrev main_v72 : Ref sig .tc := ⟨.hbm, 111, rfl⟩
abbrev main_cst_17 : Ref sig .tc := ⟨.hbm, 112, rfl⟩
abbrev main_v73 : Ref sig .tc := ⟨.hbm, 113, rfl⟩
abbrev main_v74 : Ref sig .tc := ⟨.hbm, 114, rfl⟩
abbrev main_v75 : Ref sig .tc := ⟨.hbm, 115, rfl⟩
abbrev main_v76 : Ref sig .tc := ⟨.hbm, 116, rfl⟩
abbrev main_v77 : Ref sig .tc := ⟨.hbm, 117, rfl⟩
abbrev main_v78 : Ref sig .tc := ⟨.hbm, 118, rfl⟩
abbrev main_v79 : Ref sig .tc := ⟨.hbm, 119, rfl⟩
abbrev main_v80 : Ref sig .tc := ⟨.hbm, 120, rfl⟩
abbrev main_v81 : Ref sig .tc := ⟨.hbm, 121, rfl⟩
abbrev main_v82 : Ref sig .tc := ⟨.hbm, 122, rfl⟩
abbrev main_v83 : Ref sig .tc := ⟨.hbm, 123, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg1_1 : Ref sig .tc := ⟨.vmem, 13, rfl⟩
abbrev cc2_stg2_0 : Ref sig .tc := ⟨.vmem, 14, rfl⟩
abbrev cc2_stg2_1 : Ref sig .tc := ⟨.vmem, 15, rfl⟩
abbrev cc2_stg3_0 : Ref sig .tc := ⟨.vmem, 16, rfl⟩
abbrev cc2_stg4_0 : Ref sig .tc := ⟨.vmem, 17, rfl⟩
abbrev cc2_stg5_0 : Ref sig .tc := ⟨.vmem, 18, rfl⟩
abbrev cc2_stg5_1 : Ref sig .tc := ⟨.vmem, 19, rfl⟩
abbrev cc3_stg0_0 : Ref sig .tc := ⟨.vmem, 20, rfl⟩
abbrev cc3_stg0_1 : Ref sig .tc := ⟨.vmem, 21, rfl⟩
abbrev cc3_stg1_0 : Ref sig .tc := ⟨.vmem, 22, rfl⟩
abbrev cc3_stg1_1 : Ref sig .tc := ⟨.vmem, 23, rfl⟩
abbrev cc3_stg2_0 : Ref sig .tc := ⟨.vmem, 24, rfl⟩
abbrev cc3_stg2_1 : Ref sig .tc := ⟨.vmem, 25, rfl⟩
abbrev cc3_stg3_0 : Ref sig .tc := ⟨.vmem, 26, rfl⟩
abbrev cc3_stg4_0 : Ref sig .tc := ⟨.vmem, 27, rfl⟩
abbrev cc3_stg5_0 : Ref sig .tc := ⟨.vmem, 28, rfl⟩
abbrev cc3_stg5_1 : Ref sig .tc := ⟨.vmem, 29, rfl⟩
abbrev cc4_stg0_0 : Ref sig .tc := ⟨.vmem, 30, rfl⟩
abbrev cc4_stg0_1 : Ref sig .tc := ⟨.vmem, 31, rfl⟩
abbrev cc4_stg1_0 : Ref sig .tc := ⟨.vmem, 32, rfl⟩
abbrev cc4_stg2_0 : Ref sig .tc := ⟨.vmem, 33, rfl⟩
abbrev cc4_stg2_1 : Ref sig .tc := ⟨.vmem, 34, rfl⟩
abbrev cc5_stg0_0 : Ref sig .tc := ⟨.vmem, 35, rfl⟩
abbrev cc5_stg0_1 : Ref sig .tc := ⟨.vmem, 36, rfl⟩
abbrev cc5_stg1_0 : Ref sig .tc := ⟨.vmem, 37, rfl⟩
abbrev cc5_stg2_0 : Ref sig .tc := ⟨.vmem, 38, rfl⟩
abbrev cc5_stg2_1 : Ref sig .tc := ⟨.vmem, 39, rfl⟩
abbrev cc6_stg0_0 : Ref sig .tc := ⟨.vmem, 40, rfl⟩
abbrev cc6_stg0_1 : Ref sig .tc := ⟨.vmem, 41, rfl⟩
abbrev cc6_stg1_0 : Ref sig .tc := ⟨.vmem, 42, rfl⟩
abbrev cc6_stg1_1 : Ref sig .tc := ⟨.vmem, 43, rfl⟩
abbrev cc6_stg2_0 : Ref sig .tc := ⟨.vmem, 44, rfl⟩
abbrev cc6_stg2_1 : Ref sig .tc := ⟨.vmem, 45, rfl⟩
abbrev cc6_stg3_0 : Ref sig .tc := ⟨.vmem, 46, rfl⟩
abbrev cc6_stg4_0 : Ref sig .tc := ⟨.vmem, 47, rfl⟩
abbrev cc6_stg5_0 : Ref sig .tc := ⟨.vmem, 48, rfl⟩
abbrev cc6_stg6_0 : Ref sig .tc := ⟨.vmem, 49, rfl⟩
abbrev cc6_stg7_0 : Ref sig .tc := ⟨.vmem, 50, rfl⟩
abbrev cc6_stg7_1 : Ref sig .tc := ⟨.vmem, 51, rfl⟩
abbrev cc7_stg0_0 : Ref sig .tc := ⟨.vmem, 52, rfl⟩
abbrev cc7_stg0_1 : Ref sig .tc := ⟨.vmem, 53, rfl⟩
abbrev cc7_stg1_0 : Ref sig .tc := ⟨.vmem, 54, rfl⟩
abbrev cc7_stg1_1 : Ref sig .tc := ⟨.vmem, 55, rfl⟩
abbrev cc7_stg2_0 : Ref sig .tc := ⟨.vmem, 56, rfl⟩
abbrev cc7_stg2_1 : Ref sig .tc := ⟨.vmem, 57, rfl⟩
abbrev cc7_stg3_0 : Ref sig .tc := ⟨.vmem, 58, rfl⟩
abbrev cc7_stg4_0 : Ref sig .tc := ⟨.vmem, 59, rfl⟩
abbrev cc7_stg5_0 : Ref sig .tc := ⟨.vmem, 60, rfl⟩
abbrev cc7_stg6_0 : Ref sig .tc := ⟨.vmem, 61, rfl⟩
abbrev cc7_stg7_0 : Ref sig .tc := ⟨.vmem, 62, rfl⟩
abbrev cc7_stg7_1 : Ref sig .tc := ⟨.vmem, 63, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem1_1 : DmaSem sig := 13
abbrev cc2_sem2_0 : DmaSem sig := 14
abbrev cc2_sem2_1 : DmaSem sig := 15
abbrev cc2_sem3_0 : DmaSem sig := 16
abbrev cc2_sem4_0 : DmaSem sig := 17
abbrev cc2_sem5_0 : DmaSem sig := 18
abbrev cc2_sem5_1 : DmaSem sig := 19
abbrev cc3_sem0_0 : DmaSem sig := 20
abbrev cc3_sem0_1 : DmaSem sig := 21
abbrev cc3_sem1_0 : DmaSem sig := 22
abbrev cc3_sem1_1 : DmaSem sig := 23
abbrev cc3_sem2_0 : DmaSem sig := 24
abbrev cc3_sem2_1 : DmaSem sig := 25
abbrev cc3_sem3_0 : DmaSem sig := 26
abbrev cc3_sem4_0 : DmaSem sig := 27
abbrev cc3_sem5_0 : DmaSem sig := 28
abbrev cc3_sem5_1 : DmaSem sig := 29
abbrev cc4_sem0_0 : DmaSem sig := 30
abbrev cc4_sem0_1 : DmaSem sig := 31
abbrev cc4_sem1_0 : DmaSem sig := 32
abbrev cc4_sem2_0 : DmaSem sig := 33
abbrev cc4_sem2_1 : DmaSem sig := 34
abbrev cc5_sem0_0 : DmaSem sig := 35
abbrev cc5_sem0_1 : DmaSem sig := 36
abbrev cc5_sem1_0 : DmaSem sig := 37
abbrev cc5_sem2_0 : DmaSem sig := 38
abbrev cc5_sem2_1 : DmaSem sig := 39
abbrev cc6_sem0_0 : DmaSem sig := 40
abbrev cc6_sem0_1 : DmaSem sig := 41
abbrev cc6_sem1_0 : DmaSem sig := 42
abbrev cc6_sem1_1 : DmaSem sig := 43
abbrev cc6_sem2_0 : DmaSem sig := 44
abbrev cc6_sem2_1 : DmaSem sig := 45
abbrev cc6_sem3_0 : DmaSem sig := 46
abbrev cc6_sem4_0 : DmaSem sig := 47
abbrev cc6_sem5_0 : DmaSem sig := 48
abbrev cc6_sem6_0 : DmaSem sig := 49
abbrev cc6_sem7_0 : DmaSem sig := 50
abbrev cc6_sem7_1 : DmaSem sig := 51
abbrev cc7_sem0_0 : DmaSem sig := 52
abbrev cc7_sem0_1 : DmaSem sig := 53
abbrev cc7_sem1_0 : DmaSem sig := 54
abbrev cc7_sem1_1 : DmaSem sig := 55
abbrev cc7_sem2_0 : DmaSem sig := 56
abbrev cc7_sem2_1 : DmaSem sig := 57
abbrev cc7_sem3_0 : DmaSem sig := 58
abbrev cc7_sem4_0 : DmaSem sig := 59
abbrev cc7_sem5_0 : DmaSem sig := 60
abbrev cc7_sem6_0 : DmaSem sig := 61
abbrev cc7_sem7_0 : DmaSem sig := 62
abbrev cc7_sem7_1 : DmaSem sig := 63

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x32 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x32 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x32 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x32 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S5000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S128x32 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x32 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S5000x32 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x32 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x1 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S5000x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S128x32 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x32 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S5000x32 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev grid4 : Pipeline.Grid := ⟨1, ![20], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x32 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S32x32 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S5000x32 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x32 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S32x32 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 2 → Memref sig .tc .vmem S5000x32 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev grid6 : Pipeline.Grid := ⟨1, ![10], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_2 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_4 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_5 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_6 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_7 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S5000x32 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 2 → Memref sig .tc .vmem S5000x1 .f32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

abbrev stage6_2 : Fin 2 → Memref sig .tc .vmem S5000x32 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

abbrev stage6_3 : Fin 1 → Memref sig .tc .vmem S32x32 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 1 → Memref sig .tc .vmem S1x32 .f32 := fun | 0 => Memref.whole cc6_stg4_0 | ⟨_ + 1, h⟩ => absurd h (Nat.not_lt.2 (Nat.le_add_left _ _))
abbrev sem6_4 : Fin 1 → DmaSem sig := fun | 0 => cc6_sem4_0 | ⟨_ + 1, h⟩ => absurd h (Nat.not_lt.2 (Nat.le_add_left _ _))
abbrev reads6_4 : Fin grid6.rank → Bool := ![false]

abbrev stage6_5 : Fin 1 → Memref sig .tc .vmem S32x32 .f32 := fun | 0 => Memref.whole cc6_stg5_0 | ⟨_ + 1, h⟩ => absurd h (Nat.not_lt.2 (Nat.le_add_left _ _))
abbrev sem6_5 : Fin 1 → DmaSem sig := fun | 0 => cc6_sem5_0 | ⟨_ + 1, h⟩ => absurd h (Nat.not_lt.2 (Nat.le_add_left _ _))
abbrev reads6_5 : Fin grid6.rank → Bool := ![false]

abbrev stage6_6 : Fin 1 → Memref sig .tc .vmem S1x32 .f32 := fun | 0 => Memref.whole cc6_stg6_0 | ⟨_ + 1, h⟩ => absurd h (Nat.not_lt.2 (Nat.le_add_left _ _))
abbrev sem6_6 : Fin 1 → DmaSem sig := fun | 0 => cc6_sem6_0 | ⟨_ + 1, h⟩ => absurd h (Nat.not_lt.2 (Nat.le_add_left _ _))
abbrev reads6_6 : Fin grid6.rank → Bool := ![false]

abbrev stage6_7 : Fin 2 → Memref sig .tc .vmem S5000x32 .f32 := fun | 0 => Memref.whole cc6_stg7_0 | 1 => Memref.whole cc6_stg7_1 | ⟨_ + 2, h⟩ => absurd h (Nat.not_lt.2 (Nat.le_add_left _ _))
abbrev sem6_7 : Fin 2 → DmaSem sig := fun | 0 => cc6_sem7_0 | 1 => cc6_sem7_1 | ⟨_ + 2, h⟩ => absurd h (Nat.not_lt.2 (Nat.le_add_left _ _))
abbrev reads6_7 : Fin grid6.rank → Bool := ![true]

abbrev grid7 : Pipeline.Grid := ⟨1, ![20], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_2 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_3 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_4 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_5 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_6 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_7 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S5000x32 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 2 → Memref sig .tc .vmem S5000x1 .f32 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![true]

abbrev stage7_2 : Fin 2 → Memref sig .tc .vmem S5000x32 .f32 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![true]

abbrev stage7_3 : Fin 1 → Memref sig .tc .vmem S32x32 .f32 := fun | 0 => Memref.whole cc7_stg3_0 | ⟨_ + 1, h⟩ => absurd h (Nat.not_lt.2 (Nat.le_add_left _ _))
abbrev sem7_3 : Fin 1 → DmaSem sig := fun | 0 => cc7_sem3_0 | ⟨_ + 1, h⟩ => absurd h (Nat.not_lt.2 (Nat.le_add_left _ _))
abbrev reads7_3 : Fin grid7.rank → Bool := ![false]

abbrev stage7_4 : Fin 1 → Memref sig .tc .vmem S1x32 .f32 := fun | 0 => Memref.whole cc7_stg4_0 | ⟨_ + 1, h⟩ => absurd h (Nat.not_lt.2 (Nat.le_add_left _ _))
abbrev sem7_4 : Fin 1 → DmaSem sig := fun | 0 => cc7_sem4_0 | ⟨_ + 1, h⟩ => absurd h (Nat.not_lt.2 (Nat.le_add_left _ _))
abbrev reads7_4 : Fin grid7.rank → Bool := ![false]

abbrev stage7_5 : Fin 1 → Memref sig .tc .vmem S32x32 .f32 := fun | 0 => Memref.whole cc7_stg5_0 | ⟨_ + 1, h⟩ => absurd h (Nat.not_lt.2 (Nat.le_add_left _ _))
abbrev sem7_5 : Fin 1 → DmaSem sig := fun | 0 => cc7_sem5_0 | ⟨_ + 1, h⟩ => absurd h (Nat.not_lt.2 (Nat.le_add_left _ _))
abbrev reads7_5 : Fin grid7.rank → Bool := ![false]

abbrev stage7_6 : Fin 1 → Memref sig .tc .vmem S1x32 .f32 := fun | 0 => Memref.whole cc7_stg6_0 | ⟨_ + 1, h⟩ => absurd h (Nat.not_lt.2 (Nat.le_add_left _ _))
abbrev sem7_6 : Fin 1 → DmaSem sig := fun | 0 => cc7_sem6_0 | ⟨_ + 1, h⟩ => absurd h (Nat.not_lt.2 (Nat.le_add_left _ _))
abbrev reads7_6 : Fin grid7.rank → Bool := ![false]

abbrev stage7_7 : Fin 2 → Memref sig .tc .vmem S5000x32 .f32 := fun | 0 => Memref.whole cc7_stg7_0 | 1 => Memref.whole cc7_stg7_1 | ⟨_ + 2, h⟩ => absurd h (Nat.not_lt.2 (Nat.le_add_left _ _))
abbrev sem7_7 : Fin 2 → DmaSem sig := fun | 0 => cc7_sem7_0 | 1 => cc7_sem7_1 | ⟨_ + 2, h⟩ => absurd h (Nat.not_lt.2 (Nat.le_add_left _ _))
abbrev reads7_7 : Fin grid7.rank → Bool := ![true]

class Facts₀ : Prop where
  transposes_S32x128_S128x32_1_0 : S32x128.Transposes [1, 0] S128x32
  transposes_S32x32_S32x32_1_0 : S32x32.Transposes [1, 0] S32x32
  bcast_S_S819200 : S_.BroadcastsInDim S819200 (![] : Fin 0 → Fin S819200.rank)
  bcast_S_S50000 : S_.BroadcastsInDim S50000 (![] : Fin 0 → Fin S50000.rank)
  bcast_S819200_S819200x1_0 : S819200.BroadcastsInDim S819200x1 (![0] : Fin 1 → Fin S819200x1.rank)
  bcast_S_S100000 : S_.BroadcastsInDim S100000 (![] : Fin 0 → Fin S100000.rank)
  inb_S5000x128_S5000x128_0_0 : ∀ a, (![0, 0] : Fin 2 → Nat) a + S5000x128.size a ≤ S5000x128.size a
  h_S5000x128 : 0 < S5000x128.numel
  inb_S128x32_S128x32_0_0 : ∀ a, (![0, 0] : Fin 2 → Nat) a + S128x32.size a ≤ S128x32.size a
  h_S128x32 : 0 < S128x32.numel
  shapeCasts_S128x32_S128x32 : S128x32.ShapeCasts S128x32
  inb_S5000x32_S5000x32_0_0 : ∀ a, (![0, 0] : Fin 2 → Nat) a + S5000x32.size a ≤ S5000x32.size a
  h_S5000x32 : 0 < S5000x32.numel
  bcast_S_S50000x32 : S_.BroadcastsInDim S50000x32 (![] : Fin 0 → Fin S50000x32.rank)
  bcast_S_S100000x32 : S_.BroadcastsInDim S100000x32 (![] : Fin 0 → Fin S100000x32.rank)
  shapeCasts_S50000_S50000x1 : S50000.ShapeCasts S50000x1
  shapeCasts_S32_S1x32 : S32.ShapeCasts S1x32
  shapeCasts_S5000x32_S5000x32 : S5000x32.ShapeCasts S5000x32
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x32 : S5000x1.Broadcasts S5000x32
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S5000x32 : S1x32.Broadcasts S5000x32
  reduces_S5000x32_S5000 : S5000x32.Reduces [1] S5000
  shapeCasts_S5000_S5000x1 : S5000.ShapeCasts S5000x1
  shapeCasts_S100000_S100000x1 : S100000.ShapeCasts S100000x1
  inb_S32x32_S32x32_0_0 : ∀ a, (![0, 0] : Fin 2 → Nat) a + S32x32.size a ≤ S32x32.size a
  h_S32x32 : 0 < S32x32.numel
  shapeCasts_S32x32_S32x32 : S32x32.ShapeCasts S32x32
  scatter_S50000_S819200x1_S819200_n_0_0_1_wf : ScatterDims.WF S50000 S819200x1 S819200 [] [0] [0] 1
  scatter_S100000_S819200x1_S819200_n_0_0_1_wf : ScatterDims.WF S100000 S819200x1 S819200 [] [0] [0] 1
  dot_S5000x128_S128x32_S5000x32_1_0_0_1_n_n_wf : DotDims.WF S5000x128 S128x32 S5000x32 [1] [0] [0] [1] [] []
  gather_S100000x32_S819200x1_S819200x32_1_0_n_n_0_1_132_wf : GatherDims.WF S100000x32 S819200x1 S819200x32 [1] [0] [] [0] [] 1 ![1, 32]
  scatter_S50000x32_S819200x1_S819200x32_1_0_0_1_wf : ScatterDims.WF S50000x32 S819200x1 S819200x32 [1] [0] [0] 1
  gather_S50000x32_S819200x1_S819200x32_1_0_n_n_0_1_132_wf : GatherDims.WF S50000x32 S819200x1 S819200x32 [1] [0] [] [0] [] 1 ![1, 32]
  scatter_S100000x32_S819200x1_S819200x32_1_0_0_1_wf : ScatterDims.WF S100000x32 S819200x1 S819200x32 [1] [0] [0] 1
  dot_S5000x32_S32x32_S5000x32_1_0_0_1_n_n_wf : DotDims.WF S5000x32 S32x32 S5000x32 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x32.size a ≤ S128x32.size a
  hwx0_1 : ∀ i : grid0.Coords, EltTy.bits .f32 = 32 ∨ (Rect.block (s := S128x32) S128x32.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x32.size a ≤ S100000x32.size a
  hwx0_2 : ∀ i : grid0.Coords, EltTy.bits .f32 = 32 ∨ (Rect.block (s := S100000x32) S5000x32.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x32.size a ≤ S128x32.size a
  hwx1_1 : ∀ i : grid1.Coords, EltTy.bits .f32 = 32 ∨ (Rect.block (s := S128x32) S128x32.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x32.size a ≤ S50000x32.size a
  hwx1_2 : ∀ i : grid1.Coords, EltTy.bits .f32 = 32 ∨ (Rect.block (s := S50000x32) S5000x32.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x32.size a ≤ S50000x32.size a
  hwx2_0 : ∀ i : grid2.Coords, EltTy.bits .f32 = 32 ∨ (Rect.block (s := S50000x32) S5000x32.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x1.size a ≤ S50000x1.size a
  hwx2_1 : ∀ i : grid2.Coords, EltTy.bits .f32 = 32 ∨ (Rect.block (s := S50000x1) S5000x1.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x128.size a ≤ S50000x128.size a
  hwx2_2 : ∀ i : grid2.Coords, EltTy.bits .f32 = 32 ∨ (Rect.block (s := S50000x128) S5000x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x32.size a ≤ S128x32.size a
  hwx2_3 : ∀ i : grid2.Coords, EltTy.bits .f32 = 32 ∨ (Rect.block (s := S128x32) S128x32.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x32.size a ≤ S1x32.size a
  hwx2_4 : ∀ i : grid2.Coords, EltTy.bits .f32 = 32 ∨ (Rect.block (s := S1x32) S1x32.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S5000x32.size a ≤ S50000x32.size a
  hwx2_5 : ∀ i : grid2.Coords, EltTy.bits .f32 = 32 ∨ (Rect.block (s := S50000x32) S5000x32.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x32.size a ≤ S100000x32.size a
  hwx3_0 : ∀ i : grid3.Coords, EltTy.bits .f32 = 32 ∨ (Rect.block (s := S100000x32) S5000x32.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x1.size a ≤ S100000x1.size a
  hwx3_1 : ∀ i : grid3.Coords, EltTy.bits .f32 = 32 ∨ (Rect.block (s := S100000x1) S5000x1.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x128.size a ≤ S100000x128.size a
  hwx3_2 : ∀ i : grid3.Coords, EltTy.bits .f32 = 32 ∨ (Rect.block (s := S100000x128) S5000x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S128x32.size a ≤ S128x32.size a
  hwx3_3 : ∀ i : grid3.Coords, EltTy.bits .f32 = 32 ∨ (Rect.block (s := S128x32) S128x32.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x32.size a ≤ S1x32.size a
  hwx3_4 : ∀ i : grid3.Coords, EltTy.bits .f32 = 32 ∨ (Rect.block (s := S1x32) S1x32.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S5000x32.size a ≤ S100000x32.size a
  hwx3_5 : ∀ i : grid3.Coords, EltTy.bits .f32 = 32 ∨ (Rect.block (s := S100000x32) S5000x32.size (cc3_transform_5 i) (hinb3_5 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x32.size a ≤ S100000x32.size a
  hwx4_0 : ∀ i : grid4.Coords, EltTy.bits .f32 = 32 ∨ (Rect.block (s := S100000x32) S5000x32.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S32x32.size a ≤ S32x32.size a
  hwx4_1 : ∀ i : grid4.Coords, EltTy.bits .f32 = 32 ∨ (Rect.block (s := S32x32) S32x32.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S5000x32.size a ≤ S100000x32.size a
  hwx4_2 : ∀ i : grid4.Coords, EltTy.bits .f32 = 32 ∨ (Rect.block (s := S100000x32) S5000x32.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x32.size a ≤ S50000x32.size a
  hwx5_0 : ∀ i : grid5.Coords, EltTy.bits .f32 = 32 ∨ (Rect.block (s := S50000x32) S5000x32.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S32x32.size a ≤ S32x32.size a
  hwx5_1 : ∀ i : grid5.Coords, EltTy.bits .f32 = 32 ∨ (Rect.block (s := S32x32) S32x32.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S5000x32.size a ≤ S50000x32.size a
  hwx5_2 : ∀ i : grid5.Coords, EltTy.bits .f32 = 32 ∨ (Rect.block (s := S50000x32) S5000x32.size (cc5_transform_2 i) (hinb5_2 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S5000x32.size a ≤ S50000x32.size a
  hwx6_0 : ∀ i : grid6.Coords, EltTy.bits .f32 = 32 ∨ (Rect.block (s := S50000x32) S5000x32.size (cc6_transform_0 i) (hinb6_0 i)).WholeWords (EltTy.packing .f32)
  hstage6_1 : ∀ j, (stage6_1 j).IsWhole
  nbuf6_1 : grid6.bufCount reads6_1 false = 2
  hreads6_1 : ∀ i i' : grid6.Coords, (∀ a, reads6_1 a = true → i a = i' a) → cc6_transform_1 i = cc6_transform_1 i'
  hinb6_1 : ∀ (i : grid6.Coords) a, (cc6_transform_1 i a + 1) * S5000x1.size a ≤ S50000x1.size a
  hwx6_1 : ∀ i : grid6.Coords, EltTy.bits .f32 = 32 ∨ (Rect.block (s := S50000x1) S5000x1.size (cc6_transform_1 i) (hinb6_1 i)).WholeWords (EltTy.packing .f32)
  hstage6_2 : ∀ j, (stage6_2 j).IsWhole
  nbuf6_2 : grid6.bufCount reads6_2 false = 2
  hreads6_2 : ∀ i i' : grid6.Coords, (∀ a, reads6_2 a = true → i a = i' a) → cc6_transform_2 i = cc6_transform_2 i'
  hinb6_2 : ∀ (i : grid6.Coords) a, (cc6_transform_2 i a + 1) * S5000x32.size a ≤ S50000x32.size a
  hwx6_2 : ∀ i : grid6.Coords, EltTy.bits .f32 = 32 ∨ (Rect.block (s := S50000x32) S5000x32.size (cc6_transform_2 i) (hinb6_2 i)).WholeWords (EltTy.packing .f32)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S32x32.size a ≤ S32x32.size a
  hwx6_3 : ∀ i : grid6.Coords, EltTy.bits .f32 = 32 ∨ (Rect.block (s := S32x32) S32x32.size (cc6_transform_3 i) (hinb6_3 i)).WholeWords (EltTy.packing .f32)
  hstage6_4 : ∀ j, (stage6_4 j).IsWhole
  nbuf6_4 : grid6.bufCount reads6_4 true = 1
  hreads6_4 : ∀ i i' : grid6.Coords, (∀ a, reads6_4 a = true → i a = i' a) → cc6_transform_4 i = cc6_transform_4 i'
  hinb6_4 : ∀ (i : grid6.Coords) a, (cc6_transform_4 i a + 1) * S1x32.size a ≤ S1x32.size a
  hwx6_4 : ∀ i : grid6.Coords, EltTy.bits .f32 = 32 ∨ (Rect.block (s := S1x32) S1x32.size (cc6_transform_4 i) (hinb6_4 i)).WholeWords (EltTy.packing .f32)
  hstage6_5 : ∀ j, (stage6_5 j).IsWhole
  nbuf6_5 : grid6.bufCount reads6_5 true = 1
  hreads6_5 : ∀ i i' : grid6.Coords, (∀ a, reads6_5 a = true → i a = i' a) → cc6_transform_5 i = cc6_transform_5 i'
  hinb6_5 : ∀ (i : grid6.Coords) a, (cc6_transform_5 i a + 1) * S32x32.size a ≤ S32x32.size a
  hwx6_5 : ∀ i : grid6.Coords, EltTy.bits .f32 = 32 ∨ (Rect.block (s := S32x32) S32x32.size (cc6_transform_5 i) (hinb6_5 i)).WholeWords (EltTy.packing .f32)
  hstage6_6 : ∀ j, (stage6_6 j).IsWhole
  nbuf6_6 : grid6.bufCount reads6_6 true = 1
  hreads6_6 : ∀ i i' : grid6.Coords, (∀ a, reads6_6 a = true → i a = i' a) → cc6_transform_6 i = cc6_transform_6 i'
  hinb6_6 : ∀ (i : grid6.Coords) a, (cc6_transform_6 i a + 1) * S1x32.size a ≤ S1x32.size a
  hwx6_6 : ∀ i : grid6.Coords, EltTy.bits .f32 = 32 ∨ (Rect.block (s := S1x32) S1x32.size (cc6_transform_6 i) (hinb6_6 i)).WholeWords (EltTy.packing .f32)
  hstage6_7 : ∀ j, (stage6_7 j).IsWhole
  nbuf6_7 : grid6.bufCount reads6_7 false = 2
  hreads6_7 : ∀ i i' : grid6.Coords, (∀ a, reads6_7 a = true → i a = i' a) → cc6_transform_7 i = cc6_transform_7 i'
  hinb6_7 : ∀ (i : grid6.Coords) a, (cc6_transform_7 i a + 1) * S5000x32.size a ≤ S50000x32.size a
  hwx6_7 : ∀ i : grid6.Coords, EltTy.bits .f32 = 32 ∨ (Rect.block (s := S50000x32) S5000x32.size (cc6_transform_7 i) (hinb6_7 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S5000x32.size a ≤ S100000x32.size a
  hwx7_0 : ∀ i : grid7.Coords, EltTy.bits .f32 = 32 ∨ (Rect.block (s := S100000x32) S5000x32.size (cc7_transform_0 i) (hinb7_0 i)).WholeWords (EltTy.packing .f32)
  hstage7_1 : ∀ j, (stage7_1 j).IsWhole
  nbuf7_1 : grid7.bufCount reads7_1 false = 2
  hreads7_1 : ∀ i i' : grid7.Coords, (∀ a, reads7_1 a = true → i a = i' a) → cc7_transform_1 i = cc7_transform_1 i'
  hinb7_1 : ∀ (i : grid7.Coords) a, (cc7_transform_1 i a + 1) * S5000x1.size a ≤ S100000x1.size a
  hwx7_1 : ∀ i : grid7.Coords, EltTy.bits .f32 = 32 ∨ (Rect.block (s := S100000x1) S5000x1.size (cc7_transform_1 i) (hinb7_1 i)).WholeWords (EltTy.packing .f32)
  hstage7_2 : ∀ j, (stage7_2 j).IsWhole
  nbuf7_2 : grid7.bufCount reads7_2 false = 2
  hreads7_2 : ∀ i i' : grid7.Coords, (∀ a, reads7_2 a = true → i a = i' a) → cc7_transform_2 i = cc7_transform_2 i'
  hinb7_2 : ∀ (i : grid7.Coords) a, (cc7_transform_2 i a + 1) * S5000x32.size a ≤ S100000x32.size a
  hwx7_2 : ∀ i : grid7.Coords, EltTy.bits .f32 = 32 ∨ (Rect.block (s := S100000x32) S5000x32.size (cc7_transform_2 i) (hinb7_2 i)).WholeWords (EltTy.packing .f32)
  hstage7_3 : ∀ j, (stage7_3 j).IsWhole
  nbuf7_3 : grid7.bufCount reads7_3 true = 1
  hreads7_3 : ∀ i i' : grid7.Coords, (∀ a, reads7_3 a = true → i a = i' a) → cc7_transform_3 i = cc7_transform_3 i'
  hinb7_3 : ∀ (i : grid7.Coords) a, (cc7_transform_3 i a + 1) * S32x32.size a ≤ S32x32.size a
  hwx7_3 : ∀ i : grid7.Coords, EltTy.bits .f32 = 32 ∨ (Rect.block (s := S32x32) S32x32.size (cc7_transform_3 i) (hinb7_3 i)).WholeWords (EltTy.packing .f32)
  hstage7_4 : ∀ j, (stage7_4 j).IsWhole
  nbuf7_4 : grid7.bufCount reads7_4 true = 1
  hreads7_4 : ∀ i i' : grid7.Coords, (∀ a, reads7_4 a = true → i a = i' a) → cc7_transform_4 i = cc7_transform_4 i'
  hinb7_4 : ∀ (i : grid7.Coords) a, (cc7_transform_4 i a + 1) * S1x32.size a ≤ S1x32.size a
  hwx7_4 : ∀ i : grid7.Coords, EltTy.bits .f32 = 32 ∨ (Rect.block (s := S1x32) S1x32.size (cc7_transform_4 i) (hinb7_4 i)).WholeWords (EltTy.packing .f32)
  hstage7_5 : ∀ j, (stage7_5 j).IsWhole
  nbuf7_5 : grid7.bufCount reads7_5 true = 1
  hreads7_5 : ∀ i i' : grid7.Coords, (∀ a, reads7_5 a = true → i a = i' a) → cc7_transform_5 i = cc7_transform_5 i'
  hinb7_5 : ∀ (i : grid7.Coords) a, (cc7_transform_5 i a + 1) * S32x32.size a ≤ S32x32.size a
  hwx7_5 : ∀ i : grid7.Coords, EltTy.bits .f32 = 32 ∨ (Rect.block (s := S32x32) S32x32.size (cc7_transform_5 i) (hinb7_5 i)).WholeWords (EltTy.packing .f32)
  hstage7_6 : ∀ j, (stage7_6 j).IsWhole
  nbuf7_6 : grid7.bufCount reads7_6 true = 1
  hreads7_6 : ∀ i i' : grid7.Coords, (∀ a, reads7_6 a = true → i a = i' a) → cc7_transform_6 i = cc7_transform_6 i'
  hinb7_6 : ∀ (i : grid7.Coords) a, (cc7_transform_6 i a + 1) * S1x32.size a ≤ S1x32.size a
  hwx7_6 : ∀ i : grid7.Coords, EltTy.bits .f32 = 32 ∨ (Rect.block (s := S1x32) S1x32.size (cc7_transform_6 i) (hinb7_6 i)).WholeWords (EltTy.packing .f32)
  hstage7_7 : ∀ j, (stage7_7 j).IsWhole
  nbuf7_7 : grid7.bufCount reads7_7 false = 2
  hreads7_7 : ∀ i i' : grid7.Coords, (∀ a, reads7_7 a = true → i a = i' a) → cc7_transform_7 i = cc7_transform_7 i'
  hinb7_7 : ∀ (i : grid7.Coords) a, (cc7_transform_7 i a + 1) * S5000x32.size a ≤ S100000x32.size a
  hwx7_7 : ∀ i : grid7.Coords, EltTy.bits .f32 = 32 ∨ (Rect.block (s := S100000x32) S5000x32.size (cc7_transform_7 i) (hinb7_7 i)).WholeWords (EltTy.packing .f32)

variable [Facts₀]

def scatter_S50000_S819200x1_S819200_n_0_0_1 : ScatterDims S50000 S819200x1 S819200 where
  updateWindowDims := []
  insertedWindowDims := [0]
  scatterDimsToOperandDims := [0]
  indexVectorDim := 1
  wf := scatter_S50000_S819200x1_S819200_n_0_0_1_wf
def scatter_S100000_S819200x1_S819200_n_0_0_1 : ScatterDims S100000 S819200x1 S819200 where
  updateWindowDims := []
  insertedWindowDims := [0]
  scatterDimsToOperandDims := [0]
  indexVectorDim := 1
  wf := scatter_S100000_S819200x1_S819200_n_0_0_1_wf
def dot_S5000x128_S128x32_S5000x32_1_0_0_1_n_n : DotDims S5000x128 S128x32 S5000x32 where
  lhsContracting := [1]
  rhsContracting := [0]
  lhsNonContracting := [0]
  rhsNonContracting := [1]
  lhsBatch := []
  rhsBatch := []
  wf := dot_S5000x128_S128x32_S5000x32_1_0_0_1_n_n_wf
def gather_S100000x32_S819200x1_S819200x32_1_0_n_n_0_1_132 : GatherDims S100000x32 S819200x1 S819200x32 where
  offsetDims := [1]
  collapsedSliceDims := [0]
  operandBatchingDims := []
  startIndicesBatchingDims := []
  startIndexMap := [0]
  indexVectorDim := 1
  sliceSizes := ![1, 32]
  wf := gather_S100000x32_S819200x1_S819200x32_1_0_n_n_0_1_132_wf
def scatter_S50000x32_S819200x1_S819200x32_1_0_0_1 : ScatterDims S50000x32 S819200x1 S819200x32 where
  updateWindowDims := [1]
  insertedWindowDims := [0]
  scatterDimsToOperandDims := [0]
  indexVectorDim := 1
  wf := scatter_S50000x32_S819200x1_S819200x32_1_0_0_1_wf
def gather_S50000x32_S819200x1_S819200x32_1_0_n_n_0_1_132 : GatherDims S50000x32 S819200x1 S819200x32 where
  offsetDims := [1]
  collapsedSliceDims := [0]
  operandBatchingDims := []
  startIndicesBatchingDims := []
  startIndexMap := [0]
  indexVectorDim := 1
  sliceSizes := ![1, 32]
  wf := gather_S50000x32_S819200x1_S819200x32_1_0_n_n_0_1_132_wf
def scatter_S100000x32_S819200x1_S819200x32_1_0_0_1 : ScatterDims S100000x32 S819200x1 S819200x32 where
  updateWindowDims := [1]
  insertedWindowDims := [0]
  scatterDimsToOperandDims := [0]
  indexVectorDim := 1
  wf := scatter_S100000x32_S819200x1_S819200x32_1_0_0_1_wf
def dot_S5000x32_S32x32_S5000x32_1_0_0_1_n_n : DotDims S5000x32 S32x32 S5000x32 where
  lhsContracting := [1]
  rhsContracting := [0]
  lhsNonContracting := [0]
  rhsNonContracting := [1]
  lhsBatch := []
  rhsBatch := []
  wf := dot_S5000x32_S32x32_S5000x32_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S128x32.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v26) S5000x32.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg1) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v2) S128x32.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v27) S5000x32.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v37) S5000x32.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v48) S5000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg1) S5000x128.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v1) S128x32.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v49) S1x32.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v50) S5000x32.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v47) S5000x32.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v51) S5000x1.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_arg0) S5000x128.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v3) S128x32.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v52) S1x32.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v53) S5000x32.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

abbrev win4_0 : Pipeline.Window sig grid4 :=
  Pipeline.Window.ofSpec (Memref.whole main_v53) S5000x32.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v4) S32x32.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v54) S5000x32.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v50) S5000x32.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v6) S32x32.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v55) S5000x32.size cc5_transform_2 reads5_2 true false 2 stage5_2 sem5_2
    hrank5 hreads5_2 hinb5_2 nbuf5_2 (Memref.isWhole_whole _) hwx5_2 hstage5_2

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

abbrev win6_0 : Pipeline.Window sig grid6 :=
  Pipeline.Window.ofSpec (Memref.whole main_v65) S5000x32.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v76) S5000x1.size cc6_transform_1 reads6_1 false false 2 stage6_1 sem6_1
    hrank6 hreads6_1 hinb6_1 nbuf6_1 (Memref.isWhole_whole _) hwx6_1 hstage6_1

abbrev win6_2 : Pipeline.Window sig grid6 :=
  Pipeline.Window.ofSpec (Memref.whole main_v50) S5000x32.size cc6_transform_2 reads6_2 false false 2 stage6_2 sem6_2
    hrank6 hreads6_2 hinb6_2 nbuf6_2 (Memref.isWhole_whole _) hwx6_2 hstage6_2

abbrev win6_3 : Pipeline.Window sig grid6 :=
  Pipeline.Window.ofSpec (Memref.whole main_v5) S32x32.size cc6_transform_3 reads6_3 false true 1 stage6_3 sem6_3
    hrank6 hreads6_3 hinb6_3 nbuf6_3 (Memref.isWhole_whole _) hwx6_3 hstage6_3

abbrev win6_4 : Pipeline.Window sig grid6 :=
  Pipeline.Window.ofSpec (Memref.whole main_v77) S1x32.size cc6_transform_4 reads6_4 false true 1 stage6_4 sem6_4
    hrank6 hreads6_4 hinb6_4 nbuf6_4 (Memref.isWhole_whole _) hwx6_4 hstage6_4

abbrev win6_5 : Pipeline.Window sig grid6 :=
  Pipeline.Window.ofSpec (Memref.whole main_v9) S32x32.size cc6_transform_5 reads6_5 false true 1 stage6_5 sem6_5
    hrank6 hreads6_5 hinb6_5 nbuf6_5 (Memref.isWhole_whole _) hwx6_5 hstage6_5

abbrev win6_6 : Pipeline.Window sig grid6 :=
  Pipeline.Window.ofSpec (Memref.whole main_v78) S1x32.size cc6_transform_6 reads6_6 false true 1 stage6_6 sem6_6
    hrank6 hreads6_6 hinb6_6 nbuf6_6 (Memref.isWhole_whole _) hwx6_6 hstage6_6

abbrev win6_7 : Pipeline.Window sig grid6 :=
  Pipeline.Window.ofSpec (Memref.whole main_v79) S5000x32.size cc6_transform_7 reads6_7 true false 2 stage6_7 sem6_7
    hrank6 hreads6_7 hinb6_7 nbuf6_7 (Memref.isWhole_whole _) hwx6_7 hstage6_7

abbrev win6 : Fin 8 → Pipeline.Window sig grid6 := fun | 0 => win6_0 | 1 => win6_1 | 2 => win6_2 | 3 => win6_3 | 4 => win6_4 | 5 => win6_5 | 6 => win6_6 | 7 => win6_7 | ⟨_ + 8, h⟩ => absurd h (Nat.not_lt.2 (Nat.le_add_left _ _))
abbrev spec6 : Fin 8 → Pipeline.WinSpec sig grid6.rank := fun w => (win6 w).toWinSpec

abbrev win7_0 : Pipeline.Window sig grid7 :=
  Pipeline.Window.ofSpec (Memref.whole main_v75) S5000x32.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v80) S5000x1.size cc7_transform_1 reads7_1 false false 2 stage7_1 sem7_1
    hrank7 hreads7_1 hinb7_1 nbuf7_1 (Memref.isWhole_whole _) hwx7_1 hstage7_1

abbrev win7_2 : Pipeline.Window sig grid7 :=
  Pipeline.Window.ofSpec (Memref.whole main_v53) S5000x32.size cc7_transform_2 reads7_2 false false 2 stage7_2 sem7_2
    hrank7 hreads7_2 hinb7_2 nbuf7_2 (Memref.isWhole_whole _) hwx7_2 hstage7_2

abbrev win7_3 : Pipeline.Window sig grid7 :=
  Pipeline.Window.ofSpec (Memref.whole main_v7) S32x32.size cc7_transform_3 reads7_3 false true 1 stage7_3 sem7_3
    hrank7 hreads7_3 hinb7_3 nbuf7_3 (Memref.isWhole_whole _) hwx7_3 hstage7_3

abbrev win7_4 : Pipeline.Window sig grid7 :=
  Pipeline.Window.ofSpec (Memref.whole main_v81) S1x32.size cc7_transform_4 reads7_4 false true 1 stage7_4 sem7_4
    hrank7 hreads7_4 hinb7_4 nbuf7_4 (Memref.isWhole_whole _) hwx7_4 hstage7_4

abbrev win7_5 : Pipeline.Window sig grid7 :=
  Pipeline.Window.ofSpec (Memref.whole main_v8) S32x32.size cc7_transform_5 reads7_5 false true 1 stage7_5 sem7_5
    hrank7 hreads7_5 hinb7_5 nbuf7_5 (Memref.isWhole_whole _) hwx7_5 hstage7_5

abbrev win7_6 : Pipeline.Window sig grid7 :=
  Pipeline.Window.ofSpec (Memref.whole main_v82) S1x32.size cc7_transform_6 reads7_6 false true 1 stage7_6 sem7_6
    hrank7 hreads7_6 hinb7_6 nbuf7_6 (Memref.isWhole_whole _) hwx7_6 hstage7_6

abbrev win7_7 : Pipeline.Window sig grid7 :=
  Pipeline.Window.ofSpec (Memref.whole main_v83) S5000x32.size cc7_transform_7 reads7_7 true false 2 stage7_7 sem7_7
    hrank7 hreads7_7 hinb7_7 nbuf7_7 (Memref.isWhole_whole _) hwx7_7 hstage7_7

abbrev win7 : Fin 8 → Pipeline.Window sig grid7 := fun | 0 => win7_0 | 1 => win7_1 | 2 => win7_2 | 3 => win7_3 | 4 => win7_4 | 5 => win7_5 | 6 => win7_6 | 7 => win7_7 | ⟨_ + 8, h⟩ => absurd h (Nat.not_lt.2 (Nat.le_add_left _ _))
abbrev spec7 : Fin 8 → Pipeline.WinSpec sig grid7.rank := fun w => (win7 w).toWinSpec

class Facts : Prop extends Facts₀ where

variable [Facts]
-- ==== ReferenceIdeal.lean ====
abbrev S100000x128 : Shape := ⟨2, ![100000, 128]⟩
abbrev S50000x128 : Shape := ⟨2, ![50000, 128]⟩
abbrev S819200 : Shape := ⟨1, ![819200]⟩
abbrev S32x128 : Shape := ⟨2, ![32, 128]⟩
abbrev S32 : Shape := ⟨1, ![32]⟩
abbrev S32x32 : Shape := ⟨2, ![32, 32]⟩
abbrev S_ : Shape := ⟨0, ![]⟩
abbrev S819200x1 : Shape := ⟨2, ![819200, 1]⟩
abbrev S819200x128 : Shape := ⟨2, ![819200, 128]⟩
abbrev S50000 : Shape := ⟨1, ![50000]⟩
abbrev S50000x1 : Shape := ⟨2, ![50000, 1]⟩
abbrev S128x32 : Shape := ⟨2, ![128, 32]⟩
abbrev S50000x32 : Shape := ⟨2, ![50000, 32]⟩
abbrev S1x32 : Shape := ⟨2, ![1, 32]⟩
abbrev S100000 : Shape := ⟨1, ![100000]⟩
abbrev S100000x1 : Shape := ⟨2, ![100000, 1]⟩
abbrev S100000x32 : Shape := ⟨2, ![100000, 32]⟩
abbrev S819200x32 : Shape := ⟨2, ![819200, 32]⟩

abbrev nBuf : Space → Nat
  | .hbm => 234
  | .vmem => 0
  | .smem => 0
  | _ => 0

abbrev hbmTy0_0 (i : Nat) : BufTy := match i % 128 with
  | 0 => ⟨S100000x128, .f32⟩
  | 1 => ⟨S50000x128, .f32⟩
  | 2 => ⟨S819200, .i32⟩
  | 3 => ⟨S819200, .i32⟩
  | 4 => ⟨S32x128, .f32⟩
  | 5 => ⟨S32, .f32⟩
  | 6 => ⟨S32x128, .f32⟩
  | 7 => ⟨S32x128, .f32⟩
  | 8 => ⟨S32, .f32⟩
  | 9 => ⟨S32x128, .f32⟩
  | 10 => ⟨S32x32, .f32⟩
  | 11 => ⟨S32, .f32⟩
  | 12 => ⟨S32x32, .f32⟩
  | 13 => ⟨S32x32, .f32⟩
  | 14 => ⟨S32, .f32⟩
  | 15 => ⟨S32x32, .f32⟩
  | 16 => ⟨S32x32, .f32⟩
  | 17 => ⟨S32, .f32⟩
  | 18 => ⟨S32x32, .f32⟩
  | 19 => ⟨S32, .f32⟩
  | 20 => ⟨S_, .i32⟩
  | 21 => ⟨S819200, .i32⟩
  | 22 => ⟨S819200, .i1⟩
  | 23 => ⟨S_, .i32⟩
  | 24 => ⟨S819200, .i32⟩
  | 25 => ⟨S819200, .i32⟩
  | 26 => ⟨S819200, .i32⟩
  | 27 => ⟨S819200x1, .i32⟩
  | 28 => ⟨S819200x128, .f32⟩
  | 29 => ⟨S_, .f32⟩
  | 30 => ⟨S50000x128, .f32⟩
  | 31 => ⟨S819200x1, .i32⟩
  | 32 => ⟨S50000x128, .f32⟩
  | 33 => ⟨S_, .f32⟩
  | 34 => ⟨S819200, .f32⟩
  | 35 => ⟨S_, .f32⟩
  | 36 => ⟨S50000, .f32⟩
  | 37 => ⟨S819200x1, .i32⟩
  | 38 => ⟨S50000, .f32⟩
  | 39 => ⟨S_, .f32⟩
  | 40 => ⟨S50000, .f32⟩
  | 41 => ⟨S50000, .f32⟩
  | 42 => ⟨S50000x1, .f32⟩
  | 43 => ⟨S50000x128, .f32⟩
  | 44 => ⟨S50000x128, .f32⟩
  | 45 => ⟨S128x32, .f32⟩
  | 46 => ⟨S50000x32, .f32⟩
  | 47 => ⟨S1x32, .f32⟩
  | 48 => ⟨S50000x32, .f32⟩
  | 49 => ⟨S50000x32, .f32⟩
  | 50 => ⟨S128x32, .f32⟩
  | 51 => ⟨S50000x32, .f32⟩
  | 52 => ⟨S50000x32, .f32⟩
  | 53 => ⟨S50000x32, .f32⟩
  | 54 => ⟨S_, .f32⟩
  | 55 => ⟨S50000, .f32⟩
  | 56 => ⟨S50000x1, .f32⟩
  | 57 => ⟨S50000x1, .f32⟩
  | 58 => ⟨S_, .f32⟩
  | 59 => ⟨S50000x1, .f32⟩
  | 60 => ⟨S50000x1, .f32⟩
  | 61 => ⟨S50000x32, .f32⟩
  | 62 => ⟨S50000x32, .f32⟩
  | 63 => ⟨S_, .f32⟩
  | 64 => ⟨S50000x32, .f32⟩
  | 65 => ⟨S50000x32, .f32⟩
  | 66 => ⟨S_, .i32⟩
  | 67 => ⟨S819200, .i32⟩
  | 68 => ⟨S819200, .i1⟩
  | 69 => ⟨S_, .i32⟩
  | 70 => ⟨S819200, .i32⟩
  | 71 => ⟨S819200, .i32⟩
  | 72 => ⟨S819200, .i32⟩
  | 73 => ⟨S819200x1, .i32⟩
  | 74 => ⟨S819200x128, .f32⟩
  | 75 => ⟨S_, .f32⟩
  | 76 => ⟨S100000x128, .f32⟩
  | 77 => ⟨S819200x1, .i32⟩
  | 78 => ⟨S100000x128, .f32⟩
  | 79 => ⟨S_, .f32⟩
  | 80 => ⟨S819200, .f32⟩
  | 81 => ⟨S_, .f32⟩
  | 82 => ⟨S100000, .f32⟩
  | 83 => ⟨S819200x1, .i32⟩
  | 84 => ⟨S100000, .f32⟩
  | 85 => ⟨S_, .f32⟩
  | 86 => ⟨S100000, .f32⟩
  | 87 => ⟨S100000, .f32⟩
  | 88 => ⟨S100000x1, .f32⟩
  | 89 => ⟨S100000x128, .f32⟩
  | 90 => ⟨S100000x128, .f32⟩
  | 91 => ⟨S128x32, .f32⟩
  | 92 => ⟨S100000x32, .f32⟩
  | 93 => ⟨S1x32, .f32⟩
  | 94 => ⟨S100000x32, .f32⟩
  | 95 => ⟨S100000x32, .f32⟩
  | 96 => ⟨S128x32, .f32⟩
  | 97 => ⟨S100000x32, .f32⟩
  | 98 => ⟨S100000x32, .f32⟩
  | 99 => ⟨S100000x32, .f32⟩
  | 100 => ⟨S_, .f32⟩
  | 101 => ⟨S100000, .f32⟩
  | 102 => ⟨S100000x1, .f32⟩
  | 103 => ⟨S100000x1, .f32⟩
  | 104 => ⟨S_, .f32⟩
  | 105 => ⟨S100000x1, .f32⟩
  | 106 => ⟨S100000x1, .f32⟩
  | 107 => ⟨S100000x32, .f32⟩
  | 108 => ⟨S100000x32, .f32⟩
  | 109 => ⟨S_, .f32⟩
  | 110 => ⟨S100000x32, .f32⟩
  | 111 => ⟨S100000x32, .f32⟩
  | 112 => ⟨S_, .i32⟩
  | 113 => ⟨S819200, .i32⟩
  | 114 => ⟨S819200, .i1⟩
  | 115 => ⟨S_, .i32⟩
  | 116 => ⟨S819200, .i32⟩
  | 117 => ⟨S819200, .i32⟩
  | 118 => ⟨S819200, .i32⟩
  | 119 => ⟨S819200x1, .i32⟩
  | 120 => ⟨S819200x32, .f32⟩
  | 121 => ⟨S_, .f32⟩
  | 122 => ⟨S50000x32, .f32⟩
  | 123 => ⟨S819200x1, .i32⟩
  | 124 => ⟨S50000x32, .f32⟩
  | 125 => ⟨S_, .f32⟩
  | 126 => ⟨S819200, .f32⟩
  | 127 => ⟨S_, .f32⟩
  | _ => ⟨S100000x128, .f32⟩

abbrev hbmTy0_1 (i : Nat) : BufTy := match i % 128 with
  | 0 => ⟨S50000, .f32⟩
  | 1 => ⟨S819200x1, .i32⟩
  | 2 => ⟨S50000, .f32⟩
  | 3 => ⟨S_, .f32⟩
  | 4 => ⟨S50000, .f32⟩
  | 5 => ⟨S50000, .f32⟩
  | 6 => ⟨S50000x1, .f32⟩
  | 7 => ⟨S50000x32, .f32⟩
  | 8 => ⟨S50000x32, .f32⟩
  | 9 => ⟨S32x32, .f32⟩
  | 10 => ⟨S50000x32, .f32⟩
  | 11 => ⟨S1x32, .f32⟩
  | 12 => ⟨S50000x32, .f32⟩
  | 13 => ⟨S50000x32, .f32⟩
  | 14 => ⟨S32x32, .f32⟩
  | 15 => ⟨S50000x32, .f32⟩
  | 16 => ⟨S50000x32, .f32⟩
  | 17 => ⟨S50000x32, .f32⟩
  | 18 => ⟨S_, .f32⟩
  | 19 => ⟨S50000, .f32⟩
  | 20 => ⟨S50000x1, .f32⟩
  | 21 => ⟨S50000x1, .f32⟩
  | 22 => ⟨S_, .f32⟩
  | 23 => ⟨S50000x1, .f32⟩
  | 24 => ⟨S50000x1, .f32⟩
  | 25 => ⟨S50000x32, .f32⟩
  | 26 => ⟨S50000x32, .f32⟩
  | 27 => ⟨S_, .f32⟩
  | 28 => ⟨S50000x32, .f32⟩
  | 29 => ⟨S50000x32, .f32⟩
  | 30 => ⟨S_, .i32⟩
  | 31 => ⟨S819200, .i32⟩
  | 32 => ⟨S819200, .i1⟩
  | 33 => ⟨S_, .i32⟩
  | 34 => ⟨S819200, .i32⟩
  | 35 => ⟨S819200, .i32⟩
  | 36 => ⟨S819200, .i32⟩
  | 37 => ⟨S819200x1, .i32⟩
  | 38 => ⟨S819200x32, .f32⟩
  | 39 => ⟨S_, .f32⟩
  | 40 => ⟨S100000x32, .f32⟩
  | 41 => ⟨S819200x1, .i32⟩
  | 42 => ⟨S100000x32, .f32⟩
  | 43 => ⟨S_, .f32⟩
  | 44 => ⟨S819200, .f32⟩
  | 45 => ⟨S_, .f32⟩
  | 46 => ⟨S100000, .f32⟩
  | 47 => ⟨S819200x1, .i32⟩
  | 48 => ⟨S100000, .f32⟩
  | 49 => ⟨S_, .f32⟩
  | 50 => ⟨S100000, .f32⟩
  | 51 => ⟨S100000, .f32⟩
  | 52 => ⟨S100000x1, .f32⟩
  | 53 => ⟨S100000x32, .f32⟩
  | 54 => ⟨S100000x32, .f32⟩
  | 55 => ⟨S32x32, .f32⟩
  | 56 => ⟨S100000x32, .f32⟩
  | 57 => ⟨S1x32, .f32⟩
  | 58 => ⟨S100000x32, .f32⟩
  | 59 => ⟨S100000x32, .f32⟩
  | 60 => ⟨S32x32, .f32⟩
  | 61 => ⟨S100000x32, .f32⟩
  | 62 => ⟨S100000x32, .f32⟩
  | 63 => ⟨S100000x32, .f32⟩
  | 64 => ⟨S_, .f32⟩
  | 65 => ⟨S100000, .f32⟩
  | 66 => ⟨S100000x1, .f32⟩
  | 67 => ⟨S100000x1, .f32⟩
  | 68 => ⟨S_, .f32⟩
  | 69 => ⟨S100000x1, .f32⟩
  | 70 => ⟨S100000x1, .f32⟩
  | 71 => ⟨S100000x32, .f32⟩
  | 72 => ⟨S100000x32, .f32⟩
  | 73 => ⟨S_, .f32⟩
  | 74 => ⟨S100000x32, .f32⟩
  | 75 => ⟨S100000x32, .f32⟩
  | 76 => ⟨S32x32, .f32⟩
  | 77 => ⟨S100000x32, .f32⟩
  | 78 => ⟨S1x32, .f32⟩
  | 79 => ⟨S100000x32, .f32⟩
  | 80 => ⟨S100000x32, .f32⟩
  | 81 => ⟨S100000x32, .f32⟩
  | 82 => ⟨S_, .f32⟩
  | 83 => ⟨S100000, .f32⟩
  | 84 => ⟨S100000x1, .f32⟩
  | 85 => ⟨S100000x1, .f32⟩
  | 86 => ⟨S_, .f32⟩
  | 87 => ⟨S100000x1, .f32⟩
  | 88 => ⟨S100000x1, .f32⟩
  | 89 => ⟨S100000x32, .f32⟩
  | 90 => ⟨S100000x32, .f32⟩
  | 91 => ⟨S32x32, .f32⟩
  | 92 => ⟨S50000x32, .f32⟩
  | 93 => ⟨S1x32, .f32⟩
  | 94 => ⟨S50000x32, .f32⟩
  | 95 => ⟨S50000x32, .f32⟩
  | 96 => ⟨S50000x32, .f32⟩
  | 97 => ⟨S_, .f32⟩
  | 98 => ⟨S50000, .f32⟩
  | 99 => ⟨S50000x1, .f32⟩
  | 100 => ⟨S50000x1, .f32⟩
  | 101 => ⟨S_, .f32⟩
  | 102 => ⟨S50000x1, .f32⟩
  | 103 => ⟨S50000x1, .f32⟩
  | 104 => ⟨S50000x32, .f32⟩
  | 105 => ⟨S50000x32, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_c : Ref sig .tc := ⟨.hbm, 20, rfl⟩
abbrev main_v0 : Ref sig .tc := ⟨.hbm, 21, rfl⟩
abbrev main_v1 : Ref sig .tc := ⟨.hbm, 22, rfl⟩
abbrev main_c_0 : Ref sig .tc := ⟨.hbm, 23, rfl⟩
abbrev main_v2 : Ref sig .tc := ⟨.hbm, 24, rfl⟩
abbrev main_v3 : Ref sig .tc := ⟨.hbm, 25, rfl⟩
abbrev main_v4 : Ref sig .tc := ⟨.hbm, 26, rfl⟩
abbrev main_v5 : Ref sig .tc := ⟨.hbm, 27, rfl⟩
abbrev main_v6 : Ref sig .tc := ⟨.hbm, 28, rfl⟩
abbrev main_cst : Ref sig .tc := ⟨.hbm, 29, rfl⟩
abbrev main_v7 : Ref sig .tc := ⟨.hbm, 30, rfl⟩
abbrev main_v8 : Ref sig .tc := ⟨.hbm, 31, rfl⟩
abbrev main_v9 : Ref sig .tc := ⟨.hbm, 32, rfl⟩
abbrev main_cst_1 : Ref sig .tc := ⟨.hbm, 33, rfl⟩
abbrev main_v10 : Ref sig .tc := ⟨.hbm, 34, rfl⟩
abbrev main_cst_2 : Ref sig .tc := ⟨.hbm, 35, rfl⟩
abbrev main_v11 : Ref sig .tc := ⟨.hbm, 36, rfl⟩
abbrev main_v12 : Ref sig .tc := ⟨.hbm, 37, rfl⟩
abbrev main_v13 : Ref sig .tc := ⟨.hbm, 38, rfl⟩
abbrev main_cst_3 : Ref sig .tc := ⟨.hbm, 39, rfl⟩
abbrev main_v14 : Ref sig .tc := ⟨.hbm, 40, rfl⟩
abbrev main_v15 : Ref sig .tc := ⟨.hbm, 41, rfl⟩
abbrev main_v16 : Ref sig .tc := ⟨.hbm, 42, rfl⟩
abbrev main_v17 : Ref sig .tc := ⟨.hbm, 43, rfl⟩
abbrev main_v18 : Ref sig .tc := ⟨.hbm, 44, rfl⟩
abbrev main_v19 : Ref sig .tc := ⟨.hbm, 45, rfl⟩
abbrev main_v20 : Ref sig .tc := ⟨.hbm, 46, rfl⟩
abbrev main_v21 : Ref sig .tc := ⟨.hbm, 47, rfl⟩
abbrev main_v22 : Ref sig .tc := ⟨.hbm, 48, rfl⟩
abbrev main_v23 : Ref sig .tc := ⟨.hbm, 49, rfl⟩
abbrev main_v24 : Ref sig .tc := ⟨.hbm, 50, rfl⟩
abbrev main_v25 : Ref sig .tc := ⟨.hbm, 51, rfl⟩
abbrev main_v26 : Ref sig .tc := ⟨.hbm, 52, rfl⟩
abbrev main_call0_v0 : Ref sig .tc := ⟨.hbm, 53, rfl⟩
abbrev main_call0_cst : Ref sig .tc := ⟨.hbm, 54, rfl⟩
abbrev main_call0_v1 : Ref sig .tc := ⟨.hbm, 55, rfl⟩
abbrev main_call0_v2 : Ref sig .tc := ⟨.hbm, 56, rfl⟩
abbrev main_v27 : Ref sig .tc := ⟨.hbm, 57, rfl⟩
abbrev main_cst_4 : Ref sig .tc := ⟨.hbm, 58, rfl⟩
abbrev main_v28 : Ref sig .tc := ⟨.hbm, 59, rfl⟩
abbrev main_v29 : Ref sig .tc := ⟨.hbm, 60, rfl⟩
abbrev main_v30 : Ref sig .tc := ⟨.hbm, 61, rfl⟩
abbrev main_v31 : Ref sig .tc := ⟨.hbm, 62, rfl⟩
abbrev main_call1_cst : Ref sig .tc := ⟨.hbm, 63, rfl⟩
abbrev main_call1_v0 : Ref sig .tc := ⟨.hbm, 64, rfl⟩
abbrev main_v32 : Ref sig .tc := ⟨.hbm, 65, rfl⟩
abbrev main_c_5 : Ref sig .tc := ⟨.hbm, 66, rfl⟩
abbrev main_v33 : Ref sig .tc := ⟨.hbm, 67, rfl⟩
abbrev main_v34 : Ref sig .tc := ⟨.hbm, 68, rfl⟩
abbrev main_c_6 : Ref sig .tc := ⟨.hbm, 69, rfl⟩
abbrev main_v35 : Ref sig .tc := ⟨.hbm, 70, rfl⟩
abbrev main_v36 : Ref sig .tc := ⟨.hbm, 71, rfl⟩
abbrev main_v37 : Ref sig .tc := ⟨.hbm, 72, rfl⟩
abbrev main_v38 : Ref sig .tc := ⟨.hbm, 73, rfl⟩
abbrev main_v39 : Ref sig .tc := ⟨.hbm, 74, rfl⟩
abbrev main_cst_7 : Ref sig .tc := ⟨.hbm, 75, rfl⟩
abbrev main_v40 : Ref sig .tc := ⟨.hbm, 76, rfl⟩
abbrev main_v41 : Ref sig .tc := ⟨.hbm, 77, rfl⟩
abbrev main_v42 : Ref sig .tc := ⟨.hbm, 78, rfl⟩
abbrev main_cst_8 : Ref sig .tc := ⟨.hbm, 79, rfl⟩
abbrev main_v43 : Ref sig .tc := ⟨.hbm, 80, rfl⟩
abbrev main_cst_9 : Ref sig .tc := ⟨.hbm, 81, rfl⟩
abbrev main_v44 : Ref sig .tc := ⟨.hbm, 82, rfl⟩
abbrev main_v45 : Ref sig .tc := ⟨.hbm, 83, rfl⟩
abbrev main_v46 : Ref sig .tc := ⟨.hbm, 84, rfl⟩
abbrev main_cst_10 : Ref sig .tc := ⟨.hbm, 85, rfl⟩
abbrev main_v47 : Ref sig .tc := ⟨.hbm, 86, rfl⟩
abbrev main_v48 : Ref sig .tc := ⟨.hbm, 87, rfl⟩
abbrev main_v49 : Ref sig .tc := ⟨.hbm, 88, rfl⟩
abbrev main_v50 : Ref sig .tc := ⟨.hbm, 89, rfl⟩
abbrev main_v51 : Ref sig .tc := ⟨.hbm, 90, rfl⟩
abbrev main_v52 : Ref sig .tc := ⟨.hbm, 91, rfl⟩
abbrev main_v53 : Ref sig .tc := ⟨.hbm, 92, rfl⟩
abbrev main_v54 : Ref sig .tc := ⟨.hbm, 93, rfl⟩
abbrev main_v55 : Ref sig .tc := ⟨.hbm, 94, rfl⟩
abbrev main_v56 : Ref sig .tc := ⟨.hbm, 95, rfl⟩
abbrev main_v57 : Ref sig .tc := ⟨.hbm, 96, rfl⟩
abbrev main_v58 : Ref sig .tc := ⟨.hbm, 97, rfl⟩
abbrev main_v59 : Ref sig .tc := ⟨.hbm, 98, rfl⟩
abbrev main_call2_v0 : Ref sig .tc := ⟨.hbm, 99, rfl⟩
abbrev main_call2_cst : Ref sig .tc := ⟨.hbm, 100, rfl⟩
abbrev main_call2_v1 : Ref sig .tc := ⟨.hbm, 101, rfl⟩
abbrev main_call2_v2 : Ref sig .tc := ⟨.hbm, 102, rfl⟩
abbrev main_v60 : Ref sig .tc := ⟨.hbm, 103, rfl⟩
abbrev main_cst_11 : Ref sig .tc := ⟨.hbm, 104, rfl⟩
abbrev main_v61 : Ref sig .tc := ⟨.hbm, 105, rfl⟩
abbrev main_v62 : Ref sig .tc := ⟨.hbm, 106, rfl⟩
abbrev main_v63 : Ref sig .tc := ⟨.hbm, 107, rfl⟩
abbrev main_v64 : Ref sig .tc := ⟨.hbm, 108, rfl⟩
abbrev main_call3_cst : Ref sig .tc := ⟨.hbm, 109, rfl⟩
abbrev main_call3_v0 : Ref sig .tc := ⟨.hbm, 110, rfl⟩
abbrev main_v65 : Ref sig .tc := ⟨.hbm, 111, rfl⟩
abbrev main_c_12 : Ref sig .tc := ⟨.hbm, 112, rfl⟩
abbrev main_v66 : Ref sig .tc := ⟨.hbm, 113, rfl⟩
abbrev main_v67 : Ref sig .tc := ⟨.hbm, 114, rfl⟩
abbrev main_c_13 : Ref sig .tc := ⟨.hbm, 115, rfl⟩
abbrev main_v68 : Ref sig .tc := ⟨.hbm, 116, rfl⟩
abbrev main_v69 : Ref sig .tc := ⟨.hbm, 117, rfl⟩
abbrev main_v70 : Ref sig .tc := ⟨.hbm, 118, rfl⟩
abbrev main_v71 : Ref sig .tc := ⟨.hbm, 119, rfl⟩
abbrev main_v72 : Ref sig .tc := ⟨.hbm, 120, rfl⟩
abbrev main_cst_14 : Ref sig .tc := ⟨.hbm, 121, rfl⟩
abbrev main_v73 : Ref sig .tc := ⟨.hbm, 122, rfl⟩
abbrev main_v74 : Ref sig .tc := ⟨.hbm, 123, rfl⟩
abbrev main_v75 : Ref sig .tc := ⟨.hbm, 124, rfl⟩
abbrev main_cst_15 : Ref sig .tc := ⟨.hbm, 125, rfl⟩
abbrev main_v76 : Ref sig .tc := ⟨.hbm, 126, rfl⟩
abbrev main_cst_16 : Ref sig .tc := ⟨.hbm, 127, rfl⟩
abbrev main_v77 : Ref sig .tc := ⟨.hbm, 128, rfl⟩
abbrev main_v78 : Ref sig .tc := ⟨.hbm, 129, rfl⟩
abbrev main_v79 : Ref sig .tc := ⟨.hbm, 130, rfl⟩
abbrev main_cst_17 : Ref sig .tc := ⟨.hbm, 131, rfl⟩
abbrev main_v80 : Ref sig .tc := ⟨.hbm, 132, rfl⟩
abbrev main_v81 : Ref sig .tc := ⟨.hbm, 133, rfl⟩
abbrev main_v82 : Ref sig .tc := ⟨.hbm, 134, rfl⟩
abbrev main_v83 : Ref sig .tc := ⟨.hbm, 135, rfl⟩
abbrev main_v84 : Ref sig .tc := ⟨.hbm, 136, rfl⟩
abbrev main_v85 : Ref sig .tc := ⟨.hbm, 137, rfl⟩
abbrev main_v86 : Ref sig .tc := ⟨.hbm, 138, rfl⟩
abbrev main_v87 : Ref sig .tc := ⟨.hbm, 139, rfl⟩
abbrev main_v88 : Ref sig .tc := ⟨.hbm, 140, rfl⟩
abbrev main_v89 : Ref sig .tc := ⟨.hbm, 141, rfl⟩
abbrev main_v90 : Ref sig .tc := ⟨.hbm, 142, rfl⟩
abbrev main_v91 : Ref sig .tc := ⟨.hbm, 143, rfl⟩
abbrev main_v92 : Ref sig .tc := ⟨.hbm, 144, rfl⟩
abbrev main_call4_v0 : Ref sig .tc := ⟨.hbm, 145, rfl⟩
abbrev main_call4_cst : Ref sig .tc := ⟨.hbm, 146, rfl⟩
abbrev main_call4_v1 : Ref sig .tc := ⟨.hbm, 147, rfl⟩
abbrev main_call4_v2 : Ref sig .tc := ⟨.hbm, 148, rfl⟩
abbrev main_v93 : Ref sig .tc := ⟨.hbm, 149, rfl⟩
abbrev main_cst_18 : Ref sig .tc := ⟨.hbm, 150, rfl⟩
abbrev main_v94 : Ref sig .tc := ⟨.hbm, 151, rfl⟩
abbrev main_v95 : Ref sig .tc := ⟨.hbm, 152, rfl⟩
abbrev main_v96 : Ref sig .tc := ⟨.hbm, 153, rfl⟩
abbrev main_v97 : Ref sig .tc := ⟨.hbm, 154, rfl⟩
abbrev main_call5_cst : Ref sig .tc := ⟨.hbm, 155, rfl⟩
abbrev main_call5_v0 : Ref sig .tc := ⟨.hbm, 156, rfl⟩
abbrev main_v98 : Ref sig .tc := ⟨.hbm, 157, rfl⟩
abbrev main_c_19 : Ref sig .tc := ⟨.hbm, 158, rfl⟩
abbrev main_v99 : Ref sig .tc := ⟨.hbm, 159, rfl⟩
abbrev main_v100 : Ref sig .tc := ⟨.hbm, 160, rfl⟩
abbrev main_c_20 : Ref sig .tc := ⟨.hbm, 161, rfl⟩
abbrev main_v101 : Ref sig .tc := ⟨.hbm, 162, rfl⟩
abbrev main_v102 : Ref sig .tc := ⟨.hbm, 163, rfl⟩
abbrev main_v103 : Ref sig .tc := ⟨.hbm, 164, rfl⟩
abbrev main_v104 : Ref sig .tc := ⟨.hbm, 165, rfl⟩
abbrev main_v105 : Ref sig .tc := ⟨.hbm, 166, rfl⟩
abbrev main_cst_21 : Ref sig .tc := ⟨.hbm, 167, rfl⟩
abbrev main_v106 : Ref sig .tc := ⟨.hbm, 168, rfl⟩
abbrev main_v107 : Ref sig .tc := ⟨.hbm, 169, rfl⟩
abbrev main_v108 : Ref sig .tc := ⟨.hbm, 170, rfl⟩
abbrev main_cst_22 : Ref sig .tc := ⟨.hbm, 171, rfl⟩
abbrev main_v109 : Ref sig .tc := ⟨.hbm, 172, rfl⟩
abbrev main_cst_23 : Ref sig .tc := ⟨.hbm, 173, rfl⟩
abbrev main_v110 : Ref sig .tc := ⟨.hbm, 174, rfl⟩
abbrev main_v111 : Ref sig .tc := ⟨.hbm, 175, rfl⟩
abbrev main_v112 : Ref sig .tc := ⟨.hbm, 176, rfl⟩
abbrev main_cst_24 : Ref sig .tc := ⟨.hbm, 177, rfl⟩
abbrev main_v113 : Ref sig .tc := ⟨.hbm, 178, rfl⟩
abbrev main_v114 : Ref sig .tc := ⟨.hbm, 179, rfl⟩
abbrev main_v115 : Ref sig .tc := ⟨.hbm, 180, rfl⟩
abbrev main_v116 : Ref sig .tc := ⟨.hbm, 181, rfl⟩
abbrev main_v117 : Ref sig .tc := ⟨.hbm, 182, rfl⟩
abbrev main_v118 : Ref sig .tc := ⟨.hbm, 183, rfl⟩
abbrev main_v119 : Ref sig .tc := ⟨.hbm, 184, rfl⟩
abbrev main_v120 : Ref sig .tc := ⟨.hbm, 185, rfl⟩
abbrev main_v121 : Ref sig .tc := ⟨.hbm, 186, rfl⟩
abbrev main_v122 : Ref sig .tc := ⟨.hbm, 187, rfl⟩
abbrev main_v123 : Ref sig .tc := ⟨.hbm, 188, rfl⟩
abbrev main_v124 : Ref sig .tc := ⟨.hbm, 189, rfl⟩
abbrev main_v125 : Ref sig .tc := ⟨.hbm, 190, rfl⟩
abbrev main_call6_v0 : Ref sig .tc := ⟨.hbm, 191, rfl⟩
abbrev main_call6_cst : Ref sig .tc := ⟨.hbm, 192, rfl⟩
abbrev main_call6_v1 : Ref sig .tc := ⟨.hbm, 193, rfl⟩
abbrev main_call6_v2 : Ref sig .tc := ⟨.hbm, 194, rfl⟩
abbrev main_v126 : Ref sig .tc := ⟨.hbm, 195, rfl⟩
abbrev main_cst_25 : Ref sig .tc := ⟨.hbm, 196, rfl⟩
abbrev main_v127 : Ref sig .tc := ⟨.hbm, 197, rfl⟩
abbrev main_v128 : Ref sig .tc := ⟨.hbm, 198, rfl⟩
abbrev main_v129 : Ref sig .tc := ⟨.hbm, 199, rfl⟩
abbrev main_v130 : Ref sig .tc := ⟨.hbm, 200, rfl⟩
abbrev main_call7_cst : Ref sig .tc := ⟨.hbm, 201, rfl⟩
abbrev main_call7_v0 : Ref sig .tc := ⟨.hbm, 202, rfl⟩
abbrev main_v131 : Ref sig .tc := ⟨.hbm, 203, rfl⟩
abbrev main_v132 : Ref sig .tc := ⟨.hbm, 204, rfl⟩
abbrev main_v133 : Ref sig .tc := ⟨.hbm, 205, rfl⟩
abbrev main_v134 : Ref sig .tc := ⟨.hbm, 206, rfl⟩
abbrev main_v135 : Ref sig .tc := ⟨.hbm, 207, rfl⟩
abbrev main_v136 : Ref sig .tc := ⟨.hbm, 208, rfl⟩
abbrev main_call8_v0 : Ref sig .tc := ⟨.hbm, 209, rfl⟩
abbrev main_call8_cst : Ref sig .tc := ⟨.hbm, 210, rfl⟩
abbrev main_call8_v1 : Ref sig .tc := ⟨.hbm, 211, rfl⟩
abbrev main_call8_v2 : Ref sig .tc := ⟨.hbm, 212, rfl⟩
abbrev main_v137 : Ref sig .tc := ⟨.hbm, 213, rfl⟩
abbrev main_cst_26 : Ref sig .tc := ⟨.hbm, 214, rfl⟩
abbrev main_v138 : Ref sig .tc := ⟨.hbm, 215, rfl⟩
abbrev main_v139 : Ref sig .tc := ⟨.hbm, 216, rfl⟩
abbrev main_v140 : Ref sig .tc := ⟨.hbm, 217, rfl⟩
abbrev main_v141 : Ref sig .tc := ⟨.hbm, 218, rfl⟩
abbrev main_v142 : Ref sig .tc := ⟨.hbm, 219, rfl⟩
abbrev main_v143 : Ref sig .tc := ⟨.hbm, 220, rfl⟩
abbrev main_v144 : Ref sig .tc := ⟨.hbm, 221, rfl⟩
abbrev main_v145 : Ref sig .tc := ⟨.hbm, 222, rfl⟩
abbrev main_v146 : Ref sig .tc := ⟨.hbm, 223, rfl⟩
abbrev main_call9_v0 : Ref sig .tc := ⟨.hbm, 224, rfl⟩
abbrev main_call9_cst : Ref sig .tc := ⟨.hbm, 225, rfl⟩
abbrev main_call9_v1 : Ref sig .tc := ⟨.hbm, 226, rfl⟩
abbrev main_call9_v2 : Ref sig .tc := ⟨.hbm, 227, rfl⟩
abbrev main_v147 : Ref sig .tc := ⟨.hbm, 228, rfl⟩
abbrev main_cst_27 : Ref sig .tc := ⟨.hbm, 229, rfl⟩
abbrev main_v148 : Ref sig .tc := ⟨.hbm, 230, rfl⟩
abbrev main_v149 : Ref sig .tc := ⟨.hbm, 231, rfl⟩
abbrev main_v150 : Ref sig .tc := ⟨.hbm, 232, rfl⟩
abbrev main_v151 : Ref sig .tc := ⟨.hbm, 233, rfl⟩

abbrev nD : Nat := 1
abbrev τ : Topo := Topo.v7x

variable {F : FTy → Type} [FloatOps F]

class Facts₀ : Prop where
  bcast_S_S819200 : S_.BroadcastsInDim S819200 (![] : Fin 0 → Fin S819200.rank)
  bcast_S819200_S819200x1_0 : S819200.BroadcastsInDim S819200x1 (![0] : Fin 1 → Fin S819200x1.rank)
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  transposes_S32x128_S128x32_1_0 : S32x128.Transposes [1, 0] S128x32
  bcast_S32_S1x32_1 : S32.BroadcastsInDim S1x32 (![1] : Fin 1 → Fin S1x32.rank)
  bcast_S1x32_S50000x32_0_1 : S1x32.BroadcastsInDim S50000x32 (![0, 1] : Fin 2 → Fin S50000x32.rank)
  reducesTo_S50000x32_S50000_d1 : S50000x32.ReducesTo [1] S50000
  h_S_ : 0 < S_.numel
  bcast_S_S50000x1 : S_.BroadcastsInDim S50000x1 (![] : Fin 0 → Fin S50000x1.rank)
  bcast_S50000x1_S50000x32_0_1 : S50000x1.BroadcastsInDim S50000x32 (![0, 1] : Fin 2 → Fin S50000x32.rank)
  bcast_S_S50000x32 : S_.BroadcastsInDim S50000x32 (![] : Fin 0 → Fin S50000x32.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S1x32_S100000x32_0_1 : S1x32.BroadcastsInDim S100000x32 (![0, 1] : Fin 2 → Fin S100000x32.rank)
  reducesTo_S100000x32_S100000_d1 : S100000x32.ReducesTo [1] S100000
  bcast_S_S100000x1 : S_.BroadcastsInDim S100000x1 (![] : Fin 0 → Fin S100000x1.rank)
  bcast_S100000x1_S100000x32_0_1 : S100000x1.BroadcastsInDim S100000x32 (![0, 1] : Fin 2 → Fin S100000x32.rank)
  bcast_S_S100000x32 : S_.BroadcastsInDim S100000x32 (![] : Fin 0 → Fin S100000x32.rank)
  transposes_S32x32_S32x32_1_0 : S32x32.Transposes [1, 0] S32x32
  gather_S100000x128_S819200x1_S819200x128_1_0_n_n_0_1_1128_wf : GatherDims.WF S100000x128 S819200x1 S819200x128 [1] [0] [] [0] [] 1 ![1, 128]
  scatter_S50000x128_S819200x1_S819200x128_1_0_0_1_wf : ScatterDims.WF S50000x128 S819200x1 S819200x128 [1] [0] [0] 1
  scatter_S50000_S819200x1_S819200_n_0_0_1_wf : ScatterDims.WF S50000 S819200x1 S819200 [] [0] [0] 1
  dot_S50000x128_S128x32_S50000x32_1_0_0_1_n_n_wf : DotDims.WF S50000x128 S128x32 S50000x32 [1] [0] [0] [1] [] []
  gather_S50000x128_S819200x1_S819200x128_1_0_n_n_0_1_1128_wf : GatherDims.WF S50000x128 S819200x1 S819200x128 [1] [0] [] [0] [] 1 ![1, 128]
  scatter_S100000x128_S819200x1_S819200x128_1_0_0_1_wf : ScatterDims.WF S100000x128 S819200x1 S819200x128 [1] [0] [0] 1
  scatter_S100000_S819200x1_S819200_n_0_0_1_wf : ScatterDims.WF S100000 S819200x1 S819200 [] [0] [0] 1
  dot_S100000x128_S128x32_S100000x32_1_0_0_1_n_n_wf : DotDims.WF S100000x128 S128x32 S100000x32 [1] [0] [0] [1] [] []
  gather_S100000x32_S819200x1_S819200x32_1_0_n_n_0_1_132_wf : GatherDims.WF S100000x32 S819200x1 S819200x32 [1] [0] [] [0] [] 1 ![1, 32]
  scatter_S50000x32_S819200x1_S819200x32_1_0_0_1_wf : ScatterDims.WF S50000x32 S819200x1 S819200x32 [1] [0] [0] 1
  dot_S50000x32_S32x32_S50000x32_1_0_0_1_n_n_wf : DotDims.WF S50000x32 S32x32 S50000x32 [1] [0] [0] [1] [] []
  gather_S50000x32_S819200x1_S819200x32_1_0_n_n_0_1_132_wf : GatherDims.WF S50000x32 S819200x1 S819200x32 [1] [0] [] [0] [] 1 ![1, 32]
  scatter_S100000x32_S819200x1_S819200x32_1_0_0_1_wf : ScatterDims.WF S100000x32 S819200x1 S819200x32 [1] [0] [0] 1
  dot_S100000x32_S32x32_S100000x32_1_0_0_1_n_n_wf : DotDims.WF S100000x32 S32x32 S100000x32 [1] [0] [0] [1] [] []

variable [Facts₀]

def gather_S100000x128_S819200x1_S819200x128_1_0_n_n_0_1_1128 : GatherDims S100000x128 S819200x1 S819200x128 where
  offsetDims := [1]
  collapsedSliceDims := [0]
  operandBatchingDims := []
  startIndicesBatchingDims := []
  startIndexMap := [0]
  indexVectorDim := 1
  sliceSizes := ![1, 128]
  wf := gather_S100000x128_S819200x1_S819200x128_1_0_n_n_0_1_1128_wf
def scatter_S50000x128_S819200x1_S819200x128_1_0_0_1 : ScatterDims S50000x128 S819200x1 S819200x128 where
  updateWindowDims := [1]
  insertedWindowDims := [0]
  scatterDimsToOperandDims := [0]
  indexVectorDim := 1
  wf := scatter_S50000x128_S819200x1_S819200x128_1_0_0_1_wf
def scatter_S50000_S819200x1_S819200_n_0_0_1 : ScatterDims S50000 S819200x1 S819200 where
  updateWindowDims := []
  insertedWindowDims := [0]
  scatterDimsToOperandDims := [0]
  indexVectorDim := 1
  wf := scatter_S50000_S819200x1_S819200_n_0_0_1_wf
def dot_S50000x128_S128x32_S50000x32_1_0_0_1_n_n : DotDims S50000x128 S128x32 S50000x32 where
  lhsContracting := [1]
  rhsContracting := [0]
  lhsNonContracting := [0]
  rhsNonContracting := [1]
  lhsBatch := []
  rhsBatch := []
  wf := dot_S50000x128_S128x32_S50000x32_1_0_0_1_n_n_wf
def gather_S50000x128_S819200x1_S819200x128_1_0_n_n_0_1_1128 : GatherDims S50000x128 S819200x1 S819200x128 where
  offsetDims := [1]
  collapsedSliceDims := [0]
  operandBatchingDims := []
  startIndicesBatchingDims := []
  startIndexMap := [0]
  indexVectorDim := 1
  sliceSizes := ![1, 128]
  wf := gather_S50000x128_S819200x1_S819200x128_1_0_n_n_0_1_1128_wf
def scatter_S100000x128_S819200x1_S819200x128_1_0_0_1 : ScatterDims S100000x128 S819200x1 S819200x128 where
  updateWindowDims := [1]
  insertedWindowDims := [0]
  scatterDimsToOperandDims := [0]
  indexVectorDim := 1
  wf := scatter_S100000x128_S819200x1_S819200x128_1_0_0_1_wf
def scatter_S100000_S819200x1_S819200_n_0_0_1 : ScatterDims S100000 S819200x1 S819200 where
  updateWindowDims := []
  insertedWindowDims := [0]
  scatterDimsToOperandDims := [0]
  indexVectorDim := 1
  wf := scatter_S100000_S819200x1_S819200_n_0_0_1_wf
def dot_S100000x128_S128x32_S100000x32_1_0_0_1_n_n : DotDims S100000x128 S128x32 S100000x32 where
  lhsContracting := [1]
  rhsContracting := [0]
  lhsNonContracting := [0]
  rhsNonContracting := [1]
  lhsBatch := []
  rhsBatch := []
  wf := dot_S100000x128_S128x32_S100000x32_1_0_0_1_n_n_wf
def gather_S100000x32_S819200x1_S819200x32_1_0_n_n_0_1_132 : GatherDims S100000x32 S819200x1 S819200x32 where
  offsetDims := [1]
  collapsedSliceDims := [0]
  operandBatchingDims := []
  startIndicesBatchingDims := []
  startIndexMap := [0]
  indexVectorDim := 1
  sliceSizes := ![1, 32]
  wf := gather_S100000x32_S819200x1_S819200x32_1_0_n_n_0_1_132_wf
def scatter_S50000x32_S819200x1_S819200x32_1_0_0_1 : ScatterDims S50000x32 S819200x1 S819200x32 where
  updateWindowDims := [1]
  insertedWindowDims := [0]
  scatterDimsToOperandDims := [0]
  indexVectorDim := 1
  wf := scatter_S50000x32_S819200x1_S819200x32_1_0_0_1_wf
def dot_S50000x32_S32x32_S50000x32_1_0_0_1_n_n : DotDims S50000x32 S32x32 S50000x32 where
  lhsContracting := [1]
  rhsContracting := [0]
  lhsNonContracting := [0]
  rhsNonContracting := [1]
  lhsBatch := []
  rhsBatch := []
  wf := dot_S50000x32_S32x32_S50000x32_1_0_0_1_n_n_wf
def gather_S50000x32_S819200x1_S819200x32_1_0_n_n_0_1_132 : GatherDims S50000x32 S819200x1 S819200x32 where
  offsetDims := [1]
  collapsedSliceDims := [0]
  operandBatchingDims := []
  startIndicesBatchingDims := []
  startIndexMap := [0]
  indexVectorDim := 1
  sliceSizes := ![1, 32]
  wf := gather_S50000x32_S819200x1_S819200x32_1_0_n_n_0_1_132_wf
def scatter_S100000x32_S819200x1_S819200x32_1_0_0_1 : ScatterDims S100000x32 S819200x1 S819200x32 where
  updateWindowDims := [1]
  insertedWindowDims := [0]
  scatterDimsToOperandDims := [0]
  indexVectorDim := 1
  wf := scatter_S100000x32_S819200x1_S819200x32_1_0_0_1_wf
def dot_S100000x32_S32x32_S100000x32_1_0_0_1_n_n : DotDims S100000x32 S32x32 S100000x32 where
  lhsContracting := [1]
  rhsContracting := [0]
  lhsNonContracting := [0]
  rhsNonContracting := [1]
  lhsBatch := []
  rhsBatch := []
  wf := dot_S100000x32_S32x32_S100000x32_1_0_0_1_n_n_wf

class Facts : Prop extends Facts₀ where

variable [Facts]
-- ==== Proof.KernelRun.lean ====
/-
  The idealized kernel's run with its two results NAMED.  The program is thirteen segments: stretches of host operations
  and eight kernel regions.  The buffer contents at each boundary are a fold from the launch memory (a stretch of host
  operations applies them in order; a region replaces its output array by what its write-backs leave and keeps everything
  else).  Every weakly fair execution ends with every unscoped buffer at the last boundary's contents; in particular the
  two result arrays hold the last boundary's contents at their references, and the twenty arguments are as launched.
-/
import proofs.«137275_j12352325943870_2_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates without a fault; the user embedding and the item embedding
    end at the last boundary's contents, and every argument array ends as launched. -/
theorem run_values : θ_run defs (onTc (τ := τ) (main (F := F))) ⟨m, fun _ => 0, ρ⟩ (fun r => ∀ c : Dev nD,
      r.2.mem ((c.tc : Thread nD τ).loc main_v83) = W13 m ρ c (Proc.devRef .tc main_v83)
      ∧ r.2.mem ((c.tc : Thread nD τ).loc main_v79) = W13 m ρ c (Proc.devRef .tc main_v79)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W13 m ρ c b)
    (hfin := fun c s' => by
      iintro ⟨⟨Hh, -⟩, HSI⟩
      unfold StableHlo.held
      imodintro
      iapply (pointsTo_read_all (Pipeline.ucRefs τ sig) (fun b => (((c : Thread nD τ)).1, b)) (W13 m ρ c) s')
      isplitl [Hh] <;> iassumption)
    (hQ := fun s h c =>
      ⟨h c _ (mem_uc main_v83 (by decide)),
       h c _ (mem_uc main_v79 (by decide)),
       (h c _ (mem_uc main_arg0 (by decide))).trans (W13_main_arg0 m ρ c),
       (h c _ (mem_uc main_arg1 (by decide))).trans (W13_main_arg1 m ρ c),
       (h c _ (mem_uc main_arg2 (by decide))).trans (W13_main_arg2 m ρ c),
       (h c _ (mem_uc main_arg3 (by decide))).trans (W13_main_arg3 m ρ c),
       (h c _ (mem_uc main_arg4 (by decide))).trans (W13_main_arg4 m ρ c),
       (h c _ (mem_uc main_arg5 (by decide))).trans (W13_main_arg5 m ρ c),
       (h c _ (mem_uc main_arg6 (by decide))).trans (W13_main_arg6 m ρ c),
       (h c _ (mem_uc main_arg7 (by decide))).trans (W13_main_arg7 m ρ c),
       (h c _ (mem_uc main_arg8 (by decide))).trans (W13_main_arg8 m ρ c),
       (h c _ (mem_uc main_arg9 (by decide))).trans (W13_main_arg9 m ρ c),
       (h c _ (mem_uc main_arg10 (by decide))).trans (W13_main_arg10 m ρ c),
       (h c _ (mem_uc main_arg11 (by decide))).trans (W13_main_arg11 m ρ c),
       (h c _ (mem_uc main_arg12 (by decide))).trans (W13_main_arg12 m ρ c),
       (h c _ (mem_uc main_arg13 (by decide))).trans (W13_main_arg13 m ρ c),
       (h c _ (mem_uc main_arg14 (by decide))).trans (W13_main_arg14 m ρ c),
       (h c _ (mem_uc main_arg15 (by decide))).trans (W13_main_arg15 m ρ c),
       (h c _ (mem_uc main_arg16 (by decide))).trans (W13_main_arg16 m ρ c),
       (h c _ (mem_uc main_arg17 (by decide))).trans (W13_main_arg17 m ρ c),
       (h c _ (mem_uc main_arg18 (by decide))).trans (W13_main_arg18 m ρ c),
       (h c _ (mem_uc main_arg19 (by decide))).trans (W13_main_arg19 m ρ c)⟩)

end Cert.KernelIdeal.RunValue

end
-- ==== Proof.LibAfterAt.lean ====
/-
  A straight line of host operations in single-assignment form, read one operation at a time. When every operation
  writes one buffer, no buffer is written twice, and every operand is written before it is read, the contents after
  the WHOLE line satisfy one equation per operation: the buffer it writes holds its function of what its operand
  buffers hold. The side conditions are stated over the list of written references, place by place, so that each is a
  decidable statement about references. General in the signature, the values and the operations.
-/
import Idealize.ShloMosaic.Lib.StableHlo.Run

noncomputable section

namespace Cert.LibAfterAt

open Idealize.ShloMosaic Idealize.ShloMosaic.StableHlo

variable {τ : Topo} {sig : RefSig} {Val : EltTy → Type}

/-- Two lines one after the other: the second read from the contents the first leaves. -/
theorem after_append (l₁ l₂ : List (HloOp τ sig Val)) (V : Valuation τ sig Val) :
    after (l₁ ++ l₂) V = after l₂ (after l₁ V) := by
  induction l₁ generalizing V with
  | nil => rfl
  | cons op l ih => simp only [List.cons_append, after_cons, ih]

/-- Place by place, the operation writes at most the buffer the reference at that place names. -/
abbrev Writes (ops : List (HloOp τ sig Val)) (ws : List (Ref sig .tc)) : Prop :=
  List.Forall₂ (fun op w => op.writes ⊆ {Proc.devRef (τ := τ) .tc w}) ops ws

/-- Every operation of the line writes inside the listed references. -/
theorem Writes.forall_sub : ∀ {ops : List (HloOp τ sig Val)} {ws : List (Ref sig .tc)}, Writes ops ws →
    ∀ op ∈ ops, op.writes ⊆ (ws.map (Proc.devRef (τ := τ) .tc)).toFinset
  | _, _, .nil, _, h => nomatch h
  | _, _, .cons (b := b) hab t, op, h => by
    rcases List.mem_cons.mp h with rfl | h
    · intro x hx
      have hx' := Finset.mem_singleton.mp (hab hx)
      subst hx'
      simp only [List.map_cons, List.toFinset_cons, Finset.mem_insert, true_or]
    · intro x hx
      have := Writes.forall_sub t op h hx
      simp only [List.map_cons, List.toFinset_cons, Finset.mem_insert]
      exact Or.inr this

/-- The two lists of a line and of what it writes, joined. -/
theorem Writes.append {l₁ l₂ : List (HloOp τ sig Val)} {w₁ w₂ : List (Ref sig .tc)} (h₁ : Writes l₁ w₁)
    (h₂ : Writes l₂ w₂) : Writes (l₁ ++ l₂) (w₁ ++ w₂) := List.rel_append h₁ h₂

/-- A reference that no operation from place `k` on writes holds, after the whole line, what it held after the first
    `k` operations. -/
theorem after_eq_take {ops : List (HloOp τ sig Val)} {ws : List (Ref sig .tc)} (h : Writes ops ws) (k : Nat)
    (V : Valuation τ sig Val) {r : Ref sig .tc} (hr : r ∉ ws.drop k) :
    after ops V (Proc.devRef .tc r) = after (ops.take k) V (Proc.devRef .tc r) := by
  conv_lhs => rw [← List.take_append_drop k ops]
  rw [after_append]
  exact after_of_writes_sub _ _ (List.forall_iff_forall_mem.mpr (Writes.forall_sub (List.forall₂_drop k h))) hr

/-- A reference that no operation after place `k` writes holds, after the whole line, what the operation at place `k`
    leaves there. -/
theorem after_at {ops : List (HloOp τ sig Val)} {ws : List (Ref sig .tc)} (h : Writes ops ws) (k : Nat)
    {op : HloOp τ sig Val} (hk : ops[k]? = some op) (V : Valuation τ sig Val) {r : Ref sig .tc}
    (hr : r ∉ ws.drop (k + 1)) :
    after ops V (Proc.devRef .tc r) = op.result (after (ops.take k) V) (Proc.devRef .tc r) := by
  rw [after_eq_take h (k + 1) V hr]
  have e : ops.take (k + 1) = ops.take k ++ [op] := by rw [List.take_succ, hk]; rfl
  rw [e, after_append]; rfl

/-- A reference the line never writes keeps what it held. -/
theorem after_of_not_mem {ops : List (HloOp τ sig Val)} {ws : List (Ref sig .tc)} (h : Writes ops ws)
    (V : Valuation τ sig Val) {r : Ref sig .tc} (hr : r ∉ ws) :
    after ops V (Proc.devRef .tc r) = V (Proc.devRef .tc r) :=
  after_of_writes_sub _ _ (List.forall_iff_forall_mem.mpr (Writes.forall_sub h)) hr

section Kinds

variable {ops : List (HloOp τ sig Val)} {ws : List (Ref sig .tc)}

/-- The operation at place `k` has no operand: its buffer holds its value. -/
theorem nullary_at (h : Writes ops ws) (k : Nat) (y : Ref sig .tc) (v : y.ty.Contents Val) (hy)
    (hk : ops[k]? = some (nullary y v hy)) (V : Valuation τ sig Val) (hy' : y ∉ ws.drop (k + 1)) :
    after ops V (Proc.devRef .tc y) = v := by
  rw [after_at h k hk V hy', nullary_result]

/-- The operation at place `k` has one operand, written before place `k` or never. -/
theorem unary_at (h : Writes ops ws) (k : Nat) (x y : Ref sig .tc) (f : x.ty.Contents Val → y.ty.Contents Val) (hx hy)
    (hk : ops[k]? = some (unary x y f hx hy)) (V : Valuation τ sig Val) (hy' : y ∉ ws.drop (k + 1))
    (hx' : x ∉ ws.drop k) :
    after ops V (Proc.devRef .tc y) = f (after ops V (Proc.devRef .tc x)) := by
  rw [after_at h k hk V hy', unary_result, ← after_eq_take h k V hx']

/-- The operation at place `k` has two operands. -/
theorem binary_at (h : Writes ops ws) (k : Nat) (a b y : Ref sig .tc) (f : a.ty.Contents Val → b.ty.Contents Val → y.ty.Contents Val) (ha hb hy)
    (hk : ops[k]? = some (binary a b y f ha hb hy)) (V : Valuation τ sig Val) (hy' : y ∉ ws.drop (k + 1))
    (ha' : a ∉ ws.drop k) (hb' : b ∉ ws.drop k) :
    after ops V (Proc.devRef .tc y) = f (after ops V (Proc.devRef .tc a)) (after ops V (Proc.devRef .tc b)) := by
  rw [after_at h k hk V hy', binary_result, ← after_eq_take h k V ha', ← after_eq_take h k V hb']

/-- The operation at place `k` has three operands. -/
theorem ternary_at (h : Writes ops ws) (k : Nat) (c a b y : Ref sig .tc)
    (f : c.ty.Contents Val → a.ty.Contents Val → b.ty.Contents Val → y.ty.Contents Val) (hc ha hb hy)
    (hk : ops[k]? = some (ternary c a b y f hc ha hb hy)) (V : Valuation τ sig Val) (hy' : y ∉ ws.drop (k + 1))
    (hc' : c ∉ ws.drop k) (ha' : a ∉ ws.drop k) (hb' : b ∉ ws.drop k) :
    after ops V (Proc.devRef .tc y)
      = f (after ops V (Proc.devRef .tc c)) (after ops V (Proc.devRef .tc a)) (after ops V (Proc.devRef .tc b)) := by
  rw [after_at h k hk V hy', ternary_result, ← after_eq_take h k V hc', ← after_eq_take h k V ha',
    ← after_eq_take h k V hb']

/-- The operation at place `k` is a change of shape. -/
theorem reshape_at (h : Writes ops ws) (k : Nat) (x y : Ref sig .tc) (he hn hx hy)
    (hk : ops[k]? = some (reshape (Val := Val) x y he hn hx hy)) (V : Valuation τ sig Val)
    (hy' : y ∉ ws.drop (k + 1)) (hx' : x ∉ ws.drop k) :
    after ops V (Proc.devRef .tc y)
      = fun i => he ▸ shapeCast y.ty.shape (after ops V (Proc.devRef .tc x)) hn i := by
  rw [after_at h k hk V hy', reshape_result, ← after_eq_take h k V hx']

/-- The operation at place `k` reads a literal family of three operands. -/
theorem nary3_at (h : Writes ops ws) (k : Nat) (x a b y : Ref sig .tc)
    (f : ((j : Fin 3) → ((![x, a, b] : Fin 3 → Ref sig .tc) j).ty.Contents Val) → y.ty.Contents Val) (hxs hy)
    (hk : ops[k]? = some (nary ![x, a, b] y f hxs hy)) (V : Valuation τ sig Val) (hy' : y ∉ ws.drop (k + 1))
    (hx' : x ∉ ws.drop k) (ha' : a ∉ ws.drop k) (hb' : b ∉ ws.drop k) :
    after ops V (Proc.devRef .tc y)
      = f (Fin.cons (after ops V (Proc.devRef .tc x)) (Fin.cons (after ops V (Proc.devRef .tc a))
          (Fin.cons (after ops V (Proc.devRef .tc b)) (fun i => i.elim0)))) := by
  rw [after_at h k hk V hy', nary_result]
  congr 1; funext j; fin_cases j
  · exact (after_eq_take h k V hx').symm
  · exact (after_eq_take h k V ha').symm
  · exact (after_eq_take h k V hb').symm

end Kinds

end Cert.LibAfterAt

end
-- ==== Proof.KHost.lean ====
/-
  The host stretches of the idealized kernel's program as lines in single-assignment form: which buffer each operation
  writes, place by place.  A buffer no operation of a stretch writes holds after the stretch what it held before.
-/
import proofs.«137275_j12352325943870_2_alg».proof.Proof.Gen.KernelIdeal.Frame
import proofs.«137275_j12352325943870_2_alg».proof.Proof.LibAfterAt
import Idealize.ShloMosaic.PureOps.Ideal

set_option maxRecDepth 16384

noncomputable section

namespace Cert.KernelIdeal.State

open Cert.KernelIdeal Cert.KernelIdeal.Gen
open Idealize.ShloMosaic Idealize.ShloMosaic.StableHlo Cert.LibAfterAt

/-- The buffers the operations of host stretch 0 write, in order. -/
abbrev ws0 : List (Ref sig .tc) := [main_v0, main_v1, main_v2, main_v3, main_v4, main_v5, main_v6, main_v7, main_v8, main_v9, main_cst, main_v10, main_cst_0, main_v11, main_v12, main_v13, main_cst_1, main_v14, main_cst_2, main_v15, main_v16, main_v17, main_cst_3, main_v18, main_v19, main_cst_4, main_v20, main_v21, main_cst_5, main_v22, main_v23, main_cst_6, main_v24, main_v25]

theorem writes0 : Writes (hostOps0 (F := Ideal)) ws0 := by
  unfold Writes
  repeat' (first | exact List.Forall₂.nil | refine List.Forall₂.cons ?_ ?_)
  all_goals simp

/-- The buffers the operations of host stretch 2 write, in order. -/
abbrev ws2 : List (Ref sig .tc) := [main_c, main_v28, main_v29, main_c_7, main_v30, main_v31, main_v32, main_v33, main_v34, main_cst_8, main_v35, main_v36, main_v37, main_c_9, main_v38, main_v39, main_c_10, main_v40, main_v41, main_v42, main_v43, main_v44, main_cst_11, main_v45, main_v46, main_v47, main_v48, main_v49]

theorem writes2 : Writes (hostOps2 (F := Ideal)) ws2 := by
  unfold Writes
  repeat' (first | exact List.Forall₂.nil | refine List.Forall₂.cons ?_ ?_)
  all_goals simp

/-- The buffers the operations of host stretch 3 write, in order. -/
abbrev ws3 : List (Ref sig .tc) := [main_v51, main_v52]

theorem writes3 : Writes (hostOps3 (F := Ideal)) ws3 := by
  unfold Writes
  repeat' (first | exact List.Forall₂.nil | refine List.Forall₂.cons ?_ ?_)
  all_goals simp

/-- The buffers the operations of host stretch 6 write, in order. -/
abbrev ws6 : List (Ref sig .tc) := [main_c_12, main_v56, main_v57, main_c_13, main_v58, main_v59, main_v60, main_v61, main_v62, main_cst_14, main_v63, main_v64, main_v65, main_c_15, main_v66, main_v67, main_c_16, main_v68, main_v69, main_v70, main_v71, main_v72, main_cst_17, main_v73, main_v74, main_v75, main_v76, main_v77, main_v78]

theorem writes6 : Writes (hostOps6 (F := Ideal)) ws6 := by
  unfold Writes
  repeat' (first | exact List.Forall₂.nil | refine List.Forall₂.cons ?_ ?_)
  all_goals simp

/-- The buffers the operations of host stretch 7 write, in order. -/
abbrev ws7 : List (Ref sig .tc) := [main_v80, main_v81, main_v82]

theorem writes7 : Writes (hostOps7 (F := Ideal)) ws7 := by
  unfold Writes
  repeat' (first | exact List.Forall₂.nil | refine List.Forall₂.cons ?_ ?_)
  all_goals simp

end Cert.KernelIdeal.State

end
-- ==== Proof.Spec.lean ====
/-
  The mathematics of the two programs, free of either program's text.

  A two-layer heterogeneous GraphSAGE encoder over a bipartite graph (users, items, a list of edges).  One SAGE step sends
  each destination node the MEAN of its in-neighbours' feature rows, pushes it through a linear map, adds a bias and a
  linear map of the node's own row, normalises the row to unit Euclidean length (with a floor under the norm) and rectifies.
  The two programs differ in ONE place: where the linear map of the mean is taken.  One sums the neighbours' rows, divides
  by the degree and then multiplies by the weights (meanR); the other multiplies every source row by the weights first,
  sums the projected rows and multiplies by the reciprocal of the degree (meanK).  Over the REAL numbers these agree, because
  a finite sum commutes with a linear map and division by a non-zero real is multiplication by its reciprocal
  (mean_agree).  Everything after the mean is the same function on both sides, and it maps real rows to real rows
  (isReal_sage), so the agreement propagates through the second layer and the projection heads (emb_agree).
-/
import Idealize.ShloMosaic.PureOps.Ideal

noncomputable section

open scoped BigOperators
open Idealize.ShloMosaic

namespace Cert.Sage

/-! ## The stages, entry by entry -/

section Stages
variable {N Ns K H O E : ℕ}

/-- Rows of x against rows of w: entry (r, g) is the inner product of row r of x with row g of w. -/
def proj (x : Fin N → Fin K → EReal) (w : Fin H → Fin K → EReal) : Fin N → Fin H → EReal :=
  fun r g => ∑ k, x r k * w g k

/-- The sum of f over the edges whose destination is node n. -/
def seg (dst : Fin E → Int) (f : Fin E → EReal) (n : Fin N) : EReal :=
  ∑ e, if dst e = (n.val : Int) then f e else 0

/-- The in-degree of node n, floored at one. -/
def cden (dst : Fin E → Int) (n : Fin N) : EReal := max (0 + seg dst (fun _ => 1) n) 1

/-- The projected mean, projection first: sum the projected source rows, times the reciprocal of the degree. -/
def meanK (dst : Fin E → Int) (row : Fin E → Fin Ns) (x : Fin Ns → Fin K → EReal) (w : Fin H → Fin K → EReal) :
    Fin N → Fin H → EReal :=
  fun n g => (0 + seg dst (fun e => proj x w (row e) g) n) * Ideal.div 1 (cden dst n)

/-- The projected mean, projection last: sum the source rows, divide by the degree, then project. -/
def meanR (dst : Fin E → Int) (row : Fin E → Fin Ns) (x : Fin Ns → Fin K → EReal) (w : Fin H → Fin K → EReal) :
    Fin N → Fin H → EReal :=
  fun n g => ∑ k, Ideal.div (0 + seg dst (fun e => x (row e) k) n) (cden dst n) * w g k

/-- A row divided by its Euclidean norm, the norm floored at ε. -/
def l2n (ε : EReal) (z : Fin N → Fin H → EReal) : Fin N → Fin H → EReal :=
  fun r g => Ideal.div (z r g) (max (Ideal.sqrt (0 + ∑ g', z r g' * z r g')) ε)

/-- The pre-activation of a SAGE step. -/
def pre (mean : Fin N → Fin H → EReal) (b : Fin H → EReal) (xd : Fin N → Fin K → EReal) (wr : Fin H → Fin K → EReal) :
    Fin N → Fin H → EReal :=
  fun r g => (mean r g + b g) + proj xd wr r g

/-- One SAGE step after the mean: bias, the node's own projection, normalise, rectify. -/
def sage (ε : EReal) (mean : Fin N → Fin H → EReal) (b : Fin H → EReal) (xd : Fin N → Fin K → EReal)
    (wr : Fin H → Fin K → EReal) : Fin N → Fin H → EReal :=
  fun r g => max (l2n ε (pre mean b xd wr) r g) 0

/-- The projection head: an affine map of the row, normalised. -/
def head (ε : EReal) (h : Fin N → Fin H → EReal) (wp : Fin O → Fin H → EReal) (bp : Fin O → EReal) :
    Fin N → Fin O → EReal :=
  l2n ε (fun r g => proj h wp r g + bp g)

end Stages

/-! ## The encoder -/

/-- The two ways of taking the projected mean have this type. -/
abbrev MeanFn : Type := ∀ {N Ns K H E : ℕ}, (Fin E → Int) → (Fin E → Fin Ns) → (Fin Ns → Fin K → EReal) →
  (Fin H → Fin K → EReal) → Fin N → Fin H → EReal

/-- The encoder's inputs: node features, the edge list as destination tests and source rows per direction, the weights. -/
structure Args where
  ε : EReal
  xu : Fin 100000 → Fin 128 → EReal
  xi : Fin 50000 → Fin 128 → EReal
  dstU : Fin 819200 → Int
  dstI : Fin 819200 → Int
  rowU : Fin 819200 → Fin 100000
  rowI : Fin 819200 → Fin 50000
  wl0_ui : Fin 32 → Fin 128 → EReal
  b0_ui : Fin 32 → EReal
  wr0_ui : Fin 32 → Fin 128 → EReal
  wl0_iu : Fin 32 → Fin 128 → EReal
  b0_iu : Fin 32 → EReal
  wr0_iu : Fin 32 → Fin 128 → EReal
  wl1_ui : Fin 32 → Fin 32 → EReal
  b1_ui : Fin 32 → EReal
  wr1_ui : Fin 32 → Fin 32 → EReal
  wl1_iu : Fin 32 → Fin 32 → EReal
  b1_iu : Fin 32 → EReal
  wr1_iu : Fin 32 → Fin 32 → EReal
  wp_user : Fin 32 → Fin 32 → EReal
  bp_user : Fin 32 → EReal
  wp_item : Fin 32 → Fin 32 → EReal
  bp_item : Fin 32 → EReal

section Encoder
variable (μ : MeanFn) (A : Args)

def item1 : Fin 50000 → Fin 32 → EReal := sage A.ε (μ A.dstI A.rowU A.xu A.wl0_ui) A.b0_ui A.xi A.wr0_ui
def user1 : Fin 100000 → Fin 32 → EReal := sage A.ε (μ A.dstU A.rowI A.xi A.wl0_iu) A.b0_iu A.xu A.wr0_iu
def item2 : Fin 50000 → Fin 32 → EReal := sage A.ε (μ A.dstI A.rowU (user1 μ A) A.wl1_ui) A.b1_ui (item1 μ A) A.wr1_ui
def user2 : Fin 100000 → Fin 32 → EReal := sage A.ε (μ A.dstU A.rowI (item1 μ A) A.wl1_iu) A.b1_iu (user1 μ A) A.wr1_iu
def userEmb : Fin 100000 → Fin 32 → EReal := head A.ε (user2 μ A) A.wp_user A.bp_user
def itemEmb : Fin 50000 → Fin 32 → EReal := head A.ε (item2 μ A) A.wp_item A.bp_item

end Encoder

/-! ## Extended reals that are real numbers -/

def IsReal (x : EReal) : Prop := ∃ r : ℝ, x = (r : EReal)

theorem isReal_coe (r : ℝ) : IsReal (r : EReal) := ⟨r, rfl⟩
theorem isReal_zero : IsReal 0 := ⟨0, rfl⟩
theorem isReal_one : IsReal 1 := ⟨1, rfl⟩

theorem isReal_add {x y : EReal} (hx : IsReal x) (hy : IsReal y) : IsReal (x + y) := by
  obtain ⟨a, rfl⟩ := hx; obtain ⟨b, rfl⟩ := hy; exact ⟨a + b, (EReal.coe_add a b).symm⟩

theorem isReal_mul {x y : EReal} (hx : IsReal x) (hy : IsReal y) : IsReal (x * y) := by
  obtain ⟨a, rfl⟩ := hx; obtain ⟨b, rfl⟩ := hy; exact ⟨a * b, (EReal.coe_mul a b).symm⟩

theorem coe_sum {ι : Type*} (s : Finset ι) (f : ι → ℝ) : ((∑ k ∈ s, f k : ℝ) : EReal) = ∑ k ∈ s, (f k : EReal) := by
  classical
  induction s using Finset.induction_on with
  | empty => simp
  | insert a s ha ih => rw [Finset.sum_insert ha, Finset.sum_insert ha, EReal.coe_add, ih]

theorem isReal_sum {ι : Type*} [Fintype ι] {f : ι → EReal} (hf : ∀ k, IsReal (f k)) : IsReal (∑ k, f k) := by
  choose g hg using hf
  exact ⟨∑ k, g k, by rw [coe_sum]; exact Finset.sum_congr rfl fun k _ => hg k⟩

theorem isReal_ite {p : Prop} [Decidable p] {x y : EReal} (hx : IsReal x) (hy : IsReal y) : IsReal (if p then x else y) := by
  split <;> assumption

theorem isReal_max {x y : EReal} (hx : IsReal x) (hy : IsReal y) : IsReal (max x y) := by
  rcases max_choice x y with h | h <;> rw [h] <;> assumption

/-- A real divided by a non-zero real is their real quotient. -/
theorem div_coe_coe (a : ℝ) {c : ℝ} (hc : c ≠ 0) : Ideal.div (a : EReal) (c : EReal) = ((a / c : ℝ) : EReal) := by
  rw [Ideal.div_coe hc, ← EReal.coe_mul]; congr 1; field_simp

theorem sqrt_coe_nonneg {a : ℝ} (ha : 0 ≤ a) : Ideal.sqrt (a : EReal) = ((Real.sqrt a : ℝ) : EReal) := by
  rw [Ideal.sqrt_coe, if_neg (not_lt.mpr ha)]

end Cert.Sage

/-! ## The two means agree on real inputs, and the stages keep rows real -/

namespace Cert.Sage

section Law
variable {N Ns K H O E : ℕ}

theorem seg_coe (dst : Fin E → Int) (f : Fin E → ℝ) (n : Fin N) :
    seg dst (fun e => (f e : EReal)) n = ((∑ e, if dst e = (n.val : Int) then f e else 0 : ℝ) : EReal) := by
  unfold seg; rw [coe_sum]
  refine Finset.sum_congr rfl fun e _ => ?_
  split <;> simp

theorem proj_coe (X : Fin N → Fin K → ℝ) (W : Fin H → Fin K → ℝ) (r : Fin N) (g : Fin H) :
    proj (fun r k => (X r k : EReal)) (fun g k => (W g k : EReal)) r g = ((∑ k, X r k * W g k : ℝ) : EReal) := by
  unfold proj; rw [coe_sum]
  exact Finset.sum_congr rfl fun k _ => (EReal.coe_mul _ _).symm

theorem isReal_seg (dst : Fin E → Int) {f : Fin E → EReal} (hf : ∀ e, IsReal (f e)) (n : Fin N) : IsReal (seg dst f n) :=
  isReal_sum fun e => isReal_ite (hf e) isReal_zero

theorem isReal_proj {x : Fin N → Fin K → EReal} {w : Fin H → Fin K → EReal} (hx : ∀ r k, IsReal (x r k))
    (hw : ∀ g k, IsReal (w g k)) (r : Fin N) (g : Fin H) : IsReal (proj x w r g) :=
  isReal_sum fun k => isReal_mul (hx r k) (hw g k)

/-- The floored degree is a real number that is not zero. -/
theorem cden_real (dst : Fin E → Int) (n : Fin N) : ∃ c : ℝ, c ≠ 0 ∧ cden dst n = (c : EReal) := by
  obtain ⟨c, hc⟩ : IsReal (cden dst n) :=
    isReal_max (isReal_add isReal_zero (isReal_seg dst (fun _ => isReal_one) n)) isReal_one
  refine ⟨c, ?_, hc⟩
  have h1 : (1 : EReal) ≤ cden dst n := le_max_right _ _
  rw [hc, show (1 : EReal) = ((1 : ℝ) : EReal) by norm_cast, EReal.coe_le_coe_iff] at h1
  intro h0; rw [h0] at h1; norm_num at h1

/-- THE LAW.  On real features and real weights, projecting the summed rows after dividing by the degree is projecting
    every row first, summing, and multiplying by the degree's reciprocal: a finite sum commutes with a linear map. -/
theorem mean_agree (dst : Fin E → Int) (row : Fin E → Fin Ns) {x : Fin Ns → Fin K → EReal} {w : Fin H → Fin K → EReal}
    (hx : ∀ r k, IsReal (x r k)) (hw : ∀ g k, IsReal (w g k)) :
    (meanK dst row x w : Fin N → Fin H → EReal) = meanR dst row x w := by
  choose X hX using hx
  choose W hW using hw
  obtain rfl : x = fun r k => (X r k : EReal) := funext fun r => funext fun k => hX r k
  obtain rfl : w = fun g k => (W g k : EReal) := funext fun g => funext fun k => hW g k
  funext n g
  obtain ⟨c, hc0, hc⟩ := cden_real dst n
  unfold meanK meanR
  rw [hc]
  simp only [proj_coe]
  rw [seg_coe, zero_add, show (1 : EReal) = ((1 : ℝ) : EReal) by norm_cast, div_coe_coe 1 hc0, ← EReal.coe_mul]
  have hR : ∀ k, Ideal.div (0 + seg dst (fun e => ((X (row e) k : ℝ) : EReal)) n) (c : EReal) * ((W g k : ℝ) : EReal)
      = (((∑ e, if dst e = (n.val : Int) then X (row e) k else 0) / c * W g k : ℝ) : EReal) := by
    intro k
    rw [seg_coe, zero_add, div_coe_coe _ hc0, ← EReal.coe_mul]
  rw [Finset.sum_congr rfl fun k _ => hR k, ← coe_sum]
  congr 1
  have hI : ∀ e, (if dst e = (n.val : Int) then ∑ k, X (row e) k * W g k else 0)
      = ∑ k, (if dst e = (n.val : Int) then X (row e) k else 0) * W g k := by
    intro e; split <;> simp
  rw [Finset.sum_congr rfl fun e _ => hI e, Finset.sum_comm, Finset.sum_mul]
  refine Finset.sum_congr rfl fun k _ => ?_
  rw [← Finset.sum_mul]; field_simp

theorem isReal_meanR (dst : Fin E → Int) (row : Fin E → Fin Ns) {x : Fin Ns → Fin K → EReal} {w : Fin H → Fin K → EReal}
    (hx : ∀ r k, IsReal (x r k)) (hw : ∀ g k, IsReal (w g k)) (n : Fin N) (g : Fin H) : IsReal (meanR dst row x w n g) := by
  obtain ⟨c, hc0, hc⟩ := cden_real dst n
  unfold meanR
  refine isReal_sum fun k => isReal_mul ?_ (hw g k)
  obtain ⟨s, hs⟩ : IsReal (0 + seg dst (fun e => x (row e) k) n) := isReal_add isReal_zero (isReal_seg dst (fun e => hx (row e) k) n)
  rw [hs, hc, div_coe_coe s hc0]; exact isReal_coe _

/-- A real row normalised against a positive real floor is a real row. -/
theorem isReal_l2n {ε : EReal} (hε : ∃ e : ℝ, 0 < e ∧ ε = (e : EReal)) {z : Fin N → Fin H → EReal}
    (hz : ∀ r g, IsReal (z r g)) (r : Fin N) (g : Fin H) : IsReal (l2n ε z r g) := by
  obtain ⟨e, he, rfl⟩ := hε
  choose Z hZ using hz
  unfold l2n
  have hs : (0 + ∑ g', z r g' * z r g' : EReal) = ((∑ g', Z r g' * Z r g' : ℝ) : EReal) := by
    rw [zero_add, coe_sum]; exact Finset.sum_congr rfl fun g' _ => by rw [hZ r g', ← EReal.coe_mul]
  rw [hs, sqrt_coe_nonneg (Finset.sum_nonneg fun g' _ => mul_self_nonneg _)]
  obtain ⟨d, hd⟩ : IsReal (max ((Real.sqrt (∑ g', Z r g' * Z r g') : ℝ) : EReal) (e : EReal)) := isReal_max (isReal_coe _) (isReal_coe _)
  have hd0 : d ≠ 0 := by
    have h1 : (e : EReal) ≤ (d : EReal) := hd ▸ le_max_right _ _
    rw [EReal.coe_le_coe_iff] at h1
    exact ne_of_gt (lt_of_lt_of_le he h1)
  rw [hd, hZ r g, div_coe_coe _ hd0]; exact isReal_coe _

theorem isReal_sage {ε : EReal} (hε : ∃ e : ℝ, 0 < e ∧ ε = (e : EReal)) {mean : Fin N → Fin H → EReal} {b : Fin H → EReal}
    {xd : Fin N → Fin K → EReal} {wr : Fin H → Fin K → EReal} (hm : ∀ r g, IsReal (mean r g)) (hb : ∀ g, IsReal (b g))
    (hx : ∀ r k, IsReal (xd r k)) (hw : ∀ g k, IsReal (wr g k)) (r : Fin N) (g : Fin H) : IsReal (sage ε mean b xd wr r g) :=
  isReal_max (isReal_l2n hε (fun r g => isReal_add (isReal_add (hm r g) (hb g)) (isReal_proj hx hw r g)) r g) isReal_zero

end Law

/-! ## The two encoders agree on real inputs -/

/-- Every float input is a real number, and the norm's floor is a positive real. -/
structure Args.Real (A : Args) : Prop where
  ε : ∃ e : ℝ, 0 < e ∧ A.ε = (e : EReal)
  xu : ∀ r k, IsReal (A.xu r k)
  xi : ∀ r k, IsReal (A.xi r k)
  wl0_ui : ∀ g k, IsReal (A.wl0_ui g k)
  b0_ui : ∀ g, IsReal (A.b0_ui g)
  wr0_ui : ∀ g k, IsReal (A.wr0_ui g k)
  wl0_iu : ∀ g k, IsReal (A.wl0_iu g k)
  b0_iu : ∀ g, IsReal (A.b0_iu g)
  wr0_iu : ∀ g k, IsReal (A.wr0_iu g k)
  wl1_ui : ∀ g k, IsReal (A.wl1_ui g k)
  b1_ui : ∀ g, IsReal (A.b1_ui g)
  wr1_ui : ∀ g k, IsReal (A.wr1_ui g k)
  wl1_iu : ∀ g k, IsReal (A.wl1_iu g k)
  b1_iu : ∀ g, IsReal (A.b1_iu g)
  wr1_iu : ∀ g k, IsReal (A.wr1_iu g k)

section Agree
variable {A : Args} (hA : A.Real)
include hA

theorem item1_agree : item1 (@meanK) A = item1 (@meanR) A := by
  unfold item1; rw [mean_agree A.dstI A.rowU hA.xu hA.wl0_ui]

theorem user1_agree : user1 (@meanK) A = user1 (@meanR) A := by
  unfold user1; rw [mean_agree A.dstU A.rowI hA.xi hA.wl0_iu]

theorem isReal_item1 (r : Fin 50000) (g : Fin 32) : IsReal (item1 (@meanR) A r g) :=
  isReal_sage hA.ε (isReal_meanR A.dstI A.rowU hA.xu hA.wl0_ui) hA.b0_ui hA.xi hA.wr0_ui r g

theorem isReal_user1 (r : Fin 100000) (g : Fin 32) : IsReal (user1 (@meanR) A r g) :=
  isReal_sage hA.ε (isReal_meanR A.dstU A.rowI hA.xi hA.wl0_iu) hA.b0_iu hA.xu hA.wr0_iu r g

theorem item2_agree : item2 (@meanK) A = item2 (@meanR) A := by
  unfold item2; rw [user1_agree hA, item1_agree hA, mean_agree A.dstI A.rowU (isReal_user1 hA) hA.wl1_ui]

theorem user2_agree : user2 (@meanK) A = user2 (@meanR) A := by
  unfold user2; rw [user1_agree hA, item1_agree hA, mean_agree A.dstU A.rowI (isReal_item1 hA) hA.wl1_iu]

/-- The two encoders compute the same embeddings. -/
theorem emb_agree : userEmb (@meanK) A = userEmb (@meanR) A ∧ itemEmb (@meanK) A = itemEmb (@meanR) A := by
  unfold userEmb itemEmb; rw [user2_agree hA, item2_agree hA]; exact ⟨rfl, rfl⟩

end Agree

end Cert.Sage

end
-- ==== Proof.LibGatherFlatRows.lean ====
/-
  A `stablehlo.gather` that takes whole rows of an `[N, D]` table at a column `[E, 1]` of start indices — what
  `table[idx]` lowers to for a flat index array: offset_dims `[1]`, collapsed_slice_dims `[0]`, start_index_map
  `[0]`, index_vector_dim `1`, slice_sizes `[1, D]`. Result entry `(e, d)` is column `d` of the row named by start
  index `e`, read as a signed integer and clamped into `[0, N − 1]`. General over the extents and the element type.
-/
import Idealize.ShloMosaic.Lib.ValueIdx

noncomputable section

namespace Cert.LibGatherFlatRows

open Idealize.ShloMosaic Idealize.ShloMosaic.ValueIdx

variable {α : Type}

/-- Those dimension numbers for a table `[N, D]`, start indices `[E, 1]` and result `[E, D]`; their conditions `wf` are
    decided on a program's literal shapes. -/
abbrev rowDims (N D E : Nat)
    (wf : GatherDims.WF ⟨2, ![N, D]⟩ ⟨2, ![E, 1]⟩ ⟨2, ![E, D]⟩ [1] [0] [] [0] [] 1 ![1, D]) :
    GatherDims ⟨2, ![N, D]⟩ ⟨2, ![E, 1]⟩ ⟨2, ![E, D]⟩ where
  offsetDims := [1]
  collapsedSliceDims := [0]
  operandBatchingDims := []
  startIndicesBatchingDims := []
  startIndexMap := [0]
  indexVectorDim := 1
  sliceSizes := ![1, D]
  wf := wf

/-- The row a start index names: the index word read signed, clamped into `[0, N − 1]`. -/
def rowOf {w : Nat} (N : Nat) (hN : 0 < N) (b : BitVec w) : Fin N := ⟨min b.toInt.toNat (N - 1), by omega⟩

/-- An axis of a rank-2 shape is its first or its second. -/
private theorem axis_cases (a : Fin 2) : a = 0 ∨ a = 1 := by fin_cases a <;> simp

/-- THE GATHER READ AT `(e, d)`: column `d` of the row the start index `idx[e, 0]` names. -/
theorem gather_rows_apply {N D E w : Nat} (hN : 0 < N)
    (wf : GatherDims.WF ⟨2, ![N, D]⟩ ⟨2, ![E, 1]⟩ ⟨2, ![E, D]⟩ [1] [0] [] [0] [] 1 ![1, D])
    (x : (⟨2, ![N, D]⟩ : Shape).Idx → α) (idx : IVec ⟨2, ![E, 1]⟩ w) (e : Fin E) (d : Fin D) :
    Host.gather (rowDims N D E wf) x idx (ix2 e d) = x (ix2 (rowOf N hN (idx (ix2 e (0 : Fin 1)))) d) := by
  unfold Host.gather
  congr 1
  funext a
  refine Fin.ext ?_
  show (rowDims N D E wf).start (ix2 e d) idx a + (rowDims N D E wf).batchCoord (ix2 e d) a
      + (rowDims N D E wf).offCoord (ix2 e d) a = _
  rw [GatherDims.batchCoord_eq_zero _ _ _ List.not_mem_nil]
  rcases axis_cases a with rfl | rfl
  ·
    rw [GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowDims N D E wf).startIndexMap from List.mem_singleton.mpr rfl)]
    have hsi : (rowDims N D E wf).siIdx (ix2 e d) ⟨List.idxOf (0 : Fin 2) (rowDims N D E wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  ·
    unfold GatherDims.start
    rw [dif_neg (show (1 : Fin 2) ∉ (rowDims N D E wf).startIndexMap from
      fun h => absurd (congrArg Fin.val (List.mem_singleton.mp h)) Nat.one_ne_zero)]
    simp only [Nat.zero_add]
    have hk : (1 : Fin 2) ∈ (rowDims N D E wf).sKept :=
      ((rowDims N D E wf).mem_sKept 1).mpr
        ⟨fun h => absurd (congrArg Fin.val (List.mem_singleton.mp h)) Nat.one_ne_zero, List.not_mem_nil⟩
    unfold GatherDims.offCoord
    rw [dif_pos hk]
    rfl

/-- The row does not depend on the column read: two such gathers at one column of start indices, of tables with the
    same number of rows, read the same row. -/
theorem gather_rows_row {N D D' E w : Nat} (hN : 0 < N)
    (wf : GatherDims.WF ⟨2, ![N, D]⟩ ⟨2, ![E, 1]⟩ ⟨2, ![E, D]⟩ [1] [0] [] [0] [] 1 ![1, D])
    (wf' : GatherDims.WF ⟨2, ![N, D']⟩ ⟨2, ![E, 1]⟩ ⟨2, ![E, D']⟩ [1] [0] [] [0] [] 1 ![1, D'])
    (x : (⟨2, ![N, D]⟩ : Shape).Idx → α) (x' : (⟨2, ![N, D']⟩ : Shape).Idx → α) (idx : IVec ⟨2, ![E, 1]⟩ w)
    (e : Fin E) (d : Fin D) (d' : Fin D') :
    ∃ r : Fin N, Host.gather (rowDims N D E wf) x idx (ix2 e d) = x (ix2 r d)
      ∧ Host.gather (rowDims N D' E wf') x' idx (ix2 e d') = x' (ix2 r d') :=
  ⟨rowOf N hN (idx (ix2 e (0 : Fin 1))), gather_rows_apply hN wf x idx e d, gather_rows_apply hN wf' x' idx e d'⟩

end Cert.LibGatherFlatRows

end
-- ==== Proof.Iface.lean ====
/-
  Between the programs' arrays and the specification's entry-by-entry functions: an array of shape [N, D] read at its
  coordinates, a function of coordinates made an array, a matrix read transposed, and the encoder's inputs collected
  from the twenty argument arrays.  The edge list enters in two ways.  As a DESTINATION an edge's word is read signed and
  compared with a node's number (an edge whose word names no node contributes to none).  As a SOURCE the word is first
  normalised the way array indexing does it (a negative word has the extent added) and then clamped into the table, so
  every edge reads SOME row (srcRows).
-/
import Idealize.ShloMosaic.Lib.ValueIdx
import proofs.«137275_j12352325943870_2_alg».proof.Proof.Spec
import proofs.«137275_j12352325943870_2_alg».proof.Proof.LibGatherFlatRows

noncomputable section

open Idealize.ShloMosaic Idealize.ShloMosaic.ValueIdx

namespace Cert.Sage

/-- An [N, D] array read at its coordinates. -/
def rd2 {N D : ℕ} (a : (⟨2, ![N, D]⟩ : Shape).Idx → EReal) : Fin N → Fin D → EReal := fun r d => a (ix2 r d)

/-- An [N] array read at its coordinate. -/
def rd1 {N : ℕ} {α : Type} (a : (⟨1, ![N]⟩ : Shape).Idx → α) : Fin N → α := fun r => a (ix1 r)

/-- A [1, D] row read at its column. -/
def rdRow {D : ℕ} (a : (⟨2, ![1, D]⟩ : Shape).Idx → EReal) : Fin D → EReal := fun d => a (ix2 (0 : Fin 1) d)

/-- An [N, 1] column read at its row. -/
def rdCol {N : ℕ} (a : (⟨2, ![N, 1]⟩ : Shape).Idx → EReal) : Fin N → EReal := fun r => a (ix2 r (0 : Fin 1))

/-- A function of coordinates as an [N, D] array. -/
def mk2 {N D : ℕ} (f : Fin N → Fin D → EReal) : (⟨2, ![N, D]⟩ : Shape).Idx → EReal := fun i => f (i 0) (i 1)

theorem mk2_ix2 {N D : ℕ} (f : Fin N → Fin D → EReal) (r : Fin N) (d : Fin D) : mk2 f (ix2 r d) = f r d := rfl

theorem mk2_rd2 {N D : ℕ} (a : (⟨2, ![N, D]⟩ : Shape).Idx → EReal) : mk2 (rd2 a) = a := by
  funext i; exact (congrArg a (eq_ix2 i)).symm

theorem rd2_mk2 {N D : ℕ} (f : Fin N → Fin D → EReal) : rd2 (mk2 f) = f := rfl

/-- To show an array is mk2 f, read it at every pair of coordinates. -/
theorem eq_mk2 {N D : ℕ} {a : (⟨2, ![N, D]⟩ : Shape).Idx → EReal} {f : Fin N → Fin D → EReal}
    (h : ∀ r d, a (ix2 r d) = f r d) : a = mk2 f := by
  funext i; rw [eq_ix2 i]; exact h _ _

/-- A matrix read transposed. -/
def tr {K H : ℕ} (wt : Fin K → Fin H → EReal) : Fin H → Fin K → EReal := fun g k => wt k g

/-- An index word normalised as array indexing does: a negative word has the extent added. -/
def normWord (Nw s : BitVec 32) : BitVec 32 := Scalar.select (IntOp.cmpi .slt s 0#32) (IntOp.addi s Nw) s

/-- The source row each edge reads: its word normalised, read signed and clamped into the table. -/
def srcRows {E : ℕ} (N : ℕ) (hN : 0 < N) (Nw : BitVec 32) (s : (⟨1, ![E]⟩ : Shape).Idx → BitVec 32) : Fin E → Fin N :=
  fun e => Cert.LibGatherFlatRows.rowOf N hN (normWord Nw (s (ix1 e)))

/-- The destination each edge names: its word read signed. -/
def dstOf {E : ℕ} (d : (⟨1, ![E]⟩ : Shape).Idx → BitVec 32) : Fin E → Int := fun e => (d (ix1 e)).toInt

/-- The norm's floor: the f32 word nearest 1e-12. -/
def epsWord : EReal := Ideal.ofBits .f32 0x2B8CBCCC#32

/-- The encoder's inputs from the twenty argument arrays, in the programs' order. -/
def argsOf (a0 : (⟨2, ![100000, 128]⟩ : Shape).Idx → EReal) (a1 : (⟨2, ![50000, 128]⟩ : Shape).Idx → EReal)
    (a2 a3 : (⟨1, ![819200]⟩ : Shape).Idx → BitVec 32)
    (a4 : (⟨2, ![32, 128]⟩ : Shape).Idx → EReal) (a5 : (⟨1, ![32]⟩ : Shape).Idx → EReal) (a6 : (⟨2, ![32, 128]⟩ : Shape).Idx → EReal)
    (a7 : (⟨2, ![32, 128]⟩ : Shape).Idx → EReal) (a8 : (⟨1, ![32]⟩ : Shape).Idx → EReal) (a9 : (⟨2, ![32, 128]⟩ : Shape).Idx → EReal)
    (a10 : (⟨2, ![32, 32]⟩ : Shape).Idx → EReal) (a11 : (⟨1, ![32]⟩ : Shape).Idx → EReal) (a12 : (⟨2, ![32, 32]⟩ : Shape).Idx → EReal)
    (a13 : (⟨2, ![32, 32]⟩ : Shape).Idx → EReal) (a14 : (⟨1, ![32]⟩ : Shape).Idx → EReal) (a15 : (⟨2, ![32, 32]⟩ : Shape).Idx → EReal)
    (a16 : (⟨2, ![32, 32]⟩ : Shape).Idx → EReal) (a17 : (⟨1, ![32]⟩ : Shape).Idx → EReal)
    (a18 : (⟨2, ![32, 32]⟩ : Shape).Idx → EReal) (a19 : (⟨1, ![32]⟩ : Shape).Idx → EReal) : Args where
  ε := epsWord
  xu := rd2 a0
  xi := rd2 a1
  dstU := dstOf a2
  dstI := dstOf a3
  rowU := srcRows 100000 (by norm_num) 100000#32 a2
  rowI := srcRows 50000 (by norm_num) 50000#32 a3
  wl0_ui := rd2 a4
  b0_ui := rd1 a5
  wr0_ui := rd2 a6
  wl0_iu := rd2 a7
  b0_iu := rd1 a8
  wr0_iu := rd2 a9
  wl1_ui := rd2 a10
  b1_ui := rd1 a11
  wr1_ui := rd2 a12
  wl1_iu := rd2 a13
  b1_iu := rd1 a14
  wr1_iu := rd2 a15
  wp_user := rd2 a16
  bp_user := rd1 a17
  wp_item := rd2 a18
  bp_item := rd1 a19

end Cert.Sage

end
-- ==== Proof.LibSegSum.lean ====
/-
  Three host operations on rows and flat index arrays, read at an entry; general over the extents.

  * A `stablehlo.scatter` with an adding body of float rows into an `[N, D]` operand at a column `[E, 1]` of
    destination indices (update_window_dims `[1]`, inserted_window_dims `[0]`, scatter_dims_to_operand_dims `[0]`,
    index_vector_dim `1`; what a segment sum lowers to), on the extended reals: entry `(n, k)` is the operand's entry
    plus the sum over the updates `e` whose index word read signed is `n` of the update's entry `(e, k)`.
  * A `stablehlo.gather` of single elements of a flat array `[M]` at a column `[E, 1]` of start indices
    (collapsed_slice_dims `[0]`, start_index_map `[0]`, index_vector_dim `1`, slice_sizes `[1]`; what `a[idx]` lowers
    to for flat arrays): entry `e` is the element the index word names, read signed and clamped into `[0, M − 1]`.
  * The second result of a stable sort of a key array carrying the iota of positions (an argsort): a bijection of the
    positions, as words.
-/
import Idealize.ShloMosaic.Lib.ValueIdx
import Idealize.ShloMosaic.Lib.SortFacts
import Idealize.ShloMosaic.PureOps.Ideal.Laws
import proofs.«137275_j12352325943870_2_alg».proof.Proof.LibGatherFlatRows

noncomputable section

namespace Cert.LibSegSum

open Idealize.ShloMosaic Idealize.ShloMosaic.ValueIdx

/-- The scatter's dimension numbers for an operand `[N, D]`, indices `[E, 1]` and updates `[E, D]`. -/
abbrev rowsDims (N D E : Nat) (wf : ScatterDims.WF ⟨2, ![N, D]⟩ ⟨2, ![E, 1]⟩ ⟨2, ![E, D]⟩ [1] [0] [0] 1) :
    ScatterDims ⟨2, ![N, D]⟩ ⟨2, ![E, 1]⟩ ⟨2, ![E, D]⟩ where
  updateWindowDims := [1]
  insertedWindowDims := [0]
  scatterDimsToOperandDims := [0]
  indexVectorDim := 1
  wf := wf

/-- An axis of a rank-2 shape is its first or its second. -/
private theorem axis_cases (a : Fin 2) : a = 0 ∨ a = 1 := by fin_cases a <;> simp

/-- A 32-bit word of a number below `2 ^ 31` reads that number, signed. -/
private theorem toInt_ofNat_lt {v : Nat} (hv : v < 2 ^ 31) : (BitVec.ofNat 32 v).toInt = (v : Int) := by
  rw [BitVec.toInt_eq_toNat_cond, BitVec.toNat_ofNat]
  have hm : v % 2 ^ 32 = v := Nat.mod_eq_of_lt (by omega)
  rw [hm]
  split <;> omega

section Rows
variable {N D E w : Nat} (wf : ScatterDims.WF ⟨2, ![N, D]⟩ ⟨2, ![E, 1]⟩ ⟨2, ![E, D]⟩ [1] [0] [0] 1)
  (idx : IVec ⟨2, ![E, 1]⟩ w) (e : Fin E) (k' : Fin D)

/-- The window of update `(e, k')` starts, on the row axis, at the index word `idx[e, 0]` read signed … -/
private theorem start_row :
    (rowsDims N D E wf).start (ix2 e k') idx (0 : Fin 2) = (idx (ix2 e (0 : Fin 1))).toInt := by
  unfold ScatterDims.start
  rw [dif_pos (show (0 : Fin 2) ∈ (rowsDims N D E wf).scatterDimsToOperandDims from List.mem_singleton.mpr rfl)]
  have hsi : (rowsDims N D E wf).siIdx (ix2 e k') ⟨List.idxOf (0 : Fin 2) (rowsDims N D E wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]

/-- … and, on the column axis, at `0`. -/
private theorem start_col : (rowsDims N D E wf).start (ix2 e k') idx (1 : Fin 2) = 0 := by
  unfold ScatterDims.start
  rw [dif_neg (show (1 : Fin 2) ∉ (rowsDims N D E wf).scatterDimsToOperandDims from
    fun h => absurd (congrArg Fin.val (List.mem_singleton.mp h)) Nat.one_ne_zero)]

/-- Its window coordinate is `0` on the row axis, an inserted one … -/
private theorem window_row : (rowsDims N D E wf).window (ix2 e k') (0 : Fin 2) = 0 := by
  unfold ScatterDims.window
  rw [dif_neg (show (0 : Fin 2) ∉ (rowsDims N D E wf).sKept from by
    simp [ScatterDims.sKept, Shape.kept])]

/-- … and the update's column on the column axis. -/
private theorem window_col : (rowsDims N D E wf).window (ix2 e k') (1 : Fin 2) = k'.val := by
  have hk : (1 : Fin 2) ∈ (rowsDims N D E wf).sKept := by
    simp [ScatterDims.sKept, Shape.kept]
  unfold ScatterDims.window
  rw [dif_pos hk]
  rfl

/-- Update `(e, k')` lands at `(n, k)` exactly when its index word read signed is `n` and `k' = k`. -/
private theorem resultIdx_rows (n : Fin N) (k : Fin D) :
    (rowsDims N D E wf).resultIdx? (ix2 e k') idx = some (ix2 n k)
      ↔ (idx (ix2 e (0 : Fin 1))).toInt = (n.val : Int) ∧ k' = k := by
  have hs0 := start_row wf idx e k'
  have hs1 := start_col wf idx e k'
  have hw0 := window_row wf e k'
  have hw1 := window_col wf e k'
  unfold ScatterDims.resultIdx?
  split
  · rename_i h
    rw [Option.some.injEq]
    constructor
    · intro hEq
      have h0 := congrArg Fin.val (congrFun hEq (0 : Fin 2))
      have h1 := congrArg Fin.val (congrFun hEq (1 : Fin 2))
      have hb := (h (0 : Fin 2)).1
      simp only [hs0, hw0] at h0 hb
      simp only [hs1, hw1] at h1
      refine ⟨?_, Fin.ext ?_⟩
      · have : ((idx (ix2 e (0 : Fin 1))).toInt + ((0 : Nat) : Int)).toNat = n.val := h0
        omega
      · have : ((0 : Int) + (k'.val : Int)).toNat = k.val := h1
        omega
    · rintro ⟨hn, rfl⟩
      funext a
      refine Fin.ext ?_
      rcases axis_cases a with rfl | rfl
      · show ((rowsDims N D E wf).start (ix2 e k') idx (0 : Fin 2) + ((rowsDims N D E wf).window (ix2 e k') (0 : Fin 2) : Int)).toNat = n.val
        rw [hs0, hw0, hn]; omega
      · show ((rowsDims N D E wf).start (ix2 e k') idx (1 : Fin 2) + ((rowsDims N D E wf).window (ix2 e k') (1 : Fin 2) : Int)).toNat = k'.val
        rw [hs1, hw1]; omega
  · rename_i h
    constructor
    · intro hEq; exact absurd hEq (by simp)
    · rintro ⟨hn, rfl⟩
      refine absurd (fun a => ?_) h
      rcases axis_cases a with rfl | rfl
      · rw [hs0, hw0, hn]
        have := n.isLt
        show (0 : Int) ≤ (n.val : Int) + ((0 : Nat) : Int) ∧ (n.val : Int) + ((0 : Nat) : Int) < ((N : Nat) : Int)
        omega
      · rw [hs1, hw1]
        have := k'.isLt
        show (0 : Int) ≤ (0 : Int) + (k'.val : Int) ∧ (0 : Int) + (k'.val : Int) < ((D : Nat) : Int)
        omega

end Rows

/-- THE ADDING SCATTER OF ROWS AT `(n, k)`, on the extended reals. -/
theorem scatterAdd_rows_apply {N D E w : Nat}
    (wf : ScatterDims.WF ⟨2, ![N, D]⟩ ⟨2, ![E, 1]⟩ ⟨2, ![E, D]⟩ [1] [0] [0] 1)
    (x : FVec Ideal ⟨2, ![N, D]⟩ .f32) (idx : IVec ⟨2, ![E, 1]⟩ w) (upd : FVec Ideal ⟨2, ![E, D]⟩ .f32)
    (n : Fin N) (k : Fin D) :
    Host.scatterAdd (rowsDims N D E wf) x idx upd (ix2 n k)
      = x (ix2 n k) + ∑ e : Fin E, if (idx (ix2 e (0 : Fin 1))).toInt = (n.val : Int) then upd (ix2 e k) else 0 := by
  show x (ix2 n k) + ∑ j ∈ Finset.univ.filter (fun j => (rowsDims N D E wf).resultIdx? j idx = some (ix2 n k)), upd j = _
  congr 1
  rw [Finset.sum_filter, sum_idx2]
  refine Finset.sum_congr rfl fun e _ => ?_
  by_cases hn : (idx (ix2 e (0 : Fin 1))).toInt = (n.val : Int)
  · rw [if_pos hn, Finset.sum_eq_single k]
    · exact if_pos ((resultIdx_rows wf idx e k n k).mpr ⟨hn, rfl⟩)
    · intro k' _ hk
      exact if_neg fun h => hk ((resultIdx_rows wf idx e k' n k).mp h).2
    · intro h; exact absurd (Finset.mem_univ k) h
  · rw [if_neg hn]
    exact Finset.sum_eq_zero fun k' _ => if_neg fun h => hn ((resultIdx_rows wf idx e k' n k).mp h).1

/-- The gather's dimension numbers for a flat array `[M]`, indices `[E, 1]` and result `[E]`. -/
abbrev flatDims (M E : Nat) (wf : GatherDims.WF ⟨1, ![M]⟩ ⟨2, ![E, 1]⟩ ⟨1, ![E]⟩ [] [0] [] [0] [] 1 ![1]) :
    GatherDims ⟨1, ![M]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- THE FLAT GATHER AT `e`: the element the start index `idx[e, 0]` names. -/
theorem gather_flat_apply {α : Type} {M E w : Nat} (hM : 0 < M)
    (wf : GatherDims.WF ⟨1, ![M]⟩ ⟨2, ![E, 1]⟩ ⟨1, ![E]⟩ [] [0] [] [0] [] 1 ![1])
    (x : (⟨1, ![M]⟩ : Shape).Idx → α) (idx : IVec ⟨2, ![E, 1]⟩ w) (e : Fin E) :
    Host.gather (flatDims M E wf) x idx (ix1 e)
      = x (ix1 (Cert.LibGatherFlatRows.rowOf M hM (idx (ix2 e (0 : Fin 1))))) := by
  unfold Host.gather
  congr 1
  funext a
  obtain rfl : a = 0 := Subsingleton.elim _ _
  refine Fin.ext ?_
  show (flatDims M E wf).start (ix1 e) idx 0 + (flatDims M E wf).batchCoord (ix1 e) 0
      + (flatDims M E wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (flatDims M E wf).startIndexMap from List.mem_singleton.mpr rfl)]
  have hsi : (flatDims M E wf).siIdx (ix1 e) ⟨List.idxOf (0 : Fin 1) (flatDims M E wf).startIndexMap,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]
  rfl

/-- On a rank-1 shape the second result of a two-operand stable sort along the one axis reads its operand through
    ONE self-map of the positions: the stable sorting permutation of the comparator on the pairs of words. -/
private theorem sort2_snd_rank1 {α β : Type} {E : Nat} (cmp : α × β → α × β → BitVec 1)
    (x : (⟨1, ![E]⟩ : Shape).Idx → α) (y : (⟨1, ![E]⟩ : Shape).Idx → β) (j : (⟨1, ![E]⟩ : Shape).Idx) :
    (Host.sort2 ⟨1, ![E]⟩ 0 cmp x y).2 j
      = y (Shape.Idx.ofFin (sortedFrom (fun k k' => cmp (x (Shape.Idx.ofFin k), y (Shape.Idx.ofFin k))
          (x (Shape.Idx.ofFin k'), y (Shape.Idx.ofFin k')) == 1#1) (j 0))) := by
  unfold Host.sort2
  simp

/-- AN ARGSORT IS A BIJECTION OF THE POSITIONS: the second result of the stable sort, along its one axis, of any key
    array `x` paired with the iota of positions is `e ↦ the word of σ e` for a bijection `σ` of `Fin E`. -/
theorem sort2_iota_bijective {α : Type} {E : Nat} (cmp : α × BitVec 32 → α × BitVec 32 → BitVec 1)
    (x : (⟨1, ![E]⟩ : Shape).Idx → α) :
    ∃ σ : Fin E → Fin E, Function.Bijective σ ∧
      ∀ e : Fin E, (Host.sort2 ⟨1, ![E]⟩ 0 cmp x (iotaInDim ⟨1, ![E]⟩ 32 (0 : Fin 1))).2 (ix1 e)
        = BitVec.ofNat 32 (σ e).val := by
  refine ⟨sortedFrom (fun k k' => cmp (x (Shape.Idx.ofFin k), iotaInDim ⟨1, ![E]⟩ 32 (0 : Fin 1) (Shape.Idx.ofFin k))
      (x (Shape.Idx.ofFin k'), iotaInDim ⟨1, ![E]⟩ 32 (0 : Fin 1) (Shape.Idx.ofFin k')) == 1#1),
    ⟨sortedFrom_injective _, sortedFrom_surjective _⟩, fun e => ?_⟩
  rw [sort2_snd_rank1]
  rfl

/-- The word of a position below `2 ^ 31` is not negative read signed … -/
theorem not_slt_zero_ofNat {v : Nat} (hv : v < 2 ^ 31) : IntOp.cmpi .slt (BitVec.ofNat 32 v) 0#32 = 0#1 := by
  have h : (BitVec.ofNat 32 v).slt 0#32 = false := by
    rw [Bool.eq_false_iff, ne_eq, BitVec.slt_iff_toInt_lt, toInt_ofNat_lt hv]
    simp
  show BitVec.ofBool ((BitVec.ofNat 32 v).slt 0#32) = 0#1
  rw [h]
  rfl

/-- … and names that position: read signed and clamped into `[0, M − 1]` it is `v` when `v < M`. -/
theorem rowOf_ofNat {M v : Nat} (hM : 0 < M) (hv : v < M) (hM31 : M ≤ 2 ^ 31) :
    Cert.LibGatherFlatRows.rowOf M hM (BitVec.ofNat 32 v) = ⟨v, hv⟩ := by
  refine Fin.ext ?_
  show min (BitVec.ofNat 32 v).toInt.toNat (M - 1) = v
  rw [toInt_ofNat_lt (lt_of_lt_of_le hv hM31), Int.toNat_natCast]
  omega

end Cert.LibSegSum

end
-- ==== Proof.LibHistogram.lean ====
/- A histogram computed as a scatter of additions.

   The host's scatter with an adding body leaves, at each place of the operand, the operand's entry plus the sum of
   the updates that land on that place: the left fold over the updates changes one place per update, and addition
   of words is associative, so the place's final value does not depend on the order.  For a rank-1 operand of
   `N` places and a column `[E, 1]` of start indices (one scalar update per index: what `x.at[idx].add(u)` lowers
   to) update `n` lands on place `k` exactly when its index word, read as a signed integer, is `k`; an index
   outside `[0, N)` is dropped.  With every update one this is the histogram of the indices. -/
import Idealize.ShloMosaic.PureOps
import Idealize.ShloMosaic.Lib.ValueIdx
import Mathlib.Algebra.BigOperators.Fin
import Mathlib.Data.BitVec

noncomputable section

open scoped BigOperators

namespace Cert.LibHistogram

open Idealize.ShloMosaic Idealize.ShloMosaic.ValueIdx

section Fold
variable {s si u : Shape} {w wi : Nat}

/-- The fold of the adding scatter step over a list of update positions, read at one place `i0`: the start
    contents there plus the updates of the list that land there. -/
theorem scatter_foldl (d : ScatterDims s si u) (idx : IVec si wi) (upd : u.Idx → BitVec w) (i0 : s.Idx)
    (L : List (Fin u.numel)) (r : s.Idx → BitVec w) :
    (L.foldl (fun r n =>
        match d.resultIdx? (u.rowMajor.symm n) idx with
        | some i => fun i' => if i' = i then IntOp.addi (r i) (upd (u.rowMajor.symm n)) else r i'
        | none => r) r) i0
      = r i0 + (L.map fun n => if d.resultIdx? (u.rowMajor.symm n) idx = some i0 then upd (u.rowMajor.symm n) else 0).sum := by
  induction L generalizing r with
  | nil => simp
  | cons n L ih =>
    rw [List.foldl_cons, ih, List.map_cons, List.sum_cons, ← BitVec.add_assoc]
    congr 1
    cases hres : d.resultIdx? (u.rowMajor.symm n) idx with
    | none => simp
    | some i =>
      by_cases hi : i0 = i
      · subst hi
        simp [IntOp.addi]
      · have hne : ¬ (some i = some i0) := fun h => hi (Option.some.inj h).symm
        simp [hi, hne]

/-- THE ADDING SCATTER AT A PLACE: the operand's entry plus the sum of the updates landing there. -/
theorem scatter_add_apply (d : ScatterDims s si u) (x : s.Idx → BitVec w) (idx : IVec si wi) (upd : u.Idx → BitVec w)
    (i0 : s.Idx) :
    Host.scatter d IntOp.addi x idx upd i0 = x i0 + ∑ j : u.Idx, if d.resultIdx? j idx = some i0 then upd j else 0 := by
  unfold Host.scatter
  refine (scatter_foldl d idx upd i0 (List.finRange u.numel) x).trans ?_
  rw [← Fin.sum_univ_def]
  congr 1
  exact Equiv.sum_comp u.rowMajor.symm fun j => if d.resultIdx? j idx = some i0 then upd j else 0

end Fold

section Column
variable {w wi : Nat}

/-- The dimension numbers: a rank-1 operand of `N` places, a column `[E, 1]` of start indices (the index vector
    along axis 1, its one component naming the operand's axis), `E` scalar updates. -/
abbrev colDims (N E : Nat) (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

private theorem zero_mem : (0 : Fin 1) ∈ ([0] : List (Fin 1)) := by decide

/-- Update `n`'s window starts at its index word read signed … -/
theorem start_col {N E : Nat} (wf : ScatterDims.WF ⟨1, ![N]⟩ ⟨2, ![E, 1]⟩ ⟨1, ![E]⟩ [] [0] [0] 1)
    (idx : IVec ⟨2, ![E, 1]⟩ wi) (n : Fin E) :
    (colDims N E wf).start (ix1 n) idx 0 = (idx (ix2 n (0 : Fin 1))).toInt := by
  unfold ScatterDims.start
  rw [dif_pos (show (0 : Fin 1) ∈ (colDims N E wf).scatterDimsToOperandDims from zero_mem)]
  have hsi : (colDims N E wf).siIdx (ix1 n) ⟨List.idxOf (0 : Fin 1) (colDims N E wf).scatterDimsToOperandDims,
      List.idxOf_lt_length_iff.2 zero_mem⟩ = ix2 n (0 : Fin 1) := by
    funext c; refine Fin.ext ?_
    match c with
    | ⟨0, _⟩ => rfl
    | ⟨1, _⟩ => rfl
  rw [hsi]

/-- … and has no window coordinate: the operand's one axis is an inserted one. -/
theorem window_col {N E : Nat} (wf : ScatterDims.WF ⟨1, ![N]⟩ ⟨2, ![E, 1]⟩ ⟨1, ![E]⟩ [] [0] [0] 1) (n : Fin E) :
    (colDims N E wf).window (ix1 n) 0 = 0 := by
  unfold ScatterDims.window
  rw [dif_neg]
  show (0 : Fin 1) ∉ (List.finRange 1).filter (· ∉ ([0] : List (Fin 1)))
  decide

/-- Update `n` lands on place `k` exactly when its index word, read signed, is `k`. -/
theorem resultIdx_col {N E : Nat} (wf : ScatterDims.WF ⟨1, ![N]⟩ ⟨2, ![E, 1]⟩ ⟨1, ![E]⟩ [] [0] [0] 1)
    (idx : IVec ⟨2, ![E, 1]⟩ wi) (n : Fin E) (k : Fin N) :
    (colDims N E wf).resultIdx? (ix1 n) idx = some (ix1 k) ↔ (idx (ix2 n (0 : Fin 1))).toInt = (k.val : Int) := by
  unfold ScatterDims.resultIdx?
  have hone : ∀ a : Fin 1, a = 0 := fun a => Subsingleton.elim _ _
  by_cases h : ∀ a, 0 ≤ (colDims N E wf).start (ix1 n) idx a + (colDims N E wf).window (ix1 n) a
      ∧ (colDims N E wf).start (ix1 n) idx a + (colDims N E wf).window (ix1 n) a < ((⟨1, ![N]⟩ : Shape).size a : Int)
  · rw [dif_pos h]
    have h0 := h 0
    rw [start_col, window_col] at h0
    constructor
    · intro he
      have := congrFun (Option.some.inj he) 0
      have hv := congrArg Fin.val this
      simp only [start_col, window_col] at hv
      have hv' : ((idx (ix2 n (0 : Fin 1))).toInt + ((0 : Nat) : Int)).toNat = k.val := hv
      omega
    · intro he
      refine congrArg some (funext fun a => Fin.ext ?_)
      rw [hone a]
      show ((colDims N E wf).start (ix1 n) idx 0 + ((colDims N E wf).window (ix1 n) 0 : Int)).toNat = k.val
      rw [start_col, window_col, he]
      simp
  · rw [dif_neg h]
    constructor
    · intro he; exact absurd he (by simp)
    · intro he
      exfalso
      apply h
      intro a
      rw [hone a, start_col, window_col, he]
      have := k.isLt
      constructor
      · simp
      · show ((k.val : Int) + ((0 : Nat) : Int)) < ((N : Nat) : Int)
        omega

end Column

end Cert.LibHistogram

end
-- ==== Proof.LibHostRows.lean ====
/-
  The host's keep-dimension broadcasts and its row sum, read at an entry, for any extents.

  `jnp` writes `v[:, None]` as a `broadcast_in_dim` of an `[a]` vector into an `[a, 1]` column (the vector's axis sent
  to axis 0), repeats such a column along `b` columns by a `broadcast_in_dim` with the identity axis map, writes a bias
  `[b]` as a `[1, b]` row (the vector's axis sent to axis 1) and repeats that row down `a` rows. Each, read at an
  entry, is the operand at the evident entry. A host sum over the second axis of an `[a, b]` matrix, read at row `r`
  on the extended reals, is the initial value plus the sum of that row's entries.
-/
import Idealize.ShloMosaic.Lib.Pipeline.Value
import Idealize.ShloMosaic.Lib.ValueIdx
import Idealize.ShloMosaic.Lib.IdealHost
import Idealize.ShloMosaic.PureOps.Ideal.Laws

noncomputable section

open scoped BigOperators

namespace Cert.LibHostRows

open Idealize.ShloMosaic Idealize.ShloMosaic.ValueIdx

variable {α : Type}

/-- An `[a]` vector broadcast into the column `[a, 1]` reads, at `(r, u)`, the vector at `r`. -/
theorem bcast_a_a1_at {a : ℕ} (dims : Fin (⟨1, ![a]⟩ : Shape).rank → Fin (⟨2, ![a, 1]⟩ : Shape).rank) (hd : dims 0 = 0)
    (h : (⟨1, ![a]⟩ : Shape).BroadcastsInDim ⟨2, ![a, 1]⟩ dims) (x : (⟨1, ![a]⟩ : Shape).Idx → α) (r : Fin a) (u : Fin 1) :
    broadcastInDim ⟨2, ![a, 1]⟩ dims h x (ix2 r u) = x (ix1 r) := by
  refine broadcastInDim_apply dims h x (ix2 r u) (ix1 r) fun ax => ?_
  match ax with
  | ⟨0, _⟩ =>
    show r.val = if a = 1 then 0 else (ix2 r u (dims 0)).val
    rw [hd]
    split
    · have := r.isLt; omega
    · rfl

/-- A column `[a, 1]` broadcast along `b` columns reads, at `(r, k)`, the column at `r`. -/
theorem bcast_a1_ab_at {a b : ℕ} (dims : Fin (⟨2, ![a, 1]⟩ : Shape).rank → Fin (⟨2, ![a, b]⟩ : Shape).rank)
    (hd0 : dims 0 = 0) (hd1 : dims 1 = 1)
    (h : (⟨2, ![a, 1]⟩ : Shape).BroadcastsInDim ⟨2, ![a, b]⟩ dims) (x : (⟨2, ![a, 1]⟩ : Shape).Idx → α) (r : Fin a) (k : Fin b) :
    broadcastInDim ⟨2, ![a, b]⟩ dims h x (ix2 r k) = x (ix2 r (0 : Fin 1)) := by
  refine broadcastInDim_apply dims h x (ix2 r k) (ix2 r (0 : Fin 1)) fun ax => ?_
  match ax with
  | ⟨0, _⟩ =>
    show r.val = if a = 1 then 0 else (ix2 r k (dims 0)).val
    rw [hd0]
    split
    · have := r.isLt; omega
    · rfl
  | ⟨1, _⟩ =>
    show (0 : ℕ) = if (1 : ℕ) = 1 then 0 else (ix2 r k (dims 1)).val
    rw [if_pos rfl]

/-- A vector `[b]` broadcast into the row `[1, b]` reads, at `(u, j)`, the vector at `j`. -/
theorem bcast_b_1b_at {b : ℕ} (dims : Fin (⟨1, ![b]⟩ : Shape).rank → Fin (⟨2, ![1, b]⟩ : Shape).rank) (hd : dims 0 = 1)
    (h : (⟨1, ![b]⟩ : Shape).BroadcastsInDim ⟨2, ![1, b]⟩ dims) (x : (⟨1, ![b]⟩ : Shape).Idx → α) (u : Fin 1) (j : Fin b) :
    broadcastInDim ⟨2, ![1, b]⟩ dims h x (ix2 u j) = x (ix1 j) := by
  refine broadcastInDim_apply dims h x (ix2 u j) (ix1 j) fun ax => ?_
  match ax with
  | ⟨0, _⟩ =>
    show j.val = if b = 1 then 0 else (ix2 u j (dims 0)).val
    rw [hd]
    split
    · have := j.isLt; omega
    · rfl

/-- A row `[1, b]` repeated down `a` rows reads, at `(r, j)`, the row at `j`. -/
theorem bcast_1b_ab_at {a b : ℕ} (dims : Fin (⟨2, ![1, b]⟩ : Shape).rank → Fin (⟨2, ![a, b]⟩ : Shape).rank)
    (hd0 : dims 0 = 0) (hd1 : dims 1 = 1)
    (h : (⟨2, ![1, b]⟩ : Shape).BroadcastsInDim ⟨2, ![a, b]⟩ dims) (x : (⟨2, ![1, b]⟩ : Shape).Idx → α) (r : Fin a) (j : Fin b) :
    broadcastInDim ⟨2, ![a, b]⟩ dims h x (ix2 r j) = x (ix2 (0 : Fin 1) j) := by
  refine broadcastInDim_apply dims h x (ix2 r j) (ix2 (0 : Fin 1) j) fun ax => ?_
  match ax with
  | ⟨0, _⟩ =>
    show (0 : ℕ) = if (1 : ℕ) = 1 then 0 else (ix2 r j (dims 0)).val
    rw [if_pos rfl]
  | ⟨1, _⟩ =>
    show j.val = if b = 1 then 0 else (ix2 r j (dims 1)).val
    rw [hd1]
    split
    · have := j.isLt; omega
    · rfl

/-- On the extended reals the host's sum over the second axis of an `[a, b]` matrix is, at row `r`, the initial value plus
    the sum of that row's entries. -/
theorem hostReduceAdd_rows {a b : ℕ} {u : Shape} (x : FVec Ideal ⟨2, ![a, b]⟩ .f32) (init : u.Idx → Ideal .f32)
    (h' : (⟨2, ![a, b]⟩ : Shape).ReducesTo [1] ⟨1, ![a]⟩) (h : (⟨2, ![a, b]⟩ : Shape).Reduces [1] ⟨1, ![a]⟩)
    (hu : 0 < u.numel) (r : Fin a) :
    Host.reduceAdd x init h' hu (ix1 r) = init (Shape.Idx.first hu) + ∑ d : Fin b, x (ix2 r d) := by
  rw [hostReduceAdd_apply, Ideal.hostReduceAdd_single h' h]
  refine congrArg (init (Shape.Idx.first hu) + ·) (Finset.sum_congr rfl fun d _ => congrArg x (funext fun ax => Fin.ext ?_))
  match ax with
  | ⟨0, _⟩ => rfl
  | ⟨1, _⟩ => rfl

end Cert.LibHostRows

end
-- ==== Proof.LibKeepdims.lean ====
/-
  Column forms of the layout operations that a row reduction with a kept axis produces, read at an index, and a
  lane sum over the second axis of a matrix as the sum over that row's entries. General lemmas over any extents.
-/
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.LibKeepdims

open Idealize.ShloMosaic Idealize.ShloMosaic.ValueIdx

variable {α : Type}

/-- An `[a]` array cast to the column `[a, 1]` reads, at `(i, u)`, the operand at `i`, whatever the unit coordinate. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` cast to the row `[1, a]` reads, at `(u, i)`, the column at `i`. -/
theorem shapeCast_a1_1a_apply {a : ℕ} (x : (⟨2, ![a, 1]⟩ : Shape).Idx → α) (h : (⟨2, ![a, 1]⟩ : Shape).ShapeCasts ⟨2, ![1, a]⟩)
    (u : Fin 1) (i : Fin a) : shapeCast ⟨2, ![1, a]⟩ x h (ix2 u i) = x (ix2 i (0 : Fin 1)) :=
  shapeCast_apply x h _ _ (by
    have hu : u.val = 0 := by omega
    rw [Shape.rowMajor_val_two, Shape.rowMajor_val_two]
    show i.val * 1 + 0 = u.val * a + i.val
    rw [hu, Nat.zero_mul, Nat.zero_add, Nat.mul_one, Nat.add_zero])

/-- A column `[a, 1]` broadcast to `[a, b]` reads, at `(p, c)`, the column at `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- On the extended reals a lane sum over the second axis of an `[a, b]` matrix is, at row `r`, the sum of that row's
    entries. -/
theorem multiReduction_add_rows {a b : ℕ} (src : FVec Ideal ⟨2, ![a, b]⟩ .f32) (acc : BitVec (FTy.bits .f32))
    (h : (⟨2, ![a, b]⟩ : Shape).Reduces [1] ⟨1, ![a]⟩) (hφ : FKind.Formats .f32) (hacc : acc = FKind.add.neutral .f32 hφ)
    (r : Fin a) :
    multiReduction .add [1] ⟨1, ![a]⟩ src acc h hφ hacc (ix1 r) = ∑ d : Fin b, src (ix2 r d) := by
  refine (Ideal.multiReduction_add_single src acc h hφ hacc (ix1 r)).trans ?_
  refine Finset.sum_congr rfl fun d _ => congrArg src (funext fun ax => Fin.ext ?_)
  match ax with
  | ⟨0, _⟩ => rfl
  | ⟨1, _⟩ => rfl

end Cert.LibKeepdims

end
-- ==== Proof.LibRowNorm.lean ====
/-
  Row normalization h / (Σ_d h(r, d) + ε) of an [a, b] matrix over the extended reals, read at an entry in the two spellings a
  program may print it in: a lane sum cast to a column, shifted by a splat constant, broadcast along the columns and divided
  into the matrix (a kernel body's); and the host's reduce-add broadcast into a column, shifted by a broadcast scalar,
  broadcast along the columns and divided into the matrix. Both are one function of the matrix and of ε.
  Also: six pieces of one shape [a, K] laid side by side along axis 1, read at an entry.
-/
import Idealize.ShloMosaic.Lib.Pipeline.Value
import Idealize.ShloMosaic.Lib.ValueIdx
import Idealize.ShloMosaic.Lib.IdealHost
import Idealize.ShloMosaic.PureOps.Ideal.Laws
import proofs.«137275_j12352325943870_2_alg».proof.Proof.LibKeepdims
import proofs.«137275_j12352325943870_2_alg».proof.Proof.LibHostRows

noncomputable section

open scoped BigOperators

namespace Cert.LibRowNorm

open Idealize.ShloMosaic Idealize.ShloMosaic.ValueIdx

/-- Entry (r, c) of the row-normalized matrix: the entry over its row's sum shifted by `e`. -/
def rowNorm {a b : ℕ} (x : (⟨2, ![a, b]⟩ : Shape).Idx → EReal) (e : EReal) : (⟨2, ![a, b]⟩ : Shape).Idx → EReal :=
  fun i => Ideal.div (x i) ((∑ d : Fin b, x (ix2 (i 0) d)) + e)

theorem rowNorm_apply {a b : ℕ} (x : (⟨2, ![a, b]⟩ : Shape).Idx → EReal) (e : EReal) (r : Fin a) (c : Fin b) :
    rowNorm x e (ix2 r c) = Ideal.div (x (ix2 r c)) ((∑ d : Fin b, x (ix2 r d)) + e) := rfl

/-- The kernel body's spelling. -/
theorem kernel_rowNorm {a b : ℕ} (h : FVec Ideal ⟨2, ![a, b]⟩ .f32) (acc : BitVec (FTy.bits .f32))
    (hr : (⟨2, ![a, b]⟩ : Shape).Reduces [1] ⟨1, ![a]⟩) (hφ : FKind.Formats .f32) (hacc : acc = FKind.add.neutral .f32 hφ)
    (hc : (⟨1, ![a]⟩ : Shape).ShapeCasts ⟨2, ![a, 1]⟩) (hb : (⟨2, ![a, 1]⟩ : Shape).Broadcasts ⟨2, ![a, b]⟩)
    (e : Ideal .f32) (r : Fin a) (c : Fin b) :
    divf h (broadcastTo ⟨2, ![a, b]⟩ (addf (shapeCast ⟨2, ![a, 1]⟩ (multiReduction .add [1] ⟨1, ![a]⟩ h acc hr hφ hacc) hc)
      (broadcast ⟨2, ![a, 1]⟩ e)) hb) (ix2 r c) = rowNorm h e (ix2 r c) := by
  rw [divf_apply, Cert.LibKeepdims.broadcastTo_a1_ab_apply, addf_apply, Cert.LibKeepdims.shapeCast_a_a1_apply,
    Cert.LibKeepdims.multiReduction_add_rows, broadcast_apply]
  rfl

/-- The host's spelling: the reduce-add starts from the zero word, which is the real zero. -/
theorem host_rowNorm {a b : ℕ} (x : FVec Ideal ⟨2, ![a, b]⟩ .f32) (ew : BitVec 32)
    (dims2 : Fin (⟨2, ![a, 1]⟩ : Shape).rank → Fin (⟨2, ![a, b]⟩ : Shape).rank) (hd20 : dims2 0 = 0) (hd21 : dims2 1 = 1)
    (h2 : (⟨2, ![a, 1]⟩ : Shape).BroadcastsInDim ⟨2, ![a, b]⟩ dims2)
    (dims1 : Fin (⟨1, ![a]⟩ : Shape).rank → Fin (⟨2, ![a, 1]⟩ : Shape).rank) (hd1 : dims1 0 = 0)
    (h1 : (⟨1, ![a]⟩ : Shape).BroadcastsInDim ⟨2, ![a, 1]⟩ dims1)
    (dims0 : Fin (⟨0, ![]⟩ : Shape).rank → Fin (⟨2, ![a, 1]⟩ : Shape).rank)
    (h0 : (⟨0, ![]⟩ : Shape).BroadcastsInDim ⟨2, ![a, 1]⟩ dims0)
    (h' : (⟨2, ![a, b]⟩ : Shape).ReducesTo [1] ⟨1, ![a]⟩) (hu : 0 < (⟨0, ![]⟩ : Shape).numel) (r : Fin a) (c : Fin b) :
    Host.divf x (broadcastInDim ⟨2, ![a, b]⟩ dims2 h2 (addf (broadcastInDim ⟨2, ![a, 1]⟩ dims1 h1
        (Host.reduceAdd x (constant (F := Ideal) ⟨0, ![]⟩ .f32 0x00000000#32) h' hu))
      (broadcastInDim ⟨2, ![a, 1]⟩ dims0 h0 (constant (F := Ideal) ⟨0, ![]⟩ .f32 ew)))) (ix2 r c)
      = rowNorm x (Ideal.ofBits .f32 ew) (ix2 r c) := by
  have hR : (⟨2, ![a, b]⟩ : Shape).Reduces [1] ⟨1, ![a]⟩ := by
    obtain ⟨g1, g2⟩ := h'; exact ⟨g1, Nat.one_pos, g2⟩
  have hc : broadcastInDim ⟨2, ![a, 1]⟩ dims0 h0 (constant (F := Ideal) ⟨0, ![]⟩ .f32 ew) (ix2 r (0 : Fin 1))
      = Ideal.ofBits .f32 ew :=
    broadcastInDim_apply dims0 h0 _ (ix2 r (0 : Fin 1)) ix0 (fun ax => ax.elim0)
  show Ideal.div (x (ix2 r c)) _ = _
  rw [Cert.LibHostRows.bcast_a1_ab_at dims2 hd20 hd21 h2, addf_apply, Cert.LibHostRows.bcast_a_a1_at dims1 hd1 h1,
    Cert.LibHostRows.hostReduceAdd_rows x _ h' hR hu, hc, constant_apply, Ideal.ofBits_zero_f32, zero_add]
  rfl

/-- Six pieces of one shape laid along axis `a`: entry `j` is piece `(j a) / K` at the index whose axis coordinate is
    `(j a) % K` and whose other coordinates are `j`'s, `K` the pieces' common extent on the axis. -/
theorem concat6_apply {α : Type} {t s₁ : Shape} (a : Fin t.rank) (x0 x1 x2 x3 x4 x5 : s₁.Idx → α)
    (h : Shape.Concatenates (([⟨s₁, x0⟩, ⟨s₁, x1⟩, ⟨s₁, x2⟩, ⟨s₁, x3⟩, ⟨s₁, x4⟩, ⟨s₁, x5⟩] :
      List ((s : Shape) × (s.Idx → α))).map (·.1)) t a)
    (hr : s₁.rank = t.rank) (K : Nat) (hK : s₁.size (a.cast hr.symm) = K) (j : t.Idx) (n : Fin 6)
    (hn : (j a).val / K = n.val) (i : s₁.Idx) (hia : (i (a.cast hr.symm)).val = (j a).val % K)
    (hi : ∀ b : Fin s₁.rank, b.cast hr ≠ a → (i b).val = (j (b.cast hr)).val) :
    concatenate t a [⟨s₁, x0⟩, ⟨s₁, x1⟩, ⟨s₁, x2⟩, ⟨s₁, x3⟩, ⟨s₁, x4⟩, ⟨s₁, x5⟩] h j
      = (![x0, x1, x2, x3, x4, x5] : Fin 6 → s₁.Idx → α) n i :=
  concatenate_ofFn_apply a (![x0, x1, x2, x3, x4, x5] : Fin 6 → s₁.Idx → α) h hr K hK j n hn i hia hi

/-- Two pieces of one shape laid along axis `a`, the same way. -/
theorem concat2_apply {α : Type} {t s₁ : Shape} (a : Fin t.rank) (x0 x1 : s₁.Idx → α)
    (h : Shape.Concatenates (([⟨s₁, x0⟩, ⟨s₁, x1⟩] : List ((s : Shape) × (s.Idx → α))).map (·.1)) t a)
    (hr : s₁.rank = t.rank) (K : Nat) (hK : s₁.size (a.cast hr.symm) = K) (j : t.Idx) (n : Fin 2)
    (hn : (j a).val / K = n.val) (i : s₁.Idx) (hia : (i (a.cast hr.symm)).val = (j a).val % K)
    (hi : ∀ b : Fin s₁.rank, b.cast hr ≠ a → (i b).val = (j (b.cast hr)).val) :
    concatenate t a [⟨s₁, x0⟩, ⟨s₁, x1⟩] h j = (![x0, x1] : Fin 2 → s₁.Idx → α) n i :=
  concatenate_ofFn_apply a (![x0, x1] : Fin 2 → s₁.Idx → α) h hr K hK j n hn i hia hi

/-- A propagated feature matrix with its self-return term removed: entry (r, c) is h(r, c) - l(r, c) · re(r, k), `re` holding one
    return weight per row in its column `k`. -/
def corr {a b n : ℕ} (h l : (⟨2, ![a, b]⟩ : Shape).Idx → EReal) (re : (⟨2, ![a, n]⟩ : Shape).Idx → EReal) (k : Fin n) :
    (⟨2, ![a, b]⟩ : Shape).Idx → EReal :=
  fun i => h i - l i * re (ix2 (i 0) k)

/-- Six `[a, 32]` matrices side by side: entry (r, q) is matrix `q / 32` at (r, q % 32). -/
def cat6 {a : ℕ} (p0 p1 p2 p3 p4 p5 : (⟨2, ![a, 32]⟩ : Shape).Idx → EReal) : (⟨2, ![a, 192]⟩ : Shape).Idx → EReal :=
  fun j => (![p0, p1, p2, p3, p4, p5] : Fin 6 → (⟨2, ![a, 32]⟩ : Shape).Idx → EReal)
    ⟨(j 1).val / 32, by have : (j 1).val < 192 := idx2_lt1 j; omega⟩ (ix2 (j 0) ⟨(j 1).val % 32, Nat.mod_lt _ (by decide)⟩)

end Cert.LibRowNorm

end
-- ==== Proof.LibDegree.lean ====
/-
  Degree counts. Over the extended reals a float scatter-add into a rank-1 array [N] at a column [E, 1] of indices reads, at
  place k, the operand's entry plus the sum of the updates whose index word, read signed, is k. When the column is the
  concatenation of two index vectors a ++ b, the sum splits into the two vectors' sums: scattering into zeros over a ++ b is
  the entrywise sum of scattering over a and over b.
-/
import Idealize.ShloMosaic.Lib.Pipeline.Value
import Idealize.ShloMosaic.Lib.ValueIdx
import Idealize.ShloMosaic.PureOps.Ideal.Laws
import proofs.«137275_j12352325943870_2_alg».proof.Proof.LibHistogram
import proofs.«137275_j12352325943870_2_alg».proof.Proof.LibHostRows
import proofs.«137275_j12352325943870_2_alg».proof.Proof.LibRowNorm

noncomputable section

open scoped BigOperators

namespace Cert.LibDegree

open Idealize.ShloMosaic Idealize.ShloMosaic.ValueIdx Cert.LibHistogram

/-- Place `k` of a float scatter-add into a rank-1 array. -/
theorem scatterAdd_col_apply {N E wi : ℕ} (wf : ScatterDims.WF ⟨1, ![N]⟩ ⟨2, ![E, 1]⟩ ⟨1, ![E]⟩ [] [0] [0] 1)
    (x : (⟨1, ![N]⟩ : Shape).Idx → EReal) (idx : IVec ⟨2, ![E, 1]⟩ wi) (upd : (⟨1, ![E]⟩ : Shape).Idx → EReal) (k : Fin N) :
    Ideal.hostScatterAdd (colDims N E wf) x idx upd (ix1 k)
      = x (ix1 k) + ∑ n : Fin E, if (idx (ix2 n (0 : Fin 1))).toInt = (k.val : Int) then upd (ix1 n) else 0 := by
  unfold Ideal.hostScatterAdd
  congr 1
  rw [Finset.sum_filter]
  let e : Fin E ≃ (⟨1, ![E]⟩ : Shape).Idx := ⟨ix1, fun j => j 0, fun _ => rfl, fun j => (eq_ix1 j).symm⟩
  rw [← Equiv.sum_comp e]
  refine Finset.sum_congr rfl fun n _ => ?_
  show (if (colDims N E wf).resultIdx? (ix1 n) idx = some (ix1 k) then upd (ix1 n) else 0) = _
  by_cases h : (idx (ix2 n (0 : Fin 1))).toInt = (k.val : Int)
  · rw [if_pos ((resultIdx_col wf idx n k).mpr h), if_pos h]
  · rw [if_neg (fun h' => h ((resultIdx_col wf idx n k).mp h')), if_neg h]

/-- The column made of `a ++ b`, read at row `n`: `a`'s word below `E`, `b`'s from `E` on. -/
theorem col_concat_at {α : Type} {E E2 : ℕ} (hE : E2 = E + E) (a b : (⟨1, ![E]⟩ : Shape).Idx → α)
    (hc : Shape.Concatenates (([⟨⟨1, ![E]⟩, a⟩, ⟨⟨1, ![E]⟩, b⟩] : List ((s : Shape) × (s.Idx → α))).map (·.1)) ⟨1, ![E2]⟩ 0)
    (dims : Fin (⟨1, ![E2]⟩ : Shape).rank → Fin (⟨2, ![E2, 1]⟩ : Shape).rank) (hd : dims 0 = 0)
    (hb : (⟨1, ![E2]⟩ : Shape).BroadcastsInDim ⟨2, ![E2, 1]⟩ dims) (n : Fin E2) :
    broadcastInDim ⟨2, ![E2, 1]⟩ dims hb (concatenate ⟨1, ![E2]⟩ 0 [⟨⟨1, ![E]⟩, a⟩, ⟨⟨1, ![E]⟩, b⟩] hc) (ix2 n (0 : Fin 1))
      = if h : n.val < E then a (ix1 ⟨n.val, h⟩) else b (ix1 ⟨n.val - E, by have := n.isLt; omega⟩) := by
  rw [Cert.LibHostRows.bcast_a_a1_at dims hd hb]
  have hn := n.isLt
  by_cases h : n.val < E
  · rw [dif_pos h]
    exact Cert.LibRowNorm.concat2_apply (t := ⟨1, ![E2]⟩) (s₁ := ⟨1, ![E]⟩) (0 : Fin 1) a b hc rfl E rfl (ix1 n) 0 (Nat.div_eq_of_lt h) (ix1 ⟨n.val, h⟩)
      (Nat.mod_eq_of_lt h).symm (fun c hcne => absurd (Subsingleton.elim _ _) hcne)
  · rw [dif_neg h]
    have h1 : n.val / E = 1 := by
      have hpos : 0 < E := by omega
      rw [Nat.div_eq_iff hpos]; omega
    have h2 : n.val % E = n.val - E := by
      rw [Nat.mod_eq_sub_mod (by omega)]; exact Nat.mod_eq_of_lt (by omega)
    exact Cert.LibRowNorm.concat2_apply (t := ⟨1, ![E2]⟩) (s₁ := ⟨1, ![E]⟩) (0 : Fin 1) a b hc rfl E rfl (ix1 n) 1 h1 (ix1 ⟨n.val - E, by omega⟩)
      h2.symm (fun c hcne => absurd (Subsingleton.elim _ _) hcne)

/-- A sum over `E + E` rows of a column `a ++ b` is the sum over `a`'s rows plus the sum over `b`'s. -/
theorem sum_concat {E E2 : ℕ} (hE : E2 = E + E) (f : Fin E2 → EReal) (g₁ g₂ : Fin E → EReal)
    (h₁ : ∀ (n : Fin E), f ⟨n.val, by have := n.isLt; omega⟩ = g₁ n)
    (h₂ : ∀ (n : Fin E), f ⟨E + n.val, by have := n.isLt; omega⟩ = g₂ n) :
    ∑ n : Fin E2, f n = ∑ n : Fin E, g₁ n + ∑ n : Fin E, g₂ n := by
  subst hE
  rw [Fin.sum_univ_add]
  refine congrArg₂ (· + ·) (Finset.sum_congr rfl fun n _ => ?_) (Finset.sum_congr rfl fun n _ => ?_)
  · exact h₁ n
  · exact h₂ n

/-- Scattering the constant `o` into zeros at the column `a ++ b` is, at each place, the sum of scattering it at `a`'s
    column and at `b`'s. -/
theorem degree_concat {N E E2 wi : ℕ} (hE : E2 = E + E)
    (wf2 : ScatterDims.WF ⟨1, ![N]⟩ ⟨2, ![E2, 1]⟩ ⟨1, ![E2]⟩ [] [0] [0] 1)
    (wf : ScatterDims.WF ⟨1, ![N]⟩ ⟨2, ![E, 1]⟩ ⟨1, ![E]⟩ [] [0] [0] 1)
    (z2 z : (⟨1, ![N]⟩ : Shape).Idx → EReal) (hz2 : ∀ i, z2 i = 0) (hz : ∀ i, z i = 0)
    (u2 : (⟨1, ![E2]⟩ : Shape).Idx → EReal) (u : (⟨1, ![E]⟩ : Shape).Idx → EReal) (o : EReal) (hu2 : ∀ i, u2 i = o) (hu : ∀ i, u i = o)
    (idx2 : IVec ⟨2, ![E2, 1]⟩ wi) (ia ib : IVec ⟨2, ![E, 1]⟩ wi)
    (hidx : ∀ n : Fin E2, idx2 (ix2 n (0 : Fin 1))
      = if h : n.val < E then ia (ix2 ⟨n.val, h⟩ (0 : Fin 1)) else ib (ix2 ⟨n.val - E, by have := n.isLt; omega⟩ (0 : Fin 1)))
    (k : Fin N) :
    Ideal.hostScatterAdd (colDims N E2 wf2) z2 idx2 u2 (ix1 k)
      = Ideal.hostScatterAdd (colDims N E wf) z ia u (ix1 k) + Ideal.hostScatterAdd (colDims N E wf) z ib u (ix1 k) := by
  rw [scatterAdd_col_apply, scatterAdd_col_apply, scatterAdd_col_apply, hz2, hz, zero_add, zero_add, zero_add]
  refine sum_concat hE _ _ _ (fun n => ?_) (fun n => ?_)
  · have hn := n.isLt
    rw [hidx, dif_pos (show (⟨n.val, by omega⟩ : Fin E2).val < E from hn), hu2, hu]
  · have hn := n.isLt
    rw [hidx, dif_neg (show ¬ (⟨E + n.val, by omega⟩ : Fin E2).val < E from by simp), hu2, hu]
    have : (⟨(⟨E + n.val, by omega⟩ : Fin E2).val - E, by simp⟩ : Fin E) = n := Fin.ext (by simp)
    rw [this]

end Cert.LibDegree

end
-- ==== Proof.HostStages.lean ====
/-
  The host operations between the kernel regions, read at an entry in the specification's terms: the reciprocal of the
  floored in-degree (a scatter-add of ones into zeros at the destination column, floored at one, under a one), and the
  aggregate of projected source rows (a gather of whole rows at the normalised source column, scatter-added into zeros at
  the destination column).  Stated over any operands that have the required entries, so that they apply to the buffers
  of a run once those are known entry by entry.
-/
import proofs.«137275_j12352325943870_2_alg».proof.Proof.Iface
import proofs.«137275_j12352325943870_2_alg».proof.Proof.LibSegSum
import proofs.«137275_j12352325943870_2_alg».proof.Proof.LibDegree
import Idealize.ShloMosaic.Lib.IdealHost
import Idealize.ShloMosaic.Lib.ValueLayout

noncomputable section

open scoped BigOperators
open Idealize.ShloMosaic Idealize.ShloMosaic.ValueIdx

namespace Cert.Sage

/-- The floored in-degree under a one: the reciprocal the kernel multiplies by. -/
theorem recipDeg_at {N E wi : ℕ} (wf : ScatterDims.WF ⟨1, ![N]⟩ ⟨2, ![E, 1]⟩ ⟨1, ![E]⟩ [] [0] [0] 1)
    (z o : (⟨1, ![N]⟩ : Shape).Idx → EReal) (idx : IVec ⟨2, ![E, 1]⟩ wi) (u : (⟨1, ![E]⟩ : Shape).Idx → EReal)
    (dst : Fin E → Int) (hz : ∀ i, z i = 0) (hu : ∀ i, u i = 1) (ho : ∀ i, o i = 1)
    (hidx : ∀ e, (idx (ix2 e (0 : Fin 1))).toInt = dst e) (n : Fin N) :
    Ideal.div (o (ix1 n)) (max (Ideal.hostScatterAdd (Cert.LibHistogram.colDims N E wf) z idx u (ix1 n)) (o (ix1 n)))
      = Ideal.div 1 (cden dst n) := by
  rw [Cert.LibDegree.scatterAdd_col_apply wf z idx u n, hz, ho]
  unfold cden seg
  congr 3
  refine Finset.sum_congr rfl fun e _ => ?_
  rw [hidx e, hu]

/-- The aggregate: the rows a gather takes at the source column, summed per destination. -/
theorem aggregate_at {N Ns D E wi wj : ℕ} (hNs : 0 < Ns)
    (wfs : ScatterDims.WF ⟨2, ![N, D]⟩ ⟨2, ![E, 1]⟩ ⟨2, ![E, D]⟩ [1] [0] [0] 1)
    (wfg : GatherDims.WF ⟨2, ![Ns, D]⟩ ⟨2, ![E, 1]⟩ ⟨2, ![E, D]⟩ [1] [0] [] [0] [] 1 ![1, D])
    (z : FVec Ideal ⟨2, ![N, D]⟩ .f32) (idx : IVec ⟨2, ![E, 1]⟩ wi) (y : (⟨2, ![Ns, D]⟩ : Shape).Idx → EReal)
    (jdx : IVec ⟨2, ![E, 1]⟩ wj) (dst : Fin E → Int) (row : Fin E → Fin Ns) (hz : ∀ i, z i = 0)
    (hidx : ∀ e, (idx (ix2 e (0 : Fin 1))).toInt = dst e)
    (hj : ∀ e, Cert.LibGatherFlatRows.rowOf Ns hNs (jdx (ix2 e (0 : Fin 1))) = row e) (n : Fin N) (g : Fin D) :
    Host.scatterAdd (Cert.LibSegSum.rowsDims N D E wfs) z idx
        (Host.gather (Cert.LibGatherFlatRows.rowDims Ns D E wfg) y jdx : FVec Ideal ⟨2, ![E, D]⟩ .f32) (ix2 n g)
      = 0 + seg dst (fun e => y (ix2 (row e) g)) n := by
  rw [Cert.LibSegSum.scatterAdd_rows_apply wfs z idx _ n g, hz]
  unfold seg
  congr 1
  refine Finset.sum_congr rfl fun e _ => ?_
  rw [hidx e, Cert.LibGatherFlatRows.gather_rows_apply hNs wfg y jdx e g, hj e]

end Cert.Sage

namespace Cert.Sage

/-- A float word broadcast from a scalar reads that word everywhere. -/
theorem bcast_word_at {T : Shape} (h : (⟨0, ![]⟩ : Shape).BroadcastsInDim T ![]) (w : BitVec 32) (j : T.Idx) :
    broadcastInDim T ![] h (constant (F := Ideal) ⟨0, ![]⟩ .f32 w) j = Ideal.ofBits .f32 w :=
  broadcastInDim_scalar_apply h _ j

/-- An integer word broadcast from a scalar reads that word everywhere. -/
theorem bcast_wordI_at {T : Shape} (h : (⟨0, ![]⟩ : Shape).BroadcastsInDim T ![]) (b : BitVec 32) (j : T.Idx) :
    broadcastInDim T ![] h (constantI ⟨0, ![]⟩ 32 b) j = b :=
  broadcastInDim_scalar_apply h _ j

/-- The normalised source column read at an edge: the edge's word, a negative one with the extent added. -/
theorem normCol_at {E : ℕ} (A z0 nn : (⟨1, ![E]⟩ : Shape).Idx → BitVec 32) (Nw : BitVec 32) (hz0 : ∀ i, z0 i = 0#32)
    (hnn : ∀ i, nn i = Nw) (dims : Fin (⟨1, ![E]⟩ : Shape).rank → Fin (⟨2, ![E, 1]⟩ : Shape).rank) (hd : dims 0 = 0)
    (h : (⟨1, ![E]⟩ : Shape).BroadcastsInDim ⟨2, ![E, 1]⟩ dims) (e : Fin E) :
    broadcastInDim ⟨2, ![E, 1]⟩ dims h (select (cmpi .slt A z0) (addi A nn) A) (ix2 e (0 : Fin 1)) = normWord Nw (A (ix1 e)) := by
  rw [Cert.LibHostRows.bcast_a_a1_at dims hd h _ e 0]
  show Scalar.select (IntOp.cmpi .slt (A (ix1 e)) (z0 (ix1 e))) (IntOp.addi (A (ix1 e)) (nn (ix1 e))) (A (ix1 e)) = _
  rw [hz0, hnn]; rfl

/-- The reciprocal of the floored in-degree in the host's spelling. -/
theorem recipDeg_host {N E : ℕ} (d : ScatterDims ⟨1, ![N]⟩ ⟨2, ![E, 1]⟩ ⟨1, ![E]⟩)
    (wf : ScatterDims.WF ⟨1, ![N]⟩ ⟨2, ![E, 1]⟩ ⟨1, ![E]⟩ [] [0] [0] 1) (hd : d = Cert.LibHistogram.colDims N E wf)
    (o1 o2 z : FVec Ideal ⟨1, ![N]⟩ .f32) (idx : IVec ⟨2, ![E, 1]⟩ 32) (u : FVec Ideal ⟨1, ![E]⟩ .f32)
    (a : (⟨1, ![E]⟩ : Shape).Idx → BitVec 32) (ho1 : ∀ i, o1 i = 1) (ho2 : ∀ i, o2 i = 1) (hz : ∀ i, z i = 0)
    (hu : ∀ i, u i = 1) (hidx : ∀ e, idx (ix2 e (0 : Fin 1)) = a (ix1 e)) (n : Fin N) :
    Host.divf o1 (maximumf (Host.scatterAdd d z idx u) o2) (ix1 n) = Ideal.div 1 (cden (dstOf a) n) := by
  subst hd
  show Ideal.div (o1 (ix1 n)) (max (Ideal.hostScatterAdd (Cert.LibHistogram.colDims N E wf) z idx u (ix1 n)) (o2 (ix1 n))) = _
  rw [Cert.LibDegree.scatterAdd_col_apply wf z idx u n, hz, ho1, ho2]
  unfold cden seg dstOf
  congr 3
  refine Finset.sum_congr rfl fun e _ => ?_
  rw [hidx e, hu]

/-- The aggregate of gathered rows in the host's spelling. -/
theorem aggregate_host {N Ns D E : ℕ} (hNs : 0 < Ns)
    (ds : ScatterDims ⟨2, ![N, D]⟩ ⟨2, ![E, 1]⟩ ⟨2, ![E, D]⟩)
    (wfs : ScatterDims.WF ⟨2, ![N, D]⟩ ⟨2, ![E, 1]⟩ ⟨2, ![E, D]⟩ [1] [0] [0] 1) (hds : ds = Cert.LibSegSum.rowsDims N D E wfs)
    (dg : GatherDims ⟨2, ![Ns, D]⟩ ⟨2, ![E, 1]⟩ ⟨2, ![E, D]⟩)
    (wfg : GatherDims.WF ⟨2, ![Ns, D]⟩ ⟨2, ![E, 1]⟩ ⟨2, ![E, D]⟩ [1] [0] [] [0] [] 1 ![1, D])
    (hdg : dg = Cert.LibGatherFlatRows.rowDims Ns D E wfg)
    (z : FVec Ideal ⟨2, ![N, D]⟩ .f32) (idx : IVec ⟨2, ![E, 1]⟩ 32) (y : FVec Ideal ⟨2, ![Ns, D]⟩ .f32)
    (jdx : IVec ⟨2, ![E, 1]⟩ 32) (a s : (⟨1, ![E]⟩ : Shape).Idx → BitVec 32) (Nw : BitVec 32) (hz : ∀ i, z i = 0)
    (hidx : ∀ e, idx (ix2 e (0 : Fin 1)) = a (ix1 e))
    (hj : ∀ e, jdx (ix2 e (0 : Fin 1)) = normWord Nw (s (ix1 e))) (n : Fin N) (g : Fin D) :
    Host.scatterAdd ds z idx (Host.gather dg y jdx : FVec Ideal ⟨2, ![E, D]⟩ .f32) (ix2 n g)
      = 0 + seg (dstOf a) (fun e => y (ix2 (srcRows Ns hNs Nw s e) g)) n := by
  subst hds hdg
  rw [Cert.LibSegSum.scatterAdd_rows_apply wfs z idx _ n g, hz]
  unfold seg dstOf srcRows
  congr 1
  refine Finset.sum_congr rfl fun e _ => ?_
  rw [hidx e, Cert.LibGatherFlatRows.gather_rows_apply hNs wfg y jdx e g, hj e]

end Cert.Sage

end
-- ==== Proof.KState1.lean ====
/-
  The first host stretch of the idealized kernel's program, read at an entry: every weight matrix transposed, and the
  reciprocal of the floored in-degree of every item and of every user (ones scatter-added into zeros at the destination
  words, floored at one, under a one).  The twenty argument arrays of a launch memory get names here.
-/
import proofs.«137275_j12352325943870_2_alg».proof.Proof.KHost
import proofs.«137275_j12352325943870_2_alg».proof.Proof.HostStages
import Idealize.ShloMosaic.Lib.ValueLayout
import Idealize.ShloMosaic.Lib.IdealHost

set_option maxRecDepth 16384

noncomputable section

namespace Cert.KernelIdeal.State

open Cert.KernelIdeal Cert.KernelIdeal.Gen Cert.Sage
open Idealize.ShloMosaic Idealize.ShloMosaic.TcCoe Idealize.ShloMosaic.StableHlo Idealize.ShloMosaic.ValueIdx Cert.LibAfterAt

variable (m : (ℓ : Loc nD τ sig) → Buf (Elt Ideal) ℓ) (ρ : Dev nD → PrngReg) (c : Dev nD)

/-! ## The argument arrays of the launch memory, on one device -/

abbrev a0 : (⟨2, ![100000, 128]⟩ : Shape).Idx → EReal := m ((c : Thread nD τ).loc main_arg0)
abbrev a1 : (⟨2, ![50000, 128]⟩ : Shape).Idx → EReal := m ((c : Thread nD τ).loc main_arg1)
abbrev a2 : (⟨1, ![819200]⟩ : Shape).Idx → BitVec 32 := m ((c : Thread nD τ).loc main_arg2)
abbrev a3 : (⟨1, ![819200]⟩ : Shape).Idx → BitVec 32 := m ((c : Thread nD τ).loc main_arg3)
abbrev a4 : (⟨2, ![32, 128]⟩ : Shape).Idx → EReal := m ((c : Thread nD τ).loc main_arg4)
abbrev a5 : (⟨1, ![32]⟩ : Shape).Idx → EReal := m ((c : Thread nD τ).loc main_arg5)
abbrev a6 : (⟨2, ![32, 128]⟩ : Shape).Idx → EReal := m ((c : Thread nD τ).loc main_arg6)
abbrev a7 : (⟨2, ![32, 128]⟩ : Shape).Idx → EReal := m ((c : Thread nD τ).loc main_arg7)
abbrev a8 : (⟨1, ![32]⟩ : Shape).Idx → EReal := m ((c : Thread nD τ).loc main_arg8)
abbrev a9 : (⟨2, ![32, 128]⟩ : Shape).Idx → EReal := m ((c : Thread nD τ).loc main_arg9)
abbrev a10 : (⟨2, ![32, 32]⟩ : Shape).Idx → EReal := m ((c : Thread nD τ).loc main_arg10)
abbrev a11 : (⟨1, ![32]⟩ : Shape).Idx → EReal := m ((c : Thread nD τ).loc main_arg11)
abbrev a12 : (⟨2, ![32, 32]⟩ : Shape).Idx → EReal := m ((c : Thread nD τ).loc main_arg12)
abbrev a13 : (⟨2, ![32, 32]⟩ : Shape).Idx → EReal := m ((c : Thread nD τ).loc main_arg13)
abbrev a14 : (⟨1, ![32]⟩ : Shape).Idx → EReal := m ((c : Thread nD τ).loc main_arg14)
abbrev a15 : (⟨2, ![32, 32]⟩ : Shape).Idx → EReal := m ((c : Thread nD τ).loc main_arg15)
abbrev a16 : (⟨2, ![32, 32]⟩ : Shape).Idx → EReal := m ((c : Thread nD τ).loc main_arg16)
abbrev a17 : (⟨1, ![32]⟩ : Shape).Idx → EReal := m ((c : Thread nD τ).loc main_arg17)
abbrev a18 : (⟨2, ![32, 32]⟩ : Shape).Idx → EReal := m ((c : Thread nD τ).loc main_arg18)
abbrev a19 : (⟨1, ![32]⟩ : Shape).Idx → EReal := m ((c : Thread nD τ).loc main_arg19)

/-- The encoder's inputs as the launch memory holds them. -/
abbrev AA : Args := argsOf (a0 m c) (a1 m c) (a2 m c) (a3 m c) (a4 m c) (a5 m c) (a6 m c) (a7 m c) (a8 m c) (a9 m c) (a10 m c) (a11 m c) (a12 m c) (a13 m c) (a14 m c) (a15 m c) (a16 m c) (a17 m c) (a18 m c) (a19 m c)

/-! ## The transposed weights -/

theorem e_v0 : W1 m ρ c (Proc.devRef .tc main_v0) = transpose S128x32 [1, 0] (a4 m c) transposes_S32x128_S128x32_1_0 :=
  (unary_at writes0 0 main_arg4 main_v0 _ _ _ rfl (W0 m ρ c) (by decide) (by decide)).trans
    (congrArg (fun x => transpose S128x32 [1, 0] x transposes_S32x128_S128x32_1_0)
      (after_of_not_mem writes0 (W0 m ρ c) (r := main_arg4) (by decide)))

/-- The buffer holds the weight matrix transposed: read transposed, it is the matrix. -/
theorem t_v0 : tr (rd2 (N := 128) (D := 32) (W1 m ρ c (Proc.devRef .tc main_v0))) = rd2 (a4 m c) := by
  funext g k
  show W1 m ρ c (Proc.devRef .tc main_v0) (ix2 k g) = _
  rw [e_v0]; exact transpose_ix2_apply _ _ k g

theorem e_v1 : W1 m ρ c (Proc.devRef .tc main_v1) = transpose S128x32 [1, 0] (a6 m c) transposes_S32x128_S128x32_1_0 :=
  (unary_at writes0 1 main_arg6 main_v1 _ _ _ rfl (W0 m ρ c) (by decide) (by decide)).trans
    (congrArg (fun x => transpose S128x32 [1, 0] x transposes_S32x128_S128x32_1_0)
      (after_of_not_mem writes0 (W0 m ρ c) (r := main_arg6) (by decide)))

/-- The buffer holds the weight matrix transposed: read transposed, it is the matrix. -/
theorem t_v1 : tr (rd2 (N := 128) (D := 32) (W1 m ρ c (Proc.devRef .tc main_v1))) = rd2 (a6 m c) := by
  funext g k
  show W1 m ρ c (Proc.devRef .tc main_v1) (ix2 k g) = _
  rw [e_v1]; exact transpose_ix2_apply _ _ k g

theorem e_v2 : W1 m ρ c (Proc.devRef .tc main_v2) = transpose S128x32 [1, 0] (a7 m c) transposes_S32x128_S128x32_1_0 :=
  (unary_at writes0 2 main_arg7 main_v2 _ _ _ rfl (W0 m ρ c) (by decide) (by decide)).trans
    (congrArg (fun x => transpose S128x32 [1, 0] x transposes_S32x128_S128x32_1_0)
      (after_of_not_mem writes0 (W0 m ρ c) (r := main_arg7) (by decide)))

/-- The buffer holds the weight matrix transposed: read transposed, it is the matrix. -/
theorem t_v2 : tr (rd2 (N := 128) (D := 32) (W1 m ρ c (Proc.devRef .tc main_v2))) = rd2 (a7 m c) := by
  funext g k
  show W1 m ρ c (Proc.devRef .tc main_v2) (ix2 k g) = _
  rw [e_v2]; exact transpose_ix2_apply _ _ k g

theorem e_v3 : W1 m ρ c (Proc.devRef .tc main_v3) = transpose S128x32 [1, 0] (a9 m c) transposes_S32x128_S128x32_1_0 :=
  (unary_at writes0 3 main_arg9 main_v3 _ _ _ rfl (W0 m ρ c) (by decide) (by decide)).trans
    (congrArg (fun x => transpose S128x32 [1, 0] x transposes_S32x128_S128x32_1_0)
      (after_of_not_mem writes0 (W0 m ρ c) (r := main_arg9) (by decide)))

/-- The buffer holds the weight matrix transposed: read transposed, it is the matrix. -/
theorem t_v3 : tr (rd2 (N := 128) (D := 32) (W1 m ρ c (Proc.devRef .tc main_v3))) = rd2 (a9 m c) := by
  funext g k
  show W1 m ρ c (Proc.devRef .tc main_v3) (ix2 k g) = _
  rw [e_v3]; exact transpose_ix2_apply _ _ k g

theorem e_v4 : W1 m ρ c (Proc.devRef .tc main_v4) = transpose S32x32 [1, 0] (a10 m c) transposes_S32x32_S32x32_1_0 :=
  (unary_at writes0 4 main_arg10 main_v4 _ _ _ rfl (W0 m ρ c) (by decide) (by decide)).trans
    (congrArg (fun x => transpose S32x32 [1, 0] x transposes_S32x32_S32x32_1_0)
      (after_of_not_mem writes0 (W0 m ρ c) (r := main_arg10) (by decide)))

/-- The buffer holds the weight matrix transposed: read transposed, it is the matrix. -/
theorem t_v4 : tr (rd2 (N := 32) (D := 32) (W1 m ρ c (Proc.devRef .tc main_v4))) = rd2 (a10 m c) := by
  funext g k
  show W1 m ρ c (Proc.devRef .tc main_v4) (ix2 k g) = _
  rw [e_v4]; exact transpose_ix2_apply _ _ k g

theorem e_v5 : W1 m ρ c (Proc.devRef .tc main_v5) = transpose S32x32 [1, 0] (a12 m c) transposes_S32x32_S32x32_1_0 :=
  (unary_at writes0 5 main_arg12 main_v5 _ _ _ rfl (W0 m ρ c) (by decide) (by decide)).trans
    (congrArg (fun x => transpose S32x32 [1, 0] x transposes_S32x32_S32x32_1_0)
      (after_of_not_mem writes0 (W0 m ρ c) (r := main_arg12) (by decide)))

/-- The buffer holds the weight matrix transposed: read transposed, it is the matrix. -/
theorem t_v5 : tr (rd2 (N := 32) (D := 32) (W1 m ρ c (Proc.devRef .tc main_v5))) = rd2 (a12 m c) := by
  funext g k
  show W1 m ρ c (Proc.devRef .tc main_v5) (ix2 k g) = _
  rw [e_v5]; exact transpose_ix2_apply _ _ k g

theorem e_v6 : W1 m ρ c (Proc.devRef .tc main_v6) = transpose S32x32 [1, 0] (a13 m c) transposes_S32x32_S32x32_1_0 :=
  (unary_at writes0 6 main_arg13 main_v6 _ _ _ rfl (W0 m ρ c) (by decide) (by decide)).trans
    (congrArg (fun x => transpose S32x32 [1, 0] x transposes_S32x32_S32x32_1_0)
      (after_of_not_mem writes0 (W0 m ρ c) (r := main_arg13) (by decide)))

/-- The buffer holds the weight matrix transposed: read transposed, it is the matrix. -/
theorem t_v6 : tr (rd2 (N := 32) (D := 32) (W1 m ρ c (Proc.devRef .tc main_v6))) = rd2 (a13 m c) := by
  funext g k
  show W1 m ρ c (Proc.devRef .tc main_v6) (ix2 k g) = _
  rw [e_v6]; exact transpose_ix2_apply _ _ k g

theorem e_v7 : W1 m ρ c (Proc.devRef .tc main_v7) = transpose S32x32 [1, 0] (a15 m c) transposes_S32x32_S32x32_1_0 :=
  (unary_at writes0 7 main_arg15 main_v7 _ _ _ rfl (W0 m ρ c) (by decide) (by decide)).trans
    (congrArg (fun x => transpose S32x32 [1, 0] x transposes_S32x32_S32x32_1_0)
      (after_of_not_mem writes0 (W0 m ρ c) (r := main_arg15) (by decide)))

/-- The buffer holds the weight matrix transposed: read transposed, it is the matrix. -/
theorem t_v7 : tr (rd2 (N := 32) (D := 32) (W1 m ρ c (Proc.devRef .tc main_v7))) = rd2 (a15 m c) := by
  funext g k
  show W1 m ρ c (Proc.devRef .tc main_v7) (ix2 k g) = _
  rw [e_v7]; exact transpose_ix2_apply _ _ k g

theorem e_v8 : W1 m ρ c (Proc.devRef .tc main_v8) = transpose S32x32 [1, 0] (a16 m c) transposes_S32x32_S32x32_1_0 :=
  (unary_at writes0 8 main_arg16 main_v8 _ _ _ rfl (W0 m ρ c) (by decide) (by decide)).trans
    (congrArg (fun x => transpose S32x32 [1, 0] x transposes_S32x32_S32x32_1_0)
      (after_of_not_mem writes0 (W0 m ρ c) (r := main_arg16) (by decide)))

/-- The buffer holds the weight matrix transposed: read transposed, it is the matrix. -/
theorem t_v8 : tr (rd2 (N := 32) (D := 32) (W1 m ρ c (Proc.devRef .tc main_v8))) = rd2 (a16 m c) := by
  funext g k
  show W1 m ρ c (Proc.devRef .tc main_v8) (ix2 k g) = _
  rw [e_v8]; exact transpose_ix2_apply _ _ k g

theorem e_v9 : W1 m ρ c (Proc.devRef .tc main_v9) = transpose S32x32 [1, 0] (a18 m c) transposes_S32x32_S32x32_1_0 :=
  (unary_at writes0 9 main_arg18 main_v9 _ _ _ rfl (W0 m ρ c) (by decide) (by decide)).trans
    (congrArg (fun x => transpose S32x32 [1, 0] x transposes_S32x32_S32x32_1_0)
      (after_of_not_mem writes0 (W0 m ρ c) (r := main_arg18) (by decide)))

/-- The buffer holds the weight matrix transposed: read transposed, it is the matrix. -/
theorem t_v9 : tr (rd2 (N := 32) (D := 32) (W1 m ρ c (Proc.devRef .tc main_v9))) = rd2 (a18 m c) := by
  funext g k
  show W1 m ρ c (Proc.devRef .tc main_v9) (ix2 k g) = _
  rw [e_v9]; exact transpose_ix2_apply _ _ k g

/-! ## The reciprocal degrees -/

/-- The reciprocal of an item's floored in-degree. -/
theorem f_v21 (n : Fin 50000) :
    W1 m ρ c (Proc.devRef .tc main_v21) (ix1 n) = Ideal.div 1 (cden (dstOf (a3 m c)) n) := by
  show StableHlo.after hostOps0 (W0 m ρ c) (Proc.devRef .tc main_v21) (ix1 n) = _
  after_results
  exact recipDeg_host _ scatter_S50000_S819200x1_S819200_n_0_0_1.wf rfl _ _ _ _ _ (a3 m c)
    (fun i => (bcast_word_at _ _ i).trans Ideal.ofBits_one_f32) (fun i => (bcast_word_at _ _ i).trans Ideal.ofBits_one_f32)
    (fun i => (bcast_word_at _ _ i).trans Ideal.ofBits_zero_f32) (fun i => (bcast_word_at _ _ i).trans Ideal.ofBits_one_f32)
    (fun e => Cert.LibHostRows.bcast_a_a1_at _ rfl _ _ e 0) n

/-- The reciprocal of a user's floored in-degree. -/
theorem f_v25 (n : Fin 100000) :
    W1 m ρ c (Proc.devRef .tc main_v25) (ix1 n) = Ideal.div 1 (cden (dstOf (a2 m c)) n) := by
  show StableHlo.after hostOps0 (W0 m ρ c) (Proc.devRef .tc main_v25) (ix1 n) = _
  after_results
  exact recipDeg_host _ scatter_S100000_S819200x1_S819200_n_0_0_1.wf rfl _ _ _ _ _ (a2 m c)
    (fun i => (bcast_word_at _ _ i).trans Ideal.ofBits_one_f32) (fun i => (bcast_word_at _ _ i).trans Ideal.ofBits_one_f32)
    (fun i => (bcast_word_at _ _ i).trans Ideal.ofBits_zero_f32) (fun i => (bcast_word_at _ _ i).trans Ideal.ofBits_one_f32)
    (fun e => Cert.LibHostRows.bcast_a_a1_at _ rfl _ _ e 0) n

end Cert.KernelIdeal.State

end
-- ==== Proof.KState2.lean ====
/-
  Buffers that a stretch of the program does not write keep their contents across it: a host stretch writes only its own
  operations' results, a kernel region only its output array (its input arrays are read through their windows and end as
  they were entered).  One statement per buffer and per pair of boundaries between which the proof reads it.
-/
import proofs.«137275_j12352325943870_2_alg».proof.Proof.KHost
import proofs.«137275_j12352325943870_2_alg».proof.Proof.Iface
import Idealize.ShloMosaic.Lib.ValueLayout
import Idealize.ShloMosaic.Lib.IdealHost

set_option maxRecDepth 16384

noncomputable section

namespace Cert.KernelIdeal.State

open Cert.KernelIdeal Cert.KernelIdeal.Gen Cert.Sage
open Idealize.ShloMosaic Idealize.ShloMosaic.TcCoe Idealize.ShloMosaic.StableHlo Idealize.ShloMosaic.ValueIdx Cert.LibAfterAt

variable (m : (ℓ : Loc nD τ sig) → Buf (Elt Ideal) ℓ) (ρ : Dev nD → PrngReg) (c : Dev nD)

theorem keep_arg0_0_1 : W1 m ρ c (Proc.devRef .tc main_arg0) = W0 m ρ c (Proc.devRef .tc main_arg0) :=
  (after_of_not_mem writes0 (W0 m ρ c) (r := main_arg0) (by decide))

theorem keep_arg1_0_2 : W2 m ρ c (Proc.devRef .tc main_arg1) = W0 m ρ c (Proc.devRef .tc main_arg1) :=
  ((W2_of_ne m ρ c main_arg1 (by decide)).trans ((after_of_not_mem writes0 (W0 m ρ c) (r := main_arg1) (by decide))))

theorem keep_v2_1_2 : W2 m ρ c (Proc.devRef .tc main_v2) = W1 m ρ c (Proc.devRef .tc main_v2) :=
  (W2_of_ne m ρ c main_v2 (by decide))

theorem keep_arg2_0_3 : W3 m ρ c (Proc.devRef .tc main_arg2) = W0 m ρ c (Proc.devRef .tc main_arg2) :=
  ((W3_of_ne m ρ c main_arg2 (by decide)).trans ((W2_of_ne m ρ c main_arg2 (by decide)).trans ((after_of_not_mem writes0 (W0 m ρ c) (r := main_arg2) (by decide)))))

theorem keep_arg3_0_3 : W3 m ρ c (Proc.devRef .tc main_arg3) = W0 m ρ c (Proc.devRef .tc main_arg3) :=
  ((W3_of_ne m ρ c main_arg3 (by decide)).trans ((W2_of_ne m ρ c main_arg3 (by decide)).trans ((after_of_not_mem writes0 (W0 m ρ c) (r := main_arg3) (by decide)))))

theorem keep_v26_2_3 : W3 m ρ c (Proc.devRef .tc main_v26) = W2 m ρ c (Proc.devRef .tc main_v26) :=
  (W3_of_ne m ρ c main_v26 (by decide))

theorem keep_v21_1_3 : W3 m ρ c (Proc.devRef .tc main_v21) = W1 m ρ c (Proc.devRef .tc main_v21) :=
  ((W3_of_ne m ρ c main_v21 (by decide)).trans ((W2_of_ne m ρ c main_v21 (by decide))))

theorem keep_arg5_0_3 : W3 m ρ c (Proc.devRef .tc main_arg5) = W0 m ρ c (Proc.devRef .tc main_arg5) :=
  ((W3_of_ne m ρ c main_arg5 (by decide)).trans ((W2_of_ne m ρ c main_arg5 (by decide)).trans ((after_of_not_mem writes0 (W0 m ρ c) (r := main_arg5) (by decide)))))

theorem keep_arg1_0_4 : W4 m ρ c (Proc.devRef .tc main_arg1) = W0 m ρ c (Proc.devRef .tc main_arg1) :=
  ((after_of_not_mem writes2 (W3 m ρ c) (r := main_arg1) (by decide)).trans (((W3_arr m ρ c 0).trans (((dat1 (V2 m ρ) c).arrAt_in 0 rfl _).trans (A_eq1 (V2 m ρ) c 0))).trans ((W2_of_ne m ρ c main_arg1 (by decide)).trans ((after_of_not_mem writes0 (W0 m ρ c) (r := main_arg1) (by decide))))))

theorem keep_v1_1_4 : W4 m ρ c (Proc.devRef .tc main_v1) = W1 m ρ c (Proc.devRef .tc main_v1) :=
  ((after_of_not_mem writes2 (W3 m ρ c) (r := main_v1) (by decide)).trans ((W3_of_ne m ρ c main_v1 (by decide)).trans ((W2_of_ne m ρ c main_v1 (by decide)))))

theorem keep_v25_1_5 : W5 m ρ c (Proc.devRef .tc main_v25) = W1 m ρ c (Proc.devRef .tc main_v25) :=
  ((W5_of_ne m ρ c main_v25 (by decide)).trans ((after_of_not_mem writes2 (W3 m ρ c) (r := main_v25) (by decide)).trans ((W3_of_ne m ρ c main_v25 (by decide)).trans ((W2_of_ne m ρ c main_v25 (by decide))))))

theorem keep_arg8_0_5 : W5 m ρ c (Proc.devRef .tc main_arg8) = W0 m ρ c (Proc.devRef .tc main_arg8) :=
  ((W5_of_ne m ρ c main_arg8 (by decide)).trans ((after_of_not_mem writes2 (W3 m ρ c) (r := main_arg8) (by decide)).trans ((W3_of_ne m ρ c main_arg8 (by decide)).trans ((W2_of_ne m ρ c main_arg8 (by decide)).trans ((after_of_not_mem writes0 (W0 m ρ c) (r := main_arg8) (by decide)))))))

theorem keep_v47_4_6 : W6 m ρ c (Proc.devRef .tc main_v47) = W4 m ρ c (Proc.devRef .tc main_v47) :=
  ((after_of_not_mem writes3 (W5 m ρ c) (r := main_v47) (by decide)).trans ((W5_of_ne m ρ c main_v47 (by decide))))

theorem keep_arg0_0_6 : W6 m ρ c (Proc.devRef .tc main_arg0) = W0 m ρ c (Proc.devRef .tc main_arg0) :=
  ((after_of_not_mem writes3 (W5 m ρ c) (r := main_arg0) (by decide)).trans ((W5_of_ne m ρ c main_arg0 (by decide)).trans ((after_of_not_mem writes2 (W3 m ρ c) (r := main_arg0) (by decide)).trans ((W3_of_ne m ρ c main_arg0 (by decide)).trans (((W2_arr m ρ c 0).trans (((dat0 (V1 m ρ) c).arrAt_in 0 rfl _).trans (A_eq0 (V1 m ρ) c 0))).trans ((after_of_not_mem writes0 (W0 m ρ c) (r := main_arg0) (by decide))))))))

theorem keep_v3_1_6 : W6 m ρ c (Proc.devRef .tc main_v3) = W1 m ρ c (Proc.devRef .tc main_v3) :=
  ((after_of_not_mem writes3 (W5 m ρ c) (r := main_v3) (by decide)).trans ((W5_of_ne m ρ c main_v3 (by decide)).trans ((after_of_not_mem writes2 (W3 m ρ c) (r := main_v3) (by decide)).trans ((W3_of_ne m ρ c main_v3 (by decide)).trans ((W2_of_ne m ρ c main_v3 (by decide)))))))

theorem keep_v4_1_7 : W7 m ρ c (Proc.devRef .tc main_v4) = W1 m ρ c (Proc.devRef .tc main_v4) :=
  ((W7_of_ne m ρ c main_v4 (by decide)).trans ((after_of_not_mem writes3 (W5 m ρ c) (r := main_v4) (by decide)).trans ((W5_of_ne m ρ c main_v4 (by decide)).trans ((after_of_not_mem writes2 (W3 m ρ c) (r := main_v4) (by decide)).trans ((W3_of_ne m ρ c main_v4 (by decide)).trans ((W2_of_ne m ρ c main_v4 (by decide))))))))

theorem keep_v50_5_8 : W8 m ρ c (Proc.devRef .tc main_v50) = W5 m ρ c (Proc.devRef .tc main_v50) :=
  ((W8_of_ne m ρ c main_v50 (by decide)).trans ((W7_of_ne m ρ c main_v50 (by decide)).trans ((after_of_not_mem writes3 (W5 m ρ c) (r := main_v50) (by decide)))))

theorem keep_v6_1_8 : W8 m ρ c (Proc.devRef .tc main_v6) = W1 m ρ c (Proc.devRef .tc main_v6) :=
  ((W8_of_ne m ρ c main_v6 (by decide)).trans ((W7_of_ne m ρ c main_v6 (by decide)).trans ((after_of_not_mem writes3 (W5 m ρ c) (r := main_v6) (by decide)).trans ((W5_of_ne m ρ c main_v6 (by decide)).trans ((after_of_not_mem writes2 (W3 m ρ c) (r := main_v6) (by decide)).trans ((W3_of_ne m ρ c main_v6 (by decide)).trans ((W2_of_ne m ρ c main_v6 (by decide)))))))))

theorem keep_arg2_0_9 : W9 m ρ c (Proc.devRef .tc main_arg2) = W0 m ρ c (Proc.devRef .tc main_arg2) :=
  ((W9_of_ne m ρ c main_arg2 (by decide)).trans ((W8_of_ne m ρ c main_arg2 (by decide)).trans ((W7_of_ne m ρ c main_arg2 (by decide)).trans ((after_of_not_mem writes3 (W5 m ρ c) (r := main_arg2) (by decide)).trans ((W5_of_ne m ρ c main_arg2 (by decide)).trans ((after_of_not_mem writes2 (W3 m ρ c) (r := main_arg2) (by decide)).trans ((W3_of_ne m ρ c main_arg2 (by decide)).trans ((W2_of_ne m ρ c main_arg2 (by decide)).trans ((after_of_not_mem writes0 (W0 m ρ c) (r := main_arg2) (by decide)))))))))))

theorem keep_arg3_0_9 : W9 m ρ c (Proc.devRef .tc main_arg3) = W0 m ρ c (Proc.devRef .tc main_arg3) :=
  ((W9_of_ne m ρ c main_arg3 (by decide)).trans ((W8_of_ne m ρ c main_arg3 (by decide)).trans ((W7_of_ne m ρ c main_arg3 (by decide)).trans ((after_of_not_mem writes3 (W5 m ρ c) (r := main_arg3) (by decide)).trans ((W5_of_ne m ρ c main_arg3 (by decide)).trans ((after_of_not_mem writes2 (W3 m ρ c) (r := main_arg3) (by decide)).trans ((W3_of_ne m ρ c main_arg3 (by decide)).trans ((W2_of_ne m ρ c main_arg3 (by decide)).trans ((after_of_not_mem writes0 (W0 m ρ c) (r := main_arg3) (by decide)))))))))))

theorem keep_v54_8_9 : W9 m ρ c (Proc.devRef .tc main_v54) = W8 m ρ c (Proc.devRef .tc main_v54) :=
  (W9_of_ne m ρ c main_v54 (by decide))

theorem keep_v21_1_9 : W9 m ρ c (Proc.devRef .tc main_v21) = W1 m ρ c (Proc.devRef .tc main_v21) :=
  ((W9_of_ne m ρ c main_v21 (by decide)).trans ((W8_of_ne m ρ c main_v21 (by decide)).trans ((W7_of_ne m ρ c main_v21 (by decide)).trans ((after_of_not_mem writes3 (W5 m ρ c) (r := main_v21) (by decide)).trans ((W5_of_ne m ρ c main_v21 (by decide)).trans ((after_of_not_mem writes2 (W3 m ρ c) (r := main_v21) (by decide)).trans ((W3_of_ne m ρ c main_v21 (by decide)).trans ((W2_of_ne m ρ c main_v21 (by decide))))))))))

theorem keep_arg11_0_9 : W9 m ρ c (Proc.devRef .tc main_arg11) = W0 m ρ c (Proc.devRef .tc main_arg11) :=
  ((W9_of_ne m ρ c main_arg11 (by decide)).trans ((W8_of_ne m ρ c main_arg11 (by decide)).trans ((W7_of_ne m ρ c main_arg11 (by decide)).trans ((after_of_not_mem writes3 (W5 m ρ c) (r := main_arg11) (by decide)).trans ((W5_of_ne m ρ c main_arg11 (by decide)).trans ((after_of_not_mem writes2 (W3 m ρ c) (r := main_arg11) (by decide)).trans ((W3_of_ne m ρ c main_arg11 (by decide)).trans ((W2_of_ne m ρ c main_arg11 (by decide)).trans ((after_of_not_mem writes0 (W0 m ρ c) (r := main_arg11) (by decide)))))))))))

theorem keep_arg19_0_9 : W9 m ρ c (Proc.devRef .tc main_arg19) = W0 m ρ c (Proc.devRef .tc main_arg19) :=
  ((W9_of_ne m ρ c main_arg19 (by decide)).trans ((W8_of_ne m ρ c main_arg19 (by decide)).trans ((W7_of_ne m ρ c main_arg19 (by decide)).trans ((after_of_not_mem writes3 (W5 m ρ c) (r := main_arg19) (by decide)).trans ((W5_of_ne m ρ c main_arg19 (by decide)).trans ((after_of_not_mem writes2 (W3 m ρ c) (r := main_arg19) (by decide)).trans ((W3_of_ne m ρ c main_arg19 (by decide)).trans ((W2_of_ne m ρ c main_arg19 (by decide)).trans ((after_of_not_mem writes0 (W0 m ρ c) (r := main_arg19) (by decide)))))))))))

theorem keep_v50_5_10 : W10 m ρ c (Proc.devRef .tc main_v50) = W5 m ρ c (Proc.devRef .tc main_v50) :=
  ((after_of_not_mem writes6 (W9 m ρ c) (r := main_v50) (by decide)).trans (((W9_arr m ρ c 0).trans (((dat5 (V8 m ρ) c).arrAt_in 0 rfl _).trans (A_eq5 (V8 m ρ) c 0))).trans ((W8_of_ne m ρ c main_v50 (by decide)).trans ((W7_of_ne m ρ c main_v50 (by decide)).trans ((after_of_not_mem writes3 (W5 m ρ c) (r := main_v50) (by decide)))))))

theorem keep_v5_1_10 : W10 m ρ c (Proc.devRef .tc main_v5) = W1 m ρ c (Proc.devRef .tc main_v5) :=
  ((after_of_not_mem writes6 (W9 m ρ c) (r := main_v5) (by decide)).trans ((W9_of_ne m ρ c main_v5 (by decide)).trans ((W8_of_ne m ρ c main_v5 (by decide)).trans ((W7_of_ne m ρ c main_v5 (by decide)).trans ((after_of_not_mem writes3 (W5 m ρ c) (r := main_v5) (by decide)).trans ((W5_of_ne m ρ c main_v5 (by decide)).trans ((after_of_not_mem writes2 (W3 m ρ c) (r := main_v5) (by decide)).trans ((W3_of_ne m ρ c main_v5 (by decide)).trans ((W2_of_ne m ρ c main_v5 (by decide)))))))))))

theorem keep_v9_1_10 : W10 m ρ c (Proc.devRef .tc main_v9) = W1 m ρ c (Proc.devRef .tc main_v9) :=
  ((after_of_not_mem writes6 (W9 m ρ c) (r := main_v9) (by decide)).trans ((W9_of_ne m ρ c main_v9 (by decide)).trans ((W8_of_ne m ρ c main_v9 (by decide)).trans ((W7_of_ne m ρ c main_v9 (by decide)).trans ((after_of_not_mem writes3 (W5 m ρ c) (r := main_v9) (by decide)).trans ((W5_of_ne m ρ c main_v9 (by decide)).trans ((after_of_not_mem writes2 (W3 m ρ c) (r := main_v9) (by decide)).trans ((W3_of_ne m ρ c main_v9 (by decide)).trans ((W2_of_ne m ρ c main_v9 (by decide)))))))))))

theorem keep_v25_1_11 : W11 m ρ c (Proc.devRef .tc main_v25) = W1 m ρ c (Proc.devRef .tc main_v25) :=
  ((W11_of_ne m ρ c main_v25 (by decide)).trans ((after_of_not_mem writes6 (W9 m ρ c) (r := main_v25) (by decide)).trans ((W9_of_ne m ρ c main_v25 (by decide)).trans ((W8_of_ne m ρ c main_v25 (by decide)).trans ((W7_of_ne m ρ c main_v25 (by decide)).trans ((after_of_not_mem writes3 (W5 m ρ c) (r := main_v25) (by decide)).trans ((W5_of_ne m ρ c main_v25 (by decide)).trans ((after_of_not_mem writes2 (W3 m ρ c) (r := main_v25) (by decide)).trans ((W3_of_ne m ρ c main_v25 (by decide)).trans ((W2_of_ne m ρ c main_v25 (by decide))))))))))))

theorem keep_arg14_0_11 : W11 m ρ c (Proc.devRef .tc main_arg14) = W0 m ρ c (Proc.devRef .tc main_arg14) :=
  ((W11_of_ne m ρ c main_arg14 (by decide)).trans ((after_of_not_mem writes6 (W9 m ρ c) (r := main_arg14) (by decide)).trans ((W9_of_ne m ρ c main_arg14 (by decide)).trans ((W8_of_ne m ρ c main_arg14 (by decide)).trans ((W7_of_ne m ρ c main_arg14 (by decide)).trans ((after_of_not_mem writes3 (W5 m ρ c) (r := main_arg14) (by decide)).trans ((W5_of_ne m ρ c main_arg14 (by decide)).trans ((after_of_not_mem writes2 (W3 m ρ c) (r := main_arg14) (by decide)).trans ((W3_of_ne m ρ c main_arg14 (by decide)).trans ((W2_of_ne m ρ c main_arg14 (by decide)).trans ((after_of_not_mem writes0 (W0 m ρ c) (r := main_arg14) (by decide)))))))))))))

theorem keep_arg17_0_11 : W11 m ρ c (Proc.devRef .tc main_arg17) = W0 m ρ c (Proc.devRef .tc main_arg17) :=
  ((W11_of_ne m ρ c main_arg17 (by decide)).trans ((after_of_not_mem writes6 (W9 m ρ c) (r := main_arg17) (by decide)).trans ((W9_of_ne m ρ c main_arg17 (by decide)).trans ((W8_of_ne m ρ c main_arg17 (by decide)).trans ((W7_of_ne m ρ c main_arg17 (by decide)).trans ((after_of_not_mem writes3 (W5 m ρ c) (r := main_arg17) (by decide)).trans ((W5_of_ne m ρ c main_arg17 (by decide)).trans ((after_of_not_mem writes2 (W3 m ρ c) (r := main_arg17) (by decide)).trans ((W3_of_ne m ρ c main_arg17 (by decide)).trans ((W2_of_ne m ρ c main_arg17 (by decide)).trans ((after_of_not_mem writes0 (W0 m ρ c) (r := main_arg17) (by decide)))))))))))))

theorem keep_v75_10_12 : W12 m ρ c (Proc.devRef .tc main_v75) = W10 m ρ c (Proc.devRef .tc main_v75) :=
  ((after_of_not_mem writes7 (W11 m ρ c) (r := main_v75) (by decide)).trans ((W11_of_ne m ρ c main_v75 (by decide))))

theorem keep_v53_7_12 : W12 m ρ c (Proc.devRef .tc main_v53) = W7 m ρ c (Proc.devRef .tc main_v53) :=
  ((after_of_not_mem writes7 (W11 m ρ c) (r := main_v53) (by decide)).trans ((W11_of_ne m ρ c main_v53 (by decide)).trans ((after_of_not_mem writes6 (W9 m ρ c) (r := main_v53) (by decide)).trans ((W9_of_ne m ρ c main_v53 (by decide)).trans (((W8_arr m ρ c 0).trans (((dat4 (V7 m ρ) c).arrAt_in 0 rfl _).trans (A_eq4 (V7 m ρ) c 0))))))))

theorem keep_v7_1_12 : W12 m ρ c (Proc.devRef .tc main_v7) = W1 m ρ c (Proc.devRef .tc main_v7) :=
  ((after_of_not_mem writes7 (W11 m ρ c) (r := main_v7) (by decide)).trans ((W11_of_ne m ρ c main_v7 (by decide)).trans ((after_of_not_mem writes6 (W9 m ρ c) (r := main_v7) (by decide)).trans ((W9_of_ne m ρ c main_v7 (by decide)).trans ((W8_of_ne m ρ c main_v7 (by decide)).trans ((W7_of_ne m ρ c main_v7 (by decide)).trans ((after_of_not_mem writes3 (W5 m ρ c) (r := main_v7) (by decide)).trans ((W5_of_ne m ρ c main_v7 (by decide)).trans ((after_of_not_mem writes2 (W3 m ρ c) (r := main_v7) (by decide)).trans ((W3_of_ne m ρ c main_v7 (by decide)).trans ((W2_of_ne m ρ c main_v7 (by decide)))))))))))))

theorem keep_v8_1_12 : W12 m ρ c (Proc.devRef .tc main_v8) = W1 m ρ c (Proc.devRef .tc main_v8) :=
  ((after_of_not_mem writes7 (W11 m ρ c) (r := main_v8) (by decide)).trans ((W11_of_ne m ρ c main_v8 (by decide)).trans ((after_of_not_mem writes6 (W9 m ρ c) (r := main_v8) (by decide)).trans ((W9_of_ne m ρ c main_v8 (by decide)).trans ((W8_of_ne m ρ c main_v8 (by decide)).trans ((W7_of_ne m ρ c main_v8 (by decide)).trans ((after_of_not_mem writes3 (W5 m ρ c) (r := main_v8) (by decide)).trans ((W5_of_ne m ρ c main_v8 (by decide)).trans ((after_of_not_mem writes2 (W3 m ρ c) (r := main_v8) (by decide)).trans ((W3_of_ne m ρ c main_v8 (by decide)).trans ((W2_of_ne m ρ c main_v8 (by decide)))))))))))))

theorem keep_v79_11_13 : W13 m ρ c (Proc.devRef .tc main_v79) = W11 m ρ c (Proc.devRef .tc main_v79) :=
  ((W13_of_ne m ρ c main_v79 (by decide)).trans ((after_of_not_mem writes7 (W11 m ρ c) (r := main_v79) (by decide))))

end Cert.KernelIdeal.State

end
-- ==== Proof.BodyRows.lean ====
/-
  Row locality of the encoder's stages. Entry (r, g) of a projection, of a row normalisation, of a SAGE step and of a
  projection head depends on the node-indexed inputs only through their row r. So the same stage taken over a block of
  rows and over the whole table agree wherever the block's row is the table's row: that is what lets a computation
  done tile by tile be read as one function of the whole table.
-/
import proofs.«137275_j12352325943870_2_alg».proof.Proof.Spec

noncomputable section

open scoped BigOperators

namespace Cert.Sage

section Rows
variable {N N' K H O : ℕ}

/-- A projection's entry (r, g) reads row r of the left operand only. -/
theorem proj_row {x : Fin N → Fin K → EReal} {x' : Fin N' → Fin K → EReal} (w : Fin H → Fin K → EReal)
    {r : Fin N} {r' : Fin N'} (h : ∀ k, x r k = x' r' k) (g : Fin H) : proj x w r g = proj x' w r' g := by
  unfold proj
  exact Finset.sum_congr rfl fun k _ => by rw [h k]

/-- A normalised row's entries read that row only. -/
theorem l2n_row {ε : EReal} {z : Fin N → Fin H → EReal} {z' : Fin N' → Fin H → EReal} {r : Fin N} {r' : Fin N'}
    (h : ∀ g, z r g = z' r' g) (g : Fin H) : l2n ε z r g = l2n ε z' r' g := by
  unfold l2n
  rw [h g, Finset.sum_congr rfl fun g' _ => by rw [h g']]

/-- The pre-activation's entry (r, g) reads row r of the mean and of the node's own features. -/
theorem pre_row {mean : Fin N → Fin H → EReal} {mean' : Fin N' → Fin H → EReal} (b : Fin H → EReal)
    {xd : Fin N → Fin K → EReal} {xd' : Fin N' → Fin K → EReal} (wr : Fin H → Fin K → EReal) {r : Fin N} {r' : Fin N'}
    (hm : ∀ g, mean r g = mean' r' g) (hx : ∀ k, xd r k = xd' r' k) (g : Fin H) :
    pre mean b xd wr r g = pre mean' b xd' wr r' g := by
  unfold pre
  rw [hm g, proj_row wr hx g]

/-- A SAGE step's entry (r, g) reads row r of the mean and of the node's own features. -/
theorem sage_row {ε : EReal} {mean : Fin N → Fin H → EReal} {mean' : Fin N' → Fin H → EReal} (b : Fin H → EReal)
    {xd : Fin N → Fin K → EReal} {xd' : Fin N' → Fin K → EReal} (wr : Fin H → Fin K → EReal) {r : Fin N} {r' : Fin N'}
    (hm : ∀ g, mean r g = mean' r' g) (hx : ∀ k, xd r k = xd' r' k) (g : Fin H) :
    sage ε mean b xd wr r g = sage ε mean' b xd' wr r' g := by
  unfold sage
  rw [l2n_row (fun g => pre_row b wr hm hx g) g]

/-- A projection head's entry (r, g) reads row r of its input. -/
theorem head_row {ε : EReal} {h : Fin N → Fin H → EReal} {h' : Fin N' → Fin H → EReal} (wp : Fin O → Fin H → EReal)
    (bp : Fin O → EReal) {r : Fin N} {r' : Fin N'} (hh : ∀ g, h r g = h' r' g) (g : Fin O) :
    head ε h wp bp r g = head ε h' wp bp r' g := by
  unfold head
  refine l2n_row (fun g => ?_) g
  show proj h wp r g + bp g = proj h' wp r' g + bp g
  rw [proj_row wp hh g]

end Rows

end Cert.Sage

end
-- ==== Proof.LibPlainMatmul.lean ====
/-
  A plain matrix product `[a, n] × [n, b]` (the left operand contracted on its columns, the right one on its rows,
  no batch axis) into the zero accumulator, read at an entry on the extended reals: entry `(r, j)` is the sum over
  `k` of the left operand at `(r, k)` times the right operand at `(k, j)`. General over the three extents, the two
  operand formats and the precision.
-/
import Idealize.ShloMosaic.Lib.ValueIdx
import Idealize.ShloMosaic.PureOps.Ideal.Laws

noncomputable section

open scoped BigOperators

namespace Cert.LibPlainMatmul

open Idealize.ShloMosaic Idealize.ShloMosaic.ValueIdx

variable {a n b : ℕ}

/-- The left operand's index at output entry `i` and contraction index `q`: row `i 0` … -/
theorem lhs_row (i : (⟨2, ![a, b]⟩ : Shape).Idx) (q : (DotDims.plain a n b).contr.Idx) :
    ((DotDims.plain a n b).lhsIdx i q 0).val = (i 0).val := rfl

/-- … and the contraction coordinate as its column. -/
theorem lhs_col (i : (⟨2, ![a, b]⟩ : Shape).Idx) (q : (DotDims.plain a n b).contr.Idx) :
    ((DotDims.plain a n b).lhsIdx i q 1).val = (q (⟨0, Nat.one_pos⟩ : Fin (DotDims.plain a n b).contr.rank)).val :=
  (DotDims.plain a n b).lhsIdx_val_of_single rfl i q

/-- The right operand's index: the contraction coordinate as its row … -/
theorem rhs_row (i : (⟨2, ![a, b]⟩ : Shape).Idx) (q : (DotDims.plain a n b).contr.Idx) :
    ((DotDims.plain a n b).rhsIdx i q 0).val = (q (⟨0, Nat.one_pos⟩ : Fin (DotDims.plain a n b).contr.rank)).val :=
  (DotDims.plain a n b).rhsIdx_val_of_single rfl i q

/-- … and column `i 1`. -/
theorem rhs_col (i : (⟨2, ![a, b]⟩ : Shape).Idx) (q : (DotDims.plain a n b).contr.Idx) :
    ((DotDims.plain a n b).rhsIdx i q 1).val = (i 1).val := rfl

/-- A plain matrix product into the zero accumulator, at entry `(r, j)`, is `Σₖ A (r, k) · B (k, j)`. -/
theorem matmul_zero_apply {φ₁ φ₂ : FTy} (prec : Option ContractPrecision) (A : FVec Ideal ⟨2, ![a, n]⟩ φ₁)
    (B : FVec Ideal ⟨2, ![n, b]⟩ φ₂) (r : Fin a) (j : Fin b) :
    FloatOps.matmul (DotDims.plain a n b) prec A B (constant ⟨2, ![a, b]⟩ .f32 0x00000000#32) (ix2 r j)
      = ∑ k : Fin n, A (ix2 r k) * B (ix2 k j) := by
  rw [Ideal.matmul_constant_zero_apply, ← Equiv.sum_comp (contrEquiv1 (DotDims.plain a n b) n rfl rfl).symm]
  refine Finset.sum_congr rfl fun k _ => ?_
  have hk := contrEquiv1_symm_val (DotDims.plain a n b) n rfl rfl k
  have el : (DotDims.plain a n b).lhsIdx (ix2 r j) ((contrEquiv1 (DotDims.plain a n b) n rfl rfl).symm k) = ix2 r k :=
    funext fun c => Fin.ext (by
      match c with
      | ⟨0, _⟩ => exact lhs_row _ _
      | ⟨1, _⟩ => exact (lhs_col _ _).trans hk)
  have er : (DotDims.plain a n b).rhsIdx (ix2 r j) ((contrEquiv1 (DotDims.plain a n b) n rfl rfl).symm k) = ix2 k j :=
    funext fun c => Fin.ext (by
      match c with
      | ⟨0, _⟩ => exact (rhs_row _ _).trans hk
      | ⟨1, _⟩ => exact rhs_col _ _)
  rw [el, er]

end Cert.LibPlainMatmul

end
-- ==== Proof.LibBlockLayout.lean ====
/-
  Three layout steps of a pipelined kernel body, read at an entry, for any extents.

  A window's block carries a leading unit axis: a body that works on matrices casts a [1, R, C] block to an [R, C]
  matrix on loading and an [R, C] result back to a [1, R, C] block on storing; and a bias kept as a [1, N] row is
  repeated down the R rows of the matrix it is added to. Each step, read at an entry, is the operand read at the
  evident entry: the row-major position of (0, r, c) among [1, R, C] is that of (r, c) among [R, C].
-/
import Idealize.ShloMosaic.Lib.Pipeline.Value
import Idealize.ShloMosaic.Lib.ValueIdx

noncomputable section

namespace Cert.LibBlockLayout

open Idealize.ShloMosaic Idealize.ShloMosaic.ValueIdx

/-- A [1, R, C] block viewed as an [R, C] matrix reads, at (r, c), the block at (0, r, c). -/
theorem dropUnit_at {α : Type} {R C : ℕ} (v : (⟨3, ![1, R, C]⟩ : Shape).Idx → α)
    (h : (⟨3, ![1, R, C]⟩ : Shape).ShapeCasts ⟨2, ![R, C]⟩) (r : Fin R) (c : Fin C) :
    shapeCast ⟨2, ![R, C]⟩ v h (ix2 r c) = v (ix3 (0 : Fin 1) r c) := by
  refine shapeCast_apply v h (ix2 r c) (ix3 (0 : Fin 1) r c) ?_
  rw [Shape.rowMajor_val_three, Shape.rowMajor_val_two]
  show ((0 : ℕ) * R + r.val) * C + c.val = r.val * C + c.val
  rw [Nat.zero_mul, Nat.zero_add]

/-- An [R, C] matrix stored as a [1, R, C] block reads, at (0, r, c), the matrix at (r, c). -/
theorem addUnit_at {α : Type} {R C : ℕ} (v : (⟨2, ![R, C]⟩ : Shape).Idx → α)
    (h : (⟨2, ![R, C]⟩ : Shape).ShapeCasts ⟨3, ![1, R, C]⟩) (r : Fin R) (c : Fin C) :
    shapeCast ⟨3, ![1, R, C]⟩ v h (ix3 (0 : Fin 1) r c) = v (ix2 r c) := by
  refine shapeCast_apply v h (ix3 (0 : Fin 1) r c) (ix2 r c) ?_
  rw [Shape.rowMajor_val_three, Shape.rowMajor_val_two]
  show r.val * C + c.val = ((0 : ℕ) * R + r.val) * C + c.val
  rw [Nat.zero_mul, Nat.zero_add]

/-- A [1, N] row repeated down R rows reads, at (r, g), the row at (0, g). -/
theorem rowBroadcast_at {α : Type} {R N : ℕ} (row : (⟨2, ![1, N]⟩ : Shape).Idx → α)
    (hb : (⟨2, ![1, N]⟩ : Shape).Broadcasts ⟨2, ![R, N]⟩) (r : Fin R) (g : Fin N) :
    broadcastTo ⟨2, ![R, N]⟩ row hb (ix2 r g) = row (ix2 (0 : Fin 1) g) := by
  refine broadcastTo_apply row hb (ix2 r g) (ix2 (0 : Fin 1) g) (fun a => ?_)
  match a with
  | ⟨0, _⟩ => show (0 : ℕ) = if (1 : ℕ) = 1 then 0 else _; rw [if_pos rfl]
  | ⟨1, _⟩ =>
    show g.val = if N = 1 then 0 else g.val
    split_ifs with h
    · have := g.isLt; omega
    · rfl

end Cert.LibBlockLayout

end
-- ==== Proof.Body.lean ====
/-
  The arithmetic of the three kinds of kernel body, read entry by entry on the extended reals and identified with the
  encoder's stages taken over ONE tile of rows.

  A projection body is one matrix product into the zero accumulator. A combine body forms
  z = (agg · inv + bias) + xd · w, takes each row's sum of squares by a lane sum, casts it to a column, takes the square
  root, floors it by a splat constant, repeats it along the row, divides z by it and rectifies: one SAGE step after the
  mean. A combine-project body feeds that through a second matrix product, adds a bias row and normalises again: the
  projection head of a SAGE step. Each is stated first for any extents over the operations themselves, then for the
  printed payloads.
-/
import Idealize.ShloMosaic.Lib.Pipeline.Value
import Idealize.ShloMosaic.Lib.ValueIdx
import Idealize.ShloMosaic.Lib.ValueLayout
import Idealize.ShloMosaic.PureOps.Ideal.Laws
import proofs.«137275_j12352325943870_2_alg».proof.Proof.Gen.KernelIdeal.Skeleton
import proofs.«137275_j12352325943870_2_alg».proof.Proof.Iface
import proofs.«137275_j12352325943870_2_alg».proof.Proof.BodyRows
import proofs.«137275_j12352325943870_2_alg».proof.Proof.LibPlainMatmul
import proofs.«137275_j12352325943870_2_alg».proof.Proof.LibKeepdims
import proofs.«137275_j12352325943870_2_alg».proof.Proof.LibBlockLayout

noncomputable section

open scoped BigOperators

namespace Cert.KernelIdeal.Body

open Cert.Sage Idealize.ShloMosaic Idealize.ShloMosaic.ValueIdx

/-! ## For any extents -/

section Generic
variable {a K H O : ℕ}

/-- A matrix product into the zero accumulator is the projection of the left operand's rows against the right
    operand's columns. -/
theorem project_at (x : FVec Ideal ⟨2, ![a, K]⟩ .f32) (w : FVec Ideal ⟨2, ![K, H]⟩ .f32) (p : Fin a) (q : Fin H) :
    FloatOps.matmul (DotDims.plain a K H) none x w (constant ⟨2, ![a, H]⟩ .f32 0x00000000#32) (ix2 p q)
      = proj (rd2 x) (tr (rd2 w)) p q :=
  Cert.LibPlainMatmul.matmul_zero_apply none x w p q

/-- The pre-activation as a body forms it: (agg · inv + bias) + xd · w, the column inv repeated along each row and
    the row bias repeated down the rows. -/
def preTerm (agg : FVec Ideal ⟨2, ![a, H]⟩ .f32) (inv : FVec Ideal ⟨2, ![a, 1]⟩ .f32) (bias : FVec Ideal ⟨2, ![1, H]⟩ .f32)
    (xd : FVec Ideal ⟨2, ![a, K]⟩ .f32) (w : FVec Ideal ⟨2, ![K, H]⟩ .f32)
    (h1 : (⟨2, ![a, H]⟩ : Shape).ShapeCasts ⟨2, ![a, H]⟩) (h2 : (⟨2, ![a, 1]⟩ : Shape).ShapeCasts ⟨2, ![a, 1]⟩)
    (h3 : (⟨2, ![a, 1]⟩ : Shape).Broadcasts ⟨2, ![a, H]⟩) (h4 : (⟨2, ![1, H]⟩ : Shape).ShapeCasts ⟨2, ![1, H]⟩)
    (h5 : (⟨2, ![1, H]⟩ : Shape).Broadcasts ⟨2, ![a, H]⟩) (h6 : (⟨2, ![K, H]⟩ : Shape).ShapeCasts ⟨2, ![K, H]⟩) :
    FVec Ideal ⟨2, ![a, H]⟩ .f32 :=
  addf (addf (mulf (shapeCast ⟨2, ![a, H]⟩ agg h1) (broadcastTo ⟨2, ![a, H]⟩ (shapeCast ⟨2, ![a, 1]⟩ inv h2) h3))
      (broadcastTo ⟨2, ![a, H]⟩ (shapeCast ⟨2, ![1, H]⟩ bias h4) h5))
    (FloatOps.matmul (DotDims.plain a K H) none xd (shapeCast ⟨2, ![K, H]⟩ w h6) (constant ⟨2, ![a, H]⟩ .f32 0x00000000#32))

/-- It is the specification's pre-activation, the mean being the aggregate times the reciprocal degree. -/
theorem preTerm_at (agg : FVec Ideal ⟨2, ![a, H]⟩ .f32) (inv : FVec Ideal ⟨2, ![a, 1]⟩ .f32) (bias : FVec Ideal ⟨2, ![1, H]⟩ .f32)
    (xd : FVec Ideal ⟨2, ![a, K]⟩ .f32) (w : FVec Ideal ⟨2, ![K, H]⟩ .f32) (h1 h2 h3 h4 h5 h6) (p : Fin a) (q : Fin H) :
    preTerm agg inv bias xd w h1 h2 h3 h4 h5 h6 (ix2 p q)
      = pre (fun r g => rd2 agg r g * rdCol inv r) (rdRow bias) (rd2 xd) (tr (rd2 w)) p q := by
  unfold preTerm
  rw [addf_apply, addf_apply, mulf_apply, Cert.LibKeepdims.broadcastTo_a1_ab_apply, Cert.LibBlockLayout.rowBroadcast_at]
  simp only [shapeCast_self]
  rw [project_at]
  rfl

/-- A row normalisation as a body forms it: the row's sum of squares by a lane sum, cast to a column, its square root
    floored by the splat e, repeated along the row and divided into the matrix. -/
def normTerm (Z : FVec Ideal ⟨2, ![a, H]⟩ .f32) (e : Ideal .f32) (acc : BitVec (FTy.bits .f32))
    (hr : (⟨2, ![a, H]⟩ : Shape).Reduces [1] ⟨1, ![a]⟩) (hφ : FKind.Formats .f32) (hacc : acc = FKind.add.neutral .f32 hφ)
    (hc : (⟨1, ![a]⟩ : Shape).ShapeCasts ⟨2, ![a, 1]⟩) (hb : (⟨2, ![a, 1]⟩ : Shape).Broadcasts ⟨2, ![a, H]⟩) :
    FVec Ideal ⟨2, ![a, H]⟩ .f32 :=
  divf Z (broadcastTo ⟨2, ![a, H]⟩ (maximumf (sqrt (shapeCast ⟨2, ![a, 1]⟩
    (multiReduction .add [1] ⟨1, ![a]⟩ (mulf Z Z) acc hr hφ hacc) hc)) (broadcast ⟨2, ![a, 1]⟩ e)) hb)

/-- It is the specification's normalisation with floor e: the lane sum starts from the zero accumulator, so it is the
    bare sum of the row's squares. -/
theorem normTerm_at (Z : FVec Ideal ⟨2, ![a, H]⟩ .f32) (e : Ideal .f32) (acc hr hφ hacc hc hb) (p : Fin a) (q : Fin H) :
    normTerm Z e acc hr hφ hacc hc hb (ix2 p q) = l2n e (rd2 Z) p q := by
  unfold normTerm
  rw [divf_apply, Cert.LibKeepdims.broadcastTo_a1_ab_apply, maximumf_apply, broadcast_apply]
  show Ideal.div (Z (ix2 p q)) (max (Ideal.sqrt (shapeCast ⟨2, ![a, 1]⟩
    (multiReduction .add [1] ⟨1, ![a]⟩ (mulf Z Z) acc hr hφ hacc) hc (ix2 p (0 : Fin 1)))) e) = _
  rw [Cert.LibKeepdims.shapeCast_a_a1_apply, Cert.LibKeepdims.multiReduction_add_rows]
  unfold l2n
  rw [zero_add]
  rfl

/-- One SAGE step after the mean as a body forms it. -/
theorem sageTerm_at (agg : FVec Ideal ⟨2, ![a, H]⟩ .f32) (inv : FVec Ideal ⟨2, ![a, 1]⟩ .f32) (bias : FVec Ideal ⟨2, ![1, H]⟩ .f32)
    (xd : FVec Ideal ⟨2, ![a, K]⟩ .f32) (w : FVec Ideal ⟨2, ![K, H]⟩ .f32) (h1 h2 h3 h4 h5 h6) (e z0 : Ideal .f32) (hz0 : z0 = 0)
    (acc hr hφ hacc hc hb) (p : Fin a) (q : Fin H) :
    maximumf (normTerm (preTerm agg inv bias xd w h1 h2 h3 h4 h5 h6) e acc hr hφ hacc hc hb) (broadcast ⟨2, ![a, H]⟩ z0) (ix2 p q)
      = sage e (fun r g => rd2 agg r g * rdCol inv r) (rdRow bias) (rd2 xd) (tr (rd2 w)) p q := by
  rw [maximumf_apply, broadcast_apply, normTerm_at, hz0]
  unfold sage
  rw [l2n_row (z' := pre (fun r g => rd2 agg r g * rdCol inv r) (rdRow bias) (rd2 xd) (tr (rd2 w))) (r' := p)
    (fun g => preTerm_at agg inv bias xd w h1 h2 h3 h4 h5 h6 p g) q]

/-- The projection head of a SAGE step as a body forms it: the step's tile through a second matrix product, a bias
    row added, normalised. -/
theorem headTerm_at (S : FVec Ideal ⟨2, ![a, H]⟩ .f32) (s : Fin a → Fin H → EReal) (hS : ∀ p k, S (ix2 p k) = s p k)
    (wp : FVec Ideal ⟨2, ![H, O]⟩ .f32) (bp : FVec Ideal ⟨2, ![1, O]⟩ .f32)
    (g1 : (⟨2, ![H, O]⟩ : Shape).ShapeCasts ⟨2, ![H, O]⟩) (g2 : (⟨2, ![1, O]⟩ : Shape).ShapeCasts ⟨2, ![1, O]⟩)
    (g3 : (⟨2, ![1, O]⟩ : Shape).Broadcasts ⟨2, ![a, O]⟩) (e : Ideal .f32) (acc hr hφ hacc hc hb) (p : Fin a) (q : Fin O) :
    normTerm (addf (FloatOps.matmul (DotDims.plain a H O) none S (shapeCast ⟨2, ![H, O]⟩ wp g1)
        (constant ⟨2, ![a, O]⟩ .f32 0x00000000#32)) (broadcastTo ⟨2, ![a, O]⟩ (shapeCast ⟨2, ![1, O]⟩ bp g2) g3))
      e acc hr hφ hacc hc hb (ix2 p q)
      = head e s (tr (rd2 wp)) (rdRow bp) p q := by
  rw [normTerm_at]
  unfold head
  refine l2n_row (r' := p) (fun g => ?_) q
  show addf (FloatOps.matmul (DotDims.plain a H O) none S (shapeCast ⟨2, ![H, O]⟩ wp g1)
      (constant ⟨2, ![a, O]⟩ .f32 0x00000000#32)) (broadcastTo ⟨2, ![a, O]⟩ (shapeCast ⟨2, ![1, O]⟩ bp g2) g3) (ix2 p g)
    = proj s (tr (rd2 wp)) p g + rdRow bp g
  rw [addf_apply, Cert.LibBlockLayout.rowBroadcast_at]
  simp only [shapeCast_self]
  rw [project_at, proj_row (x' := s) (r' := p) (tr (rd2 wp)) (fun k => hS p k) g]
  rfl

end Generic

/-! ## The printed payloads -/

section Printed

/-- Region 0's body: the tile's rows projected against the weights' columns. -/
theorem k0_eq (x : Vec Ideal S5000x128 .f32) (w : Vec Ideal S128x32 .f32) :
    (Gen.k0_pay1 x w : S5000x32.Idx → EReal)
      = mk2 (proj (rd2 (x : S5000x128.Idx → EReal)) (tr (rd2 (w : S128x32.Idx → EReal)))) := by
  refine eq_mk2 fun p q => ?_
  unfold Gen.k0_pay1
  refine (project_at x (shapeCast S128x32 w Gen.shapeCasts_S128x32_S128x32) p q).trans ?_
  rw [shapeCast_self]

/-- Region 1's body: the tile's rows projected against the weights' columns. -/
theorem k1_eq (x : Vec Ideal S5000x128 .f32) (w : Vec Ideal S128x32 .f32) :
    (Gen.k1_pay1 x w : S5000x32.Idx → EReal)
      = mk2 (proj (rd2 (x : S5000x128.Idx → EReal)) (tr (rd2 (w : S128x32.Idx → EReal)))) := by
  refine eq_mk2 fun p q => ?_
  unfold Gen.k1_pay1
  refine (project_at x (shapeCast S128x32 w Gen.shapeCasts_S128x32_S128x32) p q).trans ?_
  rw [shapeCast_self]

/-- Region 2's body: one SAGE step after the mean over the tile, the mean being the aggregate times the reciprocal
    degree and the floor the splat constant. -/
theorem k2_eq (agg : Vec Ideal S5000x32 .f32) (inv : Vec Ideal S5000x1 .f32) (bias : Vec Ideal S1x32 .f32)
    (xd : Vec Ideal S5000x128 .f32) (w : Vec Ideal S128x32 .f32) :
    (Gen.k2_pay1 agg inv bias xd w : S5000x32.Idx → EReal)
      = mk2 (sage epsWord (fun r g => rd2 (agg : S5000x32.Idx → EReal) r g * rdCol (inv : S5000x1.Idx → EReal) r)
          (rdRow (bias : S1x32.Idx → EReal)) (rd2 (xd : S5000x128.Idx → EReal)) (tr (rd2 (w : S128x32.Idx → EReal)))) := by
  refine eq_mk2 fun p q => ?_
  unfold Gen.k2_pay1
  exact sageTerm_at agg inv bias xd w Gen.shapeCasts_S5000x32_S5000x32 Gen.shapeCasts_S5000x1_S5000x1
    Gen.broadcasts_S5000x1_S5000x32 Gen.shapeCasts_S1x32_S1x32 Gen.broadcasts_S1x32_S5000x32 Gen.shapeCasts_S128x32_S128x32
    (Scalar.ofBits .f32 0x2B8CBCCC#32) (Scalar.ofBits .f32 0x00000000#32) Ideal.ofBits_zero_f32 0x00000000#32
    Gen.reduces_S5000x32_S5000 (.inl rfl) rfl Gen.shapeCasts_S5000_S5000x1 Gen.broadcasts_S5000x1_S5000x32 p q

/-- Region 3's body: one SAGE step after the mean over the tile, the mean being the aggregate times the reciprocal
    degree and the floor the splat constant. -/
theorem k3_eq (agg : Vec Ideal S5000x32 .f32) (inv : Vec Ideal S5000x1 .f32) (bias : Vec Ideal S1x32 .f32)
    (xd : Vec Ideal S5000x128 .f32) (w : Vec Ideal S128x32 .f32) :
    (Gen.k3_pay1 agg inv bias xd w : S5000x32.Idx → EReal)
      = mk2 (sage epsWord (fun r g => rd2 (agg : S5000x32.Idx → EReal) r g * rdCol (inv : S5000x1.Idx → EReal) r)
          (rdRow (bias : S1x32.Idx → EReal)) (rd2 (xd : S5000x128.Idx → EReal)) (tr (rd2 (w : S128x32.Idx → EReal)))) := by
  refine eq_mk2 fun p q => ?_
  unfold Gen.k3_pay1
  exact sageTerm_at agg inv bias xd w Gen.shapeCasts_S5000x32_S5000x32 Gen.shapeCasts_S5000x1_S5000x1
    Gen.broadcasts_S5000x1_S5000x32 Gen.shapeCasts_S1x32_S1x32 Gen.broadcasts_S1x32_S5000x32 Gen.shapeCasts_S128x32_S128x32
    (Scalar.ofBits .f32 0x2B8CBCCC#32) (Scalar.ofBits .f32 0x00000000#32) Ideal.ofBits_zero_f32 0x00000000#32
    Gen.reduces_S5000x32_S5000 (.inl rfl) rfl Gen.shapeCasts_S5000_S5000x1 Gen.broadcasts_S5000x1_S5000x32 p q

/-- Region 4's body: the tile's rows projected against the weights' columns. -/
theorem k4_eq (x : Vec Ideal S5000x32 .f32) (w : Vec Ideal S32x32 .f32) :
    (Gen.k4_pay1 x w : S5000x32.Idx → EReal)
      = mk2 (proj (rd2 (x : S5000x32.Idx → EReal)) (tr (rd2 (w : S32x32.Idx → EReal)))) := by
  refine eq_mk2 fun p q => ?_
  unfold Gen.k4_pay1
  refine (project_at (shapeCast S5000x32 x Gen.shapeCasts_S5000x32_S5000x32) (shapeCast S32x32 w Gen.shapeCasts_S32x32_S32x32) p q).trans ?_
  rw [shapeCast_self, shapeCast_self]

/-- Region 5's body: the tile's rows projected against the weights' columns. -/
theorem k5_eq (x : Vec Ideal S5000x32 .f32) (w : Vec Ideal S32x32 .f32) :
    (Gen.k5_pay1 x w : S5000x32.Idx → EReal)
      = mk2 (proj (rd2 (x : S5000x32.Idx → EReal)) (tr (rd2 (w : S32x32.Idx → EReal)))) := by
  refine eq_mk2 fun p q => ?_
  unfold Gen.k5_pay1
  refine (project_at (shapeCast S5000x32 x Gen.shapeCasts_S5000x32_S5000x32) (shapeCast S32x32 w Gen.shapeCasts_S32x32_S32x32) p q).trans ?_
  rw [shapeCast_self, shapeCast_self]

/-- Region 6's body: the projection head of one SAGE step over the tile. The store's payload divides the head's
    pre-normalisation by its floored row norm, which is the normalisation term of that pre-normalisation. -/
theorem k6_eq (agg : Vec Ideal S5000x32 .f32) (inv : Vec Ideal S5000x1 .f32) (bias : Vec Ideal S1x32 .f32)
    (xd : Vec Ideal S5000x32 .f32) (w : Vec Ideal S32x32 .f32) (wp : Vec Ideal S32x32 .f32) (bp : Vec Ideal S1x32 .f32) :
    (Gen.k6_pay1 (Gen.k6_pay2 agg inv bias xd w wp bp) (Gen.k6_pay3 agg inv bias xd w wp bp) (Gen.k6_pay4 (F := Ideal))
        : S5000x32.Idx → EReal)
      = mk2 (head epsWord
          (sage epsWord (fun r g => rd2 (agg : S5000x32.Idx → EReal) r g * rdCol (inv : S5000x1.Idx → EReal) r)
            (rdRow (bias : S1x32.Idx → EReal)) (rd2 (xd : S5000x32.Idx → EReal)) (tr (rd2 (w : S32x32.Idx → EReal))))
          (tr (rd2 (wp : S32x32.Idx → EReal))) (rdRow (bp : S1x32.Idx → EReal))) := by
  refine eq_mk2 fun p q => ?_
  have hS := fun (p : Fin 5000) (k : Fin 32) =>
    sageTerm_at agg inv bias (shapeCast S5000x32 xd Gen.shapeCasts_S5000x32_S5000x32) w Gen.shapeCasts_S5000x32_S5000x32
      Gen.shapeCasts_S5000x1_S5000x1 Gen.broadcasts_S5000x1_S5000x32 Gen.shapeCasts_S1x32_S1x32 Gen.broadcasts_S1x32_S5000x32
      Gen.shapeCasts_S32x32_S32x32 (Scalar.ofBits .f32 0x2B8CBCCC#32) (Scalar.ofBits .f32 0x00000000#32) Ideal.ofBits_zero_f32
      0x00000000#32 Gen.reduces_S5000x32_S5000 (.inl rfl) rfl Gen.shapeCasts_S5000_S5000x1 Gen.broadcasts_S5000x1_S5000x32 p k
  unfold Gen.k6_pay1 Gen.k6_pay3 Gen.k6_pay4 Gen.k6_pay2
  refine (headTerm_at _ _ hS wp bp Gen.shapeCasts_S32x32_S32x32 Gen.shapeCasts_S1x32_S1x32 Gen.broadcasts_S1x32_S5000x32
    (Scalar.ofBits .f32 0x2B8CBCCC#32) 0x00000000#32 Gen.reduces_S5000x32_S5000 (.inl rfl) rfl Gen.shapeCasts_S5000_S5000x1
    Gen.broadcasts_S5000x1_S5000x32 p q).trans ?_
  rw [shapeCast_self]
  rfl

/-- Region 7's body: the projection head of one SAGE step over the tile. The store's payload divides the head's
    pre-normalisation by its floored row norm, which is the normalisation term of that pre-normalisation. -/
theorem k7_eq (agg : Vec Ideal S5000x32 .f32) (inv : Vec Ideal S5000x1 .f32) (bias : Vec Ideal S1x32 .f32)
    (xd : Vec Ideal S5000x32 .f32) (w : Vec Ideal S32x32 .f32) (wp : Vec Ideal S32x32 .f32) (bp : Vec Ideal S1x32 .f32) :
    (Gen.k7_pay1 (Gen.k7_pay2 agg inv bias xd w wp bp) (Gen.k7_pay3 agg inv bias xd w wp bp) (Gen.k7_pay4 (F := Ideal))
        : S5000x32.Idx → EReal)
      = mk2 (head epsWord
          (sage epsWord (fun r g => rd2 (agg : S5000x32.Idx → EReal) r g * rdCol (inv : S5000x1.Idx → EReal) r)
            (rdRow (bias : S1x32.Idx → EReal)) (rd2 (xd : S5000x32.Idx → EReal)) (tr (rd2 (w : S32x32.Idx → EReal))))
          (tr (rd2 (wp : S32x32.Idx → EReal))) (rdRow (bp : S1x32.Idx → EReal))) := by
  refine eq_mk2 fun p q => ?_
  have hS := fun (p : Fin 5000) (k : Fin 32) =>
    sageTerm_at agg inv bias (shapeCast S5000x32 xd Gen.shapeCasts_S5000x32_S5000x32) w Gen.shapeCasts_S5000x32_S5000x32
      Gen.shapeCasts_S5000x1_S5000x1 Gen.broadcasts_S5000x1_S5000x32 Gen.shapeCasts_S1x32_S1x32 Gen.broadcasts_S1x32_S5000x32
      Gen.shapeCasts_S32x32_S32x32 (Scalar.ofBits .f32 0x2B8CBCCC#32) (Scalar.ofBits .f32 0x00000000#32) Ideal.ofBits_zero_f32
      0x00000000#32 Gen.reduces_S5000x32_S5000 (.inl rfl) rfl Gen.shapeCasts_S5000_S5000x1 Gen.broadcasts_S5000x1_S5000x32 p k
  unfold Gen.k7_pay1 Gen.k7_pay3 Gen.k7_pay4 Gen.k7_pay2
  refine (headTerm_at _ _ hS wp bp Gen.shapeCasts_S32x32_S32x32 Gen.shapeCasts_S1x32_S1x32 Gen.broadcasts_S1x32_S5000x32
    (Scalar.ofBits .f32 0x2B8CBCCC#32) 0x00000000#32 Gen.reduces_S5000x32_S5000 (.inl rfl) rfl Gen.shapeCasts_S5000_S5000x1
    Gen.broadcasts_S5000x1_S5000x32 p q).trans ?_
  rw [shapeCast_self]
  rfl

end Printed

end Cert.KernelIdeal.Body

end
-- ==== Proof.Region0.lean ====
/-
  What the first projection region leaves in its output array. The grid is one axis of 20 row tiles of 5000 rows; at
  point t the body sees rows 5000·t … 5000·t + 4999 of the [100000, 128] features and the whole [128, 32] weights, and
  writes the same rows of the [100000, 32] output. A projection's row r reads row r of the features only, so tile t of
  the output is tile t of ONE function of the whole arrays, and the tiles cover every row: row r lies in tile r / 5000.
-/
import proofs.«137275_j12352325943870_2_alg».proof.Proof.Gen.KernelIdeal.Frame
import proofs.«137275_j12352325943870_2_alg».proof.Proof.Iface
import proofs.«137275_j12352325943870_2_alg».proof.Proof.Body

set_option maxRecDepth 16384

noncomputable section

namespace Cert.KernelIdeal.RegionValue

open Cert.Sage Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-- Both offsets of a whole-buffer access are zero. -/
theorem zero2_0 : (![0, 0] : Fin 2 → Nat) = fun _ => 0 := funext fun a => by fin_cases a <;> rfl

/-- The printed index maps, decided over the grid: the features' tile moves with the output's, whose row-tile index is
    the point itself; every other block index is zero. -/
theorem idx0 : ∀ t : Fin cfg0.N, win0_0.index t (0 : Fin 2) = win0_2.index t (0 : Fin 2)
    ∧ win0_0.index t (1 : Fin 2) = 0
    ∧ win0_1.index t (0 : Fin 2) = 0
    ∧ win0_1.index t (1 : Fin 2) = 0
    ∧ win0_2.index t (0 : Fin 2) = t.val
    ∧ win0_2.index t (1 : Fin 2) = 0 :=
  (by decide +kernel : ∀ t : Fin grid0.N, _)

/-- What point t writes back is tile t of the projection of the whole features against the whole weights. -/
theorem flushed0 (c : Dev nD) (t : Fin cfg0.N) :
    (dat0 (F := Ideal) V c).flushed 2 t = ((cfg0.win 2).blk t).view.read (Elt Ideal)
      (mk2 (proj (rd2 (V c main_arg0 : S100000x128.Idx → EReal)) (tr (rd2 (V c main_v0 : S128x32.Idx → EReal))))) := by
  show (cfg0.win 2).cut (grid0.coords t) ((dat0 V c).after 2 t) = _
  rw [after0_2]
  unfold out0_2
  rw [View.canon_unit_zero zero2_0]
  simp only [View.ld_unit_zero (S := S5000x128) zero2_0, View.ld_unit_zero (S := S128x32) zero2_0]
  obtain ⟨e0, e1, e2, e3, e4, e5⟩ := idx0 t
  funext j
  refine (congrFun (Body.k0_eq (iblk0 V c 0 t) (iblk0 V c 1 t)) j).trans ?_
  -- the weights' block is the whole array
  have hw : (iblk0 V c 1 t : S128x32.Idx → EReal) = V c main_v0 := by
    funext y
    show V c main_v0 (((cfg0.win 1).blk t).view.emb y) = V c main_v0 y
    refine congrArg _ (funext fun a => Fin.ext ?_)
    match a with
    | ⟨0, _⟩ => show win0_1.index t (0 : Fin 2) * 128 + 1 * (y 0).val = (y 0).val; omega
    | ⟨1, _⟩ => show win0_1.index t (1 : Fin 2) * 32 + 1 * (y 1).val = (y 1).val; omega
  -- row p of the features' tile is the features' row under row p of the output's tile
  have hx : ∀ k : Fin 128, (iblk0 V c 0 t : S5000x128.Idx → EReal) (ix2 (j 0) k)
      = rd2 (V c main_arg0 : S100000x128.Idx → EReal) ((((cfg0.win 2).blk t).view.emb j) 0) k := by
    intro k
    show V c main_arg0 (((cfg0.win 0).blk t).view.emb (ix2 (j 0) k)) = V c main_arg0 (ix2 ((((cfg0.win 2).blk t).view.emb j) 0) k)
    refine congrArg _ (funext fun a => Fin.ext ?_)
    match a with
    | ⟨0, _⟩ => show win0_0.index t (0 : Fin 2) * 5000 + 1 * (j 0).val = win0_2.index t (0 : Fin 2) * 5000 + 1 * (j 0).val; omega
    | ⟨1, _⟩ => show win0_0.index t (1 : Fin 2) * 128 + 1 * k.val = k.val; omega
  -- the output's tile keeps the column
  have hq : (((cfg0.win 2).blk t).view.emb j) 1 = j 1 :=
    Fin.ext (by show win0_2.index t (1 : Fin 2) * 32 + 1 * (j 1).val = (j 1).val; omega)
  show proj (rd2 (iblk0 V c 0 t)) (tr (rd2 (iblk0 V c 1 t))) (j 0) (j 1)
    = proj (rd2 (V c main_arg0)) (tr (rd2 (V c main_v0))) ((((cfg0.win 2).blk t).view.emb j) 0) ((((cfg0.win 2).blk t).view.emb j) 1)
  rw [hw, hq]
  exact proj_row _ hx (j 1)

/-- An index of the output is in point t's tile iff each coordinate is in the tile's range on its axis. -/
theorem mem_blk0 (t : Fin cfg0.N) (i : S100000x32.Idx) :
    i ∈ ((cfg0.win 2).blk t).view.set ↔ ∀ a : Fin 2, win0_2.index t a * S5000x32.size a ≤ (i a).val
      ∧ (i a).val < win0_2.index t a * S5000x32.size a + S5000x32.size a := by
  show i ∈ ((View.whole main_v26).slice (win0_2.rect t)).set ↔ _
  rw [View.set_slice_whole, Rect.mem_set_unit]
  exact Iff.rfl

/-- Every index of the output is in some point's tile: row r in tile r / 5000. -/
theorem cover0 (i : S100000x32.Idx) :
    ∃ t : Fin cfg0.N, (cfg0.win 2).flush t = true ∧ i ∈ ((cfg0.win 2).blk t).view.set := by
  have hi0 : (i 0).val < 100000 := idx2_lt0 i
  have hi1 : (i 1).val < 32 := idx2_lt1 i
  obtain ⟨t, ht⟩ : ∃ t : Fin cfg0.N, t.val = (i 0).val / 5000 :=
    ⟨⟨(i 0).val / 5000, by show (i 0).val / 5000 < grid0.N; rw [N_0]; omega⟩, rfl⟩
  obtain ⟨e0, e1, e2, e3, e4, e5⟩ := idx0 t
  refine ⟨t, flush0_2 t, ?_⟩
  rw [mem_blk0]
  intro a
  match a with
  | ⟨0, _⟩ =>
    show win0_2.index t (0 : Fin 2) * 5000 ≤ (i 0).val ∧ (i 0).val < win0_2.index t (0 : Fin 2) * 5000 + 5000
    omega
  | ⟨1, _⟩ =>
    show win0_2.index t (1 : Fin 2) * 32 ≤ (i 1).val ∧ (i 1).val < win0_2.index t (1 : Fin 2) * 32 + 32
    omega

/-- The output array after the region: the projection of the features against the weights, as the region found them. -/
theorem final0 (c : Dev nD) :
    (dat0 (F := Ideal) V c).arrAt 2 cfg0.N
      = mk2 (proj (rd2 (V c main_arg0 : S100000x128.Idx → EReal)) (tr (rd2 (V c main_v0 : S128x32.Idx → EReal)))) :=
  (dat0 V c).arrAt_eq_of_cover 2 _ (fun t _ => flushed0 V c t) cover0

end Cert.KernelIdeal.RegionValue

end
-- ==== Proof.Region1.lean ====
/-
  What the second projection region leaves in its output array. The grid is one axis of 10 row tiles of 5000 rows; at
  point t the body sees rows 5000·t … 5000·t + 4999 of the [50000, 128] features and the whole [128, 32] weights, and
  writes the same rows of the [50000, 32] output. A projection's row r reads row r of the features only, so tile t of
  the output is tile t of ONE function of the whole arrays, and the tiles cover every row: row r lies in tile r / 5000.
-/
import proofs.«137275_j12352325943870_2_alg».proof.Proof.Gen.KernelIdeal.Frame
import proofs.«137275_j12352325943870_2_alg».proof.Proof.Iface
import proofs.«137275_j12352325943870_2_alg».proof.Proof.Body

set_option maxRecDepth 16384

noncomputable section

namespace Cert.KernelIdeal.RegionValue

open Cert.Sage Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-- Both offsets of a whole-buffer access are zero. -/
theorem zero2_1 : (![0, 0] : Fin 2 → Nat) = fun _ => 0 := funext fun a => by fin_cases a <;> rfl

/-- The printed index maps, decided over the grid: the features' tile moves with the output's, whose row-tile index is
    the point itself; every other block index is zero. -/
theorem idx1 : ∀ t : Fin cfg1.N, win1_0.index t (0 : Fin 2) = win1_2.index t (0 : Fin 2)
    ∧ win1_0.index t (1 : Fin 2) = 0
    ∧ win1_1.index t (0 : Fin 2) = 0
    ∧ win1_1.index t (1 : Fin 2) = 0
    ∧ win1_2.index t (0 : Fin 2) = t.val
    ∧ win1_2.index t (1 : Fin 2) = 0 :=
  (by decide +kernel : ∀ t : Fin grid1.N, _)

/-- What point t writes back is tile t of the projection of the whole features against the whole weights. -/
theorem flushed1 (c : Dev nD) (t : Fin cfg1.N) :
    (dat1 (F := Ideal) V c).flushed 2 t = ((cfg1.win 2).blk t).view.read (Elt Ideal)
      (mk2 (proj (rd2 (V c main_arg1 : S50000x128.Idx → EReal)) (tr (rd2 (V c main_v2 : S128x32.Idx → EReal))))) := by
  show (cfg1.win 2).cut (grid1.coords t) ((dat1 V c).after 2 t) = _
  rw [after1_2]
  unfold out1_2
  rw [View.canon_unit_zero zero2_1]
  simp only [View.ld_unit_zero (S := S5000x128) zero2_1, View.ld_unit_zero (S := S128x32) zero2_1]
  obtain ⟨e0, e1, e2, e3, e4, e5⟩ := idx1 t
  funext j
  refine (congrFun (Body.k1_eq (iblk1 V c 0 t) (iblk1 V c 1 t)) j).trans ?_
  -- the weights' block is the whole array
  have hw : (iblk1 V c 1 t : S128x32.Idx → EReal) = V c main_v2 := by
    funext y
    show V c main_v2 (((cfg1.win 1).blk t).view.emb y) = V c main_v2 y
    refine congrArg _ (funext fun a => Fin.ext ?_)
    match a with
    | ⟨0, _⟩ => show win1_1.index t (0 : Fin 2) * 128 + 1 * (y 0).val = (y 0).val; omega
    | ⟨1, _⟩ => show win1_1.index t (1 : Fin 2) * 32 + 1 * (y 1).val = (y 1).val; omega
  -- row p of the features' tile is the features' row under row p of the output's tile
  have hx : ∀ k : Fin 128, (iblk1 V c 0 t : S5000x128.Idx → EReal) (ix2 (j 0) k)
      = rd2 (V c main_arg1 : S50000x128.Idx → EReal) ((((cfg1.win 2).blk t).view.emb j) 0) k := by
    intro k
    show V c main_arg1 (((cfg1.win 0).blk t).view.emb (ix2 (j 0) k)) = V c main_arg1 (ix2 ((((cfg1.win 2).blk t).view.emb j) 0) k)
    refine congrArg _ (funext fun a => Fin.ext ?_)
    match a with
    | ⟨0, _⟩ => show win1_0.index t (0 : Fin 2) * 5000 + 1 * (j 0).val = win1_2.index t (0 : Fin 2) * 5000 + 1 * (j 0).val; omega
    | ⟨1, _⟩ => show win1_0.index t (1 : Fin 2) * 128 + 1 * k.val = k.val; omega
  -- the output's tile keeps the column
  have hq : (((cfg1.win 2).blk t).view.emb j) 1 = j 1 :=
    Fin.ext (by show win1_2.index t (1 : Fin 2) * 32 + 1 * (j 1).val = (j 1).val; omega)
  show proj (rd2 (iblk1 V c 0 t)) (tr (rd2 (iblk1 V c 1 t))) (j 0) (j 1)
    = proj (rd2 (V c main_arg1)) (tr (rd2 (V c main_v2))) ((((cfg1.win 2).blk t).view.emb j) 0) ((((cfg1.win 2).blk t).view.emb j) 1)
  rw [hw, hq]
  exact proj_row _ hx (j 1)

/-- An index of the output is in point t's tile iff each coordinate is in the tile's range on its axis. -/
theorem mem_blk1 (t : Fin cfg1.N) (i : S50000x32.Idx) :
    i ∈ ((cfg1.win 2).blk t).view.set ↔ ∀ a : Fin 2, win1_2.index t a * S5000x32.size a ≤ (i a).val
      ∧ (i a).val < win1_2.index t a * S5000x32.size a + S5000x32.size a := by
  show i ∈ ((View.whole main_v27).slice (win1_2.rect t)).set ↔ _
  rw [View.set_slice_whole, Rect.mem_set_unit]
  exact Iff.rfl

/-- Every index of the output is in some point's tile: row r in tile r / 5000. -/
theorem cover1 (i : S50000x32.Idx) :
    ∃ t : Fin cfg1.N, (cfg1.win 2).flush t = true ∧ i ∈ ((cfg1.win 2).blk t).view.set := by
  have hi0 : (i 0).val < 50000 := idx2_lt0 i
  have hi1 : (i 1).val < 32 := idx2_lt1 i
  obtain ⟨t, ht⟩ : ∃ t : Fin cfg1.N, t.val = (i 0).val / 5000 :=
    ⟨⟨(i 0).val / 5000, by show (i 0).val / 5000 < grid1.N; rw [N_1]; omega⟩, rfl⟩
  obtain ⟨e0, e1, e2, e3, e4, e5⟩ := idx1 t
  refine ⟨t, flush1_2 t, ?_⟩
  rw [mem_blk1]
  intro a
  match a with
  | ⟨0, _⟩ =>
    show win1_2.index t (0 : Fin 2) * 5000 ≤ (i 0).val ∧ (i 0).val < win1_2.index t (0 : Fin 2) * 5000 + 5000
    omega
  | ⟨1, _⟩ =>
    show win1_2.index t (1 : Fin 2) * 32 ≤ (i 1).val ∧ (i 1).val < win1_2.index t (1 : Fin 2) * 32 + 32
    omega

/-- The output array after the region: the projection of the features against the weights, as the region found them. -/
theorem final1 (c : Dev nD) :
    (dat1 (F := Ideal) V c).arrAt 2 cfg1.N
      = mk2 (proj (rd2 (V c main_arg1 : S50000x128.Idx → EReal)) (tr (rd2 (V c main_v2 : S128x32.Idx → EReal)))) :=
  (dat1 V c).arrAt_eq_of_cover 2 _ (fun t _ => flushed1 V c t) cover1

end Cert.KernelIdeal.RegionValue

end
-- ==== Proof.Region2.lean ====
/-
  What the first combine region leaves in its output array. The grid is one axis of 10 row tiles of 5000 rows; at
  point t the body sees rows 5000·t … 5000·t + 4999 of the [50000, 32] aggregate, of the [50000, 1] reciprocal degree and
  of the [50000, 128] features of the nodes themselves, with the whole [128, 32] weights and the whole [1, 32] bias row,
  and writes the same rows of the [50000, 32] output. A SAGE step's row r reads row r of the node-indexed inputs only,
  so tile t of the output is tile t of ONE function of the whole arrays, and the tiles cover every row: row r lies in
  tile r / 5000.
-/
import proofs.«137275_j12352325943870_2_alg».proof.Proof.Gen.KernelIdeal.Frame
import proofs.«137275_j12352325943870_2_alg».proof.Proof.Iface
import proofs.«137275_j12352325943870_2_alg».proof.Proof.Body

set_option maxRecDepth 16384

noncomputable section

namespace Cert.KernelIdeal.RegionValue

open Cert.Sage Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-- Both offsets of a whole-buffer access are zero. -/
theorem zero2_2 : (![0, 0] : Fin 2 → Nat) = fun _ => 0 := funext fun a => by fin_cases a <;> rfl

/-- The printed index maps, decided over the grid: the three row-tiled inputs' tiles move with the output's, whose
    row-tile index is the point itself; every other block index is zero. -/
theorem idx2 : ∀ t : Fin cfg2.N, win2_0.index t (0 : Fin 2) = win2_5.index t (0 : Fin 2)
    ∧ win2_0.index t (1 : Fin 2) = 0
    ∧ win2_1.index t (0 : Fin 2) = win2_5.index t (0 : Fin 2)
    ∧ win2_1.index t (1 : Fin 2) = 0
    ∧ win2_2.index t (0 : Fin 2) = win2_5.index t (0 : Fin 2)
    ∧ win2_2.index t (1 : Fin 2) = 0
    ∧ win2_3.index t (0 : Fin 2) = 0
    ∧ win2_3.index t (1 : Fin 2) = 0
    ∧ win2_4.index t (0 : Fin 2) = 0
    ∧ win2_4.index t (1 : Fin 2) = 0
    ∧ win2_5.index t (0 : Fin 2) = t.val
    ∧ win2_5.index t (1 : Fin 2) = 0 :=
  (by decide +kernel : ∀ t : Fin grid2.N, _)

set_option maxHeartbeats 1600000 in
/-- What point t writes back is tile t of the SAGE step of the whole arrays. -/
theorem flushed2 (c : Dev nD) (t : Fin cfg2.N) :
    (dat2 (F := Ideal) V c).flushed 5 t = ((cfg2.win 5).blk t).view.read (Elt Ideal)
      (mk2 (sage epsWord (fun r g => rd2 (V c main_v37 : S50000x32.Idx → EReal) r g * rdCol (V c main_v48 : S50000x1.Idx → EReal) r)
        (rdRow (V c main_v49 : S1x32.Idx → EReal)) (rd2 (V c main_arg1 : S50000x128.Idx → EReal)) (tr (rd2 (V c main_v1 : S128x32.Idx → EReal))))) := by
  show (cfg2.win 5).cut (grid2.coords t) ((dat2 V c).after 5 t) = _
  rw [after2_5]
  unfold out2_5
  rw [View.canon_unit_zero zero2_2]
  simp only [View.ld_unit_zero (S := S5000x32) zero2_2, View.ld_unit_zero (S := S5000x1) zero2_2,
    View.ld_unit_zero (S := S1x32) zero2_2, View.ld_unit_zero (S := S5000x128) zero2_2,
    View.ld_unit_zero (S := S128x32) zero2_2]
  obtain ⟨e0, e1, e2, e3, e4, e5, e6, e7, e8, e9, e10, e11⟩ := idx2 t
  funext j
  refine (congrFun (Body.k2_eq (iblk2 V c 0 t) (iblk2 V c 1 t) (iblk2 V c 4 t) (iblk2 V c 2 t) (iblk2 V c 3 t)) j).trans ?_
  -- the weights' block is the whole array
  have hw : (iblk2 V c 3 t : S128x32.Idx → EReal) = V c main_v1 := by
    funext y
    show V c main_v1 (((cfg2.win 3).blk t).view.emb y) = V c main_v1 y
    refine congrArg _ (funext fun a => Fin.ext ?_)
    match a with
    | ⟨0, _⟩ => show win2_3.index t (0 : Fin 2) * 128 + 1 * (y 0).val = (y 0).val; omega
    | ⟨1, _⟩ => show win2_3.index t (1 : Fin 2) * 32 + 1 * (y 1).val = (y 1).val; omega
  -- and so is the bias row's
  have hb : (iblk2 V c 4 t : S1x32.Idx → EReal) = V c main_v49 := by
    funext y
    show V c main_v49 (((cfg2.win 4).blk t).view.emb y) = V c main_v49 y
    refine congrArg _ (funext fun a => Fin.ext ?_)
    match a with
    | ⟨0, _⟩ => show win2_4.index t (0 : Fin 2) * 1 + 1 * (y 0).val = (y 0).val; omega
    | ⟨1, _⟩ => show win2_4.index t (1 : Fin 2) * 32 + 1 * (y 1).val = (y 1).val; omega
  -- row p of each row-tiled input's tile is that input's row under row p of the output's tile
  have hagg : ∀ g : Fin 32, (iblk2 V c 0 t : S5000x32.Idx → EReal) (ix2 (j 0) g)
      = rd2 (V c main_v37 : S50000x32.Idx → EReal) ((((cfg2.win 5).blk t).view.emb j) 0) g := by
    intro g
    show V c main_v37 (((cfg2.win 0).blk t).view.emb (ix2 (j 0) g)) = V c main_v37 (ix2 ((((cfg2.win 5).blk t).view.emb j) 0) g)
    refine congrArg _ (funext fun a => Fin.ext ?_)
    match a with
    | ⟨0, _⟩ => show win2_0.index t (0 : Fin 2) * 5000 + 1 * (j 0).val = win2_5.index t (0 : Fin 2) * 5000 + 1 * (j 0).val; omega
    | ⟨1, _⟩ => show win2_0.index t (1 : Fin 2) * 32 + 1 * g.val = g.val; omega
  have hinv : (iblk2 V c 1 t : S5000x1.Idx → EReal) (ix2 (j 0) (0 : Fin 1))
      = rdCol (V c main_v48 : S50000x1.Idx → EReal) ((((cfg2.win 5).blk t).view.emb j) 0) := by
    show V c main_v48 (((cfg2.win 1).blk t).view.emb (ix2 (j 0) (0 : Fin 1))) = V c main_v48 (ix2 ((((cfg2.win 5).blk t).view.emb j) 0) (0 : Fin 1))
    refine congrArg _ (funext fun a => Fin.ext ?_)
    match a with
    | ⟨0, _⟩ => show win2_1.index t (0 : Fin 2) * 5000 + 1 * (j 0).val = win2_5.index t (0 : Fin 2) * 5000 + 1 * (j 0).val; omega
    | ⟨1, _⟩ => show win2_1.index t (1 : Fin 2) * 1 + 1 * 0 = 0; omega
  have hx : ∀ k : Fin 128, (iblk2 V c 2 t : S5000x128.Idx → EReal) (ix2 (j 0) k)
      = rd2 (V c main_arg1 : S50000x128.Idx → EReal) ((((cfg2.win 5).blk t).view.emb j) 0) k := by
    intro k
    show V c main_arg1 (((cfg2.win 2).blk t).view.emb (ix2 (j 0) k)) = V c main_arg1 (ix2 ((((cfg2.win 5).blk t).view.emb j) 0) k)
    refine congrArg _ (funext fun a => Fin.ext ?_)
    match a with
    | ⟨0, _⟩ => show win2_2.index t (0 : Fin 2) * 5000 + 1 * (j 0).val = win2_5.index t (0 : Fin 2) * 5000 + 1 * (j 0).val; omega
    | ⟨1, _⟩ => show win2_2.index t (1 : Fin 2) * 128 + 1 * k.val = k.val; omega
  -- the output's tile keeps the column
  have hq : (((cfg2.win 5).blk t).view.emb j) 1 = j 1 :=
    Fin.ext (by show win2_5.index t (1 : Fin 2) * 32 + 1 * (j 1).val = (j 1).val; omega)
  show sage epsWord (fun r g => rd2 (iblk2 V c 0 t) r g * rdCol (iblk2 V c 1 t) r) (rdRow (iblk2 V c 4 t))
      (rd2 (iblk2 V c 2 t)) (tr (rd2 (iblk2 V c 3 t))) (j 0) (j 1)
    = sage epsWord (fun r g => rd2 (V c main_v37) r g * rdCol (V c main_v48) r) (rdRow (V c main_v49))
      (rd2 (V c main_arg1)) (tr (rd2 (V c main_v1))) ((((cfg2.win 5).blk t).view.emb j) 0) ((((cfg2.win 5).blk t).view.emb j) 1)
  rw [hw, hb, hq]
  exact sage_row _ _ (fun g => congrArg₂ (fun x y : EReal => x * y) (hagg g) hinv) hx (j 1)

/-- An index of the output is in point t's tile iff each coordinate is in the tile's range on its axis. -/
theorem mem_blk2 (t : Fin cfg2.N) (i : S50000x32.Idx) :
    i ∈ ((cfg2.win 5).blk t).view.set ↔ ∀ a : Fin 2, win2_5.index t a * S5000x32.size a ≤ (i a).val
      ∧ (i a).val < win2_5.index t a * S5000x32.size a + S5000x32.size a := by
  show i ∈ ((View.whole main_v50).slice (win2_5.rect t)).set ↔ _
  rw [View.set_slice_whole, Rect.mem_set_unit]
  exact Iff.rfl

/-- Every index of the output is in some point's tile: row r in tile r / 5000. -/
theorem cover2 (i : S50000x32.Idx) :
    ∃ t : Fin cfg2.N, (cfg2.win 5).flush t = true ∧ i ∈ ((cfg2.win 5).blk t).view.set := by
  have hi0 : (i 0).val < 50000 := idx2_lt0 i
  have hi1 : (i 1).val < 32 := idx2_lt1 i
  obtain ⟨t, ht⟩ : ∃ t : Fin cfg2.N, t.val = (i 0).val / 5000 :=
    ⟨⟨(i 0).val / 5000, by show (i 0).val / 5000 < grid2.N; rw [N_2]; omega⟩, rfl⟩
  obtain ⟨e0, e1, e2, e3, e4, e5, e6, e7, e8, e9, e10, e11⟩ := idx2 t
  refine ⟨t, flush2_5 t, ?_⟩
  rw [mem_blk2]
  intro a
  match a with
  | ⟨0, _⟩ =>
    show win2_5.index t (0 : Fin 2) * 5000 ≤ (i 0).val ∧ (i 0).val < win2_5.index t (0 : Fin 2) * 5000 + 5000
    omega
  | ⟨1, _⟩ =>
    show win2_5.index t (1 : Fin 2) * 32 ≤ (i 1).val ∧ (i 1).val < win2_5.index t (1 : Fin 2) * 32 + 32
    omega

/-- The output array after the region: one SAGE step after the mean of the arrays as the region found them, the mean
    being the aggregate times the reciprocal degree. -/
theorem final2 (c : Dev nD) :
    (dat2 (F := Ideal) V c).arrAt 5 cfg2.N
      = mk2 (sage epsWord (fun r g => rd2 (V c main_v37 : S50000x32.Idx → EReal) r g * rdCol (V c main_v48 : S50000x1.Idx → EReal) r)
        (rdRow (V c main_v49 : S1x32.Idx → EReal)) (rd2 (V c main_arg1 : S50000x128.Idx → EReal)) (tr (rd2 (V c main_v1 : S128x32.Idx → EReal)))) :=
  (dat2 V c).arrAt_eq_of_cover 5 _ (fun t _ => flushed2 V c t) cover2

end Cert.KernelIdeal.RegionValue

end
-- ==== Proof.Region3.lean ====
/-
  What the second combine region leaves in its output array. The grid is one axis of 20 row tiles of 5000 rows; at
  point t the body sees rows 5000·t … 5000·t + 4999 of the [100000, 32] aggregate, of the [100000, 1] reciprocal degree and
  of the [100000, 128] features of the nodes themselves, with the whole [128, 32] weights and the whole [1, 32] bias row,
  and writes the same rows of the [100000, 32] output. A SAGE step's row r reads row r of the node-indexed inputs only,
  so tile t of the output is tile t of ONE function of the whole arrays, and the tiles cover every row: row r lies in
  tile r / 5000.
-/
import proofs.«137275_j12352325943870_2_alg».proof.Proof.Gen.KernelIdeal.Frame
import proofs.«137275_j12352325943870_2_alg».proof.Proof.Iface
import proofs.«137275_j12352325943870_2_alg».proof.Proof.Body

set_option maxRecDepth 16384

noncomputable section

namespace Cert.KernelIdeal.RegionValue

open Cert.Sage Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-- Both offsets of a whole-buffer access are zero. -/
theorem zero2_3 : (![0, 0] : Fin 2 → Nat) = fun _ => 0 := funext fun a => by fin_cases a <;> rfl

/-- The printed index maps, decided over the grid: the three row-tiled inputs' tiles move with the output's, whose
    row-tile index is the point itself; every other block index is zero. -/
theorem idx3 : ∀ t : Fin cfg3.N, win3_0.index t (0 : Fin 2) = win3_5.index t (0 : Fin 2)
    ∧ win3_0.index t (1 : Fin 2) = 0
    ∧ win3_1.index t (0 : Fin 2) = win3_5.index t (0 : Fin 2)
    ∧ win3_1.index t (1 : Fin 2) = 0
    ∧ win3_2.index t (0 : Fin 2) = win3_5.index t (0 : Fin 2)
    ∧ win3_2.index t (1 : Fin 2) = 0
    ∧ win3_3.index t (0 : Fin 2) = 0
    ∧ win3_3.index t (1 : Fin 2) = 0
    ∧ win3_4.index t (0 : Fin 2) = 0
    ∧ win3_4.index t (1 : Fin 2) = 0
    ∧ win3_5.index t (0 : Fin 2) = t.val
    ∧ win3_5.index t (1 : Fin 2) = 0 :=
  (by decide +kernel : ∀ t : Fin grid3.N, _)

set_option maxHeartbeats 1600000 in
/-- What point t writes back is tile t of the SAGE step of the whole arrays. -/
theorem flushed3 (c : Dev nD) (t : Fin cfg3.N) :
    (dat3 (F := Ideal) V c).flushed 5 t = ((cfg3.win 5).blk t).view.read (Elt Ideal)
      (mk2 (sage epsWord (fun r g => rd2 (V c main_v47 : S100000x32.Idx → EReal) r g * rdCol (V c main_v51 : S100000x1.Idx → EReal) r)
        (rdRow (V c main_v52 : S1x32.Idx → EReal)) (rd2 (V c main_arg0 : S100000x128.Idx → EReal)) (tr (rd2 (V c main_v3 : S128x32.Idx → EReal))))) := by
  show (cfg3.win 5).cut (grid3.coords t) ((dat3 V c).after 5 t) = _
  rw [after3_5]
  unfold out3_5
  rw [View.canon_unit_zero zero2_3]
  simp only [View.ld_unit_zero (S := S5000x32) zero2_3, View.ld_unit_zero (S := S5000x1) zero2_3,
    View.ld_unit_zero (S := S1x32) zero2_3, View.ld_unit_zero (S := S5000x128) zero2_3,
    View.ld_unit_zero (S := S128x32) zero2_3]
  obtain ⟨e0, e1, e2, e3, e4, e5, e6, e7, e8, e9, e10, e11⟩ := idx3 t
  funext j
  refine (congrFun (Body.k3_eq (iblk3 V c 0 t) (iblk3 V c 1 t) (iblk3 V c 4 t) (iblk3 V c 2 t) (iblk3 V c 3 t)) j).trans ?_
  -- the weights' block is the whole array
  have hw : (iblk3 V c 3 t : S128x32.Idx → EReal) = V c main_v3 := by
    funext y
    show V c main_v3 (((cfg3.win 3).blk t).view.emb y) = V c main_v3 y
    refine congrArg _ (funext fun a => Fin.ext ?_)
    match a with
    | ⟨0, _⟩ => show win3_3.index t (0 : Fin 2) * 128 + 1 * (y 0).val = (y 0).val; omega
    | ⟨1, _⟩ => show win3_3.index t (1 : Fin 2) * 32 + 1 * (y 1).val = (y 1).val; omega
  -- and so is the bias row's
  have hb : (iblk3 V c 4 t : S1x32.Idx → EReal) = V c main_v52 := by
    funext y
    show V c main_v52 (((cfg3.win 4).blk t).view.emb y) = V c main_v52 y
    refine congrArg _ (funext fun a => Fin.ext ?_)
    match a with
    | ⟨0, _⟩ => show win3_4.index t (0 : Fin 2) * 1 + 1 * (y 0).val = (y 0).val; omega
    | ⟨1, _⟩ => show win3_4.index t (1 : Fin 2) * 32 + 1 * (y 1).val = (y 1).val; omega
  -- row p of each row-tiled input's tile is that input's row under row p of the output's tile
  have hagg : ∀ g : Fin 32, (iblk3 V c 0 t : S5000x32.Idx → EReal) (ix2 (j 0) g)
      = rd2 (V c main_v47 : S100000x32.Idx → EReal) ((((cfg3.win 5).blk t).view.emb j) 0) g := by
    intro g
    show V c main_v47 (((cfg3.win 0).blk t).view.emb (ix2 (j 0) g)) = V c main_v47 (ix2 ((((cfg3.win 5).blk t).view.emb j) 0) g)
    refine congrArg _ (funext fun a => Fin.ext ?_)
    match a with
    | ⟨0, _⟩ => show win3_0.index t (0 : Fin 2) * 5000 + 1 * (j 0).val = win3_5.index t (0 : Fin 2) * 5000 + 1 * (j 0).val; omega
    | ⟨1, _⟩ => show win3_0.index t (1 : Fin 2) * 32 + 1 * g.val = g.val; omega
  have hinv : (iblk3 V c 1 t : S5000x1.Idx → EReal) (ix2 (j 0) (0 : Fin 1))
      = rdCol (V c main_v51 : S100000x1.Idx → EReal) ((((cfg3.win 5).blk t).view.emb j) 0) := by
    show V c main_v51 (((cfg3.win 1).blk t).view.emb (ix2 (j 0) (0 : Fin 1))) = V c main_v51 (ix2 ((((cfg3.win 5).blk t).view.emb j) 0) (0 : Fin 1))
    refine congrArg _ (funext fun a => Fin.ext ?_)
    match a with
    | ⟨0, _⟩ => show win3_1.index t (0 : Fin 2) * 5000 + 1 * (j 0).val = win3_5.index t (0 : Fin 2) * 5000 + 1 * (j 0).val; omega
    | ⟨1, _⟩ => show win3_1.index t (1 : Fin 2) * 1 + 1 * 0 = 0; omega
  have hx : ∀ k : Fin 128, (iblk3 V c 2 t : S5000x128.Idx → EReal) (ix2 (j 0) k)
      = rd2 (V c main_arg0 : S100000x128.Idx → EReal) ((((cfg3.win 5).blk t).view.emb j) 0) k := by
    intro k
    show V c main_arg0 (((cfg3.win 2).blk t).view.emb (ix2 (j 0) k)) = V c main_arg0 (ix2 ((((cfg3.win 5).blk t).view.emb j) 0) k)
    refine congrArg _ (funext fun a => Fin.ext ?_)
    match a with
    | ⟨0, _⟩ => show win3_2.index t (0 : Fin 2) * 5000 + 1 * (j 0).val = win3_5.index t (0 : Fin 2) * 5000 + 1 * (j 0).val; omega
    | ⟨1, _⟩ => show win3_2.index t (1 : Fin 2) * 128 + 1 * k.val = k.val; omega
  -- the output's tile keeps the column
  have hq : (((cfg3.win 5).blk t).view.emb j) 1 = j 1 :=
    Fin.ext (by show win3_5.index t (1 : Fin 2) * 32 + 1 * (j 1).val = (j 1).val; omega)
  show sage epsWord (fun r g => rd2 (iblk3 V c 0 t) r g * rdCol (iblk3 V c 1 t) r) (rdRow (iblk3 V c 4 t))
      (rd2 (iblk3 V c 2 t)) (tr (rd2 (iblk3 V c 3 t))) (j 0) (j 1)
    = sage epsWord (fun r g => rd2 (V c main_v47) r g * rdCol (V c main_v51) r) (rdRow (V c main_v52))
      (rd2 (V c main_arg0)) (tr (rd2 (V c main_v3))) ((((cfg3.win 5).blk t).view.emb j) 0) ((((cfg3.win 5).blk t).view.emb j) 1)
  rw [hw, hb, hq]
  exact sage_row _ _ (fun g => congrArg₂ (fun x y : EReal => x * y) (hagg g) hinv) hx (j 1)

/-- An index of the output is in point t's tile iff each coordinate is in the tile's range on its axis. -/
theorem mem_blk3 (t : Fin cfg3.N) (i : S100000x32.Idx) :
    i ∈ ((cfg3.win 5).blk t).view.set ↔ ∀ a : Fin 2, win3_5.index t a * S5000x32.size a ≤ (i a).val
      ∧ (i a).val < win3_5.index t a * S5000x32.size a + S5000x32.size a := by
  show i ∈ ((View.whole main_v53).slice (win3_5.rect t)).set ↔ _
  rw [View.set_slice_whole, Rect.mem_set_unit]
  exact Iff.rfl

/-- Every index of the output is in some point's tile: row r in tile r / 5000. -/
theorem cover3 (i : S100000x32.Idx) :
    ∃ t : Fin cfg3.N, (cfg3.win 5).flush t = true ∧ i ∈ ((cfg3.win 5).blk t).view.set := by
  have hi0 : (i 0).val < 100000 := idx2_lt0 i
  have hi1 : (i 1).val < 32 := idx2_lt1 i
  obtain ⟨t, ht⟩ : ∃ t : Fin cfg3.N, t.val = (i 0).val / 5000 :=
    ⟨⟨(i 0).val / 5000, by show (i 0).val / 5000 < grid3.N; rw [N_3]; omega⟩, rfl⟩
  obtain ⟨e0, e1, e2, e3, e4, e5, e6, e7, e8, e9, e10, e11⟩ := idx3 t
  refine ⟨t, flush3_5 t, ?_⟩
  rw [mem_blk3]
  intro a
  match a with
  | ⟨0, _⟩ =>
    show win3_5.index t (0 : Fin 2) * 5000 ≤ (i 0).val ∧ (i 0).val < win3_5.index t (0 : Fin 2) * 5000 + 5000
    omega
  | ⟨1, _⟩ =>
    show win3_5.index t (1 : Fin 2) * 32 ≤ (i 1).val ∧ (i 1).val < win3_5.index t (1 : Fin 2) * 32 + 32
    omega

/-- The output array after the region: one SAGE step after the mean of the arrays as the region found them, the mean
    being the aggregate times the reciprocal degree. -/
theorem final3 (c : Dev nD) :
    (dat3 (F := Ideal) V c).arrAt 5 cfg3.N
      = mk2 (sage epsWord (fun r g => rd2 (V c main_v47 : S100000x32.Idx → EReal) r g * rdCol (V c main_v51 : S100000x1.Idx → EReal) r)
        (rdRow (V c main_v52 : S1x32.Idx → EReal)) (rd2 (V c main_arg0 : S100000x128.Idx → EReal)) (tr (rd2 (V c main_v3 : S128x32.Idx → EReal)))) :=
  (dat3 V c).arrAt_eq_of_cover 5 _ (fun t _ => flushed3 V c t) cover3

end Cert.KernelIdeal.RegionValue

end
-- ==== Proof.Region4.lean ====
/-
  What the third projection region leaves in its output array. The grid is one axis of 20 row tiles of 5000 rows; at
  point t the body sees rows 5000·t … 5000·t + 4999 of the [100000, 32] features and the whole [32, 32] weights, and
  writes the same rows of the [100000, 32] output. A projection's row r reads row r of the features only, so tile t of
  the output is tile t of ONE function of the whole arrays, and the tiles cover every row: row r lies in tile r / 5000.
-/
import proofs.«137275_j12352325943870_2_alg».proof.Proof.Gen.KernelIdeal.Frame
import proofs.«137275_j12352325943870_2_alg».proof.Proof.Iface
import proofs.«137275_j12352325943870_2_alg».proof.Proof.Body

set_option maxRecDepth 16384

noncomputable section

namespace Cert.KernelIdeal.RegionValue

open Cert.Sage Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-- Both offsets of a whole-buffer access are zero. -/
theorem zero2_4 : (![0, 0] : Fin 2 → Nat) = fun _ => 0 := funext fun a => by fin_cases a <;> rfl

/-- The printed index maps, decided over the grid: the features' tile moves with the output's, whose row-tile index is
    the point itself; every other block index is zero. -/
theorem idx4 : ∀ t : Fin cfg4.N, win4_0.index t (0 : Fin 2) = win4_2.index t (0 : Fin 2)
    ∧ win4_0.index t (1 : Fin 2) = 0
    ∧ win4_1.index t (0 : Fin 2) = 0
    ∧ win4_1.index t (1 : Fin 2) = 0
    ∧ win4_2.index t (0 : Fin 2) = t.val
    ∧ win4_2.index t (1 : Fin 2) = 0 :=
  (by decide +kernel : ∀ t : Fin grid4.N, _)

/-- What point t writes back is tile t of the projection of the whole features against the whole weights. -/
theorem flushed4 (c : Dev nD) (t : Fin cfg4.N) :
    (dat4 (F := Ideal) V c).flushed 2 t = ((cfg4.win 2).blk t).view.read (Elt Ideal)
      (mk2 (proj (rd2 (V c main_v53 : S100000x32.Idx → EReal)) (tr (rd2 (V c main_v4 : S32x32.Idx → EReal))))) := by
  show (cfg4.win 2).cut (grid4.coords t) ((dat4 V c).after 2 t) = _
  rw [after4_2]
  unfold out4_2
  rw [View.canon_unit_zero zero2_4]
  simp only [View.ld_unit_zero (S := S5000x32) zero2_4, View.ld_unit_zero (S := S32x32) zero2_4]
  obtain ⟨e0, e1, e2, e3, e4, e5⟩ := idx4 t
  funext j
  refine (congrFun (Body.k4_eq (iblk4 V c 0 t) (iblk4 V c 1 t)) j).trans ?_
  -- the weights' block is the whole array
  have hw : (iblk4 V c 1 t : S32x32.Idx → EReal) = V c main_v4 := by
    funext y
    show V c main_v4 (((cfg4.win 1).blk t).view.emb y) = V c main_v4 y
    refine congrArg _ (funext fun a => Fin.ext ?_)
    match a with
    | ⟨0, _⟩ => show win4_1.index t (0 : Fin 2) * 32 + 1 * (y 0).val = (y 0).val; omega
    | ⟨1, _⟩ => show win4_1.index t (1 : Fin 2) * 32 + 1 * (y 1).val = (y 1).val; omega
  -- row p of the features' tile is the features' row under row p of the output's tile
  have hx : ∀ k : Fin 32, (iblk4 V c 0 t : S5000x32.Idx → EReal) (ix2 (j 0) k)
      = rd2 (V c main_v53 : S100000x32.Idx → EReal) ((((cfg4.win 2).blk t).view.emb j) 0) k := by
    intro k
    show V c main_v53 (((cfg4.win 0).blk t).view.emb (ix2 (j 0) k)) = V c main_v53 (ix2 ((((cfg4.win 2).blk t).view.emb j) 0) k)
    refine congrArg _ (funext fun a => Fin.ext ?_)
    match a with
    | ⟨0, _⟩ => show win4_0.index t (0 : Fin 2) * 5000 + 1 * (j 0).val = win4_2.index t (0 : Fin 2) * 5000 + 1 * (j 0).val; omega
    | ⟨1, _⟩ => show win4_0.index t (1 : Fin 2) * 32 + 1 * k.val = k.val; omega
  -- the output's tile keeps the column
  have hq : (((cfg4.win 2).blk t).view.emb j) 1 = j 1 :=
    Fin.ext (by show win4_2.index t (1 : Fin 2) * 32 + 1 * (j 1).val = (j 1).val; omega)
  show proj (rd2 (iblk4 V c 0 t)) (tr (rd2 (iblk4 V c 1 t))) (j 0) (j 1)
    = proj (rd2 (V c main_v53)) (tr (rd2 (V c main_v4))) ((((cfg4.win 2).blk t).view.emb j) 0) ((((cfg4.win 2).blk t).view.emb j) 1)
  rw [hw, hq]
  exact proj_row _ hx (j 1)

/-- An index of the output is in point t's tile iff each coordinate is in the tile's range on its axis. -/
theorem mem_blk4 (t : Fin cfg4.N) (i : S100000x32.Idx) :
    i ∈ ((cfg4.win 2).blk t).view.set ↔ ∀ a : Fin 2, win4_2.index t a * S5000x32.size a ≤ (i a).val
      ∧ (i a).val < win4_2.index t a * S5000x32.size a + S5000x32.size a := by
  show i ∈ ((View.whole main_v54).slice (win4_2.rect t)).set ↔ _
  rw [View.set_slice_whole, Rect.mem_set_unit]
  exact Iff.rfl

/-- Every index of the output is in some point's tile: row r in tile r / 5000. -/
theorem cover4 (i : S100000x32.Idx) :
    ∃ t : Fin cfg4.N, (cfg4.win 2).flush t = true ∧ i ∈ ((cfg4.win 2).blk t).view.set := by
  have hi0 : (i 0).val < 100000 := idx2_lt0 i
  have hi1 : (i 1).val < 32 := idx2_lt1 i
  obtain ⟨t, ht⟩ : ∃ t : Fin cfg4.N, t.val = (i 0).val / 5000 :=
    ⟨⟨(i 0).val / 5000, by show (i 0).val / 5000 < grid4.N; rw [N_4]; omega⟩, rfl⟩
  obtain ⟨e0, e1, e2, e3, e4, e5⟩ := idx4 t
  refine ⟨t, flush4_2 t, ?_⟩
  rw [mem_blk4]
  intro a
  match a with
  | ⟨0, _⟩ =>
    show win4_2.index t (0 : Fin 2) * 5000 ≤ (i 0).val ∧ (i 0).val < win4_2.index t (0 : Fin 2) * 5000 + 5000
    omega
  | ⟨1, _⟩ =>
    show win4_2.index t (1 : Fin 2) * 32 ≤ (i 1).val ∧ (i 1).val < win4_2.index t (1 : Fin 2) * 32 + 32
    omega

/-- The output array after the region: the projection of the features against the weights, as the region found them. -/
theorem final4 (c : Dev nD) :
    (dat4 (F := Ideal) V c).arrAt 2 cfg4.N
      = mk2 (proj (rd2 (V c main_v53 : S100000x32.Idx → EReal)) (tr (rd2 (V c main_v4 : S32x32.Idx → EReal)))) :=
  (dat4 V c).arrAt_eq_of_cover 2 _ (fun t _ => flushed4 V c t) cover4

end Cert.KernelIdeal.RegionValue

end
-- ==== Proof.Region5.lean ====
/-
  What the fourth projection region leaves in its output array. The grid is one axis of 10 row tiles of 5000 rows; at
  point t the body sees rows 5000·t … 5000·t + 4999 of the [50000, 32] features and the whole [32, 32] weights, and
  writes the same rows of the [50000, 32] output. A projection's row r reads row r of the features only, so tile t of
  the output is tile t of ONE function of the whole arrays, and the tiles cover every row: row r lies in tile r / 5000.
-/
import proofs.«137275_j12352325943870_2_alg».proof.Proof.Gen.KernelIdeal.Frame
import proofs.«137275_j12352325943870_2_alg».proof.Proof.Iface
import proofs.«137275_j12352325943870_2_alg».proof.Proof.Body

set_option maxRecDepth 16384

noncomputable section

namespace Cert.KernelIdeal.RegionValue

open Cert.Sage Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-- Both offsets of a whole-buffer access are zero. -/
theorem zero2_5 : (![0, 0] : Fin 2 → Nat) = fun _ => 0 := funext fun a => by fin_cases a <;> rfl

/-- The printed index maps, decided over the grid: the features' tile moves with the output's, whose row-tile index is
    the point itself; every other block index is zero. -/
theorem idx5 : ∀ t : Fin cfg5.N, win5_0.index t (0 : Fin 2) = win5_2.index t (0 : Fin 2)
    ∧ win5_0.index t (1 : Fin 2) = 0
    ∧ win5_1.index t (0 : Fin 2) = 0
    ∧ win5_1.index t (1 : Fin 2) = 0
    ∧ win5_2.index t (0 : Fin 2) = t.val
    ∧ win5_2.index t (1 : Fin 2) = 0 :=
  (by decide +kernel : ∀ t : Fin grid5.N, _)

/-- What point t writes back is tile t of the projection of the whole features against the whole weights. -/
theorem flushed5 (c : Dev nD) (t : Fin cfg5.N) :
    (dat5 (F := Ideal) V c).flushed 2 t = ((cfg5.win 2).blk t).view.read (Elt Ideal)
      (mk2 (proj (rd2 (V c main_v50 : S50000x32.Idx → EReal)) (tr (rd2 (V c main_v6 : S32x32.Idx → EReal))))) := by
  show (cfg5.win 2).cut (grid5.coords t) ((dat5 V c).after 2 t) = _
  rw [after5_2]
  unfold out5_2
  rw [View.canon_unit_zero zero2_5]
  simp only [View.ld_unit_zero (S := S5000x32) zero2_5, View.ld_unit_zero (S := S32x32) zero2_5]
  obtain ⟨e0, e1, e2, e3, e4, e5⟩ := idx5 t
  funext j
  refine (congrFun (Body.k5_eq (iblk5 V c 0 t) (iblk5 V c 1 t)) j).trans ?_
  -- the weights' block is the whole array
  have hw : (iblk5 V c 1 t : S32x32.Idx → EReal) = V c main_v6 := by
    funext y
    show V c main_v6 (((cfg5.win 1).blk t).view.emb y) = V c main_v6 y
    refine congrArg _ (funext fun a => Fin.ext ?_)
    match a with
    | ⟨0, _⟩ => show win5_1.index t (0 : Fin 2) * 32 + 1 * (y 0).val = (y 0).val; omega
    | ⟨1, _⟩ => show win5_1.index t (1 : Fin 2) * 32 + 1 * (y 1).val = (y 1).val; omega
  -- row p of the features' tile is the features' row under row p of the output's tile
  have hx : ∀ k : Fin 32, (iblk5 V c 0 t : S5000x32.Idx → EReal) (ix2 (j 0) k)
      = rd2 (V c main_v50 : S50000x32.Idx → EReal) ((((cfg5.win 2).blk t).view.emb j) 0) k := by
    intro k
    show V c main_v50 (((cfg5.win 0).blk t).view.emb (ix2 (j 0) k)) = V c main_v50 (ix2 ((((cfg5.win 2).blk t).view.emb j) 0) k)
    refine congrArg _ (funext fun a => Fin.ext ?_)
    match a with
    | ⟨0, _⟩ => show win5_0.index t (0 : Fin 2) * 5000 + 1 * (j 0).val = win5_2.index t (0 : Fin 2) * 5000 + 1 * (j 0).val; omega
    | ⟨1, _⟩ => show win5_0.index t (1 : Fin 2) * 32 + 1 * k.val = k.val; omega
  -- the output's tile keeps the column
  have hq : (((cfg5.win 2).blk t).view.emb j) 1 = j 1 :=
    Fin.ext (by show win5_2.index t (1 : Fin 2) * 32 + 1 * (j 1).val = (j 1).val; omega)
  show proj (rd2 (iblk5 V c 0 t)) (tr (rd2 (iblk5 V c 1 t))) (j 0) (j 1)
    = proj (rd2 (V c main_v50)) (tr (rd2 (V c main_v6))) ((((cfg5.win 2).blk t).view.emb j) 0) ((((cfg5.win 2).blk t).view.emb j) 1)
  rw [hw, hq]
  exact proj_row _ hx (j 1)

/-- An index of the output is in point t's tile iff each coordinate is in the tile's range on its axis. -/
theorem mem_blk5 (t : Fin cfg5.N) (i : S50000x32.Idx) :
    i ∈ ((cfg5.win 2).blk t).view.set ↔ ∀ a : Fin 2, win5_2.index t a * S5000x32.size a ≤ (i a).val
      ∧ (i a).val < win5_2.index t a * S5000x32.size a + S5000x32.size a := by
  show i ∈ ((View.whole main_v55).slice (win5_2.rect t)).set ↔ _
  rw [View.set_slice_whole, Rect.mem_set_unit]
  exact Iff.rfl

/-- Every index of the output is in some point's tile: row r in tile r / 5000. -/
theorem cover5 (i : S50000x32.Idx) :
    ∃ t : Fin cfg5.N, (cfg5.win 2).flush t = true ∧ i ∈ ((cfg5.win 2).blk t).view.set := by
  have hi0 : (i 0).val < 50000 := idx2_lt0 i
  have hi1 : (i 1).val < 32 := idx2_lt1 i
  obtain ⟨t, ht⟩ : ∃ t : Fin cfg5.N, t.val = (i 0).val / 5000 :=
    ⟨⟨(i 0).val / 5000, by show (i 0).val / 5000 < grid5.N; rw [N_5]; omega⟩, rfl⟩
  obtain ⟨e0, e1, e2, e3, e4, e5⟩ := idx5 t
  refine ⟨t, flush5_2 t, ?_⟩
  rw [mem_blk5]
  intro a
  match a with
  | ⟨0, _⟩ =>
    show win5_2.index t (0 : Fin 2) * 5000 ≤ (i 0).val ∧ (i 0).val < win5_2.index t (0 : Fin 2) * 5000 + 5000
    omega
  | ⟨1, _⟩ =>
    show win5_2.index t (1 : Fin 2) * 32 ≤ (i 1).val ∧ (i 1).val < win5_2.index t (1 : Fin 2) * 32 + 32
    omega

/-- The output array after the region: the projection of the features against the weights, as the region found them. -/
theorem final5 (c : Dev nD) :
    (dat5 (F := Ideal) V c).arrAt 2 cfg5.N
      = mk2 (proj (rd2 (V c main_v50 : S50000x32.Idx → EReal)) (tr (rd2 (V c main_v6 : S32x32.Idx → EReal)))) :=
  (dat5 V c).arrAt_eq_of_cover 2 _ (fun t _ => flushed5 V c t) cover5

end Cert.KernelIdeal.RegionValue

end
-- ==== Proof.Region6.lean ====
/-
  What the first combine-project region leaves in its output array. The grid is one axis of 10 row tiles of 5000
  rows; at point t the body sees rows 5000·t … 5000·t + 4999 of the [50000, 32] aggregate, of the [50000, 1] reciprocal
  degree and of the [50000, 32] features of the nodes themselves, with the whole [32, 32] weights and [1, 32] bias row of
  the SAGE step and the whole [32, 32] weights and [1, 32] bias row of the projection head, and writes the same rows of
  the [50000, 32] output. The head of a SAGE step reads, at row r, row r of the node-indexed inputs only, so tile t of the
  output is tile t of ONE function of the whole arrays, and the tiles cover every row: row r lies in tile r / 5000.
-/
import proofs.«137275_j12352325943870_2_alg».proof.Proof.Gen.KernelIdeal.Frame
import proofs.«137275_j12352325943870_2_alg».proof.Proof.Iface
import proofs.«137275_j12352325943870_2_alg».proof.Proof.Body

set_option maxRecDepth 16384

noncomputable section

namespace Cert.KernelIdeal.RegionValue

open Cert.Sage Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-- Both offsets of a whole-buffer access are zero. -/
theorem zero2_6 : (![0, 0] : Fin 2 → Nat) = fun _ => 0 := funext fun a => by fin_cases a <;> rfl

/-- The printed index maps, decided over the grid: the three row-tiled inputs' tiles move with the output's, whose
    row-tile index is the point itself; every other block index is zero. -/
theorem idx6 : ∀ t : Fin cfg6.N, win6_0.index t (0 : Fin 2) = win6_7.index t (0 : Fin 2)
    ∧ win6_0.index t (1 : Fin 2) = 0
    ∧ win6_1.index t (0 : Fin 2) = win6_7.index t (0 : Fin 2)
    ∧ win6_1.index t (1 : Fin 2) = 0
    ∧ win6_2.index t (0 : Fin 2) = win6_7.index t (0 : Fin 2)
    ∧ win6_2.index t (1 : Fin 2) = 0
    ∧ win6_3.index t (0 : Fin 2) = 0
    ∧ win6_3.index t (1 : Fin 2) = 0
    ∧ win6_4.index t (0 : Fin 2) = 0
    ∧ win6_4.index t (1 : Fin 2) = 0
    ∧ win6_5.index t (0 : Fin 2) = 0
    ∧ win6_5.index t (1 : Fin 2) = 0
    ∧ win6_6.index t (0 : Fin 2) = 0
    ∧ win6_6.index t (1 : Fin 2) = 0
    ∧ win6_7.index t (0 : Fin 2) = t.val
    ∧ win6_7.index t (1 : Fin 2) = 0 :=
  (by decide +kernel : ∀ t : Fin grid6.N, _)

set_option maxHeartbeats 4000000 in
/-- What point t writes back is tile t of the projection head of the SAGE step of the whole arrays. -/
theorem flushed6 (c : Dev nD) (t : Fin cfg6.N) :
    (dat6 (F := Ideal) V c).flushed 7 t = ((cfg6.win 7).blk t).view.read (Elt Ideal)
      (mk2 (head epsWord
        (sage epsWord (fun r g => rd2 (V c main_v65 : S50000x32.Idx → EReal) r g * rdCol (V c main_v76 : S50000x1.Idx → EReal) r)
          (rdRow (V c main_v77 : S1x32.Idx → EReal)) (rd2 (V c main_v50 : S50000x32.Idx → EReal)) (tr (rd2 (V c main_v5 : S32x32.Idx → EReal))))
        (tr (rd2 (V c main_v9 : S32x32.Idx → EReal))) (rdRow (V c main_v78 : S1x32.Idx → EReal)))) := by
  show (cfg6.win 7).cut (grid6.coords t) ((dat6 V c).after 7 t) = _
  rw [after6_7]
  unfold out6_7
  rw [View.canon_unit_zero zero2_6]
  simp only [View.ld_unit_zero (S := S5000x32) zero2_6, View.ld_unit_zero (S := S5000x1) zero2_6,
    View.ld_unit_zero (S := S1x32) zero2_6, View.ld_unit_zero (S := S32x32) zero2_6]
  obtain ⟨e0, e1, e2, e3, e4, e5, e6, e7, e8, e9, e10, e11, e12, e13, e14, e15⟩ := idx6 t
  funext j
  refine (congrFun (Body.k6_eq (iblk6 V c 0 t) (iblk6 V c 1 t) (iblk6 V c 4 t) (iblk6 V c 2 t) (iblk6 V c 3 t)
    (iblk6 V c 5 t) (iblk6 V c 6 t)) j).trans ?_
  -- the step's weights' block is the whole array
  have hw : (iblk6 V c 3 t : S32x32.Idx → EReal) = V c main_v5 := by
    funext y
    show V c main_v5 (((cfg6.win 3).blk t).view.emb y) = V c main_v5 y
    refine congrArg _ (funext fun a => Fin.ext ?_)
    match a with
    | ⟨0, _⟩ => show win6_3.index t (0 : Fin 2) * 32 + 1 * (y 0).val = (y 0).val; omega
    | ⟨1, _⟩ => show win6_3.index t (1 : Fin 2) * 32 + 1 * (y 1).val = (y 1).val; omega
  -- and so is its bias row's
  have hb : (iblk6 V c 4 t : S1x32.Idx → EReal) = V c main_v77 := by
    funext y
    show V c main_v77 (((cfg6.win 4).blk t).view.emb y) = V c main_v77 y
    refine congrArg _ (funext fun a => Fin.ext ?_)
    match a with
    | ⟨0, _⟩ => show win6_4.index t (0 : Fin 2) * 1 + 1 * (y 0).val = (y 0).val; omega
    | ⟨1, _⟩ => show win6_4.index t (1 : Fin 2) * 32 + 1 * (y 1).val = (y 1).val; omega
  -- and the head's weights'
  have hwp : (iblk6 V c 5 t : S32x32.Idx → EReal) = V c main_v9 := by
    funext y
    show V c main_v9 (((cfg6.win 5).blk t).view.emb y) = V c main_v9 y
    refine congrArg _ (funext fun a => Fin.ext ?_)
    match a with
    | ⟨0, _⟩ => show win6_5.index t (0 : Fin 2) * 32 + 1 * (y 0).val = (y 0).val; omega
    | ⟨1, _⟩ => show win6_5.index t (1 : Fin 2) * 32 + 1 * (y 1).val = (y 1).val; omega
  -- and the head's bias row's
  have hbp : (iblk6 V c 6 t : S1x32.Idx → EReal) = V c main_v78 := by
    funext y
    show V c main_v78 (((cfg6.win 6).blk t).view.emb y) = V c main_v78 y
    refine congrArg _ (funext fun a => Fin.ext ?_)
    match a with
    | ⟨0, _⟩ => show win6_6.index t (0 : Fin 2) * 1 + 1 * (y 0).val = (y 0).val; omega
    | ⟨1, _⟩ => show win6_6.index t (1 : Fin 2) * 32 + 1 * (y 1).val = (y 1).val; omega
  -- row p of each row-tiled input's tile is that input's row under row p of the output's tile
  have hagg : ∀ g : Fin 32, (iblk6 V c 0 t : S5000x32.Idx → EReal) (ix2 (j 0) g)
      = rd2 (V c main_v65 : S50000x32.Idx → EReal) ((((cfg6.win 7).blk t).view.emb j) 0) g := by
    intro g
    show V c main_v65 (((cfg6.win 0).blk t).view.emb (ix2 (j 0) g)) = V c main_v65 (ix2 ((((cfg6.win 7).blk t).view.emb j) 0) g)
    refine congrArg _ (funext fun a => Fin.ext ?_)
    match a with
    | ⟨0, _⟩ => show win6_0.index t (0 : Fin 2) * 5000 + 1 * (j 0).val = win6_7.index t (0 : Fin 2) * 5000 + 1 * (j 0).val; omega
    | ⟨1, _⟩ => show win6_0.index t (1 : Fin 2) * 32 + 1 * g.val = g.val; omega
  have hinv : (iblk6 V c 1 t : S5000x1.Idx → EReal) (ix2 (j 0) (0 : Fin 1))
      = rdCol (V c main_v76 : S50000x1.Idx → EReal) ((((cfg6.win 7).blk t).view.emb j) 0) := by
    show V c main_v76 (((cfg6.win 1).blk t).view.emb (ix2 (j 0) (0 : Fin 1))) = V c main_v76 (ix2 ((((cfg6.win 7).blk t).view.emb j) 0) (0 : Fin 1))
    refine congrArg _ (funext fun a => Fin.ext ?_)
    match a with
    | ⟨0, _⟩ => show win6_1.index t (0 : Fin 2) * 5000 + 1 * (j 0).val = win6_7.index t (0 : Fin 2) * 5000 + 1 * (j 0).val; omega
    | ⟨1, _⟩ => show win6_1.index t (1 : Fin 2) * 1 + 1 * 0 = 0; omega
  have hx : ∀ k : Fin 32, (iblk6 V c 2 t : S5000x32.Idx → EReal) (ix2 (j 0) k)
      = rd2 (V c main_v50 : S50000x32.Idx → EReal) ((((cfg6.win 7).blk t).view.emb j) 0) k := by
    intro k
    show V c main_v50 (((cfg6.win 2).blk t).view.emb (ix2 (j 0) k)) = V c main_v50 (ix2 ((((cfg6.win 7).blk t).view.emb j) 0) k)
    refine congrArg _ (funext fun a => Fin.ext ?_)
    match a with
    | ⟨0, _⟩ => show win6_2.index t (0 : Fin 2) * 5000 + 1 * (j 0).val = win6_7.index t (0 : Fin 2) * 5000 + 1 * (j 0).val; omega
    | ⟨1, _⟩ => show win6_2.index t (1 : Fin 2) * 32 + 1 * k.val = k.val; omega
  -- the output's tile keeps the column
  have hq : (((cfg6.win 7).blk t).view.emb j) 1 = j 1 :=
    Fin.ext (by show win6_7.index t (1 : Fin 2) * 32 + 1 * (j 1).val = (j 1).val; omega)
  show head epsWord
      (sage epsWord (fun r g => rd2 (iblk6 V c 0 t) r g * rdCol (iblk6 V c 1 t) r) (rdRow (iblk6 V c 4 t))
        (rd2 (iblk6 V c 2 t)) (tr (rd2 (iblk6 V c 3 t))))
      (tr (rd2 (iblk6 V c 5 t))) (rdRow (iblk6 V c 6 t)) (j 0) (j 1)
    = head epsWord
      (sage epsWord (fun r g => rd2 (V c main_v65) r g * rdCol (V c main_v76) r) (rdRow (V c main_v77))
        (rd2 (V c main_v50)) (tr (rd2 (V c main_v5))))
      (tr (rd2 (V c main_v9))) (rdRow (V c main_v78)) ((((cfg6.win 7).blk t).view.emb j) 0) ((((cfg6.win 7).blk t).view.emb j) 1)
  rw [hw, hb, hwp, hbp, hq]
  exact head_row _ _ (fun g => sage_row _ _ (fun g' => congrArg₂ (fun x y : EReal => x * y) (hagg g') hinv) hx g) (j 1)

/-- An index of the output is in point t's tile iff each coordinate is in the tile's range on its axis. -/
theorem mem_blk6 (t : Fin cfg6.N) (i : S50000x32.Idx) :
    i ∈ ((cfg6.win 7).blk t).view.set ↔ ∀ a : Fin 2, win6_7.index t a * S5000x32.size a ≤ (i a).val
      ∧ (i a).val < win6_7.index t a * S5000x32.size a + S5000x32.size a := by
  show i ∈ ((View.whole main_v79).slice (win6_7.rect t)).set ↔ _
  rw [View.set_slice_whole, Rect.mem_set_unit]
  exact Iff.rfl

/-- Every index of the output is in some point's tile: row r in tile r / 5000. -/
theorem cover6 (i : S50000x32.Idx) :
    ∃ t : Fin cfg6.N, (cfg6.win 7).flush t = true ∧ i ∈ ((cfg6.win 7).blk t).view.set := by
  have hi0 : (i 0).val < 50000 := idx2_lt0 i
  have hi1 : (i 1).val < 32 := idx2_lt1 i
  obtain ⟨t, ht⟩ : ∃ t : Fin cfg6.N, t.val = (i 0).val / 5000 :=
    ⟨⟨(i 0).val / 5000, by show (i 0).val / 5000 < grid6.N; rw [N_6]; omega⟩, rfl⟩
  obtain ⟨e0, e1, e2, e3, e4, e5, e6, e7, e8, e9, e10, e11, e12, e13, e14, e15⟩ := idx6 t
  refine ⟨t, flush6_7 t, ?_⟩
  rw [mem_blk6]
  intro a
  match a with
  | ⟨0, _⟩ =>
    show win6_7.index t (0 : Fin 2) * 5000 ≤ (i 0).val ∧ (i 0).val < win6_7.index t (0 : Fin 2) * 5000 + 5000
    omega
  | ⟨1, _⟩ =>
    show win6_7.index t (1 : Fin 2) * 32 ≤ (i 1).val ∧ (i 1).val < win6_7.index t (1 : Fin 2) * 32 + 32
    omega

/-- The output array after the region: the projection head of one SAGE step after the mean of the arrays as the region
    found them, the mean being the aggregate times the reciprocal degree. -/
theorem final6 (c : Dev nD) :
    (dat6 (F := Ideal) V c).arrAt 7 cfg6.N
      = mk2 (head epsWord
        (sage epsWord (fun r g => rd2 (V c main_v65 : S50000x32.Idx → EReal) r g * rdCol (V c main_v76 : S50000x1.Idx → EReal) r)
          (rdRow (V c main_v77 : S1x32.Idx → EReal)) (rd2 (V c main_v50 : S50000x32.Idx → EReal)) (tr (rd2 (V c main_v5 : S32x32.Idx → EReal))))
        (tr (rd2 (V c main_v9 : S32x32.Idx → EReal))) (rdRow (V c main_v78 : S1x32.Idx → EReal))) :=
  (dat6 V c).arrAt_eq_of_cover 7 _ (fun t _ => flushed6 V c t) cover6

end Cert.KernelIdeal.RegionValue

end
-- ==== Proof.Region7.lean ====
/-
  What the second combine-project region leaves in its output array. The grid is one axis of 20 row tiles of 5000
  rows; at point t the body sees rows 5000·t … 5000·t + 4999 of the [100000, 32] aggregate, of the [100000, 1] reciprocal
  degree and of the [100000, 32] features of the nodes themselves, with the whole [32, 32] weights and [1, 32] bias row of
  the SAGE step and the whole [32, 32] weights and [1, 32] bias row of the projection head, and writes the same rows of
  the [100000, 32] output. The head of a SAGE step reads, at row r, row r of the node-indexed inputs only, so tile t of the
  output is tile t of ONE function of the whole arrays, and the tiles cover every row: row r lies in tile r / 5000.
-/
import proofs.«137275_j12352325943870_2_alg».proof.Proof.Gen.KernelIdeal.Frame
import proofs.«137275_j12352325943870_2_alg».proof.Proof.Iface
import proofs.«137275_j12352325943870_2_alg».proof.Proof.Body

set_option maxRecDepth 16384

noncomputable section

namespace Cert.KernelIdeal.RegionValue

open Cert.Sage Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-- Both offsets of a whole-buffer access are zero. -/
theorem zero2_7 : (![0, 0] : Fin 2 → Nat) = fun _ => 0 := funext fun a => by fin_cases a <;> rfl

/-- The printed index maps, decided over the grid: the three row-tiled inputs' tiles move with the output's, whose
    row-tile index is the point itself; every other block index is zero. -/
theorem idx7 : ∀ t : Fin cfg7.N, win7_0.index t (0 : Fin 2) = win7_7.index t (0 : Fin 2)
    ∧ win7_0.index t (1 : Fin 2) = 0
    ∧ win7_1.index t (0 : Fin 2) = win7_7.index t (0 : Fin 2)
    ∧ win7_1.index t (1 : Fin 2) = 0
    ∧ win7_2.index t (0 : Fin 2) = win7_7.index t (0 : Fin 2)
    ∧ win7_2.index t (1 : Fin 2) = 0
    ∧ win7_3.index t (0 : Fin 2) = 0
    ∧ win7_3.index t (1 : Fin 2) = 0
    ∧ win7_4.index t (0 : Fin 2) = 0
    ∧ win7_4.index t (1 : Fin 2) = 0
    ∧ win7_5.index t (0 : Fin 2) = 0
    ∧ win7_5.index t (1 : Fin 2) = 0
    ∧ win7_6.index t (0 : Fin 2) = 0
    ∧ win7_6.index t (1 : Fin 2) = 0
    ∧ win7_7.index t (0 : Fin 2) = t.val
    ∧ win7_7.index t (1 : Fin 2) = 0 :=
  (by decide +kernel : ∀ t : Fin grid7.N, _)

set_option maxHeartbeats 4000000 in
/-- What point t writes back is tile t of the projection head of the SAGE step of the whole arrays. -/
theorem flushed7 (c : Dev nD) (t : Fin cfg7.N) :
    (dat7 (F := Ideal) V c).flushed 7 t = ((cfg7.win 7).blk t).view.read (Elt Ideal)
      (mk2 (head epsWord
        (sage epsWord (fun r g => rd2 (V c main_v75 : S100000x32.Idx → EReal) r g * rdCol (V c main_v80 : S100000x1.Idx → EReal) r)
          (rdRow (V c main_v81 : S1x32.Idx → EReal)) (rd2 (V c main_v53 : S100000x32.Idx → EReal)) (tr (rd2 (V c main_v7 : S32x32.Idx → EReal))))
        (tr (rd2 (V c main_v8 : S32x32.Idx → EReal))) (rdRow (V c main_v82 : S1x32.Idx → EReal)))) := by
  show (cfg7.win 7).cut (grid7.coords t) ((dat7 V c).after 7 t) = _
  rw [after7_7]
  unfold out7_7
  rw [View.canon_unit_zero zero2_7]
  simp only [View.ld_unit_zero (S := S5000x32) zero2_7, View.ld_unit_zero (S := S5000x1) zero2_7,
    View.ld_unit_zero (S := S1x32) zero2_7, View.ld_unit_zero (S := S32x32) zero2_7]
  obtain ⟨e0, e1, e2, e3, e4, e5, e6, e7, e8, e9, e10, e11, e12, e13, e14, e15⟩ := idx7 t
  funext j
  refine (congrFun (Body.k7_eq (iblk7 V c 0 t) (iblk7 V c 1 t) (iblk7 V c 4 t) (iblk7 V c 2 t) (iblk7 V c 3 t)
    (iblk7 V c 5 t) (iblk7 V c 6 t)) j).trans ?_
  -- the step's weights' block is the whole array
  have hw : (iblk7 V c 3 t : S32x32.Idx → EReal) = V c main_v7 := by
    funext y
    show V c main_v7 (((cfg7.win 3).blk t).view.emb y) = V c main_v7 y
    refine congrArg _ (funext fun a => Fin.ext ?_)
    match a with
    | ⟨0, _⟩ => show win7_3.index t (0 : Fin 2) * 32 + 1 * (y 0).val = (y 0).val; omega
    | ⟨1, _⟩ => show win7_3.index t (1 : Fin 2) * 32 + 1 * (y 1).val = (y 1).val; omega
  -- and so is its bias row's
  have hb : (iblk7 V c 4 t : S1x32.Idx → EReal) = V c main_v81 := by
    funext y
    show V c main_v81 (((cfg7.win 4).blk t).view.emb y) = V c main_v81 y
    refine congrArg _ (funext fun a => Fin.ext ?_)
    match a with
    | ⟨0, _⟩ => show win7_4.index t (0 : Fin 2) * 1 + 1 * (y 0).val = (y 0).val; omega
    | ⟨1, _⟩ => show win7_4.index t (1 : Fin 2) * 32 + 1 * (y 1).val = (y 1).val; omega
  -- and the head's weights'
  have hwp : (iblk7 V c 5 t : S32x32.Idx → EReal) = V c main_v8 := by
    funext y
    show V c main_v8 (((cfg7.win 5).blk t).view.emb y) = V c main_v8 y
    refine congrArg _ (funext fun a => Fin.ext ?_)
    match a with
    | ⟨0, _⟩ => show win7_5.index t (0 : Fin 2) * 32 + 1 * (y 0).val = (y 0).val; omega
    | ⟨1, _⟩ => show win7_5.index t (1 : Fin 2) * 32 + 1 * (y 1).val = (y 1).val; omega
  -- and the head's bias row's
  have hbp : (iblk7 V c 6 t : S1x32.Idx → EReal) = V c main_v82 := by
    funext y
    show V c main_v82 (((cfg7.win 6).blk t).view.emb y) = V c main_v82 y
    refine congrArg _ (funext fun a => Fin.ext ?_)
    match a with
    | ⟨0, _⟩ => show win7_6.index t (0 : Fin 2) * 1 + 1 * (y 0).val = (y 0).val; omega
    | ⟨1, _⟩ => show win7_6.index t (1 : Fin 2) * 32 + 1 * (y 1).val = (y 1).val; omega
  -- row p of each row-tiled input's tile is that input's row under row p of the output's tile
  have hagg : ∀ g : Fin 32, (iblk7 V c 0 t : S5000x32.Idx → EReal) (ix2 (j 0) g)
      = rd2 (V c main_v75 : S100000x32.Idx → EReal) ((((cfg7.win 7).blk t).view.emb j) 0) g := by
    intro g
    show V c main_v75 (((cfg7.win 0).blk t).view.emb (ix2 (j 0) g)) = V c main_v75 (ix2 ((((cfg7.win 7).blk t).view.emb j) 0) g)
    refine congrArg _ (funext fun a => Fin.ext ?_)
    match a with
    | ⟨0, _⟩ => show win7_0.index t (0 : Fin 2) * 5000 + 1 * (j 0).val = win7_7.index t (0 : Fin 2) * 5000 + 1 * (j 0).val; omega
    | ⟨1, _⟩ => show win7_0.index t (1 : Fin 2) * 32 + 1 * g.val = g.val; omega
  have hinv : (iblk7 V c 1 t : S5000x1.Idx → EReal) (ix2 (j 0) (0 : Fin 1))
      = rdCol (V c main_v80 : S100000x1.Idx → EReal) ((((cfg7.win 7).blk t).view.emb j) 0) := by
    show V c main_v80 (((cfg7.win 1).blk t).view.emb (ix2 (j 0) (0 : Fin 1))) = V c main_v80 (ix2 ((((cfg7.win 7).blk t).view.emb j) 0) (0 : Fin 1))
    refine congrArg _ (funext fun a => Fin.ext ?_)
    match a with
    | ⟨0, _⟩ => show win7_1.index t (0 : Fin 2) * 5000 + 1 * (j 0).val = win7_7.index t (0 : Fin 2) * 5000 + 1 * (j 0).val; omega
    | ⟨1, _⟩ => show win7_1.index t (1 : Fin 2) * 1 + 1 * 0 = 0; omega
  have hx : ∀ k : Fin 32, (iblk7 V c 2 t : S5000x32.Idx → EReal) (ix2 (j 0) k)
      = rd2 (V c main_v53 : S100000x32.Idx → EReal) ((((cfg7.win 7).blk t).view.emb j) 0) k := by
    intro k
    show V c main_v53 (((cfg7.win 2).blk t).view.emb (ix2 (j 0) k)) = V c main_v53 (ix2 ((((cfg7.win 7).blk t).view.emb j) 0) k)
    refine congrArg _ (funext fun a => Fin.ext ?_)
    match a with
    | ⟨0, _⟩ => show win7_2.index t (0 : Fin 2) * 5000 + 1 * (j 0).val = win7_7.index t (0 : Fin 2) * 5000 + 1 * (j 0).val; omega
    | ⟨1, _⟩ => show win7_2.index t (1 : Fin 2) * 32 + 1 * k.val = k.val; omega
  -- the output's tile keeps the column
  have hq : (((cfg7.win 7).blk t).view.emb j) 1 = j 1 :=
    Fin.ext (by show win7_7.index t (1 : Fin 2) * 32 + 1 * (j 1).val = (j 1).val; omega)
  show head epsWord
      (sage epsWord (fun r g => rd2 (iblk7 V c 0 t) r g * rdCol (iblk7 V c 1 t) r) (rdRow (iblk7 V c 4 t))
        (rd2 (iblk7 V c 2 t)) (tr (rd2 (iblk7 V c 3 t))))
      (tr (rd2 (iblk7 V c 5 t))) (rdRow (iblk7 V c 6 t)) (j 0) (j 1)
    = head epsWord
      (sage epsWord (fun r g => rd2 (V c main_v75) r g * rdCol (V c main_v80) r) (rdRow (V c main_v81))
        (rd2 (V c main_v53)) (tr (rd2 (V c main_v7))))
      (tr (rd2 (V c main_v8))) (rdRow (V c main_v82)) ((((cfg7.win 7).blk t).view.emb j) 0) ((((cfg7.win 7).blk t).view.emb j) 1)
  rw [hw, hb, hwp, hbp, hq]
  exact head_row _ _ (fun g => sage_row _ _ (fun g' => congrArg₂ (fun x y : EReal => x * y) (hagg g') hinv) hx g) (j 1)

/-- An index of the output is in point t's tile iff each coordinate is in the tile's range on its axis. -/
theorem mem_blk7 (t : Fin cfg7.N) (i : S100000x32.Idx) :
    i ∈ ((cfg7.win 7).blk t).view.set ↔ ∀ a : Fin 2, win7_7.index t a * S5000x32.size a ≤ (i a).val
      ∧ (i a).val < win7_7.index t a * S5000x32.size a + S5000x32.size a := by
  show i ∈ ((View.whole main_v83).slice (win7_7.rect t)).set ↔ _
  rw [View.set_slice_whole, Rect.mem_set_unit]
  exact Iff.rfl

/-- Every index of the output is in some point's tile: row r in tile r / 5000. -/
theorem cover7 (i : S100000x32.Idx) :
    ∃ t : Fin cfg7.N, (cfg7.win 7).flush t = true ∧ i ∈ ((cfg7.win 7).blk t).view.set := by
  have hi0 : (i 0).val < 100000 := idx2_lt0 i
  have hi1 : (i 1).val < 32 := idx2_lt1 i
  obtain ⟨t, ht⟩ : ∃ t : Fin cfg7.N, t.val = (i 0).val / 5000 :=
    ⟨⟨(i 0).val / 5000, by show (i 0).val / 5000 < grid7.N; rw [N_7]; omega⟩, rfl⟩
  obtain ⟨e0, e1, e2, e3, e4, e5, e6, e7, e8, e9, e10, e11, e12, e13, e14, e15⟩ := idx7 t
  refine ⟨t, flush7_7 t, ?_⟩
  rw [mem_blk7]
  intro a
  match a with
  | ⟨0, _⟩ =>
    show win7_7.index t (0 : Fin 2) * 5000 ≤ (i 0).val ∧ (i 0).val < win7_7.index t (0 : Fin 2) * 5000 + 5000
    omega
  | ⟨1, _⟩ =>
    show win7_7.index t (1 : Fin 2) * 32 ≤ (i 1).val ∧ (i 1).val < win7_7.index t (1 : Fin 2) * 32 + 32
    omega

/-- The output array after the region: the projection head of one SAGE step after the mean of the arrays as the region
    found them, the mean being the aggregate times the reciprocal degree. -/
theorem final7 (c : Dev nD) :
    (dat7 (F := Ideal) V c).arrAt 7 cfg7.N
      = mk2 (head epsWord
        (sage epsWord (fun r g => rd2 (V c main_v75 : S100000x32.Idx → EReal) r g * rdCol (V c main_v80 : S100000x1.Idx → EReal) r)
          (rdRow (V c main_v81 : S1x32.Idx → EReal)) (rd2 (V c main_v53 : S100000x32.Idx → EReal)) (tr (rd2 (V c main_v7 : S32x32.Idx → EReal))))
        (tr (rd2 (V c main_v8 : S32x32.Idx → EReal))) (rdRow (V c main_v82 : S1x32.Idx → EReal))) :=
  (dat7 V c).arrAt_eq_of_cover 7 _ (fun t _ => flushed7 V c t) cover7

end Cert.KernelIdeal.RegionValue

end
-- ==== Proof.KState3.lean ====
/-
  The idealized kernel's program read boundary by boundary in the specification's terms.  Each kernel region leaves one
  whole-array function of its input arrays; each host stretch between regions gathers the projected source rows along the
  edges and sums them per destination, and reshapes a reciprocal degree vector into a column and a bias into a row.  In
  the order of the program: the projected features, the first layer's item and user rows, their projections, the two
  embeddings.  The projected mean the kernel forms is meanK: aggregate times reciprocal degree.
-/
import proofs.«137275_j12352325943870_2_alg».proof.Proof.KState1
import proofs.«137275_j12352325943870_2_alg».proof.Proof.KState2
import proofs.«137275_j12352325943870_2_alg».proof.Proof.Region0
import proofs.«137275_j12352325943870_2_alg».proof.Proof.Region1
import proofs.«137275_j12352325943870_2_alg».proof.Proof.Region2
import proofs.«137275_j12352325943870_2_alg».proof.Proof.Region3
import proofs.«137275_j12352325943870_2_alg».proof.Proof.Region4
import proofs.«137275_j12352325943870_2_alg».proof.Proof.Region5
import proofs.«137275_j12352325943870_2_alg».proof.Proof.Region6
import proofs.«137275_j12352325943870_2_alg».proof.Proof.Region7
import Idealize.ShloMosaic.Lib.ValueLayout
import Idealize.ShloMosaic.Lib.IdealHost

set_option maxRecDepth 16384

noncomputable section

namespace Cert.KernelIdeal.State

open Cert.KernelIdeal Cert.KernelIdeal.Gen Cert.Sage
open Idealize.ShloMosaic Idealize.ShloMosaic.TcCoe Idealize.ShloMosaic.StableHlo Idealize.ShloMosaic.ValueIdx Cert.LibAfterAt

variable (m : (ℓ : Loc nD τ sig) → Buf (Elt Ideal) ℓ) (ρ : Dev nD → PrngReg) (c : Dev nD)

/-! ## Layer 0: the projected source features -/

/-- Region 0 leaves the user features projected by the user-to-item weights. -/
theorem v_v26 : W2 m ρ c (Proc.devRef .tc main_v26) = mk2 (proj (AA m c).xu (AA m c).wl0_ui) := by
  refine ((W2_arr m ρ c 2).trans (Cert.KernelIdeal.RegionValue.final0 (V1 m ρ) c)).trans ?_
  have hx : rd2 (N := 100000) (D := 128) (W1 m ρ c (Proc.devRef .tc main_arg0)) = (AA m c).xu := by
    rw [keep_arg0_0_1]; rfl
  have hw : tr (rd2 (N := 128) (D := 32) (W1 m ρ c (Proc.devRef .tc main_v0))) = (AA m c).wl0_ui := by
    exact t_v0 m ρ c
  show mk2 (proj (rd2 (N := 100000) (D := 128) (W1 m ρ c (Proc.devRef .tc main_arg0))) (tr (rd2 (N := 128) (D := 32) (W1 m ρ c (Proc.devRef .tc main_v0))))) = _
  rw [hx, hw]

/-- Region 1 leaves the item features projected by the item-to-user weights. -/
theorem v_v27 : W3 m ρ c (Proc.devRef .tc main_v27) = mk2 (proj (AA m c).xi (AA m c).wl0_iu) := by
  refine ((W3_arr m ρ c 2).trans (Cert.KernelIdeal.RegionValue.final1 (V2 m ρ) c)).trans ?_
  have hx : rd2 (N := 50000) (D := 128) (W2 m ρ c (Proc.devRef .tc main_arg1)) = (AA m c).xi := by
    rw [keep_arg1_0_2]; rfl
  have hw : tr (rd2 (N := 128) (D := 32) (W2 m ρ c (Proc.devRef .tc main_v2))) = (AA m c).wl0_iu := by
    rw [keep_v2_1_2]; exact t_v2 m ρ c
  show mk2 (proj (rd2 (N := 50000) (D := 128) (W2 m ρ c (Proc.devRef .tc main_arg1))) (tr (rd2 (N := 128) (D := 32) (W2 m ρ c (Proc.devRef .tc main_v2))))) = _
  rw [hx, hw]

/-! ## Layer 0: the aggregates, the reciprocal degree column, the bias row -/

/-- Each item's sum of its in-neighbours' projected user rows. -/
theorem f_v37 (n : Fin 50000) (g : Fin 32) :
    W4 m ρ c (Proc.devRef .tc main_v37) (ix2 n g) = 0 + seg (dstOf (a3 m c)) (fun e => proj (AA m c).xu (AA m c).wl0_ui ((AA m c).rowU e) g) n := by
  show StableHlo.after hostOps2 (W3 m ρ c) (Proc.devRef .tc main_v37) (ix2 n g) = _
  after_results_simp
  refine (aggregate_host (Ns := 100000) (by norm_num) _ scatter_S50000x32_S819200x1_S819200x32_1_0_0_1.wf rfl _ gather_S100000x32_S819200x1_S819200x32_1_0_n_n_0_1_132.wf rfl _ _ _ _
    (W3 m ρ c (Proc.devRef .tc main_arg3)) (W3 m ρ c (Proc.devRef .tc main_arg2)) 100000#32
    (fun i => (bcast_word_at _ _ i).trans Ideal.ofBits_zero_f32)
    (fun e => Cert.LibHostRows.bcast_a_a1_at _ rfl _ _ e 0)
    (fun e => normCol_at _ _ _ 100000#32 (fun i => bcast_wordI_at _ _ i) (fun i => bcast_wordI_at _ _ i) _ rfl _ e) n g).trans ?_
  rw [keep_arg3_0_3, keep_arg2_0_3, keep_v26_2_3, v_v26]
  rfl

/-- Each user's sum of its in-neighbours' projected item rows. -/
theorem f_v47 (n : Fin 100000) (g : Fin 32) :
    W4 m ρ c (Proc.devRef .tc main_v47) (ix2 n g) = 0 + seg (dstOf (a2 m c)) (fun e => proj (AA m c).xi (AA m c).wl0_iu ((AA m c).rowI e) g) n := by
  show StableHlo.after hostOps2 (W3 m ρ c) (Proc.devRef .tc main_v47) (ix2 n g) = _
  after_results_simp
  refine (aggregate_host (Ns := 50000) (by norm_num) _ scatter_S100000x32_S819200x1_S819200x32_1_0_0_1.wf rfl _ gather_S50000x32_S819200x1_S819200x32_1_0_n_n_0_1_132.wf rfl _ _ _ _
    (W3 m ρ c (Proc.devRef .tc main_arg2)) (W3 m ρ c (Proc.devRef .tc main_arg3)) 50000#32
    (fun i => (bcast_word_at _ _ i).trans Ideal.ofBits_zero_f32)
    (fun e => Cert.LibHostRows.bcast_a_a1_at _ rfl _ _ e 0)
    (fun e => normCol_at _ _ _ 50000#32 (fun i => bcast_wordI_at _ _ i) (fun i => bcast_wordI_at _ _ i) _ rfl _ e) n g).trans ?_
  rw [keep_arg2_0_3, keep_arg3_0_3, v_v27]
  rfl

/-- The items' reciprocal degrees as a column. -/
theorem f_v48 (n : Fin 50000) : W4 m ρ c (Proc.devRef .tc main_v48) (ix2 n (0 : Fin 1)) = Ideal.div 1 (cden (dstOf (a3 m c)) n) := by
  show StableHlo.after hostOps2 (W3 m ρ c) (Proc.devRef .tc main_v48) (ix2 n (0 : Fin 1)) = _
  after_results
  refine (Cert.LibKeepdims.shapeCast_a_a1_apply _ _ n 0).trans ?_
  rw [keep_v21_1_3]
  exact f_v21 m ρ c n

/-- The user-to-item bias as a row. -/
theorem f_v49 (g : Fin 32) : W4 m ρ c (Proc.devRef .tc main_v49) (ix2 (0 : Fin 1) g) = a5 m c (ix1 g) := by
  show StableHlo.after hostOps2 (W3 m ρ c) (Proc.devRef .tc main_v49) (ix2 (0 : Fin 1) g) = _
  after_results
  refine (shapeCast_a_1a_apply _ _ 0 g).trans ?_
  rw [keep_arg5_0_3]

/-! ## Layer 0: the item rows -/

/-- Region 2 leaves the first layer's item rows. -/
theorem v_v50 : W5 m ρ c (Proc.devRef .tc main_v50) = mk2 (item1 (@meanK) (AA m c)) := by
  refine ((W5_arr m ρ c 5).trans (Cert.KernelIdeal.RegionValue.final2 (V4 m ρ) c)).trans ?_
  have h1 : (fun r g => rd2 (N := 50000) (D := 32) (W4 m ρ c (Proc.devRef .tc main_v37)) r g * rdCol (N := 50000) (W4 m ρ c (Proc.devRef .tc main_v48)) r) = meanK (AA m c).dstI (AA m c).rowU (AA m c).xu (AA m c).wl0_ui := by
    funext r g; exact congrArg₂ (· * ·) (f_v37 m ρ c r g) (f_v48 m ρ c r)
  have h2 : rdRow (D := 32) (W4 m ρ c (Proc.devRef .tc main_v49)) = (AA m c).b0_ui := funext fun g => f_v49 m ρ c g
  have h3 : rd2 (N := 50000) (D := 128) (W4 m ρ c (Proc.devRef .tc main_arg1)) = (AA m c).xi := by
    rw [keep_arg1_0_4]; rfl
  have h4 : tr (rd2 (N := 128) (D := 32) (W4 m ρ c (Proc.devRef .tc main_v1))) = (AA m c).wr0_ui := by
    rw [keep_v1_1_4]; exact t_v1 m ρ c
  show mk2 (sage epsWord (fun r g => rd2 (N := 50000) (D := 32) (W4 m ρ c (Proc.devRef .tc main_v37)) r g * rdCol (N := 50000) (W4 m ρ c (Proc.devRef .tc main_v48)) r) (rdRow (D := 32) (W4 m ρ c (Proc.devRef .tc main_v49))) (rd2 (N := 50000) (D := 128) (W4 m ρ c (Proc.devRef .tc main_arg1))) (tr (rd2 (N := 128) (D := 32) (W4 m ρ c (Proc.devRef .tc main_v1))))) = _
  rw [h1, h2, h3, h4]; rfl

/-! ## Layer 0: the user rows -/

/-- The users' reciprocal degrees as a column. -/
theorem f_v51 (n : Fin 100000) : W6 m ρ c (Proc.devRef .tc main_v51) (ix2 n (0 : Fin 1)) = Ideal.div 1 (cden (dstOf (a2 m c)) n) := by
  show StableHlo.after hostOps3 (W5 m ρ c) (Proc.devRef .tc main_v51) (ix2 n (0 : Fin 1)) = _
  after_results
  refine (Cert.LibKeepdims.shapeCast_a_a1_apply _ _ n 0).trans ?_
  rw [keep_v25_1_5]
  exact f_v25 m ρ c n

/-- The item-to-user bias as a row. -/
theorem f_v52 (g : Fin 32) : W6 m ρ c (Proc.devRef .tc main_v52) (ix2 (0 : Fin 1) g) = a8 m c (ix1 g) := by
  show StableHlo.after hostOps3 (W5 m ρ c) (Proc.devRef .tc main_v52) (ix2 (0 : Fin 1) g) = _
  after_results
  refine (shapeCast_a_1a_apply _ _ 0 g).trans ?_
  rw [keep_arg8_0_5]

/-- Region 3 leaves the first layer's user rows. -/
theorem v_v53 : W7 m ρ c (Proc.devRef .tc main_v53) = mk2 (user1 (@meanK) (AA m c)) := by
  refine ((W7_arr m ρ c 5).trans (Cert.KernelIdeal.RegionValue.final3 (V6 m ρ) c)).trans ?_
  have hagg : ∀ r g, W6 m ρ c (Proc.devRef .tc main_v47) (ix2 r g) = 0 + seg (dstOf (a2 m c)) (fun e => proj (AA m c).xi (AA m c).wl0_iu ((AA m c).rowI e) g) r := by
    intro r g; rw [keep_v47_4_6]; exact f_v47 m ρ c r g
  have h1 : (fun r g => rd2 (N := 100000) (D := 32) (W6 m ρ c (Proc.devRef .tc main_v47)) r g * rdCol (N := 100000) (W6 m ρ c (Proc.devRef .tc main_v51)) r) = meanK (AA m c).dstU (AA m c).rowI (AA m c).xi (AA m c).wl0_iu := by
    funext r g; exact congrArg₂ (· * ·) (hagg r g) (f_v51 m ρ c r)
  have h2 : rdRow (D := 32) (W6 m ρ c (Proc.devRef .tc main_v52)) = (AA m c).b0_iu := funext fun g => f_v52 m ρ c g
  have h3 : rd2 (N := 100000) (D := 128) (W6 m ρ c (Proc.devRef .tc main_arg0)) = (AA m c).xu := by
    rw [keep_arg0_0_6]; rfl
  have h4 : tr (rd2 (N := 128) (D := 32) (W6 m ρ c (Proc.devRef .tc main_v3))) = (AA m c).wr0_iu := by
    rw [keep_v3_1_6]; exact t_v3 m ρ c
  show mk2 (sage epsWord (fun r g => rd2 (N := 100000) (D := 32) (W6 m ρ c (Proc.devRef .tc main_v47)) r g * rdCol (N := 100000) (W6 m ρ c (Proc.devRef .tc main_v51)) r) (rdRow (D := 32) (W6 m ρ c (Proc.devRef .tc main_v52))) (rd2 (N := 100000) (D := 128) (W6 m ρ c (Proc.devRef .tc main_arg0))) (tr (rd2 (N := 128) (D := 32) (W6 m ρ c (Proc.devRef .tc main_v3))))) = _
  rw [h1, h2, h3, h4]; rfl

/-! ## Layer 1: the projected first-layer rows -/

/-- Region 4 leaves the first layer's user rows projected by the second layer's user-to-item weights. -/
theorem v_v54 : W8 m ρ c (Proc.devRef .tc main_v54) = mk2 (proj (user1 (@meanK) (AA m c)) (AA m c).wl1_ui) := by
  refine ((W8_arr m ρ c 2).trans (Cert.KernelIdeal.RegionValue.final4 (V7 m ρ) c)).trans ?_
  have hx : rd2 (N := 100000) (D := 32) (W7 m ρ c (Proc.devRef .tc main_v53)) = (user1 (@meanK) (AA m c)) := by
    rw [v_v53]; rfl
  have hw : tr (rd2 (N := 32) (D := 32) (W7 m ρ c (Proc.devRef .tc main_v4))) = (AA m c).wl1_ui := by
    rw [keep_v4_1_7]; exact t_v4 m ρ c
  show mk2 (proj (rd2 (N := 100000) (D := 32) (W7 m ρ c (Proc.devRef .tc main_v53))) (tr (rd2 (N := 32) (D := 32) (W7 m ρ c (Proc.devRef .tc main_v4))))) = _
  rw [hx, hw]

/-- Region 5 leaves the first layer's item rows projected by the second layer's item-to-user weights. -/
theorem v_v55 : W9 m ρ c (Proc.devRef .tc main_v55) = mk2 (proj (item1 (@meanK) (AA m c)) (AA m c).wl1_iu) := by
  refine ((W9_arr m ρ c 2).trans (Cert.KernelIdeal.RegionValue.final5 (V8 m ρ) c)).trans ?_
  have hx : rd2 (N := 50000) (D := 32) (W8 m ρ c (Proc.devRef .tc main_v50)) = (item1 (@meanK) (AA m c)) := by
    rw [keep_v50_5_8, v_v50]; rfl
  have hw : tr (rd2 (N := 32) (D := 32) (W8 m ρ c (Proc.devRef .tc main_v6))) = (AA m c).wl1_iu := by
    rw [keep_v6_1_8]; exact t_v6 m ρ c
  show mk2 (proj (rd2 (N := 50000) (D := 32) (W8 m ρ c (Proc.devRef .tc main_v50))) (tr (rd2 (N := 32) (D := 32) (W8 m ρ c (Proc.devRef .tc main_v6))))) = _
  rw [hx, hw]

/-! ## Layer 1: the aggregates, the columns and the rows -/

/-- Each item's sum of its in-neighbours' projected first-layer user rows. -/
theorem f_v65 (n : Fin 50000) (g : Fin 32) :
    W10 m ρ c (Proc.devRef .tc main_v65) (ix2 n g) = 0 + seg (dstOf (a3 m c)) (fun e => proj (user1 (@meanK) (AA m c)) (AA m c).wl1_ui ((AA m c).rowU e) g) n := by
  show StableHlo.after hostOps6 (W9 m ρ c) (Proc.devRef .tc main_v65) (ix2 n g) = _
  after_results_simp
  refine (aggregate_host (Ns := 100000) (by norm_num) _ scatter_S50000x32_S819200x1_S819200x32_1_0_0_1.wf rfl _ gather_S100000x32_S819200x1_S819200x32_1_0_n_n_0_1_132.wf rfl _ _ _ _
    (W9 m ρ c (Proc.devRef .tc main_arg3)) (W9 m ρ c (Proc.devRef .tc main_arg2)) 100000#32
    (fun i => (bcast_word_at _ _ i).trans Ideal.ofBits_zero_f32)
    (fun e => Cert.LibHostRows.bcast_a_a1_at _ rfl _ _ e 0)
    (fun e => normCol_at _ _ _ 100000#32 (fun i => bcast_wordI_at _ _ i) (fun i => bcast_wordI_at _ _ i) _ rfl _ e) n g).trans ?_
  rw [keep_arg3_0_9, keep_arg2_0_9, keep_v54_8_9, v_v54]
  rfl

/-- Each user's sum of its in-neighbours' projected first-layer item rows. -/
theorem f_v75 (n : Fin 100000) (g : Fin 32) :
    W10 m ρ c (Proc.devRef .tc main_v75) (ix2 n g) = 0 + seg (dstOf (a2 m c)) (fun e => proj (item1 (@meanK) (AA m c)) (AA m c).wl1_iu ((AA m c).rowI e) g) n := by
  show StableHlo.after hostOps6 (W9 m ρ c) (Proc.devRef .tc main_v75) (ix2 n g) = _
  after_results_simp
  refine (aggregate_host (Ns := 50000) (by norm_num) _ scatter_S100000x32_S819200x1_S819200x32_1_0_0_1.wf rfl _ gather_S50000x32_S819200x1_S819200x32_1_0_n_n_0_1_132.wf rfl _ _ _ _
    (W9 m ρ c (Proc.devRef .tc main_arg2)) (W9 m ρ c (Proc.devRef .tc main_arg3)) 50000#32
    (fun i => (bcast_word_at _ _ i).trans Ideal.ofBits_zero_f32)
    (fun e => Cert.LibHostRows.bcast_a_a1_at _ rfl _ _ e 0)
    (fun e => normCol_at _ _ _ 50000#32 (fun i => bcast_wordI_at _ _ i) (fun i => bcast_wordI_at _ _ i) _ rfl _ e) n g).trans ?_
  rw [keep_arg2_0_9, keep_arg3_0_9, v_v55]
  rfl

/-- The items' reciprocal degrees as a column, again. -/
theorem f_v76 (n : Fin 50000) : W10 m ρ c (Proc.devRef .tc main_v76) (ix2 n (0 : Fin 1)) = Ideal.div 1 (cden (dstOf (a3 m c)) n) := by
  show StableHlo.after hostOps6 (W9 m ρ c) (Proc.devRef .tc main_v76) (ix2 n (0 : Fin 1)) = _
  after_results
  refine (Cert.LibKeepdims.shapeCast_a_a1_apply _ _ n 0).trans ?_
  rw [keep_v21_1_9]
  exact f_v21 m ρ c n

/-- The second layer's user-to-item bias as a row. -/
theorem f_v77 (g : Fin 32) : W10 m ρ c (Proc.devRef .tc main_v77) (ix2 (0 : Fin 1) g) = a11 m c (ix1 g) := by
  show StableHlo.after hostOps6 (W9 m ρ c) (Proc.devRef .tc main_v77) (ix2 (0 : Fin 1) g) = _
  after_results
  refine (shapeCast_a_1a_apply _ _ 0 g).trans ?_
  rw [keep_arg11_0_9]

/-- The item head's bias as a row. -/
theorem f_v78 (g : Fin 32) : W10 m ρ c (Proc.devRef .tc main_v78) (ix2 (0 : Fin 1) g) = a19 m c (ix1 g) := by
  show StableHlo.after hostOps6 (W9 m ρ c) (Proc.devRef .tc main_v78) (ix2 (0 : Fin 1) g) = _
  after_results
  refine (shapeCast_a_1a_apply _ _ 0 g).trans ?_
  rw [keep_arg19_0_9]

/-! ## The item embedding -/

/-- Region 6 leaves the item embedding. -/
theorem v_v79 : W11 m ρ c (Proc.devRef .tc main_v79) = mk2 (itemEmb (@meanK) (AA m c)) := by
  refine ((W11_arr m ρ c 7).trans (Cert.KernelIdeal.RegionValue.final6 (V10 m ρ) c)).trans ?_
  have h1 : (fun r g => rd2 (N := 50000) (D := 32) (W10 m ρ c (Proc.devRef .tc main_v65)) r g * rdCol (N := 50000) (W10 m ρ c (Proc.devRef .tc main_v76)) r) = meanK (AA m c).dstI (AA m c).rowU (user1 (@meanK) (AA m c)) (AA m c).wl1_ui := by
    funext r g; exact congrArg₂ (· * ·) (f_v65 m ρ c r g) (f_v76 m ρ c r)
  have h2 : rdRow (D := 32) (W10 m ρ c (Proc.devRef .tc main_v77)) = (AA m c).b1_ui := funext fun g => f_v77 m ρ c g
  have h3 : rd2 (N := 50000) (D := 32) (W10 m ρ c (Proc.devRef .tc main_v50)) = (item1 (@meanK) (AA m c)) := by
    rw [keep_v50_5_10, v_v50]; rfl
  have h4 : tr (rd2 (N := 32) (D := 32) (W10 m ρ c (Proc.devRef .tc main_v5))) = (AA m c).wr1_ui := by
    rw [keep_v5_1_10]; exact t_v5 m ρ c
  have h5 : tr (rd2 (N := 32) (D := 32) (W10 m ρ c (Proc.devRef .tc main_v9))) = (AA m c).wp_item := by
    rw [keep_v9_1_10]; exact t_v9 m ρ c
  have h6 : rdRow (D := 32) (W10 m ρ c (Proc.devRef .tc main_v78)) = (AA m c).bp_item := funext fun g => f_v78 m ρ c g
  show mk2 (head epsWord (sage epsWord (fun r g => rd2 (N := 50000) (D := 32) (W10 m ρ c (Proc.devRef .tc main_v65)) r g * rdCol (N := 50000) (W10 m ρ c (Proc.devRef .tc main_v76)) r) (rdRow (D := 32) (W10 m ρ c (Proc.devRef .tc main_v77))) (rd2 (N := 50000) (D := 32) (W10 m ρ c (Proc.devRef .tc main_v50))) (tr (rd2 (N := 32) (D := 32) (W10 m ρ c (Proc.devRef .tc main_v5))))) (tr (rd2 (N := 32) (D := 32) (W10 m ρ c (Proc.devRef .tc main_v9)))) (rdRow (D := 32) (W10 m ρ c (Proc.devRef .tc main_v78)))) = _
  rw [h1, h2, h3, h4, h5, h6]; rfl

/-! ## The user embedding -/

/-- The users' reciprocal degrees as a column, again. -/
theorem f_v80 (n : Fin 100000) : W12 m ρ c (Proc.devRef .tc main_v80) (ix2 n (0 : Fin 1)) = Ideal.div 1 (cden (dstOf (a2 m c)) n) := by
  show StableHlo.after hostOps7 (W11 m ρ c) (Proc.devRef .tc main_v80) (ix2 n (0 : Fin 1)) = _
  after_results
  refine (Cert.LibKeepdims.shapeCast_a_a1_apply _ _ n 0).trans ?_
  rw [keep_v25_1_11]
  exact f_v25 m ρ c n

/-- The second layer's item-to-user bias as a row. -/
theorem f_v81 (g : Fin 32) : W12 m ρ c (Proc.devRef .tc main_v81) (ix2 (0 : Fin 1) g) = a14 m c (ix1 g) := by
  show StableHlo.after hostOps7 (W11 m ρ c) (Proc.devRef .tc main_v81) (ix2 (0 : Fin 1) g) = _
  after_results
  refine (shapeCast_a_1a_apply _ _ 0 g).trans ?_
  rw [keep_arg14_0_11]

/-- The user head's bias as a row. -/
theorem f_v82 (g : Fin 32) : W12 m ρ c (Proc.devRef .tc main_v82) (ix2 (0 : Fin 1) g) = a17 m c (ix1 g) := by
  show StableHlo.after hostOps7 (W11 m ρ c) (Proc.devRef .tc main_v82) (ix2 (0 : Fin 1) g) = _
  after_results
  refine (shapeCast_a_1a_apply _ _ 0 g).trans ?_
  rw [keep_arg17_0_11]

/-- Region 7 leaves the user embedding. -/
theorem v_v83 : W13 m ρ c (Proc.devRef .tc main_v83) = mk2 (userEmb (@meanK) (AA m c)) := by
  refine ((W13_arr m ρ c 7).trans (Cert.KernelIdeal.RegionValue.final7 (V12 m ρ) c)).trans ?_
  have hagg : ∀ r g, W12 m ρ c (Proc.devRef .tc main_v75) (ix2 r g) = 0 + seg (dstOf (a2 m c)) (fun e => proj (item1 (@meanK) (AA m c)) (AA m c).wl1_iu ((AA m c).rowI e) g) r := by
    intro r g; rw [keep_v75_10_12]; exact f_v75 m ρ c r g
  have h1 : (fun r g => rd2 (N := 100000) (D := 32) (W12 m ρ c (Proc.devRef .tc main_v75)) r g * rdCol (N := 100000) (W12 m ρ c (Proc.devRef .tc main_v80)) r) = meanK (AA m c).dstU (AA m c).rowI (item1 (@meanK) (AA m c)) (AA m c).wl1_iu := by
    funext r g; exact congrArg₂ (· * ·) (hagg r g) (f_v80 m ρ c r)
  have h2 : rdRow (D := 32) (W12 m ρ c (Proc.devRef .tc main_v81)) = (AA m c).b1_iu := funext fun g => f_v81 m ρ c g
  have h3 : rd2 (N := 100000) (D := 32) (W12 m ρ c (Proc.devRef .tc main_v53)) = (user1 (@meanK) (AA m c)) := by
    rw [keep_v53_7_12, v_v53]; rfl
  have h4 : tr (rd2 (N := 32) (D := 32) (W12 m ρ c (Proc.devRef .tc main_v7))) = (AA m c).wr1_iu := by
    rw [keep_v7_1_12]; exact t_v7 m ρ c
  have h5 : tr (rd2 (N := 32) (D := 32) (W12 m ρ c (Proc.devRef .tc main_v8))) = (AA m c).wp_user := by
    rw [keep_v8_1_12]; exact t_v8 m ρ c
  have h6 : rdRow (D := 32) (W12 m ρ c (Proc.devRef .tc main_v82)) = (AA m c).bp_user := funext fun g => f_v82 m ρ c g
  show mk2 (head epsWord (sage epsWord (fun r g => rd2 (N := 100000) (D := 32) (W12 m ρ c (Proc.devRef .tc main_v75)) r g * rdCol (N := 100000) (W12 m ρ c (Proc.devRef .tc main_v80)) r) (rdRow (D := 32) (W12 m ρ c (Proc.devRef .tc main_v81))) (rd2 (N := 100000) (D := 32) (W12 m ρ c (Proc.devRef .tc main_v53))) (tr (rd2 (N := 32) (D := 32) (W12 m ρ c (Proc.devRef .tc main_v7))))) (tr (rd2 (N := 32) (D := 32) (W12 m ρ c (Proc.devRef .tc main_v8)))) (rdRow (D := 32) (W12 m ρ c (Proc.devRef .tc main_v82)))) = _
  rw [h1, h2, h3, h4, h5, h6]; rfl

/-- The item embedding is still there at the end. -/
theorem v_v79_end : W13 m ρ c (Proc.devRef .tc main_v79) = mk2 (itemEmb (@meanK) (AA m c)) := by
  rw [keep_v79_11_13]; exact v_v79 m ρ c

end Cert.KernelIdeal.State

end
-- ==== Proof.LibPlainDot.lean ====
/-
  The host's plain matrix product `[a, n] × [n, b]` (a `stablehlo.dot_general` contracting the left operand's columns
  with the right operand's rows, no batch axis) read at an entry on the extended reals: entry `(r, j)` is the sum over
  `k` of the left operand at `(r, k)` times the right operand at `(k, j)`. General over the three extents, the two
  operand formats and the precision.
-/
import proofs.«137275_j12352325943870_2_alg».proof.Proof.LibPlainMatmul

noncomputable section

open scoped BigOperators

namespace Cert.LibPlainDot

open Idealize.ShloMosaic Idealize.ShloMosaic.ValueIdx

variable {a n b : ℕ}

/-- The host's plain matrix product, at entry `(r, j)`, is `Σₖ A (r, k) · B (k, j)`. -/
theorem dotGeneral_apply {φ₁ φ₂ : FTy} (prec : Option ContractPrecision) (A : FVec Ideal ⟨2, ![a, n]⟩ φ₁)
    (B : FVec Ideal ⟨2, ![n, b]⟩ φ₂) (r : Fin a) (j : Fin b) :
    Host.dotGeneral (DotDims.plain a n b) prec A B (ix2 r j) = ∑ k : Fin n, A (ix2 r k) * B (ix2 k j) := by
  show FloatOps.dotGeneral (DotDims.plain a n b) prec .single A B (ix2 r j) = _
  rw [Ideal.dotGeneral_apply, ← Equiv.sum_comp (contrEquiv1 (DotDims.plain a n b) n rfl rfl).symm]
  refine Finset.sum_congr rfl fun k _ => ?_
  have hk := contrEquiv1_symm_val (DotDims.plain a n b) n rfl rfl k
  have el : (DotDims.plain a n b).lhsIdx (ix2 r j) ((contrEquiv1 (DotDims.plain a n b) n rfl rfl).symm k) = ix2 r k :=
    funext fun c => Fin.ext (by
      match c with
      | ⟨0, _⟩ => exact Cert.LibPlainMatmul.lhs_row _ _
      | ⟨1, _⟩ => exact (Cert.LibPlainMatmul.lhs_col _ _).trans hk)
  have er : (DotDims.plain a n b).rhsIdx (ix2 r j) ((contrEquiv1 (DotDims.plain a n b) n rfl rfl).symm k) = ix2 k j :=
    funext fun c => Fin.ext (by
      match c with
      | ⟨0, _⟩ => exact (Cert.LibPlainMatmul.rhs_row _ _).trans hk
      | ⟨1, _⟩ => exact Cert.LibPlainMatmul.rhs_col _ _)
  rw [el, er]

end Cert.LibPlainDot

end
-- ==== Proof.RefValueStages.lean ====
/-
  The reference's host spelling of each stage of the encoder, read entry by entry, for any extents.

  The degree floor is a scatter of ones into zeros at the destination column, floored at one.  A source row is read
  by normalising the edge's word (a negative word has the extent added), making the words a column and gathering whole
  rows.  The projected mean sums the gathered rows per destination, divides by the degree floor repeated along the
  row, and multiplies by the transposed weights.  The step's tail adds the bias (made a row, repeated down the rows)
  and the node's own projection, divides the row by its floored Euclidean norm and rectifies.  The head is an affine
  map followed by the same normalisation.
-/
import Idealize.ShloMosaic.Lib.Pipeline.Value
import Idealize.ShloMosaic.Lib.ValueIdx
import Idealize.ShloMosaic.Lib.IdealHost
import Idealize.ShloMosaic.PureOps.Ideal.Laws
import proofs.«137275_j12352325943870_2_alg».proof.Proof.Spec
import proofs.«137275_j12352325943870_2_alg».proof.Proof.Iface
import proofs.«137275_j12352325943870_2_alg».proof.Proof.LibGatherFlatRows
import proofs.«137275_j12352325943870_2_alg».proof.Proof.LibSegSum
import proofs.«137275_j12352325943870_2_alg».proof.Proof.LibDegree
import proofs.«137275_j12352325943870_2_alg».proof.Proof.LibHostRows
import proofs.«137275_j12352325943870_2_alg».proof.Proof.LibPlainDot

noncomputable section

open scoped BigOperators
open Idealize.ShloMosaic Idealize.ShloMosaic.ValueIdx Cert.Sage

namespace Cert.RefValue

/-- The scalar shape. -/
abbrev S0 : Shape := ⟨0, ![]⟩

/-! ## The degree floor -/

/-- Ones scattered into zeros at the destination column and floored at one: at node `n`, the floored in-degree. -/
theorem deg_apply {N E : ℕ} (wf : ScatterDims.WF ⟨1, ![N]⟩ ⟨2, ![E, 1]⟩ ⟨1, ![E]⟩ [] [0] [0] 1)
    (hz : S0.BroadcastsInDim ⟨1, ![N]⟩ ![]) (ho : S0.BroadcastsInDim ⟨1, ![E]⟩ ![])
    (hc : (⟨1, ![E]⟩ : Shape).BroadcastsInDim ⟨2, ![E, 1]⟩ ![0])
    (dst : IVec ⟨1, ![E]⟩ 32) (n : Fin N) :
    maximumf (F := Ideal)
        (Host.scatterAdd (F := Ideal) (Cert.LibHistogram.colDims N E wf)
          (broadcastInDim ⟨1, ![N]⟩ ![] hz (constant (F := Ideal) S0 .f32 0x00000000#32))
          (broadcastInDim ⟨2, ![E, 1]⟩ ![0] hc dst)
          (broadcastInDim ⟨1, ![E]⟩ ![] ho (constant (F := Ideal) S0 .f32 0x3F800000#32)))
        (broadcastInDim ⟨1, ![N]⟩ ![] hz (constant (F := Ideal) S0 .f32 0x3F800000#32)) (ix1 n)
      = cden (dstOf dst) n := by
  rw [maximumf_apply]
  rw [show Host.scatterAdd (F := Ideal) (Cert.LibHistogram.colDims N E wf)
        (broadcastInDim ⟨1, ![N]⟩ ![] hz (constant (F := Ideal) S0 .f32 0x00000000#32))
        (broadcastInDim ⟨2, ![E, 1]⟩ ![0] hc dst)
        (broadcastInDim ⟨1, ![E]⟩ ![] ho (constant (F := Ideal) S0 .f32 0x3F800000#32)) (ix1 n)
      = Ideal.hostScatterAdd (Cert.LibHistogram.colDims N E wf)
        (broadcastInDim ⟨1, ![N]⟩ ![] hz (constant (F := Ideal) S0 .f32 0x00000000#32))
        (broadcastInDim ⟨2, ![E, 1]⟩ ![0] hc dst)
        (broadcastInDim ⟨1, ![E]⟩ ![] ho (constant (F := Ideal) S0 .f32 0x3F800000#32)) (ix1 n) from rfl]
  rw [Cert.LibDegree.scatterAdd_col_apply]
  simp only [broadcastInDim_scalar_apply hz, broadcastInDim_scalar_apply ho, constant_apply, Ideal.ofBits_zero_f32,
    Ideal.ofBits_one_f32, Cert.LibHostRows.bcast_a_a1_at (a := E) ![0] rfl hc]
  rfl

/-! ## A source row -/

/-- The edge words normalised, made a column, and whole rows gathered at it: at `(e, k)`, the table at the edge's
    source row. -/
theorem gather_apply {Ns K E : ℕ} (hNs : 0 < Ns) (Nw : BitVec 32)
    (wf : GatherDims.WF ⟨2, ![Ns, K]⟩ ⟨2, ![E, 1]⟩ ⟨2, ![E, K]⟩ [1] [0] [] [0] [] 1 ![1, K])
    (hi : S0.BroadcastsInDim ⟨1, ![E]⟩ ![])
    (hc : (⟨1, ![E]⟩ : Shape).BroadcastsInDim ⟨2, ![E, 1]⟩ ![0])
    (x : FVec Ideal ⟨2, ![Ns, K]⟩ .f32) (s : IVec ⟨1, ![E]⟩ 32) (e : Fin E) (k : Fin K) :
    Host.gather (Cert.LibGatherFlatRows.rowDims Ns K E wf) x
        (broadcastInDim ⟨2, ![E, 1]⟩ ![0] hc
          (select (cmpi .slt s (broadcastInDim ⟨1, ![E]⟩ ![] hi (constantI S0 32 0#32)))
            (addi s (broadcastInDim ⟨1, ![E]⟩ ![] hi (constantI S0 32 Nw))) s)) (ix2 e k)
      = x (ix2 (srcRows Ns hNs Nw s e) k) := by
  rw [Cert.LibGatherFlatRows.gather_rows_apply hNs, Cert.LibHostRows.bcast_a_a1_at _ rfl]
  rfl

/-! ## The projected mean -/

/-- The gathered rows summed per destination, divided by the degree floor repeated along the row, times the transposed
    weights: the projected mean with the projection last.  The gathered rows `g` and the degree floor `deg` enter by
    what they read at an entry. -/
theorem mean_eq {N Ns K H E : ℕ}
    (wfs : ScatterDims.WF ⟨2, ![N, K]⟩ ⟨2, ![E, 1]⟩ ⟨2, ![E, K]⟩ [1] [0] [0] 1)
    (hz : S0.BroadcastsInDim ⟨2, ![N, K]⟩ ![])
    (hc : (⟨1, ![E]⟩ : Shape).BroadcastsInDim ⟨2, ![E, 1]⟩ ![0])
    (hd1 : (⟨1, ![N]⟩ : Shape).BroadcastsInDim ⟨2, ![N, 1]⟩ ![0])
    (hd2 : (⟨2, ![N, 1]⟩ : Shape).BroadcastsInDim ⟨2, ![N, K]⟩ ![0, 1])
    (ht : (⟨2, ![H, K]⟩ : Shape).Transposes [1, 0] ⟨2, ![K, H]⟩)
    (dst : IVec ⟨1, ![E]⟩ 32) (row : Fin E → Fin Ns) (x : Fin Ns → Fin K → EReal)
    (g : FVec Ideal ⟨2, ![E, K]⟩ .f32) (hg : ∀ e k, g (ix2 e k) = x (row e) k)
    (deg : FVec Ideal ⟨1, ![N]⟩ .f32) (hdeg : ∀ n, deg (ix1 n) = cden (dstOf dst) n)
    (wl : FVec Ideal ⟨2, ![H, K]⟩ .f32) :
    Host.dotGeneral (F := Ideal) (DotDims.plain N K H) none
        (Host.divf (F := Ideal)
          (Host.scatterAdd (F := Ideal) (Cert.LibSegSum.rowsDims N K E wfs)
            (broadcastInDim ⟨2, ![N, K]⟩ ![] hz (constant (F := Ideal) S0 .f32 0x00000000#32))
            (broadcastInDim ⟨2, ![E, 1]⟩ ![0] hc dst) g)
          (broadcastInDim ⟨2, ![N, K]⟩ ![0, 1] hd2 (broadcastInDim ⟨2, ![N, 1]⟩ ![0] hd1 deg)))
        (transpose ⟨2, ![K, H]⟩ [1, 0] wl ht)
      = mk2 (meanR (dstOf dst) row x (rd2 wl)) := by
  refine eq_mk2 fun n h => ?_
  rw [Cert.LibPlainDot.dotGeneral_apply]
  unfold meanR
  refine Finset.sum_congr rfl fun k _ => ?_
  rw [hostDivf_apply, Cert.LibSegSum.scatterAdd_rows_apply, Cert.LibHostRows.bcast_a1_ab_at ![0, 1] rfl rfl hd2,
    Cert.LibHostRows.bcast_a_a1_at ![0] rfl hd1, hdeg, broadcastInDim_scalar_apply hz, constant_apply,
    Ideal.ofBits_zero_f32,
    transpose_apply [1, 0] wl ht (ix2 k h) (ix2 h k) (fun b => match b with | ⟨0, _⟩ => rfl | ⟨1, _⟩ => rfl)]
  simp only [Cert.LibHostRows.bcast_a_a1_at (a := E) ![0] rfl hc, hg]
  rfl

/-! ## Normalising a row -/

/-- The host's square root at an entry. -/
theorem hostSqrt_apply {s : Shape} (v : FVec Ideal s .f32) (i : s.Idx) : Host.sqrt (F := Ideal) v i = Ideal.sqrt (v i) := rfl

/-- A matrix divided by its rows' Euclidean norms, the norms floored: squares, summed along the row, kept as a
    column, rooted, floored, repeated along the row. -/
abbrev hostL2n {N H : ℕ} (hred : (⟨2, ![N, H]⟩ : Shape).ReducesTo [1] ⟨1, ![N]⟩) (h0 : 0 < S0.numel)
    (hk : (⟨1, ![N]⟩ : Shape).BroadcastsInDim ⟨2, ![N, 1]⟩ ![0]) (he : S0.BroadcastsInDim ⟨2, ![N, 1]⟩ ![])
    (hb : (⟨2, ![N, 1]⟩ : Shape).BroadcastsInDim ⟨2, ![N, H]⟩ ![0, 1])
    (z : FVec Ideal ⟨2, ![N, H]⟩ .f32) : FVec Ideal ⟨2, ![N, H]⟩ .f32 :=
  Host.divf (F := Ideal) z
    (broadcastInDim ⟨2, ![N, H]⟩ ![0, 1] hb
      (maximumf (F := Ideal)
        (Host.sqrt (F := Ideal) (broadcastInDim ⟨2, ![N, 1]⟩ ![0] hk
          (Host.reduceAdd (F := Ideal) (mulf z z) (constant (F := Ideal) S0 .f32 0x00000000#32) hred h0)))
        (broadcastInDim ⟨2, ![N, 1]⟩ ![] he (constant (F := Ideal) S0 .f32 0x2B8CBCCC#32))))

theorem l2n_eq {N H : ℕ} (hred : (⟨2, ![N, H]⟩ : Shape).ReducesTo [1] ⟨1, ![N]⟩)
    (hr : (⟨2, ![N, H]⟩ : Shape).Reduces [1] ⟨1, ![N]⟩) (h0 : 0 < S0.numel)
    (hk : (⟨1, ![N]⟩ : Shape).BroadcastsInDim ⟨2, ![N, 1]⟩ ![0]) (he : S0.BroadcastsInDim ⟨2, ![N, 1]⟩ ![])
    (hb : (⟨2, ![N, 1]⟩ : Shape).BroadcastsInDim ⟨2, ![N, H]⟩ ![0, 1])
    (z : FVec Ideal ⟨2, ![N, H]⟩ .f32) (f : Fin N → Fin H → EReal) (hz : z = mk2 f) :
    hostL2n hred h0 hk he hb z = mk2 (l2n epsWord f) := by
  subst hz
  refine eq_mk2 fun r g => ?_
  unfold hostL2n
  rw [hostDivf_apply, Cert.LibHostRows.bcast_a1_ab_at ![0, 1] rfl rfl hb, maximumf_apply,
    broadcastInDim_scalar_apply he, constant_apply, hostSqrt_apply, Cert.LibHostRows.bcast_a_a1_at ![0] rfl hk,
    Cert.LibHostRows.hostReduceAdd_rows _ _ hred hr h0, constant_apply, Ideal.ofBits_zero_f32]
  rfl

/-! ## The step's tail and the head -/

/-- The pre-activation: the mean, plus the bias made a row and repeated down the rows, plus the node's own rows times
    the transposed weights. -/
abbrev hostPre {N K H : ℕ} (hb1 : (⟨1, ![H]⟩ : Shape).BroadcastsInDim ⟨2, ![1, H]⟩ ![1])
    (hb2 : (⟨2, ![1, H]⟩ : Shape).BroadcastsInDim ⟨2, ![N, H]⟩ ![0, 1])
    (ht : (⟨2, ![H, K]⟩ : Shape).Transposes [1, 0] ⟨2, ![K, H]⟩)
    (mean : FVec Ideal ⟨2, ![N, H]⟩ .f32) (b : FVec Ideal ⟨1, ![H]⟩ .f32) (xd : FVec Ideal ⟨2, ![N, K]⟩ .f32)
    (wr : FVec Ideal ⟨2, ![H, K]⟩ .f32) : FVec Ideal ⟨2, ![N, H]⟩ .f32 :=
  addf (F := Ideal)
    (addf (F := Ideal) mean (broadcastInDim ⟨2, ![N, H]⟩ ![0, 1] hb2 (broadcastInDim ⟨2, ![1, H]⟩ ![1] hb1 b)))
    (Host.dotGeneral (F := Ideal) (DotDims.plain N K H) none xd (transpose ⟨2, ![K, H]⟩ [1, 0] wr ht))

theorem pre_eq {N K H : ℕ} (hb1 : (⟨1, ![H]⟩ : Shape).BroadcastsInDim ⟨2, ![1, H]⟩ ![1])
    (hb2 : (⟨2, ![1, H]⟩ : Shape).BroadcastsInDim ⟨2, ![N, H]⟩ ![0, 1])
    (ht : (⟨2, ![H, K]⟩ : Shape).Transposes [1, 0] ⟨2, ![K, H]⟩)
    (mean : FVec Ideal ⟨2, ![N, H]⟩ .f32) (b : FVec Ideal ⟨1, ![H]⟩ .f32) (xd : FVec Ideal ⟨2, ![N, K]⟩ .f32)
    (wr : FVec Ideal ⟨2, ![H, K]⟩ .f32) :
    hostPre hb1 hb2 ht mean b xd wr = mk2 (pre (rd2 mean) (rd1 b) (rd2 xd) (rd2 wr)) := by
  refine eq_mk2 fun r g => ?_
  unfold hostPre
  rw [addf_apply, addf_apply, Cert.LibHostRows.bcast_1b_ab_at ![0, 1] rfl rfl hb2,
    Cert.LibHostRows.bcast_b_1b_at ![1] rfl hb1, Cert.LibPlainDot.dotGeneral_apply]
  unfold pre proj
  refine congrArg (_ + ·) (Finset.sum_congr rfl fun k _ => ?_)
  rw [transpose_apply [1, 0] wr ht (ix2 k g) (ix2 g k) (fun b => match b with | ⟨0, _⟩ => rfl | ⟨1, _⟩ => rfl)]
  rfl

/-- One SAGE step after the mean, as the host spells it: the pre-activation normalised along its rows and rectified. -/
theorem sage_eq {N K H : ℕ} (hb1 : (⟨1, ![H]⟩ : Shape).BroadcastsInDim ⟨2, ![1, H]⟩ ![1])
    (hb2 : (⟨2, ![1, H]⟩ : Shape).BroadcastsInDim ⟨2, ![N, H]⟩ ![0, 1])
    (ht : (⟨2, ![H, K]⟩ : Shape).Transposes [1, 0] ⟨2, ![K, H]⟩)
    (hred : (⟨2, ![N, H]⟩ : Shape).ReducesTo [1] ⟨1, ![N]⟩) (hr : (⟨2, ![N, H]⟩ : Shape).Reduces [1] ⟨1, ![N]⟩)
    (h0 : 0 < S0.numel)
    (hk : (⟨1, ![N]⟩ : Shape).BroadcastsInDim ⟨2, ![N, 1]⟩ ![0]) (he : S0.BroadcastsInDim ⟨2, ![N, 1]⟩ ![])
    (hb : (⟨2, ![N, 1]⟩ : Shape).BroadcastsInDim ⟨2, ![N, H]⟩ ![0, 1])
    (hzz : S0.BroadcastsInDim ⟨2, ![N, H]⟩ ![])
    (mean : FVec Ideal ⟨2, ![N, H]⟩ .f32) (b : FVec Ideal ⟨1, ![H]⟩ .f32) (xd : FVec Ideal ⟨2, ![N, K]⟩ .f32)
    (wr : FVec Ideal ⟨2, ![H, K]⟩ .f32) :
    maximumf (F := Ideal) (hostL2n hred h0 hk he hb (hostPre hb1 hb2 ht mean b xd wr))
        (broadcastInDim ⟨2, ![N, H]⟩ ![] hzz (constant (F := Ideal) S0 .f32 0x00000000#32))
      = mk2 (sage epsWord (rd2 mean) (rd1 b) (rd2 xd) (rd2 wr)) := by
  refine eq_mk2 fun r g => ?_
  rw [maximumf_apply, l2n_eq hred hr h0 hk he hb _ _ (pre_eq hb1 hb2 ht mean b xd wr),
    broadcastInDim_scalar_apply hzz, constant_apply, Ideal.ofBits_zero_f32]
  rfl

/-- The projection head, as the host spells it: the rows times the transposed weights, plus the bias made a row and
    repeated down the rows, normalised along the rows. -/
theorem head_eq {N H O : ℕ} (hb1 : (⟨1, ![O]⟩ : Shape).BroadcastsInDim ⟨2, ![1, O]⟩ ![1])
    (hb2 : (⟨2, ![1, O]⟩ : Shape).BroadcastsInDim ⟨2, ![N, O]⟩ ![0, 1])
    (ht : (⟨2, ![O, H]⟩ : Shape).Transposes [1, 0] ⟨2, ![H, O]⟩)
    (hred : (⟨2, ![N, O]⟩ : Shape).ReducesTo [1] ⟨1, ![N]⟩) (hr : (⟨2, ![N, O]⟩ : Shape).Reduces [1] ⟨1, ![N]⟩)
    (h0 : 0 < S0.numel)
    (hk : (⟨1, ![N]⟩ : Shape).BroadcastsInDim ⟨2, ![N, 1]⟩ ![0]) (he : S0.BroadcastsInDim ⟨2, ![N, 1]⟩ ![])
    (hb : (⟨2, ![N, 1]⟩ : Shape).BroadcastsInDim ⟨2, ![N, O]⟩ ![0, 1])
    (h : FVec Ideal ⟨2, ![N, H]⟩ .f32) (wp : FVec Ideal ⟨2, ![O, H]⟩ .f32) (bp : FVec Ideal ⟨1, ![O]⟩ .f32) :
    hostL2n hred h0 hk he hb
        (addf (F := Ideal)
          (Host.dotGeneral (F := Ideal) (DotDims.plain N H O) none h (transpose ⟨2, ![H, O]⟩ [1, 0] wp ht))
          (broadcastInDim ⟨2, ![N, O]⟩ ![0, 1] hb2 (broadcastInDim ⟨2, ![1, O]⟩ ![1] hb1 bp)))
      = mk2 (head epsWord (rd2 h) (rd2 wp) (rd1 bp)) := by
  refine l2n_eq hred hr h0 hk he hb _ _ (eq_mk2 fun r g => ?_)
  rw [addf_apply, Cert.LibHostRows.bcast_1b_ab_at ![0, 1] rfl rfl hb2, Cert.LibHostRows.bcast_b_1b_at ![1] rfl hb1,
    Cert.LibPlainDot.dotGeneral_apply]
  unfold proj
  refine congrArg (· + _) (Finset.sum_congr rfl fun k _ => ?_)
  rw [transpose_apply [1, 0] wp ht (ix2 k g) (ix2 g k) (fun b => match b with | ⟨0, _⟩ => rfl | ⟨1, _⟩ => rfl)]
  rfl

end Cert.RefValue

end
-- ==== Proof.RefValue.lean ====
/-
  The reference computes the specification's encoder with the projection taken last.

  Stage by stage along the reference's data flow — the first layer's two steps from the input features, the second
  layer's two steps from the first layer's results, the two projection heads — each array the reference writes is the
  specification's function of the argument arrays.  Every stage is an instance, at the program's literal extents, of
  the host spellings read entry by entry for any extents.
-/
import proofs.«137275_j12352325943870_2_alg».proof.Proof.Gen.ReferenceIdeal
import proofs.«137275_j12352325943870_2_alg».proof.Proof.Gen.ReferenceIdeal.Run
import proofs.«137275_j12352325943870_2_alg».proof.Proof.Gen.ReferenceIdeal.Read
import proofs.«137275_j12352325943870_2_alg».proof.Proof.RefValueStages

noncomputable section

open Idealize.ShloMosaic Idealize.ShloMosaic.TcCoe Idealize.SL.Sem Idealize.ShloMosaic.ValueIdx Cert.Sage
open Cert.ReferenceIdeal Cert.ReferenceIdeal.Gen Cert.ReferenceIdeal.Read

namespace Cert.RefValue

theorem red50 : S50000x32.Reduces [1] S50000 := by decide
theorem red100 : S100000x32.Reduces [1] S100000 := by decide

section Stages
variable (x0 : FVec Ideal S100000x128 .f32) (x1 : FVec Ideal S50000x128 .f32) (x2 x3 : IVec S819200 32)
  (x4 : FVec Ideal S32x128 .f32) (x5 : FVec Ideal S32 .f32) (x6 x7 : FVec Ideal S32x128 .f32)
  (x8 : FVec Ideal S32 .f32) (x9 : FVec Ideal S32x128 .f32)
  (x10 : FVec Ideal S32x32 .f32) (x11 : FVec Ideal S32 .f32) (x12 x13 : FVec Ideal S32x32 .f32)
  (x14 : FVec Ideal S32 .f32) (x15 x16 : FVec Ideal S32x32 .f32) (x17 : FVec Ideal S32 .f32)
  (x18 : FVec Ideal S32x32 .f32) (x19 : FVec Ideal S32 .f32)

/-- The user row each edge reads, and the item row. -/
abbrev rowU : Fin 819200 → Fin 100000 := srcRows 100000 (by norm_num) 100000#32 x2
abbrev rowI : Fin 819200 → Fin 50000 := srcRows 50000 (by norm_num) 50000#32 x3

/-! ## The first layer -/

/-- Items' floored in-degree. -/
theorem degI (n : Fin 50000) : val_main_v15 (F := Ideal) x3 (ix1 n) = cden (dstOf x3) n :=
  deg_apply scatter_S50000_S819200x1_S819200_n_0_0_1_wf bcast_S_S50000 bcast_S_S819200 bcast_S819200_S819200x1_0 x3 n

/-- Users' floored in-degree. -/
theorem degU (n : Fin 100000) : val_main_v48 (F := Ideal) x2 (ix1 n) = cden (dstOf x2) n :=
  deg_apply scatter_S100000_S819200x1_S819200_n_0_0_1_wf bcast_S_S100000 bcast_S_S819200 bcast_S819200_S819200x1_0 x2 n

/-- The mean of the users' features over an item's edges, projected. -/
theorem mean0I : val_main_v20 (F := Ideal) x0 x2 x3 x4 = mk2 (meanR (dstOf x3) (rowU x2) (rd2 x0) (rd2 x4)) :=
  mean_eq scatter_S50000x128_S819200x1_S819200x128_1_0_0_1_wf bcast_S_S50000x128 bcast_S819200_S819200x1_0
    bcast_S50000_S50000x1_0 bcast_S50000x1_S50000x128_0_1 transposes_S32x128_S128x32_1_0 x3 (rowU x2) (rd2 x0)
    (val_main_v6 (F := Ideal) x0 x2)
    (fun e k => gather_apply (by norm_num) 100000#32 gather_S100000x128_S819200x1_S819200x128_1_0_n_n_0_1_1128_wf
      bcast_S_S819200 bcast_S819200_S819200x1_0 x0 x2 e k)
    (val_main_v15 (F := Ideal) x3) (degI x3) x4

/-- The mean of the items' features over a user's edges, projected. -/
theorem mean0U : val_main_v53 (F := Ideal) x1 x2 x3 x7 = mk2 (meanR (dstOf x2) (rowI x3) (rd2 x1) (rd2 x7)) :=
  mean_eq scatter_S100000x128_S819200x1_S819200x128_1_0_0_1_wf bcast_S_S100000x128 bcast_S819200_S819200x1_0
    bcast_S100000_S100000x1_0 bcast_S100000x1_S100000x128_0_1 transposes_S32x128_S128x32_1_0 x2 (rowI x3) (rd2 x1)
    (val_main_v39 (F := Ideal) x1 x3)
    (fun e k => gather_apply (by norm_num) 50000#32 gather_S50000x128_S819200x1_S819200x128_1_0_n_n_0_1_1128_wf
      bcast_S_S819200 bcast_S819200_S819200x1_0 x1 x3 e k)
    (val_main_v48 (F := Ideal) x2) (degU x2) x7

/-- The items after the first layer. -/
theorem item1_eq : val_main_v32 (F := Ideal) x0 x1 x2 x3 x4 x5 x6
    = mk2 (sage epsWord (meanR (dstOf x3) (rowU x2) (rd2 x0) (rd2 x4)) (rd1 x5) (rd2 x1) (rd2 x6)) := by
  have h : val_main_v32 (F := Ideal) x0 x1 x2 x3 x4 x5 x6
      = mk2 (sage epsWord (rd2 (val_main_v20 (F := Ideal) x0 x2 x3 x4)) (rd1 x5) (rd2 x1) (rd2 x6)) :=
    sage_eq bcast_S32_S1x32_1 bcast_S1x32_S50000x32_0_1 transposes_S32x128_S128x32_1_0 reducesTo_S50000x32_S50000_d1
      red50 h_S_ bcast_S50000_S50000x1_0 bcast_S_S50000x1 bcast_S50000x1_S50000x32_0_1 bcast_S_S50000x32
      (val_main_v20 (F := Ideal) x0 x2 x3 x4) x5 x1 x6
  rw [h, mean0I, rd2_mk2]

/-- The users after the first layer. -/
theorem user1_eq : val_main_v65 (F := Ideal) x0 x1 x2 x3 x7 x8 x9
    = mk2 (sage epsWord (meanR (dstOf x2) (rowI x3) (rd2 x1) (rd2 x7)) (rd1 x8) (rd2 x0) (rd2 x9)) := by
  have h : val_main_v65 (F := Ideal) x0 x1 x2 x3 x7 x8 x9
      = mk2 (sage epsWord (rd2 (val_main_v53 (F := Ideal) x1 x2 x3 x7)) (rd1 x8) (rd2 x0) (rd2 x9)) :=
    sage_eq bcast_S32_S1x32_1 bcast_S1x32_S100000x32_0_1 transposes_S32x128_S128x32_1_0 reducesTo_S100000x32_S100000_d1
      red100 h_S_ bcast_S100000_S100000x1_0 bcast_S_S100000x1 bcast_S100000x1_S100000x32_0_1 bcast_S_S100000x32
      (val_main_v53 (F := Ideal) x1 x2 x3 x7) x8 x0 x9
  rw [h, mean0U, rd2_mk2]

/-! ## The second layer -/

/-- The items' and the users' rows after the first layer, as the specification writes them. -/
abbrev I1 : Fin 50000 → Fin 32 → EReal :=
  sage epsWord (meanR (dstOf x3) (rowU x2) (rd2 x0) (rd2 x4)) (rd1 x5) (rd2 x1) (rd2 x6)
abbrev U1 : Fin 100000 → Fin 32 → EReal :=
  sage epsWord (meanR (dstOf x2) (rowI x3) (rd2 x1) (rd2 x7)) (rd1 x8) (rd2 x0) (rd2 x9)

/-- Items' floored in-degree, as the second layer recomputes it. -/
theorem degI' (n : Fin 50000) : val_main_v81 (F := Ideal) x3 (ix1 n) = cden (dstOf x3) n :=
  deg_apply scatter_S50000_S819200x1_S819200_n_0_0_1_wf bcast_S_S50000 bcast_S_S819200 bcast_S819200_S819200x1_0 x3 n

/-- Users' floored in-degree, as the second layer recomputes it. -/
theorem degU' (n : Fin 100000) : val_main_v114 (F := Ideal) x2 (ix1 n) = cden (dstOf x2) n :=
  deg_apply scatter_S100000_S819200x1_S819200_n_0_0_1_wf bcast_S_S100000 bcast_S_S819200 bcast_S819200_S819200x1_0 x2 n

/-- The mean of the users' first-layer rows over an item's edges, projected. -/
theorem mean1I : val_main_v86 (F := Ideal) x0 x1 x2 x3 x7 x8 x9 x10
    = mk2 (meanR (dstOf x3) (rowU x2) (rd2 (val_main_v65 (F := Ideal) x0 x1 x2 x3 x7 x8 x9)) (rd2 x10)) :=
  mean_eq scatter_S50000x32_S819200x1_S819200x32_1_0_0_1_wf bcast_S_S50000x32 bcast_S819200_S819200x1_0
    bcast_S50000_S50000x1_0 bcast_S50000x1_S50000x32_0_1 transposes_S32x32_S32x32_1_0 x3 (rowU x2)
    (rd2 (val_main_v65 (F := Ideal) x0 x1 x2 x3 x7 x8 x9))
    (val_main_v72 (F := Ideal) x0 x1 x2 x3 x7 x8 x9)
    (fun e k => gather_apply (by norm_num) 100000#32 gather_S100000x32_S819200x1_S819200x32_1_0_n_n_0_1_132_wf
      bcast_S_S819200 bcast_S819200_S819200x1_0 (val_main_v65 (F := Ideal) x0 x1 x2 x3 x7 x8 x9) x2 e k)
    (val_main_v81 (F := Ideal) x3) (degI' x3) x10

/-- The mean of the items' first-layer rows over a user's edges, projected. -/
theorem mean1U : val_main_v119 (F := Ideal) x0 x1 x2 x3 x4 x5 x6 x13
    = mk2 (meanR (dstOf x2) (rowI x3) (rd2 (val_main_v32 (F := Ideal) x0 x1 x2 x3 x4 x5 x6)) (rd2 x13)) :=
  mean_eq scatter_S100000x32_S819200x1_S819200x32_1_0_0_1_wf bcast_S_S100000x32 bcast_S819200_S819200x1_0
    bcast_S100000_S100000x1_0 bcast_S100000x1_S100000x32_0_1 transposes_S32x32_S32x32_1_0 x2 (rowI x3)
    (rd2 (val_main_v32 (F := Ideal) x0 x1 x2 x3 x4 x5 x6))
    (val_main_v105 (F := Ideal) x0 x1 x2 x3 x4 x5 x6)
    (fun e k => gather_apply (by norm_num) 50000#32 gather_S50000x32_S819200x1_S819200x32_1_0_n_n_0_1_132_wf
      bcast_S_S819200 bcast_S819200_S819200x1_0 (val_main_v32 (F := Ideal) x0 x1 x2 x3 x4 x5 x6) x3 e k)
    (val_main_v114 (F := Ideal) x2) (degU' x2) x13

/-- The items after the second layer. -/
theorem item2_eq : val_main_v98 (F := Ideal) x0 x1 x2 x3 x4 x5 x6 x7 x8 x9 x10 x11 x12
    = mk2 (sage epsWord (meanR (dstOf x3) (rowU x2) (U1 x0 x1 x2 x3 x7 x8 x9) (rd2 x10)) (rd1 x11)
        (I1 x0 x1 x2 x3 x4 x5 x6) (rd2 x12)) := by
  have h : val_main_v98 (F := Ideal) x0 x1 x2 x3 x4 x5 x6 x7 x8 x9 x10 x11 x12
      = mk2 (sage epsWord (rd2 (val_main_v86 (F := Ideal) x0 x1 x2 x3 x7 x8 x9 x10)) (rd1 x11)
          (rd2 (val_main_v32 (F := Ideal) x0 x1 x2 x3 x4 x5 x6)) (rd2 x12)) :=
    sage_eq bcast_S32_S1x32_1 bcast_S1x32_S50000x32_0_1 transposes_S32x32_S32x32_1_0 reducesTo_S50000x32_S50000_d1
      red50 h_S_ bcast_S50000_S50000x1_0 bcast_S_S50000x1 bcast_S50000x1_S50000x32_0_1 bcast_S_S50000x32
      (val_main_v86 (F := Ideal) x0 x1 x2 x3 x7 x8 x9 x10) x11 (val_main_v32 (F := Ideal) x0 x1 x2 x3 x4 x5 x6) x12
  rw [h, mean1I, user1_eq, item1_eq, rd2_mk2, rd2_mk2, rd2_mk2]

/-- The users after the second layer. -/
theorem user2_eq : val_main_v131 (F := Ideal) x0 x1 x2 x3 x4 x5 x6 x7 x8 x9 x13 x14 x15
    = mk2 (sage epsWord (meanR (dstOf x2) (rowI x3) (I1 x0 x1 x2 x3 x4 x5 x6) (rd2 x13)) (rd1 x14)
        (U1 x0 x1 x2 x3 x7 x8 x9) (rd2 x15)) := by
  have h : val_main_v131 (F := Ideal) x0 x1 x2 x3 x4 x5 x6 x7 x8 x9 x13 x14 x15
      = mk2 (sage epsWord (rd2 (val_main_v119 (F := Ideal) x0 x1 x2 x3 x4 x5 x6 x13)) (rd1 x14)
          (rd2 (val_main_v65 (F := Ideal) x0 x1 x2 x3 x7 x8 x9)) (rd2 x15)) :=
    sage_eq bcast_S32_S1x32_1 bcast_S1x32_S100000x32_0_1 transposes_S32x32_S32x32_1_0 reducesTo_S100000x32_S100000_d1
      red100 h_S_ bcast_S100000_S100000x1_0 bcast_S_S100000x1 bcast_S100000x1_S100000x32_0_1 bcast_S_S100000x32
      (val_main_v119 (F := Ideal) x0 x1 x2 x3 x4 x5 x6 x13) x14 (val_main_v65 (F := Ideal) x0 x1 x2 x3 x7 x8 x9) x15
  rw [h, mean1U, item1_eq, user1_eq, rd2_mk2, rd2_mk2, rd2_mk2]

/-! ## The projection heads -/

/-- The user embedding is the specification's, with the projection taken last. -/
theorem userEmb_eq : val_main_v141 (F := Ideal) x0 x1 x2 x3 x4 x5 x6 x7 x8 x9 x13 x14 x15 x16 x17
    = mk2 (userEmb (@meanR) (argsOf x0 x1 x2 x3 x4 x5 x6 x7 x8 x9 x10 x11 x12 x13 x14 x15 x16 x17 x18 x19)) := by
  have h : val_main_v141 (F := Ideal) x0 x1 x2 x3 x4 x5 x6 x7 x8 x9 x13 x14 x15 x16 x17
      = mk2 (head epsWord (rd2 (val_main_v131 (F := Ideal) x0 x1 x2 x3 x4 x5 x6 x7 x8 x9 x13 x14 x15)) (rd2 x16) (rd1 x17)) :=
    head_eq bcast_S32_S1x32_1 bcast_S1x32_S100000x32_0_1 transposes_S32x32_S32x32_1_0 reducesTo_S100000x32_S100000_d1
      red100 h_S_ bcast_S100000_S100000x1_0 bcast_S_S100000x1 bcast_S100000x1_S100000x32_0_1
      (val_main_v131 (F := Ideal) x0 x1 x2 x3 x4 x5 x6 x7 x8 x9 x13 x14 x15) x16 x17
  rw [h, user2_eq, rd2_mk2]
  rfl

/-- The item embedding is the specification's, with the projection taken last. -/
theorem itemEmb_eq : val_main_v151 (F := Ideal) x0 x1 x2 x3 x4 x5 x6 x7 x8 x9 x10 x11 x12 x18 x19
    = mk2 (itemEmb (@meanR) (argsOf x0 x1 x2 x3 x4 x5 x6 x7 x8 x9 x10 x11 x12 x13 x14 x15 x16 x17 x18 x19)) := by
  have h : val_main_v151 (F := Ideal) x0 x1 x2 x3 x4 x5 x6 x7 x8 x9 x10 x11 x12 x18 x19
      = mk2 (head epsWord (rd2 (val_main_v98 (F := Ideal) x0 x1 x2 x3 x4 x5 x6 x7 x8 x9 x10 x11 x12)) (rd2 x18) (rd1 x19)) :=
    head_eq bcast_S32_S1x32_1 bcast_S1x32_S50000x32_0_1 transposes_S32x32_S32x32_1_0 reducesTo_S50000x32_S50000_d1
      red50 h_S_ bcast_S50000_S50000x1_0 bcast_S_S50000x1 bcast_S50000x1_S50000x32_0_1
      (val_main_v98 (F := Ideal) x0 x1 x2 x3 x4 x5 x6 x7 x8 x9 x10 x11 x12) x18 x19
  rw [h, item2_eq, rd2_mk2]
  rfl

end Stages

/-! ## The run -/

/-- The encoder's inputs as the reference finds them in device `c`'s launch memory. -/
def refArgs (m : (ℓ : Loc Cert.ReferenceIdeal.nD Cert.ReferenceIdeal.τ Cert.ReferenceIdeal.sig) → Buf (Elt Ideal) ℓ)
    (c : Dev Cert.ReferenceIdeal.nD) : Args :=
  argsOf (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))
    (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))
    (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))
    (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))
    (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19))

/-- Every weakly fair execution of the reference terminates with the two results at the specification's embeddings
    (the projection taken last) of the launch arguments, and the arguments as launched. -/
theorem run_spec (m : (ℓ : Loc Cert.ReferenceIdeal.nD Cert.ReferenceIdeal.τ Cert.ReferenceIdeal.sig) → Buf (Elt Ideal) ℓ)
    (ρ : Dev Cert.ReferenceIdeal.nD → PrngReg) :
    θ_run (Cert.ReferenceIdeal.defs (F := Ideal)) (onTc (τ := Cert.ReferenceIdeal.τ) (Cert.ReferenceIdeal.main (F := Ideal)))
      ⟨m, fun _ => 0, ρ⟩ (fun r => ∀ c : Dev Cert.ReferenceIdeal.nD,
      r.2.mem ((c.tc : Thread Cert.ReferenceIdeal.nD Cert.ReferenceIdeal.τ).loc Cert.ReferenceIdeal.main_v141)
        = Cert.Sage.mk2 (Cert.Sage.userEmb (@Cert.Sage.meanR) (refArgs m c))
      ∧ r.2.mem ((c.tc : Thread Cert.ReferenceIdeal.nD Cert.ReferenceIdeal.τ).loc Cert.ReferenceIdeal.main_v151)
        = Cert.Sage.mk2 (Cert.Sage.itemEmb (@Cert.Sage.meanR) (refArgs m c))
      ∧ r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)) :=
  (θ_run Cert.ReferenceIdeal.defs _ _).mono
    (fun _ h c => ⟨(h c).1.trans ((val_main_v141_eq m c).trans (userEmb_eq _ _ _ _ _ _ _ _ _ _ _ _ _ _ _ _ _ _ _ _)),
      (h c).2.1.trans ((val_main_v151_eq m c).trans (itemEmb_eq _ _ _ _ _ _ _ _ _ _ _ _ _ _ _ _ _ _ _ _)),
      (h c).2.2⟩)
    (Cert.ReferenceIdeal.Value.run (F := Ideal) m ρ)

end Cert.RefValue

end
-- ==== Proof.FiniteFn.lean ====
/-
  From the flag "every float input is finite" to real numbers.

  The flag is a conjunction, one conjunct per float array x: the conjunction over all entries of x of the comparison
  |x| < +inf, the right side being the f32 word 0x7F800000 broadcast to the array's shape.  Over the extended reals that
  word is the top element, |x| is max x (-x), and an extended real whose absolute value is below the top is neither
  infinity: it is a real number.  A conjunction over all entries that is 1 is 1 at every entry (all_real, at any shape and
  any list of axes that reduces the array to a scalar).  The flag's eighteen conjuncts are written as one chain of binary
  conjunctions cut into six windows; each window's lemma opens that window alone and hands the conjunction it inherits
  back to the window before it.  The norm's floor, the f32 word 0x2B8CBCCC, is 9223372 * 2^(-63), a positive real.
-/
import Idealize.ShloMosaic.Lib.ReduceAll
import Idealize.ShloMosaic.Lib.ValueIdx
import proofs.«137275_j12352325943870_2_alg».proof.Pre_finite_inputs
import proofs.«137275_j12352325943870_2_alg».proof.Proof.Iface

noncomputable section

open Idealize.ShloMosaic Idealize.ShloMosaic.ValueIdx
open Cert.Sage (IsReal)

namespace Cert.Finite

/-! ## One array -/

/-- The scalar shape has one index. -/
instance : Subsingleton (⟨0, ![]⟩ : Shape).Idx := ⟨fun _ _ => funext fun d => d.elim0⟩

/-- The f32 word 0x7F800000 is plus infinity. -/
theorem inf_word : Ideal.ofBits .f32 0x7F800000#32 = ⊤ := by simp [Ideal.ofBits, Ideal.ieee]

/-- An extended real whose absolute value is below plus infinity is a real number. -/
theorem real_of_abs_lt_top (x : EReal) (h : max x (-x) < ⊤) : IsReal x := by
  induction x using EReal.rec with
  | bot => simp at h
  | coe r => exact ⟨r, rfl⟩
  | top => simp at h

/-- The comparison bit "|x| < +inf" being set makes x a real number. -/
theorem real_of_finite_bit (x : Ideal .f32)
    (h : FloatOps.cmpf .olt (FloatOps.hostAbsf x) (FloatOps.ofBits (F := Ideal) .f32 0x7F800000#32) = 1#1) :
    IsReal x := by
  have h' : Ideal.cmp .olt (max (x : EReal) (-(x : EReal))) (Ideal.ofBits .f32 0x7F800000#32) = 1#1 := h
  rw [inf_word] at h'
  unfold Ideal.cmp at h'
  refine real_of_abs_lt_top x ?_
  by_contra hn
  simp [hn] at h'

/-- all(|x| < +inf) = 1 makes every entry of x a real number: at any shape, over any list of axes that reduces the
    array to a scalar. -/
theorem all_real {s : Shape} {axes : List (Fin s.rank)} {x : FVec Ideal s .f32}
    {hb : (⟨0, ![]⟩ : Shape).BroadcastsInDim s (![] : Fin 0 → Fin s.rank)} {hr : s.ReducesTo axes (⟨0, ![]⟩ : Shape)}
    {hu : 0 < (⟨0, ![]⟩ : Shape).numel} {j : (⟨0, ![]⟩ : Shape).Idx}
    (e : Host.reduce IntOp.andi
          (cmpf .olt (Host.absf x) (broadcastInDim s ![] hb (constant (⟨0, ![]⟩ : Shape) .f32 0x7F800000#32)))
          (constantI (⟨0, ![]⟩ : Shape) 1 1#1) hr hu j = 1#1) (i : s.Idx) : IsReal (x i) :=
  real_of_finite_bit (x i) (Host.reduce_andi_all _ _ hr hu j e i)

/-- A conjunction of two flags read at an index. -/
theorem andi_one {s : Shape} {x y : IVec s 1} {i : s.Idx} (h : andi x y i = 1#1) : x i = 1#1 ∧ y i = 1#1 :=
  IntOp.andi_eq_one.1 h

/-- The norm's floor is a positive real number. -/
theorem eps_pos : ∃ e : ℝ, 0 < e ∧ Cert.Sage.epsWord = (e : EReal) := by
  refine ⟨(9223372 : ℝ) * (2 : ℝ) ^ (-63 : Int), by positivity, ?_⟩
  unfold Cert.Sage.epsWord
  simp [Ideal.ofBits, Ideal.ieee, -EReal.coe_mul]

/-! ## The chain of conjunctions, window by window from the last -/

open Cert.Pre_finite_inputs

section Chain
variable [Facts]

/-- The last window: the conjunction so far and the last bias. -/
theorem part5_real {v83 : IVec S_ 1} {a19 : FVec Ideal S32 .f32}
    (h : fn_part5 (F := Ideal) v83 (Host.absf a19) (constant S_ .f32 0x7F800000#32) ix0 = 1#1) :
    v83 ix0 = 1#1 ∧ ∀ i, IsReal (a19 i) := by
  dsimp only [fn_part5] at h
  obtain ⟨h83, h19⟩ := andi_one h
  exact ⟨h83, all_real h19⟩

/-- The fifth window: two inherited flags, then the two projection heads' weights and biases. -/
theorem part4_real {a16 : FVec Ideal S32x32 .f32} {a17 : FVec Ideal S32 .f32} {a18 : FVec Ideal S32x32 .f32}
    {a19 : FVec Ideal S32 .f32} {v63 v67 : IVec S_ 1}
    (h : fn_part4 (F := Ideal) a16 a17 a18 a19 v63 v67 ix0 = 1#1) :
    v63 ix0 = 1#1 ∧ v67 ix0 = 1#1 ∧ (∀ i, IsReal (a16 i)) ∧ (∀ i, IsReal (a17 i)) ∧ (∀ i, IsReal (a18 i))
      ∧ (∀ i, IsReal (a19 i)) := by
  dsimp only [fn_part4] at h
  obtain ⟨h83, h19⟩ := part5_real h
  obtain ⟨h78, h18⟩ := andi_one h83
  obtain ⟨h73, h17⟩ := andi_one h78
  obtain ⟨h68, h16⟩ := andi_one h73
  obtain ⟨h63, h67⟩ := andi_one h68
  exact ⟨h63, h67, all_real h16, all_real h17, all_real h18, h19⟩

/-- The fourth window: it inherits a flag and the comparison's two sides for a12, and adds a13, a14, a15. -/
theorem part3_real {a12 a13 : FVec Ideal S32x32 .f32} {a14 : FVec Ideal S32 .f32} {a15 a16 : FVec Ideal S32x32 .f32}
    {a17 : FVec Ideal S32 .f32} {a18 : FVec Ideal S32x32 .f32} {a19 : FVec Ideal S32 .f32} {v48 : IVec S_ 1}
    {hb : S_.BroadcastsInDim S32x32 (![] : Fin 0 → Fin S32x32.rank)}
    (h : fn_part3 (F := Ideal) a13 a14 a15 a16 a17 a18 a19 v48 (Host.absf a12)
          (broadcastInDim S32x32 ![] hb (constant S_ .f32 0x7F800000#32)) ix0 = 1#1) :
    v48 ix0 = 1#1 ∧ (∀ i, IsReal (a12 i)) ∧ (∀ i, IsReal (a13 i)) ∧ (∀ i, IsReal (a14 i)) ∧ (∀ i, IsReal (a15 i))
      ∧ (∀ i, IsReal (a16 i)) ∧ (∀ i, IsReal (a17 i)) ∧ (∀ i, IsReal (a18 i)) ∧ (∀ i, IsReal (a19 i)) := by
  dsimp only [fn_part3] at h
  obtain ⟨h63, h15, h16, h17, h18, h19⟩ := part4_real h
  obtain ⟨h58, h14⟩ := andi_one h63
  obtain ⟨h53, h13⟩ := andi_one h58
  obtain ⟨h48, h12⟩ := andi_one h53
  exact ⟨h48, all_real h12, all_real h13, all_real h14, all_real h15, h16, h17, h18, h19⟩

/-- The third window: it inherits a flag and adds a9, a10, a11 (and prepares a12's comparison). -/
theorem part2_real {a9 : FVec Ideal S32x128 .f32} {a10 : FVec Ideal S32x32 .f32} {a11 : FVec Ideal S32 .f32}
    {a12 a13 : FVec Ideal S32x32 .f32} {a14 : FVec Ideal S32 .f32} {a15 a16 : FVec Ideal S32x32 .f32}
    {a17 : FVec Ideal S32 .f32} {a18 : FVec Ideal S32x32 .f32} {a19 : FVec Ideal S32 .f32} {v33 : IVec S_ 1}
    (h : fn_part2 (F := Ideal) a9 a10 a11 a12 a13 a14 a15 a16 a17 a18 a19 v33 ix0 = 1#1) :
    v33 ix0 = 1#1 ∧ (∀ i, IsReal (a9 i)) ∧ (∀ i, IsReal (a10 i)) ∧ (∀ i, IsReal (a11 i)) ∧ (∀ i, IsReal (a12 i))
      ∧ (∀ i, IsReal (a13 i)) ∧ (∀ i, IsReal (a14 i)) ∧ (∀ i, IsReal (a15 i)) ∧ (∀ i, IsReal (a16 i))
      ∧ (∀ i, IsReal (a17 i)) ∧ (∀ i, IsReal (a18 i)) ∧ (∀ i, IsReal (a19 i)) := by
  dsimp only [fn_part2] at h
  obtain ⟨h48, h12, h13, h14, h15, h16, h17, h18, h19⟩ := part3_real h
  obtain ⟨h43, h11⟩ := andi_one h48
  obtain ⟨h38, h10⟩ := andi_one h43
  obtain ⟨h33, h9⟩ := andi_one h38
  exact ⟨h33, all_real h9, all_real h10, all_real h11, h12, h13, h14, h15, h16, h17, h18, h19⟩

/-- The second window: it inherits a flag and a5's comparison, and adds a6, a7, a8. -/
theorem part1_real {a5 : FVec Ideal S32 .f32} {a6 a7 : FVec Ideal S32x128 .f32} {a8 : FVec Ideal S32 .f32}
    {a9 : FVec Ideal S32x128 .f32} {a10 : FVec Ideal S32x32 .f32} {a11 : FVec Ideal S32 .f32}
    {a12 a13 : FVec Ideal S32x32 .f32} {a14 : FVec Ideal S32 .f32} {a15 a16 : FVec Ideal S32x32 .f32}
    {a17 : FVec Ideal S32 .f32} {a18 : FVec Ideal S32x32 .f32} {a19 : FVec Ideal S32 .f32} {v13 : IVec S_ 1}
    {hb : S_.BroadcastsInDim S32 (![] : Fin 0 → Fin S32.rank)}
    (h : fn_part1 (F := Ideal) a6 a7 a8 a9 a10 a11 a12 a13 a14 a15 a16 a17 a18 a19 v13
          (cmpf .olt (Host.absf a5) (broadcastInDim S32 ![] hb (constant S_ .f32 0x7F800000#32))) ix0 = 1#1) :
    v13 ix0 = 1#1 ∧ (∀ i, IsReal (a5 i)) ∧ (∀ i, IsReal (a6 i)) ∧ (∀ i, IsReal (a7 i)) ∧ (∀ i, IsReal (a8 i))
      ∧ (∀ i, IsReal (a9 i)) ∧ (∀ i, IsReal (a10 i)) ∧ (∀ i, IsReal (a11 i)) ∧ (∀ i, IsReal (a12 i))
      ∧ (∀ i, IsReal (a13 i)) ∧ (∀ i, IsReal (a14 i)) ∧ (∀ i, IsReal (a15 i)) ∧ (∀ i, IsReal (a16 i))
      ∧ (∀ i, IsReal (a17 i)) ∧ (∀ i, IsReal (a18 i)) ∧ (∀ i, IsReal (a19 i)) := by
  dsimp only [fn_part1] at h
  obtain ⟨h33, h9, h10, h11, h12, h13, h14, h15, h16, h17, h18, h19⟩ := part2_real h
  obtain ⟨h28, h8⟩ := andi_one h33
  obtain ⟨h23, h7⟩ := andi_one h28
  obtain ⟨h18', h6⟩ := andi_one h23
  obtain ⟨hv13, h5⟩ := andi_one h18'
  exact ⟨hv13, all_real h5, all_real h6, all_real h7, all_real h8, h9, h10, h11, h12, h13, h14, h15, h16, h17, h18, h19⟩

/-- The whole flag: if it is 1, the encoder's float inputs are real numbers (and the norm's floor a positive one). -/
theorem fn_real {a0 : FVec Ideal S100000x128 .f32} {a1 : FVec Ideal S50000x128 .f32} {a2 a3 : IVec S819200 32}
    {a4 : FVec Ideal S32x128 .f32} {a5 : FVec Ideal S32 .f32} {a6 a7 : FVec Ideal S32x128 .f32} {a8 : FVec Ideal S32 .f32}
    {a9 : FVec Ideal S32x128 .f32} {a10 : FVec Ideal S32x32 .f32} {a11 : FVec Ideal S32 .f32}
    {a12 a13 : FVec Ideal S32x32 .f32} {a14 : FVec Ideal S32 .f32} {a15 a16 : FVec Ideal S32x32 .f32}
    {a17 : FVec Ideal S32 .f32} {a18 : FVec Ideal S32x32 .f32} {a19 : FVec Ideal S32 .f32}
    (h : fn (F := Ideal) a0 a1 a2 a3 a4 a5 a6 a7 a8 a9 a10 a11 a12 a13 a14 a15 a16 a17 a18 a19 ix0 = 1#1) :
    (Cert.Sage.argsOf a0 a1 a2 a3 a4 a5 a6 a7 a8 a9 a10 a11 a12 a13 a14 a15 a16 a17 a18 a19).Real := by
  dsimp only [fn] at h
  obtain ⟨hv13, h5, h6, h7, h8, h9, h10, h11, h12, h13, h14, h15, _, _, _, _⟩ := part1_real h
  obtain ⟨hv8, h4⟩ := andi_one hv13
  obtain ⟨h0, h1⟩ := andi_one hv8
  have r0 := all_real h0
  have r1 := all_real h1
  have r4 := all_real h4
  exact
    { ε := eps_pos
      xu := fun r k => r0 (ix2 r k)
      xi := fun r k => r1 (ix2 r k)
      wl0_ui := fun g k => r4 (ix2 g k)
      b0_ui := fun g => h5 (ix1 g)
      wr0_ui := fun g k => h6 (ix2 g k)
      wl0_iu := fun g k => h7 (ix2 g k)
      b0_iu := fun g => h8 (ix1 g)
      wr0_iu := fun g k => h9 (ix2 g k)
      wl1_ui := fun g k => h10 (ix2 g k)
      b1_ui := fun g => h11 (ix1 g)
      wr1_ui := fun g k => h12 (ix2 g k)
      wl1_iu := fun g k => h13 (ix2 g k)
      b1_iu := fun g => h14 (ix1 g)
      wr1_iu := fun g k => h15 (ix2 g k) }

end Chain

end Cert.Finite

end
-- ==== Proof.Finite.lean ====
/-
  The launch memory's float arrays are real numbers.

  The precondition says that the flag "every float input is finite" of the twenty argument arrays is 1 on every device.
  Read at the scalar's one index this is the hypothesis of fn_real, which turns the flag's eighteen conjuncts into
  "every entry is a real number" for the arrays the encoder's law needs, and evaluates the norm's floor as a positive real.
-/
import proofs.«137275_j12352325943870_2_alg».proof.Defs
import proofs.«137275_j12352325943870_2_alg».proof.Proof.Gen.Pre_finite_inputs
import proofs.«137275_j12352325943870_2_alg».proof.Proof.Iface
import proofs.«137275_j12352325943870_2_alg».proof.Proof.FiniteFn

noncomputable section

open Idealize.ShloMosaic Idealize.SL.Sem

namespace Cert.Finite

/-- Under the precondition, on every device, the encoder's inputs read off the twenty argument arrays are real. -/
theorem args_real [hP : Cert.Pre_finite_inputs.Facts]
    (m : (ℓ : Loc Cert.KernelIdeal.nD Cert.KernelIdeal.τ Cert.KernelIdeal.sig) → Buf (Elt Ideal) ℓ)
    (h : Cert.Pre_KernelIdeal m) (c : Dev Cert.KernelIdeal.nD) :
    (Cert.Sage.argsOf
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9))
      (m ((c.tc : Thread Cert.KernelIdeal.nD Cert.KernelIdeal.τ).loc Cert.KernelIdeal.main_arg10))
      (m ((c.tc : Thread Cert.KernelIdeal.nD Cert.KernelIdeal.τ).loc Cert.KernelIdeal.main_arg11))
      (m ((c.tc : Thread Cert.KernelIdeal.nD Cert.KernelIdeal.τ).loc Cert.KernelIdeal.main_arg12))
      (m ((c.tc : Thread Cert.KernelIdeal.nD Cert.KernelIdeal.τ).loc Cert.KernelIdeal.main_arg13))
      (m ((c.tc : Thread Cert.KernelIdeal.nD Cert.KernelIdeal.τ).loc Cert.KernelIdeal.main_arg14))
      (m ((c.tc : Thread Cert.KernelIdeal.nD Cert.KernelIdeal.τ).loc Cert.KernelIdeal.main_arg15))
      (m ((c.tc : Thread Cert.KernelIdeal.nD Cert.KernelIdeal.τ).loc Cert.KernelIdeal.main_arg16))
      (m ((c.tc : Thread Cert.KernelIdeal.nD Cert.KernelIdeal.τ).loc Cert.KernelIdeal.main_arg17))
      (m ((c.tc : Thread Cert.KernelIdeal.nD Cert.KernelIdeal.τ).loc Cert.KernelIdeal.main_arg18))
      (m ((c.tc : Thread Cert.KernelIdeal.nD Cert.KernelIdeal.τ).loc Cert.KernelIdeal.main_arg19))).Real :=
  fn_real (congrFun (h c) ValueIdx.ix0)

end Cert.Finite

end
-- ==== Proof.lean ====
/-
  The certificate: a two-layer heterogeneous GraphSAGE encoder computed by eight kernel regions among host gathers and
  scatters equals, at the ideal instance, the plain reference.
  The three frames are the generated ones (the reference's is its generated run with the results dropped).  The pass that
  idealized the kernel rewrote nothing, so there is nothing to preserve.  For the value claim both programs are read as
  the specification's encoder (Spec.lean) of the launch memory's argument arrays: the kernel with the projected mean
  taken projection-first (KState3.lean, over the regions' whole-array functions and the run with its results named),
  the reference with it taken projection-last (RefValue.lean).  The precondition makes every float input a real number
  (Finite.lean), and on real inputs the two means agree and every stage keeps rows real (Spec.lean, emb_agree), so the two
  encoders' embeddings are equal.
-/
import proofs.«137275_j12352325943870_2_alg».proof.Defs
import proofs.«137275_j12352325943870_2_alg».proof.Proof.Gen.Kernel
import proofs.«137275_j12352325943870_2_alg».proof.Proof.Gen.Kernel.Frame
import proofs.«137275_j12352325943870_2_alg».proof.Proof.Gen.KernelIdeal
import proofs.«137275_j12352325943870_2_alg».proof.Proof.Gen.KernelIdeal.Frame
import proofs.«137275_j12352325943870_2_alg».proof.Proof.Gen.ReferenceIdeal
import proofs.«137275_j12352325943870_2_alg».proof.Proof.Gen.Pre_finite_inputs
import proofs.«137275_j12352325943870_2_alg».proof.Proof.Gen.ReferenceIdeal.Run
import proofs.«137275_j12352325943870_2_alg».proof.Proof.Gen.ReferenceIdeal.Read
import proofs.«137275_j12352325943870_2_alg».proof.Proof.KernelRun
import proofs.«137275_j12352325943870_2_alg».proof.Proof.KState3
import proofs.«137275_j12352325943870_2_alg».proof.Proof.RefValue
import proofs.«137275_j12352325943870_2_alg».proof.Proof.Finite
import Idealize.ShloMosaic.Adequacy
import Idealize.ShloMosaic.Init

set_option maxRecDepth 16384

noncomputable section

namespace Cert.Proof

open Idealize.ShloMosaic Idealize.ShloMosaic.TcCoe Idealize.SL.Sem Cert.Sage

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2.2) (Cert.RefValue.run_spec m ρ)

theorem preserves : Cert.preserves_Kernel_KernelIdeal := trivial

/-- Memories that agree on the twenty arguments give the two programs the same encoder inputs. -/
theorem args_agree (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD)
    (hagree : ∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)) :
    Cert.RefValue.refArgs m' c = Cert.KernelIdeal.State.AA m c := by
  unfold Cert.RefValue.refArgs
  rw [(hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2.1, (hagree c).2.2.2.2.2.2.2.2.2.2.2.1, (hagree c).2.2.2.2.2.2.2.2.2.2.2.2.1, (hagree c).2.2.2.2.2.2.2.2.2.2.2.2.2.1, (hagree c).2.2.2.2.2.2.2.2.2.2.2.2.2.2.1, (hagree c).2.2.2.2.2.2.2.2.2.2.2.2.2.2.2.1, (hagree c).2.2.2.2.2.2.2.2.2.2.2.2.2.2.2.2.1, (hagree c).2.2.2.2.2.2.2.2.2.2.2.2.2.2.2.2.2.1, (hagree c).2.2.2.2.2.2.2.2.2.2.2.2.2.2.2.2.2.2.1, (hagree c).2.2.2.2.2.2.2.2.2.2.2.2.2.2.2.2.2.2.2]

/-- Both programs end with the specification's embeddings of the launch memory's arguments: the kernel's taken
    projection-first and carried over to the projection-last form by the law on real inputs. -/
theorem algebraic : Cert.algebraic_KernelIdeal_ReferenceIdeal := by
  intro m ρ m' ρ' hpre hagree
  refine ⟨fun c => mk2 (userEmb (@meanR) (Cert.KernelIdeal.State.AA m c)),
    fun c => mk2 (itemEmb (@meanR) (Cert.KernelIdeal.State.AA m c)), ?_, ?_⟩
  · refine (θ_run Cert.KernelIdeal.defs _ _).mono (fun r h c => ?_) (Cert.KernelIdeal.RunValue.run_values (F := Ideal) m ρ)
    have hR := Cert.Finite.args_real m hpre c
    exact ⟨(h c).1.trans ((Cert.KernelIdeal.State.v_v83 m ρ c).trans (congrArg mk2 (emb_agree hR).1)),
      (h c).2.1.trans ((Cert.KernelIdeal.State.v_v79_end m ρ c).trans (congrArg mk2 (emb_agree hR).2)),
      (h c).2.2⟩
  · refine (θ_run Cert.ReferenceIdeal.defs _ _).mono (fun r h c => ?_) (Cert.RefValue.run_spec m' ρ')
    have e := args_agree m m' c hagree
    exact ⟨(h c).1.trans (by rw [e]), (h c).2.1.trans (by rw [e]), (h c).2.2⟩

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
